-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v153)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v153) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S5x32 : S_.BroadcastsInDim S5x32 (![] : Fin 0 → Fin S5x32.rank)
  reducesTo_S5x32_S_d0_1 : S5x32.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg7 : FVec F S5x32 .f32) (main_arg8 : FVec F S5 .f32) (main_v33 : IVec S_ 1) : IVec S_ 1 :=
  let main_v34 : FVec F S5x32 .f32 := Host.absf main_arg7
  let main_cst_12 : FVec F S_ .f32 := constant S_ .f32 0x7F800000#32
  let main_v35 : FVec F S5x32 .f32 := broadcastInDim S5x32 ![] bcast_S_S5x32 main_cst_12
  let main_v36 : IVec S5x32 1 := cmpf .olt main_v34 main_v35
  let main_c_13 : IVec S_ 1 := constantI S_ 1 1#1
  let main_v37 : IVec S_ 1 := (fun x v => Host.reduce IntOp.andi x v reducesTo_S5x32_S_d0_1 h_S_) main_v36 main_c_13
  let main_v38 : IVec S_ 1 := andi main_v33 main_v37
  let main_v39 : FVec F S5 .f32 := Host.absf main_arg8
  let main_cst_14 : FVec F S_ .f32 := constant S_ .f32 0x7F800000#32
  let main_v40 : FVec F S5 .f32 := broadcastInDim S5 ![] bcast_S_S5 main_cst_14
  let main_v41 : IVec S5 1 := cmpf .olt main_v39 main_v40
  let main_c_15 : IVec S_ 1 := constantI S_ 1 1#1
  let main_v42 : IVec S_ 1 := (fun x v => Host.reduce IntOp.andi x v reducesTo_S5_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S5x32 .f32) (main_arg8 : FVec F S5 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S1048576x16 .f32) (main_arg1 : FVec F S64x16 .f32) (main_arg2 : FVec F S64 .f32) (main_arg3 : FVec F S32x64 .f32) (main_arg4 : FVec F S32 .f32) (main_arg5 : FVec F S32x32 .f32) (main_arg6 : FVec F S32 .f32) (main_arg7 : FVec F S5x32 .f32) (main_arg8 : FVec F S5 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S64x16 .f32 := Host.absf main_arg1
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_arg7 main_arg8 main_v13 main_v16
-- ==== Kernel.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S131072x128 : Shape := ⟨2, ![131072, 128]⟩
abbrev S1x1 : Shape := ⟨2, ![1, 1]⟩
abbrev S8192x128 : Shape := ⟨2, ![8192, 128]⟩
abbrev S8192 : Shape := ⟨1, ![8192]⟩
abbrev S8192x1 : Shape := ⟨2, ![8192, 1]⟩
abbrev S1 : Shape := ⟨1, ![1]⟩
abbrev S_ : Shape := ⟨0, ![]⟩
abbrev S64x1 : Shape := ⟨2, ![64, 1]⟩
abbrev S8x8 : Shape := ⟨2, ![8, 8]⟩
abbrev S16x64 : Shape := ⟨2, ![16, 64]⟩
abbrev S8x1x8x1 : Shape := ⟨4, ![8, 1, 8, 1]⟩
abbrev S1x16x1x64 : Shape := ⟨4, ![1, 16, 1, 64]⟩
abbrev S8x16x8x64 : Shape := ⟨4, ![8, 16, 8, 64]⟩
abbrev S128x512 : Shape := ⟨2, ![128, 512]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S32x1 : Shape := ⟨2, ![32, 1]⟩
abbrev S64x32 : Shape := ⟨2, ![64, 32]⟩
abbrev S1x64x1x32 : Shape := ⟨4, ![1, 64, 1, 32]⟩
abbrev S8x64x8x32 : Shape := ⟨4, ![8, 64, 8, 32]⟩
abbrev S512x256 : Shape := ⟨2, ![512, 256]⟩
abbrev S1x32 : Shape := ⟨2, ![1, 32]⟩
abbrev S8x32 : Shape := ⟨2, ![8, 32]⟩
abbrev S256 : Shape := ⟨1, ![256]⟩
abbrev S1x256 : Shape := ⟨2, ![1, 256]⟩
abbrev S1x32x1x32 : Shape := ⟨4, ![1, 32, 1, 32]⟩
abbrev S8x32x8x32 : Shape := ⟨4, ![8, 32, 8, 32]⟩
abbrev S256x256 : Shape := ⟨2, ![256, 256]⟩
abbrev S5x1 : Shape := ⟨2, ![5, 1]⟩
abbrev S32x5 : Shape := ⟨2, ![32, 5]⟩
abbrev S1x32x1x5 : Shape := ⟨4, ![1, 32, 1, 5]⟩
abbrev S8x32x8x5 : Shape := ⟨4, ![8, 32, 8, 5]⟩
abbrev S256x40 : Shape := ⟨2, ![256, 40]⟩
abbrev S1x5 : Shape := ⟨2, ![1, 5]⟩
abbrev S8x5 : Shape := ⟨2, ![8, 5]⟩
abbrev S40 : Shape := ⟨1, ![40]⟩
abbrev S1x40 : Shape := ⟨2, ![1, 40]⟩
abbrev S131072x40 : Shape := ⟨2, ![131072, 40]⟩
abbrev S1024x128 : Shape := ⟨2, ![1024, 128]⟩
abbrev S1024x40 : Shape := ⟨2, ![1024, 40]⟩
abbrev S1024x512 : Shape := ⟨2, ![1024, 512]⟩
abbrev S1024x256 : Shape := ⟨2, ![1024, 256]⟩
abbrev S1048576x5 : Shape := ⟨2, ![1048576, 5]⟩

abbrev nBuf : Space → Nat
  | .hbm => 262
  | .vmem => 23
  | .smem => 0
  | _ => 0

abbrev hbmTy0_0 (i : Nat) : BufTy := match i % 128 with
  | 0 => ⟨S1048576x16, .f32⟩
  | 1 => ⟨S64x16, .f32⟩
  | 2 => ⟨S64, .f32⟩
  | 3 => ⟨S32x64, .f32⟩
  | 4 => ⟨S32, .f32⟩
  | 5 => ⟨S32x32, .f32⟩
  | 6 => ⟨S32, .f32⟩
  | 7 => ⟨S5x32, .f32⟩
  | 8 => ⟨S5, .f32⟩
  | 9 => ⟨S131072x128, .f32⟩
  | 10 => ⟨S1x1, .f32⟩
  | 11 => ⟨S1x1, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S1x1, .f32⟩
  | 22 => ⟨S_, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S64, .f32⟩
  | 30 => ⟨S_, .f32⟩
  | 31 => ⟨S64, .f32⟩
  | 32 => ⟨S64, .f32⟩
  | 33 => ⟨S_, .f32⟩
  | 34 => ⟨S64, .f32⟩
  | 35 => ⟨S64, .f32⟩
  | 36 => ⟨S64x1, .f32⟩
  | 37 => ⟨S64x16, .f32⟩
  | 38 => ⟨S64x16, .f32⟩
  | 39 => ⟨S64x16, .f32⟩
  | 40 => ⟨S_, .i32⟩
  | 41 => ⟨S_, .i32⟩
  | 42 => ⟨S_, .f32⟩
  | 43 => ⟨S64x16, .f32⟩
  | 44 => ⟨S64x16, .f32⟩
  | 45 => ⟨S_, .f32⟩
  | 46 => ⟨S64x16, .f32⟩
  | 47 => ⟨S64x16, .f32⟩
  | 48 => ⟨S64, .f32⟩
  | 49 => ⟨S64, .f32⟩
  | 50 => ⟨S64, .f32⟩
  | 51 => ⟨S64, .f32⟩
  | 52 => ⟨S_, .i32⟩
  | 53 => ⟨S_, .i32⟩
  | 54 => ⟨S_, .f32⟩
  | 55 => ⟨S64, .f32⟩
  | 56 => ⟨S64, .f32⟩
  | 57 => ⟨S_, .f32⟩
  | 58 => ⟨S64, .f32⟩
  | 59 => ⟨S64, .f32⟩
  | 60 => ⟨S8x8, .i32⟩
  | 61 => ⟨S8x8, .i32⟩
  | 62 => ⟨S_, .i32⟩
  | 63 => ⟨S8x8, .i32⟩
  | 64 => ⟨S8x8, .i32⟩
  | 65 => ⟨S8x8, .i1⟩
  | 66 => ⟨S8x8, .f32⟩
  | 67 => ⟨S16x64, .f32⟩
  | 68 => ⟨S8x1x8x1, .f32⟩
  | 69 => ⟨S1x16x1x64, .f32⟩
  | 70 => ⟨S8x16x8x64, .f32⟩
  | 71 => ⟨S8x16x8x64, .f32⟩
  | 72 => ⟨S8x16x8x64, .f32⟩
  | 73 => ⟨S128x512, .f32⟩
  | 74 => ⟨S1x64, .f32⟩
  | 75 => ⟨S8x64, .f32⟩
  | 76 => ⟨S512, .f32⟩
  | 77 => ⟨S1x512, .f32⟩
  | 78 => ⟨S1x64, .f32⟩
  | 79 => ⟨S8x64, .f32⟩
  | 80 => ⟨S512, .f32⟩
  | 81 => ⟨S1x512, .f32⟩
  | 82 => ⟨S_, .f32⟩
  | 83 => ⟨S32, .f32⟩
  | 84 => ⟨S32, .f32⟩
  | 85 => ⟨S_, .f32⟩
  | 86 => ⟨S32, .f32⟩
  | 87 => ⟨S32, .f32⟩
  | 88 => ⟨S32, .f32⟩
  | 89 => ⟨S_, .f32⟩
  | 90 => ⟨S32, .f32⟩
  | 91 => ⟨S32, .f32⟩
  | 92 => ⟨S_, .f32⟩
  | 93 => ⟨S32, .f32⟩
  | 94 => ⟨S32, .f32⟩
  | 95 => ⟨S32x1, .f32⟩
  | 96 => ⟨S32x64, .f32⟩
  | 97 => ⟨S32x64, .f32⟩
  | 98 => ⟨S32x64, .f32⟩
  | 99 => ⟨S_, .i32⟩
  | 100 => ⟨S_, .i32⟩
  | 101 => ⟨S_, .f32⟩
  | 102 => ⟨S32x64, .f32⟩
  | 103 => ⟨S32x64, .f32⟩
  | 104 => ⟨S_, .f32⟩
  | 105 => ⟨S32x64, .f32⟩
  | 106 => ⟨S32x64, .f32⟩
  | 107 => ⟨S32, .f32⟩
  | 108 => ⟨S32, .f32⟩
  | 109 => ⟨S32, .f32⟩
  | 110 => ⟨S32, .f32⟩
  | 111 => ⟨S_, .i32⟩
  | 112 => ⟨S_, .i32⟩
  | 113 => ⟨S_, .f32⟩
  | 114 => ⟨S32, .f32⟩
  | 115 => ⟨S32, .f32⟩
  | 116 => ⟨S_, .f32⟩
  | 117 => ⟨S32, .f32⟩
  | 118 => ⟨S32, .f32⟩
  | 119 => ⟨S8x8, .i32⟩
  | 120 => ⟨S8x8, .i32⟩
  | 121 => ⟨S_, .i32⟩
  | 122 => ⟨S8x8, .i32⟩
  | 123 => ⟨S8x8, .i32⟩
  | 124 => ⟨S8x8, .i1⟩
  | 125 => ⟨S8x8, .f32⟩
  | 126 => ⟨S64x32, .f32⟩
  | 127 => ⟨S8x1x8x1, .f32⟩
  | _ => ⟨S1048576x16, .f32⟩

abbrev hbmTy0_1 (i : Nat) : BufTy := match i % 128 with
  | 0 => ⟨S1x64x1x32, .f32⟩
  | 1 => ⟨S8x64x8x32, .f32⟩
  | 2 => ⟨S8x64x8x32, .f32⟩
  | 3 => ⟨S8x64x8x32, .f32⟩
  | 4 => ⟨S512x256, .f32⟩
  | 5 => ⟨S1x32, .f32⟩
  | 6 => ⟨S8x32, .f32⟩
  | 7 => ⟨S256, .f32⟩
  | 8 => ⟨S1x256, .f32⟩
  | 9 => ⟨S1x32, .f32⟩
  | 10 => ⟨S8x32, .f32⟩
  | 11 => ⟨S256, .f32⟩
  | 12 => ⟨S1x256, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S32, .f32⟩
  | 20 => ⟨S_, .f32⟩
  | 21 => ⟨S32, .f32⟩
  | 22 => ⟨S32, .f32⟩
  | 23 => ⟨S_, .f32⟩
  | 24 => ⟨S32, .f32⟩
  | 25 => ⟨S32, .f32⟩
  | 26 => ⟨S32x1, .f32⟩
  | 27 => ⟨S32x32, .f32⟩
  | 28 => ⟨S32x32, .f32⟩
  | 29 => ⟨S32x32, .f32⟩
  | 30 => ⟨S_, .i32⟩
  | 31 => ⟨S_, .i32⟩
  | 32 => ⟨S_, .f32⟩
  | 33 => ⟨S32x32, .f32⟩
  | 34 => ⟨S32x32, .f32⟩
  | 35 => ⟨S_, .f32⟩
  | 36 => ⟨S32x32, .f32⟩
  | 37 => ⟨S32x32, .f32⟩
  | 38 => ⟨S32, .f32⟩
  | 39 => ⟨S32, .f32⟩
  | 40 => ⟨S32, .f32⟩
  | 41 => ⟨S32, .f32⟩
  | 42 => ⟨S_, .i32⟩
  | 43 => ⟨S_, .i32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S8x8, .i32⟩
  | 51 => ⟨S8x8, .i32⟩
  | 52 => ⟨S_, .i32⟩
  | 53 => ⟨S8x8, .i32⟩
  | 54 => ⟨S8x8, .i32⟩
  | 55 => ⟨S8x8, .i1⟩
  | 56 => ⟨S8x8, .f32⟩
  | 57 => ⟨S32x32, .f32⟩
  | 58 => ⟨S8x1x8x1, .f32⟩
  | 59 => ⟨S1x32x1x32, .f32⟩
  | 60 => ⟨S8x32x8x32, .f32⟩
  | 61 => ⟨S8x32x8x32, .f32⟩
  | 62 => ⟨S8x32x8x32, .f32⟩
  | 63 => ⟨S256x256, .f32⟩
  | 64 => ⟨S1x32, .f32⟩
  | 65 => ⟨S8x32, .f32⟩
  | 66 => ⟨S256, .f32⟩
  | 67 => ⟨S1x256, .f32⟩
  | 68 => ⟨S1x32, .f32⟩
  | 69 => ⟨S8x32, .f32⟩
  | 70 => ⟨S256, .f32⟩
  | 71 => ⟨S1x256, .f32⟩
  | 72 => ⟨S_, .f32⟩
  | 73 => ⟨S5, .f32⟩
  | 74 => ⟨S5, .f32⟩
  | 75 => ⟨S_, .f32⟩
  | 76 => ⟨S5, .f32⟩
  | 77 => ⟨S5, .f32⟩
  | 78 => ⟨S5, .f32⟩
  | 79 => ⟨S_, .f32⟩
  | 80 => ⟨S5, .f32⟩
  | 81 => ⟨S5, .f32⟩
  | 82 => ⟨S_, .f32⟩
  | 83 => ⟨S5, .f32⟩
  | 84 => ⟨S5, .f32⟩
  | 85 => ⟨S5x1, .f32⟩
  | 86 => ⟨S5x32, .f32⟩
  | 87 => ⟨S5x32, .f32⟩
  | 88 => ⟨S5x32, .f32⟩
  | 89 => ⟨S_, .i32⟩
  | 90 => ⟨S_, .i32⟩
  | 91 => ⟨S_, .f32⟩
  | 92 => ⟨S5x32, .f32⟩
  | 93 => ⟨S5x32, .f32⟩
  | 94 => ⟨S_, .f32⟩
  | 95 => ⟨S5x32, .f32⟩
  | 96 => ⟨S5x32, .f32⟩
  | 97 => ⟨S5, .f32⟩
  | 98 => ⟨S5, .f32⟩
  | 99 => ⟨S5, .f32⟩
  | 100 => ⟨S5, .f32⟩
  | 101 => ⟨S_, .i32⟩
  | 102 => ⟨S_, .i32⟩
  | 103 => ⟨S_, .f32⟩
  | 104 => ⟨S5, .f32⟩
  | 105 => ⟨S5, .f32⟩
  | 106 => ⟨S_, .f32⟩
  | 107 => ⟨S5, .f32⟩
  | 108 => ⟨S5, .f32⟩
  | 109 => ⟨S8x8, .i32⟩
  | 110 => ⟨S8x8, .i32⟩
  | 111 => ⟨S_, .i32⟩
  | 112 => ⟨S8x8, .i32⟩
  | 113 => ⟨S8x8, .i32⟩
  | 114 => ⟨S8x8, .i1⟩
  | 115 => ⟨S8x8, .f32⟩
  | 116 => ⟨S32x5, .f32⟩
  | 117 => ⟨S8x1x8x1, .f32⟩
  | 118 => ⟨S1x32x1x5, .f32⟩
  | 119 => ⟨S8x32x8x5, .f32⟩
  | 120 => ⟨S8x32x8x5, .f32⟩
  | 121 => ⟨S8x32x8x5, .f32⟩
  | 122 => ⟨S256x40, .f32⟩
  | 123 => ⟨S1x5, .f32⟩
  | 124 => ⟨S8x5, .f32⟩
  | 125 => ⟨S40, .f32⟩
  | 126 => ⟨S1x40, .f32⟩
  | 127 => ⟨S1x5, .f32⟩
  | _ => ⟨S1048576x16, .f32⟩

abbrev hbmTy0_2 (i : Nat) : BufTy := match i % 128 with
  | 0 => ⟨S8x5, .f32⟩
  | 1 => ⟨S40, .f32⟩
  | 2 => ⟨S1x40, .f32⟩
  | 3 => ⟨S128x512, .bf16⟩
  | 4 => ⟨S131072x40, .f32⟩
  | 5 => ⟨S1048576x5, .f32⟩
  | _ => ⟨S1048576x16, .f32⟩

abbrev hbmTy (i : Nat) : BufTy := match i / 128 with
  | 0 => hbmTy0_0 i
  | 1 => hbmTy0_1 i
  | 2 => hbmTy0_2 i
  | _ => ⟨S1048576x16, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1024x128, .f32⟩
  | .local _ .vmem, ⟨7, _⟩ => ⟨S1024x128, .f32⟩
  | .local _ .vmem, ⟨8, _⟩ => ⟨S1x1, .f32⟩
  | .local _ .vmem, ⟨9, _⟩ => ⟨S128x512, .bf16⟩
  | .local _ .vmem, ⟨10, _⟩ => ⟨S1x512, .f32⟩
  | .local _ .vmem, ⟨11, _⟩ => ⟨S1x512, .f32⟩
  | .local _ .vmem, ⟨12, _⟩ => ⟨S512x256, .f32⟩
  | .local _ .vmem, ⟨13, _⟩ => ⟨S1x256, .f32⟩
  | .local _ .vmem, ⟨14, _⟩ => ⟨S1x256, .f32⟩
  | .local _ .vmem, ⟨15, _⟩ => ⟨S256x256, .f32⟩
  | .local _ .vmem, ⟨16, _⟩ => ⟨S1x256, .f32⟩
  | .local _ .vmem, ⟨17, _⟩ => ⟨S1x256, .f32⟩
  | .local _ .vmem, ⟨18, _⟩ => ⟨S256x40, .f32⟩
  | .local _ .vmem, ⟨19, _⟩ => ⟨S1x40, .f32⟩
  | .local _ .vmem, ⟨20, _⟩ => ⟨S1x40, .f32⟩
  | .local _ .vmem, ⟨21, _⟩ => ⟨S1024x40, .f32⟩
  | .local _ .vmem, ⟨22, _⟩ => ⟨S1024x40, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_c_7 : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_call3_v3 : Ref sig .tc := ⟨.hbm, 57, rfl⟩
abbrev main_call3_v4 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_8 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_9 : Ref sig .tc := ⟨.hbm, 82, rfl⟩
abbrev main_v46 : Ref sig .tc := ⟨.hbm, 83, rfl⟩
abbrev main_v47 : Ref sig .tc := ⟨.hbm, 84, rfl⟩
abbrev main_cst_10 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_cst_12 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_c_13 : Ref sig .tc := ⟨.hbm, 99, rfl⟩
abbrev main_c_14 : Ref sig .tc := ⟨.hbm, 100, rfl⟩
abbrev main_call6_v0 : Ref sig .tc := ⟨.hbm, 101, rfl⟩
abbrev main_call6_v1 : Ref sig .tc := ⟨.hbm, 102, rfl⟩
abbrev main_call6_v2 : Ref sig .tc := ⟨.hbm, 103, rfl⟩
abbrev main_call6_v3 : Ref sig .tc := ⟨.hbm, 104, rfl⟩
abbrev main_call6_v4 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_c_15 : Ref sig .tc := ⟨.hbm, 111, rfl⟩
abbrev main_c_16 : Ref sig .tc := ⟨.hbm, 112, rfl⟩
abbrev main_call8_v0 : Ref sig .tc := ⟨.hbm, 113, rfl⟩
abbrev main_call8_v1 : Ref sig .tc := ⟨.hbm, 114, rfl⟩
abbrev main_call8_v2 : Ref sig .tc := ⟨.hbm, 115, rfl⟩
abbrev main_call8_v3 : Ref sig .tc := ⟨.hbm, 116, rfl⟩
abbrev main_call8_v4 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_c_17 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_call9_v0 : Ref sig .tc := ⟨.hbm, 127, rfl⟩
abbrev main_call9_v1 : Ref sig .tc := ⟨.hbm, 128, rfl⟩
abbrev main_call9_v2 : Ref sig .tc := ⟨.hbm, 129, rfl⟩
abbrev main_call9_v3 : Ref sig .tc := ⟨.hbm, 130, rfl⟩
abbrev main_call9_v4 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_cst_18 : Ref sig .tc := ⟨.hbm, 141, rfl⟩
abbrev main_v81 : Ref sig .tc := ⟨.hbm, 142, rfl⟩
abbrev main_v82 : Ref sig .tc := ⟨.hbm, 143, rfl⟩
abbrev main_cst_19 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_cst_20 : Ref sig .tc := ⟨.hbm, 148, rfl⟩
abbrev main_v86 : Ref sig .tc := ⟨.hbm, 149, rfl⟩
abbrev main_v87 : Ref sig .tc := ⟨.hbm, 150, rfl⟩
abbrev main_cst_21 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩
abbrev main_v93 : Ref sig .tc := ⟨.hbm, 157, rfl⟩
abbrev main_c_22 : Ref sig .tc := ⟨.hbm, 158, rfl⟩
abbrev main_c_23 : Ref sig .tc := ⟨.hbm, 159, rfl⟩
abbrev main_call11_v0 : Ref sig .tc := ⟨.hbm, 160, rfl⟩
abbrev main_call11_v1 : Ref sig .tc := ⟨.hbm, 161, rfl⟩
abbrev main_call11_v2 : Ref sig .tc := ⟨.hbm, 162, rfl⟩
abbrev main_call11_v3 : Ref sig .tc := ⟨.hbm, 163, rfl⟩
abbrev main_call11_v4 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_c_24 : Ref sig .tc := ⟨.hbm, 170, rfl⟩
abbrev main_c_25 : Ref sig .tc := ⟨.hbm, 171, rfl⟩
abbrev main_call13_v0 : Ref sig .tc := ⟨.hbm, 172, rfl⟩
abbrev main_call13_v1 : Ref sig .tc := ⟨.hbm, 173, rfl⟩
abbrev main_call13_v2 : Ref sig .tc := ⟨.hbm, 174, rfl⟩
abbrev main_call13_v3 : Ref sig .tc := ⟨.hbm, 175, rfl⟩
abbrev main_call13_v4 : Ref sig .tc := ⟨.hbm, 176, rfl⟩
abbrev main_v99 : Ref sig .tc := ⟨.hbm, 177, rfl⟩
abbrev main_v100 : Ref sig .tc := ⟨.hbm, 178, rfl⟩
abbrev main_v101 : Ref sig .tc := ⟨.hbm, 179, rfl⟩
abbrev main_c_26 : Ref sig .tc := ⟨.hbm, 180, rfl⟩
abbrev main_v102 : Ref sig .tc := ⟨.hbm, 181, rfl⟩
abbrev main_v103 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_call14_v0 : Ref sig .tc := ⟨.hbm, 186, rfl⟩
abbrev main_call14_v1 : Ref sig .tc := ⟨.hbm, 187, rfl⟩
abbrev main_call14_v2 : Ref sig .tc := ⟨.hbm, 188, rfl⟩
abbrev main_call14_v3 : Ref sig .tc := ⟨.hbm, 189, rfl⟩
abbrev main_call14_v4 : Ref sig .tc := ⟨.hbm, 190, rfl⟩
abbrev main_v107 : Ref sig .tc := ⟨.hbm, 191, rfl⟩
abbrev main_v108 : Ref sig .tc := ⟨.hbm, 192, rfl⟩
abbrev main_v109 : Ref sig .tc := ⟨.hbm, 193, rfl⟩
abbrev main_v110 : Ref sig .tc := ⟨.hbm, 194, rfl⟩
abbrev main_v111 : Ref sig .tc := ⟨.hbm, 195, rfl⟩
abbrev main_v112 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_cst_27 : Ref sig .tc := ⟨.hbm, 200, rfl⟩
abbrev main_v116 : Ref sig .tc := ⟨.hbm, 201, rfl⟩
abbrev main_v117 : Ref sig .tc := ⟨.hbm, 202, rfl⟩
abbrev main_cst_28 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_cst_29 : Ref sig .tc := ⟨.hbm, 207, rfl⟩
abbrev main_v121 : Ref sig .tc := ⟨.hbm, 208, rfl⟩
abbrev main_v122 : Ref sig .tc := ⟨.hbm, 209, rfl⟩
abbrev main_cst_30 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_c_31 : Ref sig .tc := ⟨.hbm, 217, rfl⟩
abbrev main_c_32 : Ref sig .tc := ⟨.hbm, 218, rfl⟩
abbrev main_call16_v0 : Ref sig .tc := ⟨.hbm, 219, rfl⟩
abbrev main_call16_v1 : Ref sig .tc := ⟨.hbm, 220, rfl⟩
abbrev main_call16_v2 : Ref sig .tc := ⟨.hbm, 221, rfl⟩
abbrev main_call16_v3 : Ref sig .tc := ⟨.hbm, 222, rfl⟩
abbrev main_call16_v4 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_c_33 : Ref sig .tc := ⟨.hbm, 229, rfl⟩
abbrev main_c_34 : Ref sig .tc := ⟨.hbm, 230, rfl⟩
abbrev main_call18_v0 : Ref sig .tc := ⟨.hbm, 231, rfl⟩
abbrev main_call18_v1 : Ref sig .tc := ⟨.hbm, 232, rfl⟩
abbrev main_call18_v2 : Ref sig .tc := ⟨.hbm, 233, rfl⟩
abbrev main_call18_v3 : Ref sig .tc := ⟨.hbm, 234, rfl⟩
abbrev main_call18_v4 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_c_35 : Ref sig .tc := ⟨.hbm, 239, rfl⟩
abbrev main_v137 : Ref sig .tc := ⟨.hbm, 240, rfl⟩
abbrev main_v138 : Ref sig .tc := ⟨.hbm, 241, rfl⟩
abbrev main_v139 : Ref sig .tc := ⟨.hbm, 242, rfl⟩
abbrev main_v140 : Ref sig .tc := ⟨.hbm, 243, rfl⟩
abbrev main_v141 : Ref sig .tc := ⟨.hbm, 244, rfl⟩
abbrev main_call19_v0 : Ref sig .tc := ⟨.hbm, 245, rfl⟩
abbrev main_call19_v1 : Ref sig .tc := ⟨.hbm, 246, rfl⟩
abbrev main_call19_v2 : Ref sig .tc := ⟨.hbm, 247, rfl⟩
abbrev main_call19_v3 : Ref sig .tc := ⟨.hbm, 248, rfl⟩
abbrev main_call19_v4 : Ref sig .tc := ⟨.hbm, 249, rfl⟩
abbrev main_v142 : Ref sig .tc := ⟨.hbm, 250, rfl⟩
abbrev main_v143 : Ref sig .tc := ⟨.hbm, 251, rfl⟩
abbrev main_v144 : Ref sig .tc := ⟨.hbm, 252, rfl⟩
abbrev main_v145 : Ref sig .tc := ⟨.hbm, 253, rfl⟩
abbrev main_v146 : Ref sig .tc := ⟨.hbm, 254, rfl⟩
abbrev main_v147 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_v153 : Ref sig .tc := ⟨.hbm, 261, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg14_0 : Ref sig .tc := ⟨.vmem, 21, rfl⟩
abbrev cc1_stg14_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem12_0 : DmaSem sig := 17
abbrev cc1_sem13_0 : DmaSem sig := 18
abbrev cc1_sem14_0 : DmaSem sig := 19
abbrev cc1_sem14_1 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v23 : BitVec 1 := Scalar.cmpi .eq arg0 c15_i32
  let v24 : BitVec 32 := Scalar.extui v23
  let c0_i32_13 : BitVec 32 := 0#32
  let v25 : BitVec 1 := Scalar.cmpi .ne v24 c0_i32_13
  v25

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x40 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S1x40 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S1x40 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 2 → Memref sig .tc .vmem S1024x40 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

class Facts₀ : Prop where
  shapeCasts_S1048576x16_S131072x128 : S1048576x16.ShapeCasts S131072x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  reduces_S8192x128_S8192 : S8192x128.Reduces [1] S8192
  shapeCasts_S8192_S8192x1 : S8192.ShapeCasts S8192x1
  reduces_S8192x1_S1 : S8192x1.Reduces [0] S1
  shapeCasts_S1_S1x1 : S1.ShapeCasts S1x1
  shapeCasts_S1x1_S_ : S1x1.ShapeCasts S_
  shapeCasts_S_S1x1 : S_.ShapeCasts S1x1
  reducesTo_S64x16_S64_d1 : S64x16.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S_S64x16 : S_.BroadcastsInDim S64x16 (![] : Fin 0 → Fin S64x16.rank)
  bcast_S_S8x8 : S_.BroadcastsInDim S8x8 (![] : Fin 0 → Fin S8x8.rank)
  transposes_S64x16_S16x64_1_0 : S64x16.Transposes [1, 0] S16x64
  bcast_S8x8_S8x1x8x1_0_2 : S8x8.BroadcastsInDim S8x1x8x1 (![0, 2] : Fin 2 → Fin S8x1x8x1.rank)
  bcast_S16x64_S1x16x1x64_1_3 : S16x64.BroadcastsInDim S1x16x1x64 (![1, 3] : Fin 2 → Fin S1x16x1x64.rank)
  bcast_S8x1x8x1_S8x16x8x64_0_1_2_3 : S8x1x8x1.BroadcastsInDim S8x16x8x64 (![0, 1, 2, 3] : Fin 4 → Fin S8x16x8x64.rank)
  bcast_S1x16x1x64_S8x16x8x64_0_1_2_3 : S1x16x1x64.BroadcastsInDim S8x16x8x64 (![0, 1, 2, 3] : Fin 4 → Fin S8x16x8x64.rank)
  shapeCasts_S8x16x8x64_S128x512 : S8x16x8x64.ShapeCasts S128x512
  shapeCasts_S64_S1x64 : S64.ShapeCasts S1x64
  bcast_S1x64_S8x64_0_1 : S1x64.BroadcastsInDim S8x64 (![0, 1] : Fin 2 → Fin S8x64.rank)
  shapeCasts_S8x64_S512 : S8x64.ShapeCasts S512
  shapeCasts_S512_S1x512 : S512.ShapeCasts S1x512
  reducesTo_S32x64_S32_d1 : S32x64.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  transposes_S32x64_S64x32_1_0 : S32x64.Transposes [1, 0] S64x32
  bcast_S64x32_S1x64x1x32_1_3 : S64x32.BroadcastsInDim S1x64x1x32 (![1, 3] : Fin 2 → Fin S1x64x1x32.rank)
  bcast_S8x1x8x1_S8x64x8x32_0_1_2_3 : S8x1x8x1.BroadcastsInDim S8x64x8x32 (![0, 1, 2, 3] : Fin 4 → Fin S8x64x8x32.rank)
  bcast_S1x64x1x32_S8x64x8x32_0_1_2_3 : S1x64x1x32.BroadcastsInDim S8x64x8x32 (![0, 1, 2, 3] : Fin 4 → Fin S8x64x8x32.rank)
  shapeCasts_S8x64x8x32_S512x256 : S8x64x8x32.ShapeCasts S512x256
  shapeCasts_S32_S1x32 : S32.ShapeCasts S1x32
  bcast_S1x32_S8x32_0_1 : S1x32.BroadcastsInDim S8x32 (![0, 1] : Fin 2 → Fin S8x32.rank)
  shapeCasts_S8x32_S256 : S8x32.ShapeCasts S256
  shapeCasts_S256_S1x256 : S256.ShapeCasts S1x256
  reducesTo_S32x32_S32_d1 : S32x32.ReducesTo [1] S32
  bcast_S32x1_S32x32_0_1 : S32x1.BroadcastsInDim S32x32 (![0, 1] : Fin 2 → Fin S32x32.rank)
  bcast_S_S32x32 : S_.BroadcastsInDim S32x32 (![] : Fin 0 → Fin S32x32.rank)
  transposes_S32x32_S32x32_1_0 : S32x32.Transposes [1, 0] S32x32
  bcast_S32x32_S1x32x1x32_1_3 : S32x32.BroadcastsInDim S1x32x1x32 (![1, 3] : Fin 2 → Fin S1x32x1x32.rank)
  bcast_S8x1x8x1_S8x32x8x32_0_1_2_3 : S8x1x8x1.BroadcastsInDim S8x32x8x32 (![0, 1, 2, 3] : Fin 4 → Fin S8x32x8x32.rank)
  bcast_S1x32x1x32_S8x32x8x32_0_1_2_3 : S1x32x1x32.BroadcastsInDim S8x32x8x32 (![0, 1, 2, 3] : Fin 4 → Fin S8x32x8x32.rank)
  shapeCasts_S8x32x8x32_S256x256 : S8x32x8x32.ShapeCasts S256x256
  reducesTo_S5x32_S5_d1 : S5x32.ReducesTo [1] S5
  bcast_S_S5 : S_.BroadcastsInDim S5 (![] : Fin 0 → Fin S5.rank)
  bcast_S5_S5x1_0 : S5.BroadcastsInDim S5x1 (![0] : Fin 1 → Fin S5x1.rank)
  bcast_S5x1_S5x32_0_1 : S5x1.BroadcastsInDim S5x32 (![0, 1] : Fin 2 → Fin S5x32.rank)
  bcast_S_S5x32 : S_.BroadcastsInDim S5x32 (![] : Fin 0 → Fin S5x32.rank)
  transposes_S5x32_S32x5_1_0 : S5x32.Transposes [1, 0] S32x5
  bcast_S32x5_S1x32x1x5_1_3 : S32x5.BroadcastsInDim S1x32x1x5 (![1, 3] : Fin 2 → Fin S1x32x1x5.rank)
  bcast_S8x1x8x1_S8x32x8x5_0_1_2_3 : S8x1x8x1.BroadcastsInDim S8x32x8x5 (![0, 1, 2, 3] : Fin 4 → Fin S8x32x8x5.rank)
  bcast_S1x32x1x5_S8x32x8x5_0_1_2_3 : S1x32x1x5.BroadcastsInDim S8x32x8x5 (![0, 1, 2, 3] : Fin 4 → Fin S8x32x8x5.rank)
  shapeCasts_S8x32x8x5_S256x40 : S8x32x8x5.ShapeCasts S256x40
  shapeCasts_S5_S1x5 : S5.ShapeCasts S1x5
  bcast_S1x5_S8x5_0_1 : S1x5.BroadcastsInDim S8x5 (![0, 1] : Fin 2 → Fin S8x5.rank)
  shapeCasts_S8x5_S40 : S8x5.ShapeCasts S40
  shapeCasts_S40_S1x40 : S40.ShapeCasts S1x40
  bitsLt_bf16_f32 : FTy.bits .bf16 < FTy.bits .f32
  inpos_S1x1_p0_0 : ∀ a, (![0, 0] : Fin 2 → Nat) a < S1x1.size a
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x40_S256x40_0_0 : ∀ a, (![0, 0] : Fin 2 → Nat) a + S256x40.size a ≤ S256x40.size a
  h_S256x40 : 0 < S256x40.numel
  shapeCasts_S256x40_S256x40 : S256x40.ShapeCasts S256x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1024x40 : S1x40.Broadcasts S1024x40
  inb_S1024x40_S1024x40_0_0 : ∀ a, (![0, 0] : Fin 2 → Nat) a + S1024x40.size a ≤ S1024x40.size a
  h_S1024x40 : 0 < S1024x40.numel
  shapeCasts_S131072x40_S1048576x5 : S131072x40.ShapeCasts S1048576x5
  dot_S1024x128_S128x512_S1024x512_1_0_0_1_n_n_wf : DotDims.WF S1024x128 S128x512 S1024x512 [1] [0] [0] [1] [] []
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x40_S1024x40_1_0_0_1_n_n_wf : DotDims.WF S1024x256 S256x40 S1024x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S131072x128.size a
  hwx1_0 : ∀ i : grid1.Coords, EltTy.bits .f32 = 32 ∨ (Rect.block (s := S131072x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .bf16 = 32 ∨ (Rect.block (s := S128x512) S128x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256x256.size a ≤ S256x256.size a
  hwx1_8 : ∀ i : grid1.Coords, EltTy.bits .f32 = 32 ∨ (Rect.block (s := S256x256) S256x256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x256.size a ≤ S1x256.size a
  hwx1_9 : ∀ i : grid1.Coords, EltTy.bits .f32 = 32 ∨ (Rect.block (s := S1x256) S1x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x256.size a ≤ S1x256.size a
  hwx1_10 : ∀ i : grid1.Coords, EltTy.bits .f32 = 32 ∨ (Rect.block (s := S1x256) S1x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x40.size a ≤ S256x40.size a
  hwx1_11 : ∀ i : grid1.Coords, EltTy.bits .f32 = 32 ∨ (Rect.block (s := S256x40) S256x40.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S1x40.size a ≤ S1x40.size a
  hwx1_12 : ∀ i : grid1.Coords, EltTy.bits .f32 = 32 ∨ (Rect.block (s := S1x40) S1x40.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S1x40.size a ≤ S1x40.size a
  hwx1_13 : ∀ i : grid1.Coords, EltTy.bits .f32 = 32 ∨ (Rect.block (s := S1x40) S1x40.size (cc1_transform_13 i) (hinb1_13 i)).WholeWords (EltTy.packing .f32)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S1024x40.size a ≤ S131072x40.size a
  hwx1_14 : ∀ i : grid1.Coords, EltTy.bits .f32 = 32 ∨ (Rect.block (s := S131072x40) S1024x40.size (cc1_transform_14 i) (hinb1_14 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x40_S1024x40_1_0_0_1_n_n : DotDims S1024x256 S256x40 S1024x40 where
  lhsContracting := [1]
  rhsContracting := [0]
  lhsNonContracting := [0]
  rhsNonContracting := [1]
  lhsBatch := []
  rhsBatch := []
  wf := dot_S1024x256_S256x40_S1024x40_1_0_0_1_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v151) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v76) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v80) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v107) S256x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v111) S1x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v115) S1x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v142) S256x40.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v146) S1x40.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v150) S1x40.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v152) S1024x40.size cc1_transform_14 reads1_14 true false 2 stage1_14 sem1_14
    hrank1 hreads1_14 hinb1_14 nbuf1_14 (Memref.isWhole_whole _) hwx1_14 hstage1_14

abbrev win1 : Fin 15 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | ⟨_ + 15, h⟩ => absurd h (Nat.not_lt.2 (Nat.le_add_left _ _))
abbrev spec1 : Fin 15 → Pipeline.WinSpec sig grid1.rank := fun w => (win1 w).toWinSpec

class Facts : Prop extends Facts₀ where

variable [Facts]
-- ==== ReferenceIdeal.lean ====
abbrev S1048576x16 : Shape := ⟨2, ![1048576, 16]⟩
abbrev S64x16 : Shape := ⟨2, ![64, 16]⟩
abbrev S64 : Shape := ⟨1, ![64]⟩
abbrev S32x64 : Shape := ⟨2, ![32, 64]⟩
abbrev S32 : Shape := ⟨1, ![32]⟩
abbrev S32x32 : Shape := ⟨2, ![32, 32]⟩
abbrev S5x32 : Shape := ⟨2, ![5, 32]⟩
abbrev S5 : Shape := ⟨1, ![5]⟩
abbrev S_ : Shape := ⟨0, ![]⟩
abbrev S64x1 : Shape := ⟨2, ![64, 1]⟩
abbrev S16x64 : Shape := ⟨2, ![16, 64]⟩
abbrev S1048576x64 : Shape := ⟨2, ![1048576, 64]⟩
abbrev S1x64 : Shape := ⟨2, ![1, 64]⟩
abbrev S32x1 : Shape := ⟨2, ![32, 1]⟩
abbrev S64x32 : Shape := ⟨2, ![64, 32]⟩
abbrev S1048576x32 : Shape := ⟨2, ![1048576, 32]⟩
abbrev S1x32 : Shape := ⟨2, ![1, 32]⟩
abbrev S5x1 : Shape := ⟨2, ![5, 1]⟩
abbrev S32x5 : Shape := ⟨2, ![32, 5]⟩
abbrev S1048576x5 : Shape := ⟨2, ![1048576, 5]⟩
abbrev S1x5 : Shape := ⟨2, ![1, 5]⟩

abbrev nBuf : Space → Nat
  | .hbm => 239
  | .vmem => 0
  | .smem => 0
  | _ => 0

abbrev hbmTy0_0 (i : Nat) : BufTy := match i % 128 with
  | 0 => ⟨S1048576x16, .f32⟩
  | 1 => ⟨S64x16, .f32⟩
  | 2 => ⟨S64, .f32⟩
  | 3 => ⟨S32x64, .f32⟩
  | 4 => ⟨S32, .f32⟩
  | 5 => ⟨S32x32, .f32⟩
  | 6 => ⟨S32, .f32⟩
  | 7 => ⟨S5x32, .f32⟩
  | 8 => ⟨S5, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1048576x16, .f32⟩
  | 21 => ⟨S1048576x16, .f32⟩
  | 22 => ⟨S1048576x16, .f32⟩
  | 23 => ⟨S1048576x16, .f32⟩
  | 24 => ⟨S1048576x16, .f32⟩
  | 25 => ⟨S_, .i32⟩
  | 26 => ⟨S_, .i32⟩
  | 27 => ⟨S_, .f32⟩
  | 28 => ⟨S1048576x16, .f32⟩
  | 29 => ⟨S1048576x16, .f32⟩
  | 30 => ⟨S_, .f32⟩
  | 31 => ⟨S1048576x16, .f32⟩
  | 32 => ⟨S1048576x16, .f32⟩
  | 33 => ⟨S1048576x16, .f32⟩
  | 34 => ⟨S1048576x16, .f32⟩
  | 35 => ⟨S_, .f32⟩
  | 36 => ⟨S64, .f32⟩
  | 37 => ⟨S64, .f32⟩
  | 38 => ⟨S_, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S_, .f32⟩
  | 46 => ⟨S64, .f32⟩
  | 47 => ⟨S64, .f32⟩
  | 48 => ⟨S64x1, .f32⟩
  | 49 => ⟨S64x16, .f32⟩
  | 50 => ⟨S64x16, .f32⟩
  | 51 => ⟨S64x16, .f32⟩
  | 52 => ⟨S64x16, .f32⟩
  | 53 => ⟨S64x16, .f32⟩
  | 54 => ⟨S_, .i32⟩
  | 55 => ⟨S_, .i32⟩
  | 56 => ⟨S_, .f32⟩
  | 57 => ⟨S64x16, .f32⟩
  | 58 => ⟨S64x16, .f32⟩
  | 59 => ⟨S_, .f32⟩
  | 60 => ⟨S64x16, .f32⟩
  | 61 => ⟨S64x16, .f32⟩
  | 62 => ⟨S64, .f32⟩
  | 63 => ⟨S64, .f32⟩
  | 64 => ⟨S64, .f32⟩
  | 65 => ⟨S64, .f32⟩
  | 66 => ⟨S64, .f32⟩
  | 67 => ⟨S64, .f32⟩
  | 68 => ⟨S_, .i32⟩
  | 69 => ⟨S_, .i32⟩
  | 70 => ⟨S_, .f32⟩
  | 71 => ⟨S64, .f32⟩
  | 72 => ⟨S64, .f32⟩
  | 73 => ⟨S_, .f32⟩
  | 74 => ⟨S64, .f32⟩
  | 75 => ⟨S64, .f32⟩
  | 76 => ⟨S1048576x16, .f32⟩
  | 77 => ⟨S1048576x16, .f32⟩
  | 78 => ⟨S16x64, .f32⟩
  | 79 => ⟨S1048576x64, .f32⟩
  | 80 => ⟨S1x64, .f32⟩
  | 81 => ⟨S1048576x64, .f32⟩
  | 82 => ⟨S1048576x64, .f32⟩
  | 83 => ⟨S1x64, .f32⟩
  | 84 => ⟨S1048576x64, .f32⟩
  | 85 => ⟨S1048576x64, .f32⟩
  | 86 => ⟨S_, .f32⟩
  | 87 => ⟨S32, .f32⟩
  | 88 => ⟨S32, .f32⟩
  | 89 => ⟨S_, .f32⟩
  | 90 => ⟨S32, .f32⟩
  | 91 => ⟨S32, .f32⟩
  | 92 => ⟨S32, .f32⟩
  | 93 => ⟨S_, .f32⟩
  | 94 => ⟨S32, .f32⟩
  | 95 => ⟨S32, .f32⟩
  | 96 => ⟨S_, .f32⟩
  | 97 => ⟨S32, .f32⟩
  | 98 => ⟨S32, .f32⟩
  | 99 => ⟨S32x1, .f32⟩
  | 100 => ⟨S32x64, .f32⟩
  | 101 => ⟨S32x64, .f32⟩
  | 102 => ⟨S32x64, .f32⟩
  | 103 => ⟨S32x64, .f32⟩
  | 104 => ⟨S32x64, .f32⟩
  | 105 => ⟨S_, .i32⟩
  | 106 => ⟨S_, .i32⟩
  | 107 => ⟨S_, .f32⟩
  | 108 => ⟨S32x64, .f32⟩
  | 109 => ⟨S32x64, .f32⟩
  | 110 => ⟨S_, .f32⟩
  | 111 => ⟨S32x64, .f32⟩
  | 112 => ⟨S32x64, .f32⟩
  | 113 => ⟨S32, .f32⟩
  | 114 => ⟨S32, .f32⟩
  | 115 => ⟨S32, .f32⟩
  | 116 => ⟨S32, .f32⟩
  | 117 => ⟨S32, .f32⟩
  | 118 => ⟨S32, .f32⟩
  | 119 => ⟨S_, .i32⟩
  | 120 => ⟨S_, .i32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S1048576x64, .f32⟩
  | _ => ⟨S1048576x16, .f32⟩

abbrev hbmTy0_1 (i : Nat) : BufTy := match i % 128 with
  | 0 => ⟨S1048576x64, .f32⟩
  | 1 => ⟨S64x32, .f32⟩
  | 2 => ⟨S1048576x32, .f32⟩
  | 3 => ⟨S1x32, .f32⟩
  | 4 => ⟨S1048576x32, .f32⟩
  | 5 => ⟨S1048576x32, .f32⟩
  | 6 => ⟨S1x32, .f32⟩
  | 7 => ⟨S1048576x32, .f32⟩
  | 8 => ⟨S1048576x32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S32x1, .f32⟩
  | 23 => ⟨S32x32, .f32⟩
  | 24 => ⟨S32x32, .f32⟩
  | 25 => ⟨S32x32, .f32⟩
  | 26 => ⟨S32x32, .f32⟩
  | 27 => ⟨S32x32, .f32⟩
  | 28 => ⟨S_, .i32⟩
  | 29 => ⟨S_, .i32⟩
  | 30 => ⟨S_, .f32⟩
  | 31 => ⟨S32x32, .f32⟩
  | 32 => ⟨S32x32, .f32⟩
  | 33 => ⟨S_, .f32⟩
  | 34 => ⟨S32x32, .f32⟩
  | 35 => ⟨S32x32, .f32⟩
  | 36 => ⟨S32, .f32⟩
  | 37 => ⟨S32, .f32⟩
  | 38 => ⟨S32, .f32⟩
  | 39 => ⟨S32, .f32⟩
  | 40 => ⟨S32, .f32⟩
  | 41 => ⟨S32, .f32⟩
  | 42 => ⟨S_, .i32⟩
  | 43 => ⟨S_, .i32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S1048576x32, .f32⟩
  | 51 => ⟨S1048576x32, .f32⟩
  | 52 => ⟨S32x32, .f32⟩
  | 53 => ⟨S1048576x32, .f32⟩
  | 54 => ⟨S1x32, .f32⟩
  | 55 => ⟨S1048576x32, .f32⟩
  | 56 => ⟨S1048576x32, .f32⟩
  | 57 => ⟨S1x32, .f32⟩
  | 58 => ⟨S1048576x32, .f32⟩
  | 59 => ⟨S1048576x32, .f32⟩
  | 60 => ⟨S_, .f32⟩
  | 61 => ⟨S5, .f32⟩
  | 62 => ⟨S5, .f32⟩
  | 63 => ⟨S_, .f32⟩
  | 64 => ⟨S5, .f32⟩
  | 65 => ⟨S5, .f32⟩
  | 66 => ⟨S5, .f32⟩
  | 67 => ⟨S_, .f32⟩
  | 68 => ⟨S5, .f32⟩
  | 69 => ⟨S5, .f32⟩
  | 70 => ⟨S_, .f32⟩
  | 71 => ⟨S5, .f32⟩
  | 72 => ⟨S5, .f32⟩
  | 73 => ⟨S5x1, .f32⟩
  | 74 => ⟨S5x32, .f32⟩
  | 75 => ⟨S5x32, .f32⟩
  | 76 => ⟨S5x32, .f32⟩
  | 77 => ⟨S5x32, .f32⟩
  | 78 => ⟨S5x32, .f32⟩
  | 79 => ⟨S_, .i32⟩
  | 80 => ⟨S_, .i32⟩
  | 81 => ⟨S_, .f32⟩
  | 82 => ⟨S5x32, .f32⟩
  | 83 => ⟨S5x32, .f32⟩
  | 84 => ⟨S_, .f32⟩
  | 85 => ⟨S5x32, .f32⟩
  | 86 => ⟨S5x32, .f32⟩
  | 87 => ⟨S5, .f32⟩
  | 88 => ⟨S5, .f32⟩
  | 89 => ⟨S5, .f32⟩
  | 90 => ⟨S5, .f32⟩
  | 91 => ⟨S5, .f32⟩
  | 92 => ⟨S5, .f32⟩
  | 93 => ⟨S_, .i32⟩
  | 94 => ⟨S_, .i32⟩
  | 95 => ⟨S_, .f32⟩
  | 96 => ⟨S5, .f32⟩
  | 97 => ⟨S5, .f32⟩
  | 98 => ⟨S_, .f32⟩
  | 99 => ⟨S5, .f32⟩
  | 100 => ⟨S5, .f32⟩
  | 101 => ⟨S1048576x32, .f32⟩
  | 102 => ⟨S1048576x32, .f32⟩
  | 103 => ⟨S32x5, .f32⟩
  | 104 => ⟨S1048576x5, .f32⟩
  | 105 => ⟨S1x5, .f32⟩
  | 106 => ⟨S1048576x5, .f32⟩
  | 107 => ⟨S1048576x5, .f32⟩
  | 108 => ⟨S1x5, .f32⟩
  | 109 => ⟨S1048576x5, .f32⟩
  | 110 => ⟨S1048576x5, .f32⟩
  | _ => ⟨S1048576x16, .f32⟩

abbrev hbmTy (i : Nat) : BufTy := match i / 128 with
  | 0 => hbmTy0_0 i
  | 1 => hbmTy0_1 i
  | _ => ⟨S1048576x16, .f32⟩

abbrev bufTy : (tb : Table) → Fin (tcTables nBuf tb) → BufTy
  | .hbm, ⟨i, _⟩ => hbmTy i
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c : Ref sig .tc := ⟨.hbm, 25, rfl⟩
abbrev main_c_3 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_4 : Ref sig .tc := ⟨.hbm, 35, rfl⟩
abbrev main_v15 : Ref sig .tc := ⟨.hbm, 36, rfl⟩
abbrev main_v16 : Ref sig .tc := ⟨.hbm, 37, rfl⟩
abbrev main_cst_5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_6 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_8 : Ref sig .tc := ⟨.hbm, 54, rfl⟩
abbrev main_c_9 : Ref sig .tc := ⟨.hbm, 55, rfl⟩
abbrev main_call3_v0 : Ref sig .tc := ⟨.hbm, 56, rfl⟩
abbrev main_call3_v1 : Ref sig .tc := ⟨.hbm, 57, rfl⟩
abbrev main_call3_v2 : Ref sig .tc := ⟨.hbm, 58, rfl⟩
abbrev main_call3_v3 : Ref sig .tc := ⟨.hbm, 59, rfl⟩
abbrev main_call3_v4 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_10 : Ref sig .tc := ⟨.hbm, 68, rfl⟩
abbrev main_c_11 : Ref sig .tc := ⟨.hbm, 69, rfl⟩
abbrev main_call5_v0 : Ref sig .tc := ⟨.hbm, 70, rfl⟩
abbrev main_call5_v1 : Ref sig .tc := ⟨.hbm, 71, rfl⟩
abbrev main_call5_v2 : Ref sig .tc := ⟨.hbm, 72, rfl⟩
abbrev main_call5_v3 : Ref sig .tc := ⟨.hbm, 73, rfl⟩
abbrev main_call5_v4 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_12 : Ref sig .tc := ⟨.hbm, 86, rfl⟩
abbrev main_v48 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_14 : Ref sig .tc := ⟨.hbm, 93, rfl⟩
abbrev main_v53 : Ref sig .tc := ⟨.hbm, 94, rfl⟩
abbrev main_v54 : Ref sig .tc := ⟨.hbm, 95, rfl⟩
abbrev main_cst_15 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_16 : Ref sig .tc := ⟨.hbm, 105, rfl⟩
abbrev main_c_17 : Ref sig .tc := ⟨.hbm, 106, rfl⟩
abbrev main_call7_v0 : Ref sig .tc := ⟨.hbm, 107, rfl⟩
abbrev main_call7_v1 : Ref sig .tc := ⟨.hbm, 108, rfl⟩
abbrev main_call7_v2 : Ref sig .tc := ⟨.hbm, 109, rfl⟩
abbrev main_call7_v3 : Ref sig .tc := ⟨.hbm, 110, rfl⟩
abbrev main_call7_v4 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_c_18 : Ref sig .tc := ⟨.hbm, 119, rfl⟩
abbrev main_c_19 : Ref sig .tc := ⟨.hbm, 120, rfl⟩
abbrev main_call9_v0 : Ref sig .tc := ⟨.hbm, 121, rfl⟩
abbrev main_call9_v1 : Ref sig .tc := ⟨.hbm, 122, rfl⟩
abbrev main_call9_v2 : Ref sig .tc := ⟨.hbm, 123, rfl⟩
abbrev main_call9_v3 : Ref sig .tc := ⟨.hbm, 124, rfl⟩
abbrev main_call9_v4 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_cst_20 : Ref sig .tc := ⟨.hbm, 137, rfl⟩
abbrev main_v81 : Ref sig .tc := ⟨.hbm, 138, rfl⟩
abbrev main_v82 : Ref sig .tc := ⟨.hbm, 139, rfl⟩
abbrev main_cst_21 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_cst_22 : Ref sig .tc := ⟨.hbm, 144, rfl⟩
abbrev main_v86 : Ref sig .tc := ⟨.hbm, 145, rfl⟩
abbrev main_v87 : Ref sig .tc := ⟨.hbm, 146, rfl⟩
abbrev main_cst_23 : Ref sig .tc := ⟨.hbm, 147, rfl⟩
abbrev main_v88 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_c_24 : Ref sig .tc := ⟨.hbm, 156, rfl⟩
abbrev main_c_25 : Ref sig .tc := ⟨.hbm, 157, rfl⟩
abbrev main_call11_v0 : Ref sig .tc := ⟨.hbm, 158, rfl⟩
abbrev main_call11_v1 : Ref sig .tc := ⟨.hbm, 159, rfl⟩
abbrev main_call11_v2 : Ref sig .tc := ⟨.hbm, 160, rfl⟩
abbrev main_call11_v3 : Ref sig .tc := ⟨.hbm, 161, rfl⟩
abbrev main_call11_v4 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_v99 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_c_26 : Ref sig .tc := ⟨.hbm, 170, rfl⟩
abbrev main_c_27 : Ref sig .tc := ⟨.hbm, 171, rfl⟩
abbrev main_call13_v0 : Ref sig .tc := ⟨.hbm, 172, rfl⟩
abbrev main_call13_v1 : Ref sig .tc := ⟨.hbm, 173, rfl⟩
abbrev main_call13_v2 : Ref sig .tc := ⟨.hbm, 174, rfl⟩
abbrev main_call13_v3 : Ref sig .tc := ⟨.hbm, 175, rfl⟩
abbrev main_call13_v4 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_v107 : Ref sig .tc := ⟨.hbm, 181, rfl⟩
abbrev main_v108 : Ref sig .tc := ⟨.hbm, 182, rfl⟩
abbrev main_v109 : Ref sig .tc := ⟨.hbm, 183, rfl⟩
abbrev main_v110 : Ref sig .tc := ⟨.hbm, 184, rfl⟩
abbrev main_v111 : Ref sig .tc := ⟨.hbm, 185, rfl⟩
abbrev main_v112 : Ref sig .tc := ⟨.hbm, 186, rfl⟩
abbrev main_v113 : Ref sig .tc := ⟨.hbm, 187, rfl⟩
abbrev main_cst_28 : Ref sig .tc := ⟨.hbm, 188, rfl⟩
abbrev main_v114 : Ref sig .tc := ⟨.hbm, 189, rfl⟩
abbrev main_v115 : Ref sig .tc := ⟨.hbm, 190, rfl⟩
abbrev main_cst_29 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_cst_30 : Ref sig .tc := ⟨.hbm, 195, rfl⟩
abbrev main_v119 : Ref sig .tc := ⟨.hbm, 196, rfl⟩
abbrev main_v120 : Ref sig .tc := ⟨.hbm, 197, rfl⟩
abbrev main_cst_31 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_v128 : Ref sig .tc := ⟨.hbm, 206, rfl⟩
abbrev main_c_32 : Ref sig .tc := ⟨.hbm, 207, rfl⟩
abbrev main_c_33 : Ref sig .tc := ⟨.hbm, 208, rfl⟩
abbrev main_call15_v0 : Ref sig .tc := ⟨.hbm, 209, rfl⟩
abbrev main_call15_v1 : Ref sig .tc := ⟨.hbm, 210, rfl⟩
abbrev main_call15_v2 : Ref sig .tc := ⟨.hbm, 211, rfl⟩
abbrev main_call15_v3 : Ref sig .tc := ⟨.hbm, 212, rfl⟩
abbrev main_call15_v4 : Ref sig .tc := ⟨.hbm, 213, rfl⟩
abbrev main_v129 : Ref sig .tc := ⟨.hbm, 214, rfl⟩
abbrev main_v130 : Ref sig .tc := ⟨.hbm, 215, rfl⟩
abbrev main_v131 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_c_34 : Ref sig .tc := ⟨.hbm, 221, rfl⟩
abbrev main_c_35 : Ref sig .tc := ⟨.hbm, 222, rfl⟩
abbrev main_call17_v0 : Ref sig .tc := ⟨.hbm, 223, rfl⟩
abbrev main_call17_v1 : Ref sig .tc := ⟨.hbm, 224, rfl⟩
abbrev main_call17_v2 : Ref sig .tc := ⟨.hbm, 225, rfl⟩
abbrev main_call17_v3 : Ref sig .tc := ⟨.hbm, 226, rfl⟩
abbrev main_call17_v4 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_v141 : Ref sig .tc := ⟨.hbm, 233, rfl⟩
abbrev main_v142 : Ref sig .tc := ⟨.hbm, 234, rfl⟩
abbrev main_v143 : Ref sig .tc := ⟨.hbm, 235, rfl⟩
abbrev main_v144 : Ref sig .tc := ⟨.hbm, 236, rfl⟩
abbrev main_v145 : Ref sig .tc := ⟨.hbm, 237, rfl⟩
abbrev main_v146 : Ref sig .tc := ⟨.hbm, 238, rfl⟩

abbrev nD : Nat := 1
abbrev τ : Topo := Topo.v7x

variable {F : FTy → Type} [FloatOps F]

class Facts₀ : Prop where
  reducesTo_S1048576x16_S_d0_1 : S1048576x16.ReducesTo [0, 1] S_
  h_S_ : 0 < S_.numel
  bcast_S_S1048576x16 : S_.BroadcastsInDim S1048576x16 (![] : Fin 0 → Fin S1048576x16.rank)
  reducesTo_S64x16_S64_d1 : S64x16.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S_S64x16 : S_.BroadcastsInDim S64x16 (![] : Fin 0 → Fin S64x16.rank)
  transposes_S64x16_S16x64_1_0 : S64x16.Transposes [1, 0] S16x64
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  reducesTo_S32x64_S32_d1 : S32x64.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S_S32x64 : S_.BroadcastsInDim S32x64 (![] : Fin 0 → Fin S32x64.rank)
  bcast_S_S1048576x64 : S_.BroadcastsInDim S1048576x64 (![] : Fin 0 → Fin S1048576x64.rank)
  transposes_S32x64_S64x32_1_0 : S32x64.Transposes [1, 0] S64x32
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  reducesTo_S32x32_S32_d1 : S32x32.ReducesTo [1] S32
  bcast_S32x1_S32x32_0_1 : S32x1.BroadcastsInDim S32x32 (![0, 1] : Fin 2 → Fin S32x32.rank)
  bcast_S_S32x32 : S_.BroadcastsInDim S32x32 (![] : Fin 0 → Fin S32x32.rank)
  bcast_S_S1048576x32 : S_.BroadcastsInDim S1048576x32 (![] : Fin 0 → Fin S1048576x32.rank)
  transposes_S32x32_S32x32_1_0 : S32x32.Transposes [1, 0] S32x32
  reducesTo_S5x32_S5_d1 : S5x32.ReducesTo [1] S5
  bcast_S_S5 : S_.BroadcastsInDim S5 (![] : Fin 0 → Fin S5.rank)
  bcast_S5_S5x1_0 : S5.BroadcastsInDim S5x1 (![0] : Fin 1 → Fin S5x1.rank)
  bcast_S5x1_S5x32_0_1 : S5x1.BroadcastsInDim S5x32 (![0, 1] : Fin 2 → Fin S5x32.rank)
  bcast_S_S5x32 : S_.BroadcastsInDim S5x32 (![] : Fin 0 → Fin S5x32.rank)
  transposes_S5x32_S32x5_1_0 : S5x32.Transposes [1, 0] S32x5
  bcast_S5_S1x5_1 : S5.BroadcastsInDim S1x5 (![1] : Fin 1 → Fin S1x5.rank)
  bcast_S1x5_S1048576x5_0_1 : S1x5.BroadcastsInDim S1048576x5 (![0, 1] : Fin 2 → Fin S1048576x5.rank)
  dot_S1048576x16_S16x64_S1048576x64_1_0_0_1_n_n_wf : DotDims.WF S1048576x16 S16x64 S1048576x64 [1] [0] [0] [1] [] []
  dot_S1048576x64_S64x32_S1048576x32_1_0_0_1_n_n_wf : DotDims.WF S1048576x64 S64x32 S1048576x32 [1] [0] [0] [1] [] []
  dot_S1048576x32_S32x32_S1048576x32_1_0_0_1_n_n_wf : DotDims.WF S1048576x32 S32x32 S1048576x32 [1] [0] [0] [1] [] []
  dot_S1048576x32_S32x5_S1048576x5_1_0_0_1_n_n_wf : DotDims.WF S1048576x32 S32x5 S1048576x5 [1] [0] [0] [1] [] []

variable [Facts₀]

def dot_S1048576x16_S16x64_S1048576x64_1_0_0_1_n_n : DotDims S1048576x16 S16x64 S1048576x64 where
  lhsContracting := [1]
  rhsContracting := [0]
  lhsNonContracting := [0]
  rhsNonContracting := [1]
  lhsBatch := []
  rhsBatch := []
  wf := dot_S1048576x16_S16x64_S1048576x64_1_0_0_1_n_n_wf
def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x32_S1048576x32_1_0_0_1_n_n : DotDims S1048576x32 S32x32 S1048576x32 where
  lhsContracting := [1]
  rhsContracting := [0]
  lhsNonContracting := [0]
  rhsNonContracting := [1]
  lhsBatch := []
  rhsBatch := []
  wf := dot_S1048576x32_S32x32_S1048576x32_1_0_0_1_n_n_wf
def dot_S1048576x32_S32x5_S1048576x5_1_0_0_1_n_n : DotDims S1048576x32 S32x5 S1048576x5 where
  lhsContracting := [1]
  rhsContracting := [0]
  lhsNonContracting := [0]
  rhsNonContracting := [1]
  lhsBatch := []
  rhsBatch := []
  wf := dot_S1048576x32_S32x5_S1048576x5_1_0_0_1_n_n_wf

class Facts : Prop extends Facts₀ where

variable [Facts]
-- ==== Proof.K.Region0Runs.lean ====
/-
  Region 0 of @main (the running minimum and maximum of the packed input, one block of 8192 rows per grid point),
  the part of its frame the three control cases share, and the body's run in each case. The body keeps the running
  minimum and maximum in two 1×1 scratch cells: at the first point it first resets them to +∞ and −∞, at every
  point it folds the block's minimum and maximum into them, and at the last point it copies them into the two 1×1
  output windows, which are idle (not stored, not written back) at every other point.
-/
import proofs.«147168_j38843684225834_2_alg».proof.Proof.Gen.Kernel.Launch
import proofs.«147168_j38843684225834_2_alg».proof.Proof.Gen.Kernel.Skeleton
import proofs.«147168_j38843684225834_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the reset of the two scratch cells is under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the copy into the two outputs is under it. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S1x1 .f32 := (Memref.whole cc0_stg1_0 : Memref sig .tc .vmem S1x1 .f32).view
abbrev VO0_2 : View sig .tc .vmem S1x1 .f32 := (Memref.whole cc0_stg2_0 : Memref sig .tc .vmem S1x1 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The two scratch cells: the running minimum and the running maximum. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The core's scoped buffers that are neither a staging buffer of this call nor one of its two scratch cells
    (the other call's staging buffers), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg14_1), ((c : Thread nD τ).loc cc1_stg14_1) ↦{fullShare} f))

/-- The class invariant with the two scratch cells as memrefs owned at some contents, the untouched rest and the
    generator register beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The body's run, case by case -/

set_option maxHeartbeats 4000000 in
/-- The first point: both conditions decided (reset: yes, copy out: no). The outputs are handed back untouched; the
    two scratch cells, found at anything, end at the pieces the run finds. -/
noncomputable def kernelRun0_A (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨[], [], ?_, ?_, fun xi1 xi2 E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- A middle point: neither condition holds. The scratch cells are found at what the point before left. -/
noncomputable def kernelRun0_B (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨[], [], ?_, ?_, fun xi1 xi2 E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- The last point: no reset, and the copy into the two outputs, found at anything, which end at the pieces the
    run finds. -/
noncomputable def kernelRun0_C (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨?_, ?_, ?_, ?_, fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.Kernel.Hand

end
-- ==== Proof.K.Region0.lean ====
/-
  Region 0 of @main, the rest of its frame: what each control case leaves in the two scratch cells and (at the
  last point) in the two outputs, what they hold after every grid point by recursion on the point, the region
  invariant that carries the two scratch cells from one point to the next, the pipeline's proof data, and the
  body obligation at a generic point.
-/
import proofs.«147168_j38843684225834_2_alg».proof.Proof.K.Region0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point stores nothing into output 1 (idle there): a placeholder nothing consults. -/
def out0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VO0_1.read (Elt F) (VO0_1.writes (Elt F) VO0_1.junk (kernelRun0_A c i arg1 harg1 arg2 harg2 arg3 harg3 arg4 harg4 arg5 harg5 hc0 hc1 x0).1)
/-- The first point stores nothing into output 2 (idle there): a placeholder nothing consults. -/
def out0_A_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VO0_2.read (Elt F) (VO0_2.writes (Elt F) VO0_2.junk (kernelRun0_A c i arg1 harg1 arg2 harg2 arg3 harg3 arg4 harg4 arg5 harg5 hc0 hc1 x0).2.1)
theorem scover0_A_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) (y : S1x1.Idx) :
    ∃ pc ∈ (kernelRun0_A c i arg1 harg1 arg2 harg2 arg3 harg3 arg4 harg4 arg5 harg5 hc0 hc1 x0).2.2.1, y ∈ pc.1.set :=
  View.cover_of_tiledL (kernelRun0_A c i arg1 harg1 arg2 harg2 arg3 harg3 arg4 harg4 arg5 harg5 hc0 hc1 x0).2.2.1 S1x1.size (by sl_kernel_rfl) y
/-- What the first point leaves in the running-minimum cell. -/
def sout0_A_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VS0_0.read (Elt F) (VS0_0.writes (Elt F) VS0_0.junk (kernelRun0_A c i arg1 harg1 arg2 harg2 arg3 harg3 arg4 harg4 arg5 harg5 hc0 hc1 x0).2.2.1)
theorem scover0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) (y : S1x1.Idx) :
    ∃ pc ∈ (kernelRun0_A c i arg1 harg1 arg2 harg2 arg3 harg3 arg4 harg4 arg5 harg5 hc0 hc1 x0).2.2.2.1, y ∈ pc.1.set :=
  View.cover_of_tiledL (kernelRun0_A c i arg1 harg1 arg2 harg2 arg3 harg3 arg4 harg4 arg5 harg5 hc0 hc1 x0).2.2.2.1 S1x1.size (by sl_kernel_rfl) y
/-- What the first point leaves in the running-maximum cell. -/
def sout0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VS0_1.read (Elt F) (VS0_1.writes (Elt F) VS0_1.junk (kernelRun0_A c i arg1 harg1 arg2 harg2 arg3 harg3 arg4 harg4 arg5 harg5 hc0 hc1 x0).2.2.2.1)
/-- A middle point stores nothing into output 1: a placeholder nothing consults. -/
def out0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VO0_1.read (Elt F) (VO0_1.writes (Elt F) VO0_1.junk (kernelRun0_B c i arg1 harg1 arg2 harg2 arg3 harg3 arg4 harg4 arg5 harg5 hc0 hc1 x0 xs0 xs1).1)
/-- A middle point stores nothing into output 2: a placeholder nothing consults. -/
def out0_B_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VO0_2.read (Elt F) (VO0_2.writes (Elt F) VO0_2.junk (kernelRun0_B c i arg1 harg1 arg2 harg2 arg3 harg3 arg4 harg4 arg5 harg5 hc0 hc1 x0 xs0 xs1).2.1)
theorem scover0_B_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.2.1, y ∈ pc.1.set :=
  View.cover_of_tiledL (kernelRun0_B c i arg1 harg1 arg2 harg2 arg3 harg3 arg4 harg4 arg5 harg5 hc0 hc1 x0 xs0 xs1).2.2.1 S1x1.size (by sl_kernel_rfl) y
/-- What a middle point leaves in the running-minimum cell. -/
def sout0_B_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 xs0 xs1).2.2.1)
theorem scover0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.2.2.1, y ∈ pc.1.set :=
  View.cover_of_tiledL (kernelRun0_B c i arg1 harg1 arg2 harg2 arg3 harg3 arg4 harg4 arg5 harg5 hc0 hc1 x0 xs0 xs1).2.2.2.1 S1x1.size (by sl_kernel_rfl) y
/-- What a middle point leaves in the running-maximum cell. -/
def sout0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VS0_1.read (Elt F) (VS0_1.writes (Elt F) VS0_1.junk (kernelRun0_B c i arg1 harg1 arg2 harg2 arg3 harg3 arg4 harg4 arg5 harg5 hc0 hc1 x0 xs0 xs1).2.2.2.1)
theorem cover0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1.size (by sl_kernel_rfl) y
/-- What the last point leaves in output 1's staging buffer. -/
def out0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VO0_1.read (Elt F) (VO0_1.writes (Elt F) VO0_1.junk (kernelRun0_C c i arg1 harg1 arg2 harg2 arg3 harg3 arg4 harg4 arg5 harg5 hc0 hc1 x0 xs0 xs1).1)
theorem cover0_C_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1.size (by sl_kernel_rfl) y
/-- What the last point leaves in output 2's staging buffer. -/
def out0_C_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VO0_2.read (Elt F) (VO0_2.writes (Elt F) VO0_2.junk (kernelRun0_C c i arg1 harg1 arg2 harg2 arg3 harg3 arg4 harg4 arg5 harg5 hc0 hc1 x0 xs0 xs1).2.1)
theorem scover0_C_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1.size (by sl_kernel_rfl) y
/-- What the last point leaves in the running-minimum cell. -/
def sout0_C_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 xs0 xs1).2.2.1)
theorem scover0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1.size (by sl_kernel_rfl) y
/-- What the last point leaves in the running-maximum cell. -/
def sout0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VS0_1.read (Elt F) (VS0_1.writes (Elt F) VS0_1.junk (kernelRun0_C c i arg1 harg1 arg2 harg2 arg3 harg3 arg4 harg4 arg5 harg5 hc0 hc1 x0 xs0 xs1).2.2.2.1)
/-! ## What the outputs and the two scratch cells hold after each point -/

/-- The accumulation: (output 1, output 2, running minimum, running maximum) after the body at position `n`. The
    first point runs the reset case on the input block; every later point runs its case on the input block and
    on what the point before left in the two cells; the last point is the one that also fills the outputs. -/
def outsAt0 (c : Dev nD) : (n : ℕ) → n < cfg0.N → Vec F S1x1 .f32 × Vec F S1x1 .f32 × Vec F S1x1 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩))
  | n + 1, hn =>
    if h1 : n + 1 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before the first point: the class invariant (both cells at anything). Before any later point: the two cells at
    what the point before left in them, the other scoped buffers untouched, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the point's position says which case it is in; the
    invariant hands the body the two cells at what the point before left (at anything at the first point) and
    takes them back at this point's contents; where an output is idle its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 15 := by omega
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩⟩
    iapply ((kernelRun0_A c (grid0.coords t) _ _ _ _ _ _ _ _ _ _ ((hcond0_0 t).mpr h0) (fun h => h1 ((hcond0_1 t).mp h)) (iblk0 V c 0 t)).2.2.2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _)
        iexact Hoth
      iexact Hg
    isplitl [Ho]; · iexact Ho
    isplitl [H0]; · iexact H0
    isplitl [H1]; · iexists _; iexact H1
    iexists _; iexact H2
  · by_cases h1 : t.val = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_1 out0_C_2 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the cells' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.Kernel.Hand

end
-- ==== Proof.K.Region1.lean ====
/-
  Region 1 of @main (the four-layer chain over a block of 1024 packed rows), the pipeline's half of its frame:
  every input window's staging buffer holds that window's block of its array at every grid point (the row block
  of the packed input moves with the point; the scale and the twelve weight, bias and bias-scale arrays are one
  block each, fetched once); the body loads all of them whole, computes, and stores the output block whole, so
  the output's staging buffer after the body is one function of the fourteen input blocks. Stated at any entry
  contents `V` of the core's buffers and at any float instance.
-/
import proofs.«147168_j38843684225834_2_alg».proof.Proof.Gen.Kernel.Launch
import proofs.«147168_j38843684225834_2_alg».proof.Proof.Gen.Kernel.Skeleton
import proofs.«147168_j38843684225834_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not
    fetched its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not
    fetched its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (where it is not
    fetched its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (where it is not
    fetched its block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (where it is not
    fetched its block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not (where it is not
    fetched its block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not (where it is not
    fetched its block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not (where it is not
    fetched its block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not (where it is not
    fetched its block index has not moved). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, fetched there or not (where it is not
    fetched its block index has not moved). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, fetched there or not (where it is not
    fetched its block index has not moved). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's staging buffer holds its block at every point, fetched there or not (where it is not
    fetched its block index has not moved). -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's staging buffer holds its block at every point, fetched there or not (where it is not
    fetched its block index has not moved). -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_0 : Rect S1024x128 := Rect.unit (s := S1024x128) ![0, 0] S1024x128.size inb_S1024x128_S1024x128_0_0
abbrev r1_1 : Rect S1x1 := Rect.unit (s := S1x1) ![0, 0] S1x1.size inb_S1x1_S1x1_0_0
abbrev r1_2 : Rect S128x512 := Rect.unit (s := S128x512) ![0, 0] S128x512.size inb_S128x512_S128x512_0_0
abbrev r1_3 : Rect S1x512 := Rect.unit (s := S1x512) ![0, 0] S1x512.size inb_S1x512_S1x512_0_0
abbrev r1_4 : Rect S1x512 := Rect.unit (s := S1x512) ![0, 0] S1x512.size inb_S1x512_S1x512_0_0
abbrev r1_5 : Rect S512x256 := Rect.unit (s := S512x256) ![0, 0] S512x256.size inb_S512x256_S512x256_0_0
abbrev r1_6 : Rect S1x256 := Rect.unit (s := S1x256) ![0, 0] S1x256.size inb_S1x256_S1x256_0_0
abbrev r1_7 : Rect S1x256 := Rect.unit (s := S1x256) ![0, 0] S1x256.size inb_S1x256_S1x256_0_0
abbrev r1_8 : Rect S256x256 := Rect.unit (s := S256x256) ![0, 0] S256x256.size inb_S256x256_S256x256_0_0
abbrev r1_9 : Rect S1x256 := Rect.unit (s := S1x256) ![0, 0] S1x256.size inb_S1x256_S1x256_0_0
abbrev r1_10 : Rect S1x256 := Rect.unit (s := S1x256) ![0, 0] S1x256.size inb_S1x256_S1x256_0_0
abbrev r1_11 : Rect S256x40 := Rect.unit (s := S256x40) ![0, 0] S256x40.size inb_S256x40_S256x40_0_0
abbrev r1_12 : Rect S1x40 := Rect.unit (s := S1x40) ![0, 0] S1x40.size inb_S1x40_S1x40_0_0
abbrev r1_13 : Rect S1x40 := Rect.unit (s := S1x40) ![0, 0] S1x40.size inb_S1x40_S1x40_0_0
abbrev r1_14 : Rect S1024x40 := Rect.unit (s := S1024x40) ![0, 0] S1024x40.size inb_S1024x40_S1024x40_0_0

/-! ## What the body leaves in the output window's buffer -/

/-- The output block as the body computes it from the fourteen input blocks: the scale `s` is entry (0,0) of its
    1×1 block; the first two layers' result divided by `s` is one payload of the row block and the first two
    layers' arrays, the last two layers are the other payload over it. One store of the whole block. -/
def out1_14 (x0 : Vec F S1024x128 .f32) (x1 : Vec F S1x1 .f32) (x2 : Vec F S128x512 .bf16) (x3 : Vec F S1x512 .f32) (x4 : Vec F S1x512 .f32) (x5 : Vec F S512x256 .f32) (x6 : Vec F S1x256 .f32) (x7 : Vec F S1x256 .f32) (x8 : Vec F S256x256 .f32) (x9 : Vec F S1x256 .f32) (x10 : Vec F S1x256 .f32) (x11 : Vec F S256x40 .f32) (x12 : Vec F S1x40 .f32) (x13 : Vec F S1x40 .f32) : Vec F S1024x40 .f32 :=
  View.canon [⟨r1_14, k1_pay1 (k1_pay2 (View.ld x1 r1_1)) (k1_pay3 (View.ld x1 r1_1) (View.ld x0 r1_0) (View.ld x2 r1_2) (View.ld x3 r1_3) (View.ld x4 r1_4) (View.ld x5 r1_5) (View.ld x6 r1_6) (View.ld x7 r1_7)) (View.ld x8 r1_8) (View.ld x9 r1_9) (View.ld x10 r1_10) (View.ld x11 r1_11) (View.ld x12 r1_12) (View.ld x13 r1_13)⟩]

/-- The one store covers the output block. -/
theorem cover1_14 (p0 : Vec F S1024x40 .f32) (y : S1024x40.Idx) :
    ∃ pc ∈ ([⟨r1_14, p0⟩] : List (View.Piece (Elt F) S1024x40 .f32)), y ∈ pc.1.set :=
  View.cover_of_tiled [⟨r1_14, p0⟩] S1024x40.size (by rfl) y

/-! ## The body's triple -/

set_option maxHeartbeats 4000000 in
/-- The body on whole staging memrefs, the inputs' at contents `xW` and the output's at anything, runs to the
    continuation holding the inputs' as they were and the output's at `out1_14` of the inputs'. -/
theorem sound_kernel1 (c : Dev nD) (E : Set ℕ) (i : grid1.Coords) (arg0 : Memref sig .tc .vmem S1024x128 .f32) (harg0 : arg0.IsWhole) (arg1 : Memref sig .tc .vmem S1x1 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x40 .f32) (harg11 : arg11.IsWhole) (arg12 : Memref sig .tc .vmem S1x40 .f32) (harg12 : arg12.IsWhole) (arg13 : Memref sig .tc .vmem S1x40 .f32) (harg13 : arg13.IsWhole) (arg14 : Memref sig .tc .vmem S1024x40 .f32) (harg14 : arg14.IsWhole)
    (x0 : Vec F S1024x128 .f32) (x1 : Vec F S1x1 .f32) (x2 : Vec F S128x512 .bf16) (x3 : Vec F S1x512 .f32) (x4 : Vec F S1x512 .f32) (x5 : Vec F S512x256 .f32) (x6 : Vec F S1x256 .f32) (x7 : Vec F S1x256 .f32) (x8 : Vec F S256x256 .f32) (x9 : Vec F S1x256 .f32) (x10 : Vec F S1x256 .f32) (x11 : Vec F S256x40 .f32) (x12 : Vec F S1x40 .f32) (x13 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out1_14 x0 x1 x2 x3 x4 x5 x6 x7 x8 x9 x10 x11 x12 x13)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__mlp_kernel_eq_skeleton]; unfold cc1__mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The pipeline's proof data -/

/-- The proof data of pipeline 1 on core `c`: the arrays as the region finds them; after the body at point `t`
    each input's buffer at its block and the output's at `out1_14` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

set_option maxHeartbeats 4000000 in
/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of @main: host operations, region 0 (the running minimum and maximum), forty-one stretches of host
  operations (the activation scale, and each layer's quantized weights, bias and bias scale repacked block-diagonally),
  region 1 (the four-layer chain), and the final reshape. Each region enters with the core's unscoped buffers at the
  contents the host operations before it leave, and leaves them with its output arrays at what its write-backs
  leave and every other buffer untouched. Here: what the two regions leave, the proof data of the two pipelines at
  their entry contents, and the two regions as segments of the run.
-/
import proofs.«147168_j38843684225834_2_alg».proof.Proof.K.RegionsP
import proofs.«147168_j38843684225834_2_alg».proof.Proof.K.Region0
import proofs.«147168_j38843684225834_2_alg».proof.Proof.K.Region1
import Idealize.ShloMosaic.Lib.Pipeline.RegionsLoop
import Idealize.ShloMosaic.Lib.Pipeline.FrameSuffix

set_option maxRecDepth 65536

noncomputable section

namespace Cert.Kernel.Hand

open Cert.Kernel Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev VR1 (c : Dev nD) (b : Ref sig .tc) : Buf (Elt F) ((c : Thread nD τ).loc b) := GenP.V1 m c b

/-- Region 0 leaves its two output arrays at what its write-backs leave (the last point's), every other buffer as
    entered. -/
def W2 (c : Dev nD) : Valuation τ sig (Elt F) :=
  Function.update (Function.update (GenP.V1 m c) main_v1_0 ((dat0 (VR1 m) c).arrAt 1 cfg0.N)) main_v1_1 ((dat0 (VR1 m) c).arrAt 2 cfg0.N)

/-- The contents the regions leave, up to region 0 only (what region 1's entry contents are computed from). -/
def outsA : GenP.Outs (F := F) := fun _ r c => W2 m c r

/-- Region 1's entry contents, read at the TensorCore's references. -/
abbrev VR43 (c : Dev nD) (b : Ref sig .tc) : Buf (Elt F) ((c : Thread nD τ).loc b) := GenP.V43 m (outsA m) c b

/-- What the two regions leave: region 0 as above, region 1 its one output array at what its write-backs leave. -/
def outs : GenP.Outs (F := F) := fun J r c =>
  if J = 44 then Function.update (GenP.V43 m (outsA m) c) main_v152 ((dat1 (VR43 m) c).arrAt 14 cfg1.N) r else W2 m c r

theorem V2_outs (c : Dev nD) : GenP.V2 m (outs m) c = W2 m c := by
  funext b
  show Function.update (Function.update (GenP.V1 m c) main_v1_0 (W2 m c main_v1_0)) main_v1_1 (W2 m c main_v1_1) b = W2 m c b
  unfold W2
  by_cases h1 : b = main_v1_1
  · subst h1; simp only [Function.update_self]
  · rw [Function.update_of_ne h1, Function.update_of_ne h1]
    by_cases h0 : b = main_v1_0
    · subst h0; simp only [Function.update_self]; rw [Function.update_of_ne (by decide), Function.update_self]
    · rw [Function.update_of_ne h0, Function.update_of_ne h0]

theorem V2_outsA (c : Dev nD) : GenP.V2 m (outsA m) c = W2 m c := by
  funext b
  show Function.update (Function.update (GenP.V1 m c) main_v1_0 (W2 m c main_v1_0)) main_v1_1 (W2 m c main_v1_1) b = W2 m c b
  unfold W2
  by_cases h1 : b = main_v1_1
  · subst h1; simp only [Function.update_self]
  · rw [Function.update_of_ne h1, Function.update_of_ne h1]
    by_cases h0 : b = main_v1_0
    · subst h0; simp only [Function.update_self]; rw [Function.update_of_ne (by decide), Function.update_self]
    · rw [Function.update_of_ne h0, Function.update_of_ne h0]

/-! ## The proof data family and what rides beside the buffers -/

/-- Every pipeline's proof data at its region's entry contents (a literal match on the pipeline's number). -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR43 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- Region 1 leaves its output array at what its write-backs leave, every other buffer as entered. -/
def W44 (c : Dev nD) : Valuation τ sig (Elt F) :=
  Function.update (GenP.V43 m (outsA m) c) main_v152 ((dat1 (VR43 m) c).arrAt 14 cfg1.N)

/-! ## Each region's arrays at its exit -/

theorem hF0 (c : Dev nD) (w : Fin cfg0.W) : (pdats m 0 c).arrAt w cfg0.N = W2 m c (Pipeline.arrRef spec0 w) := by
  match w with
  | ⟨0, _⟩ =>
    show (dat0 (VR1 m) c).arrAt 0 cfg0.N = W2 m c main_v0
    unfold W2
    rw [Function.update_of_ne (by decide), Function.update_of_ne (by decide)]
    exact ((dat0 (VR1 m) c).arrAt_in 0 rfl _).trans (A_eq0 (VR1 m) c 0)
  | ⟨1, _⟩ =>
    show (dat0 (VR1 m) c).arrAt 1 cfg0.N = W2 m c main_v1_0
    unfold W2
    rw [Function.update_of_ne (by decide), Function.update_self]
  | ⟨2, _⟩ =>
    show (dat0 (VR1 m) c).arrAt 2 cfg0.N = W2 m c main_v1_1
    unfold W2
    rw [Function.update_self]

theorem hrest0 (c : Dev nD) : ∀ b : Ref sig .tc, b ∉ Finset.univ.image (Pipeline.arrRef spec0) → W2 m c b = VR1 m c b := by
  intro b hb
  have h1 : (b : DevRef τ sig) ≠ main_v1_1 := fun e => hb (Finset.mem_image.mpr ⟨2, Finset.mem_univ _, (Proc.devRef_injective _ e).symm⟩)
  have h0 : (b : DevRef τ sig) ≠ main_v1_0 := fun e => hb (Finset.mem_image.mpr ⟨1, Finset.mem_univ _, (Proc.devRef_injective _ e).symm⟩)
  unfold W2
  rw [Function.update_of_ne h1, Function.update_of_ne h0]

theorem hF1 (c : Dev nD) (w : Fin cfg1.W) : (pdats m 1 c).arrAt w cfg1.N = W44 m c (Pipeline.arrRef spec1 w) := by
  by_cases hw : w = 14
  · subst hw
    show (dat1 (VR43 m) c).arrAt 14 cfg1.N = W44 m c main_v152
    unfold W44; rw [Function.update_self]
  · have hin : (cfg1.win w).isOut = false := by
      revert hw; revert w; decide
    have hne : ((Pipeline.arrRef spec1 w : Ref sig .tc) : DevRef τ sig) ≠ main_v152 := by
      revert hw; revert w; decide
    show (dat1 (VR43 m) c).arrAt w cfg1.N = W44 m c (Pipeline.arrRef spec1 w)
    unfold W44; rw [Function.update_of_ne hne]
    exact ((dat1 (VR43 m) c).arrAt_in w hin _).trans (A_eq1 (VR43 m) c w)

theorem hrest1 (c : Dev nD) : ∀ b : Ref sig .tc, b ∉ Finset.univ.image (Pipeline.arrRef spec1) → W44 m c b = VR43 m c b := by
  intro b hb
  have h1 : (b : DevRef τ sig) ≠ main_v152 := fun e => hb (Finset.mem_image.mpr ⟨14, Finset.mem_univ _, (Proc.devRef_injective _ e).symm⟩)
  unfold W44
  rw [Function.update_of_ne h1]

/-! ## The regions as segments -/

set_option backward.isDefEq.respectTransparency.types false in
/-- Region 0 over the thread state: entered with every unscoped buffer at the contents the reshape before it leaves,
    left with its two outputs at what the last point wrote back. The generator register goes into the invariant
    and comes out of it; the two scratch cells' named contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (GenP.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (fun b => GenP.V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => GenP.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    rw [Pipeline.ownSems0_none]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => GenP.V1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at what the forty-one host stretches leave,
    left with its output array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR43 m) c).loose
  hwaits := Pipeline.hwaits_of_owed_zero _ _ _ _ L lv 1 fun _ _ => rfl
  pre c := iprop(StableHlo.held (c : Thread nD τ) (Pipeline.ucRefs τ sig) (GenP.V43 m (outsA m) c) ∗ Rr c)
  post c := iprop(StableHlo.held (c : Thread nD τ) (Pipeline.ucRefs τ sig) (W44 m c) ∗ Rr c)
  X c := iprop(∃ r, prngReg c r)
  Y c := iprop(∃ r, prngReg c r)
  Z c := Pipeline.unscopedRest (Ix := Unit) (Name := ℕ) (U := UR sig nD τ) (Lvl := ℕ) spec1 c (fun b => GenP.V43 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => GenP.V43 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => GenP.V43 m (outsA m) c b) (fun b => W44 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' entry and exit contents are the run's -/

/-- Region 1's entry contents depend on what region 0 leaves only. -/
theorem V43_outs (c : Dev nD) : GenP.V43 m (outs m) c = GenP.V43 m (outsA m) c :=
  congrArg (fun v : Valuation τ sig (Elt F) => StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 v))))))))))))))))))))))))))))))))))))))))) ((V2_outs m c).trans (V2_outsA m c).symm)

theorem V44_outs (c : Dev nD) : GenP.V44 m (outs m) c = W44 m c := by
  show Function.update (GenP.V43 m (outs m) c) main_v152 (outs m 44 main_v152 c) = W44 m c
  rw [V43_outs]
  show Function.update (GenP.V43 m (outsA m) c) main_v152 (Function.update (GenP.V43 m (outsA m) c) main_v152 ((dat1 (VR43 m) c).arrAt 14 cfg1.N) main_v152) = W44 m c
  rw [Function.update_self]; rfl

/-! ## The frame -/

set_option maxHeartbeats 4000000 in
set_option backward.isDefEq.respectTransparency.types false in
/-- Every weakly fair execution of @main from memory `m` with zero counters terminates, nothing faulting, and every
    argument array ends as launched: the conditional frame of the run at the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl)
    (hpost0 := fun c => by rw [V2_outs]; exact .rfl)
    (R1 := reg1 m) (hpre1 := fun c => by rw [V43_outs]; exact .rfl)
    (hpost1 := fun c => by rw [V44_outs]; exact .rfl)

end Cert.Kernel.Hand

end
-- ==== Proof.KI.Region0Runs.lean ====
/-
  Region 0 of @main (the running minimum and maximum of the packed input, one block of 8192 rows per grid point),
  the part of its frame the three control cases share, and the body's run in each case. The body keeps the running
  minimum and maximum in two 1×1 scratch cells: at the first point it first resets them to +∞ and −∞, at every
  point it folds the block's minimum and maximum into them, and at the last point it copies them into the two 1×1
  output windows, which are idle (not stored, not written back) at every other point.
-/
import proofs.«147168_j38843684225834_2_alg».proof.Proof.Gen.KernelIdeal.Launch
import proofs.«147168_j38843684225834_2_alg».proof.Proof.Gen.KernelIdeal.Skeleton
import proofs.«147168_j38843684225834_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's block -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions -/

/-- "This is the first point": the reset of the two scratch cells is under it. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- "This is the last point": the copy into the two outputs is under it. -/
abbrev cond0_1 (i : grid0.Coords) : Prop := k0_cond2 i = 1#1
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
theorem liveAt0_1 : ∀ t : Fin cfg0.N, cond0_1 (grid0.coords t) → cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The memrefs the body is called with -/

abbrev VO0_1 : View sig .tc .vmem S1x1 .f32 := (Memref.whole cc0_stg1_0 : Memref sig .tc .vmem S1x1 .f32).view
abbrev VO0_2 : View sig .tc .vmem S1x1 .f32 := (Memref.whole cc0_stg2_0 : Memref sig .tc .vmem S1x1 .f32).view
abbrev ms0_0 (t : Fin cfg0.N) : Memref sig .tc .vmem S8192x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
/-- The two scratch cells: the running minimum and the running maximum. -/
abbrev scM0_0 : Memref sig .tc .vmem S1x1 .f32 := Memref.whole cc0_scratch0
abbrev scM0_1 : Memref sig .tc .vmem S1x1 .f32 := Memref.whole cc0_scratch1
abbrev VS0_0 : View sig .tc .vmem S1x1 .f32 := scM0_0.view
abbrev VS0_1 : View sig .tc .vmem S1x1 .f32 := scM0_1.view

/-- The core's scoped buffers that are neither a staging buffer of this call nor one of its two scratch cells
    (the other call's staging buffers), each whole at some contents: the body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg13_0), ((c : Thread nD τ).loc cc1_stg13_0) ↦{fullShare} f) ∗ (∃ f : Buf (Elt F) ((c : Thread nD τ).loc cc1_stg14_0), ((c : Thread nD τ).loc cc1_stg14_0) ↦{fullShare} f) ∗ (∃ f : Buf (Elt F) ((c : Thread nD τ).loc cc1_stg14_1), ((c : Thread nD τ).loc cc1_stg14_1) ↦{fullShare} f))

/-- The class invariant with the two scratch cells as memrefs owned at some contents, the untouched rest and the
    generator register beside them. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ others0 c) ∗ (∃ r, prngReg c r)) := by
  unfold Pipeline.ΦA others0; rw [scopedRest0_eq]; simp only [scM0_0, scM0_1, owns_whole]; try rfl

/-! ## The body's run, case by case -/

set_option maxHeartbeats 4000000 in
/-- The first point: both conditions decided (reset: yes, copy out: no). The outputs are handed back untouched; the
    two scratch cells, found at anything, end at the pieces the run finds. -/
noncomputable def kernelRun0_A (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨[], [], ?_, ?_, fun xi1 xi2 E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- A middle point: neither condition holds. The scratch cells are found at what the point before left. -/
noncomputable def kernelRun0_B (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (xi1 xi2 : Vec F S1x1 .f32) (E : Set ℕ) (K : PUnit → sProp 𝕄),
        iprop(owns (c : Thread nD τ) arg1 fullShare x0 ∗ owns (c : Thread nD τ) arg2 fullShare xi1 ∗ owns (c : Thread nD τ) arg3 fullShare xi2 ∗ owns (c : Thread nD τ) arg4 fullShare xs0 ∗ owns (c : Thread nD τ) arg5 fullShare xs1
            ∗ (iprop(owns (c : Thread nD τ) arg1 fullShare x0 ∗ owns (c : Thread nD τ) arg2 fullShare xi1 ∗ owns (c : Thread nD τ) arg3 fullShare xi2 ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨[], [], ?_, ?_, fun xi1 xi2 E K => ?run⟩
  case run =>
    simp only [cc0__minmax_kernel_eq_skeleton]; unfold cc0__minmax_kernel_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg1.eq_unread hf0; obtain rfl := harg2.eq_unread hf1; obtain rfl := harg3.eq_unread hf2
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [HS0]; · iexists _; iexact HS0
    iexists _; iexact HS1

set_option maxHeartbeats 4000000 in
/-- The last point: no reset, and the copy into the two outputs, found at anything, which end at the pieces the
    run finds. -/
noncomputable def kernelRun0_C (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) :
    Σ' (L1 : List (View.Piece (Elt F) S1x1 .f32)), Σ' (L2 : List (View.Piece (Elt F) S1x1 .f32)), Σ' (LS0 : List (View.Piece (Elt F) S1x1 .f32)), { LS1 : List (View.Piece (Elt F) S1x1 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d) ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L1) ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc0__minmax_kernel i arg1 harg1 arg2 harg2 arg3 harg3 arg4 harg4 arg5 harg5) K } := by
  refine ⟨?_, ?_, ?_, ?_, fun E K => ?run⟩
  case run =>
    simp only [cc0__minmax_kernel_eq_skeleton]; unfold cc0__minmax_kernel_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg1.eq_unread hf0
    obtain rfl := harg4.eq_unread hfs0; obtain rfl := harg5.eq_unread hfs1
    sl_exec (disch := first | exact hc0 | exact hc1)
    sl_step
    iapply Hk
    isplitl [H0]
    · iexists _; isplitr; · ipureintro; exact harg1.read_unread _
      iexact H0
    isplitl [H1]; · iexists _; iexact H1
    isplitl [H2]; · iexists _; iexact H2
    isplitl [HS0]; · iexists _; iexact HS0
    iexists _; iexact HS1

end Cert.KernelIdeal.Hand

end
-- ==== Proof.KI.Region0.lean ====
/-
  Region 0 of @main, the rest of its frame: what each control case leaves in the two scratch cells and (at the
  last point) in the two outputs, what they hold after every grid point by recursion on the point, the region
  invariant that carries the two scratch cells from one point to the next, the pipeline's proof data, and the
  body obligation at a generic point.
-/
import proofs.«147168_j38843684225834_2_alg».proof.Proof.KI.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first point stores nothing into output 1 (idle there): a placeholder nothing consults. -/
def out0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VO0_1.read (Elt F) (VO0_1.writes (Elt F) VO0_1.junk (kernelRun0_A c i arg1 harg1 arg2 harg2 arg3 harg3 arg4 harg4 arg5 harg5 hc0 hc1 x0).1)
/-- The first point stores nothing into output 2 (idle there): a placeholder nothing consults. -/
def out0_A_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VO0_2.read (Elt F) (VO0_2.writes (Elt F) VO0_2.junk (kernelRun0_A c i arg1 harg1 arg2 harg2 arg3 harg3 arg4 harg4 arg5 harg5 hc0 hc1 x0).2.1)
theorem scover0_A_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) (y : S1x1.Idx) :
    ∃ pc ∈ (kernelRun0_A c i arg1 harg1 arg2 harg2 arg3 harg3 arg4 harg4 arg5 harg5 hc0 hc1 x0).2.2.1, y ∈ pc.1.set :=
  View.cover_of_tiledL (kernelRun0_A c i arg1 harg1 arg2 harg2 arg3 harg3 arg4 harg4 arg5 harg5 hc0 hc1 x0).2.2.1 S1x1.size (by sl_kernel_rfl) y
/-- What the first point leaves in the running-minimum cell. -/
def sout0_A_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VS0_0.read (Elt F) (VS0_0.writes (Elt F) VS0_0.junk (kernelRun0_A c i arg1 harg1 arg2 harg2 arg3 harg3 arg4 harg4 arg5 harg5 hc0 hc1 x0).2.2.1)
theorem scover0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) (y : S1x1.Idx) :
    ∃ pc ∈ (kernelRun0_A c i arg1 harg1 arg2 harg2 arg3 harg3 arg4 harg4 arg5 harg5 hc0 hc1 x0).2.2.2.1, y ∈ pc.1.set :=
  View.cover_of_tiledL (kernelRun0_A c i arg1 harg1 arg2 harg2 arg3 harg3 arg4 harg4 arg5 harg5 hc0 hc1 x0).2.2.2.1 S1x1.size (by sl_kernel_rfl) y
/-- What the first point leaves in the running-maximum cell. -/
def sout0_A_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S8192x128 .f32) : Vec F S1x1 .f32 :=
  VS0_1.read (Elt F) (VS0_1.writes (Elt F) VS0_1.junk (kernelRun0_A c i arg1 harg1 arg2 harg2 arg3 harg3 arg4 harg4 arg5 harg5 hc0 hc1 x0).2.2.2.1)
/-- A middle point stores nothing into output 1: a placeholder nothing consults. -/
def out0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VO0_1.read (Elt F) (VO0_1.writes (Elt F) VO0_1.junk (kernelRun0_B c i arg1 harg1 arg2 harg2 arg3 harg3 arg4 harg4 arg5 harg5 hc0 hc1 x0 xs0 xs1).1)
/-- A middle point stores nothing into output 2: a placeholder nothing consults. -/
def out0_B_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VO0_2.read (Elt F) (VO0_2.writes (Elt F) VO0_2.junk (kernelRun0_B c i arg1 harg1 arg2 harg2 arg3 harg3 arg4 harg4 arg5 harg5 hc0 hc1 x0 xs0 xs1).2.1)
theorem scover0_B_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.2.1, y ∈ pc.1.set :=
  View.cover_of_tiledL (kernelRun0_B c i arg1 harg1 arg2 harg2 arg3 harg3 arg4 harg4 arg5 harg5 hc0 hc1 x0 xs0 xs1).2.2.1 S1x1.size (by sl_kernel_rfl) y
/-- What a middle point leaves in the running-minimum cell. -/
def sout0_B_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 xs0 xs1).2.2.1)
theorem scover0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) (y : S1x1.Idx) :
    ∃ pc ∈ (kernelRun0_B c i arg1 harg1 arg2 harg2 arg3 harg3 arg4 harg4 arg5 harg5 hc0 hc1 x0 xs0 xs1).2.2.2.1, y ∈ pc.1.set :=
  View.cover_of_tiledL (kernelRun0_B c i arg1 harg1 arg2 harg2 arg3 harg3 arg4 harg4 arg5 harg5 hc0 hc1 x0 xs0 xs1).2.2.2.1 S1x1.size (by sl_kernel_rfl) y
/-- What a middle point leaves in the running-maximum cell. -/
def sout0_B_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S8192x128 .f32) (xs0 xs1 : Vec F S1x1 .f32) : Vec F S1x1 .f32 :=
  VS0_1.read (Elt F) (VS0_1.writes (Elt F) VS0_1.junk (kernelRun0_B c i arg1 harg1 arg2 harg2 arg3 harg3 arg4 harg4 arg5 harg5 hc0 hc1 x0 xs0 xs1).2.2.2.1)
theorem cover0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).1, y ∈ pc.1.set :=
  View.cover_of_tiledL (kernelRun0_C c i arg1 harg1 arg2 harg2 arg3 harg3 arg4 harg4 arg5 harg5 hc0 hc1 x0 xs0 xs1).1 S1x1.size (by sl_kernel_rfl) y
/-- What the last point leaves in output 1's staging buffer. -/
def out0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VO0_1.read (Elt F) (VO0_1.writes (Elt F) VO0_1.junk (kernelRun0_C c i arg1 harg1 arg2 harg2 arg3 harg3 arg4 harg4 arg5 harg5 hc0 hc1 x0 xs0 xs1).1)
theorem cover0_C_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.1, y ∈ pc.1.set :=
  View.cover_of_tiledL (kernelRun0_C c i arg1 harg1 arg2 harg2 arg3 harg3 arg4 harg4 arg5 harg5 hc0 hc1 x0 xs0 xs1).2.1 S1x1.size (by sl_kernel_rfl) y
/-- What the last point leaves in output 2's staging buffer. -/
def out0_C_2 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VO0_2.read (Elt F) (VO0_2.writes (Elt F) VO0_2.junk (kernelRun0_C c i arg1 harg1 arg2 harg2 arg3 harg3 arg4 harg4 arg5 harg5 hc0 hc1 x0 xs0 xs1).2.1)
theorem scover0_C_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.1, y ∈ pc.1.set :=
  View.cover_of_tiledL (kernelRun0_C c i arg1 harg1 arg2 harg2 arg3 harg3 arg4 harg4 arg5 harg5 hc0 hc1 x0 xs0 xs1).2.2.1 S1x1.size (by sl_kernel_rfl) y
/-- What the last point leaves in the running-minimum cell. -/
def sout0_C_0 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 xs0 xs1).2.2.1)
theorem scover0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) (y : S1x1.Idx) :
    ∃ pc ∈ (kernelRun0_C c i arg1 harg1 arg2 harg2 arg3 harg3 arg4 harg4 arg5 harg5 hc0 hc1 x0 xs0 xs1).2.2.2.1, y ∈ pc.1.set :=
  View.cover_of_tiledL (kernelRun0_C c i arg1 harg1 arg2 harg2 arg3 harg3 arg4 harg4 arg5 harg5 hc0 hc1 x0 xs0 xs1).2.2.2.1 S1x1.size (by sl_kernel_rfl) y
/-- What the last point leaves in the running-maximum cell. -/
def sout0_C_1 (c : Dev nD) (i : grid0.Coords) (arg1 : Memref sig .tc .vmem S8192x128 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S8192x128 .f32) (xs0 xs1 : Vec F S1x1 .f32) : Vec F S1x1 .f32 :=
  VS0_1.read (Elt F) (VS0_1.writes (Elt F) VS0_1.junk (kernelRun0_C c i arg1 harg1 arg2 harg2 arg3 harg3 arg4 harg4 arg5 harg5 hc0 hc1 x0 xs0 xs1).2.2.2.1)
/-! ## What the outputs and the two scratch cells hold after each point -/

/-- The accumulation: (output 1, output 2, running minimum, running maximum) after the body at position `n`. The
    first point runs the reset case on the input block; every later point runs its case on the input block and
    on what the point before left in the two cells; the last point is the one that also fills the outputs. -/
def outsAt0 (c : Dev nD) : (n : ℕ) → n < cfg0.N → Vec F S1x1 .f32 × Vec F S1x1 .f32 × Vec F S1x1 .f32 × Vec F S1x1 .f32
  | 0, hn => (out0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0_0 ⟨0, hn⟩).mpr rfl) (fun h => absurd ((hcond0_1 ⟨0, hn⟩).mp h) (show ¬ (0 : ℕ) = 15 by decide)) (iblk0 V c 0 ⟨0, hn⟩))
  | n + 1, hn =>
    if h1 : n + 1 = 15 then
      (out0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2,
        sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) ((hcond0_1 ⟨n + 1, hn⟩).mpr h1) (iblk0 V c 0 ⟨n + 1, hn⟩) (outsAt0 c n (Nat.lt_of_succ_lt hn)).2.2.1 (outsAt0 c n (Nat.lt_of_succ_lt hn)).2.2.2)
    else
      (out0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2,
        sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => absurd ((hcond0_0 ⟨n + 1, hn⟩).mp h) (Nat.succ_ne_zero n)) (fun h => h1 ((hcond0_1 ⟨n + 1, hn⟩).mp h)) (iblk0 V c 0 ⟨n + 1, hn⟩) (outsAt0 c n (Nat.lt_of_succ_lt hn)).2.2.1 (outsAt0 c n (Nat.lt_of_succ_lt hn)).2.2.2)

theorem outsAt0_A (c : Dev nD) (t : Fin cfg0.N) (h0 : t.val = 0) (h1 : ¬t.val = 15) :
    outsAt0 V c t.val t.isLt = (out0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), out0_A_2 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_0 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t), sout0_A_1 c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (out0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt = (out0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_2 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact absurd rfl h0
  | succ n => exact (dif_pos h1).trans rfl

/-! ## The region invariant -/

/-- Before the first point: the class invariant (both cells at anything). Before any later point: the two cells at
    what the point before left in them, the other scoped buffers untouched, the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ others0 c) ∗ (∃ r, prngReg c r)) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t.val t.isLt).1
    | ⟨2, _⟩ => (outsAt0 V c t.val t.isLt).2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t.val t.isLt).1 := by dsimp only [dat0]
theorem after0_2 (c : Dev nD) (t : Fin cfg0.N) : (dat0 V c).after 2 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input's memref holds its block; the point's position says which case it is in; the
    invariant hands the body the two cells at what the point before left (at anything at the first point) and
    takes them back at this point's contents; where an output is idle its buffer is handed back untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS V c (t.val + 1) t.isLt from rfl, PhiS_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have h1 : ¬t.val = 15 := by omega
    rw [Dat.leavesExact_idle (dat0 V c) 1 t (idleAt0_1 t (fun h => h1 ((hcond0_1 t).mp h))) (noFlush0_1 t (fun h => h1 ((hcond0_1 t).mp h)))]
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A_0 sout0_A_1; (try dsimp only)
    rw [PhiS_castSucc V c t, PhiS_zero V c _ _ h0, PhiA0_eq]
    iintro ⟨⟨⟨HS0, HS1, Hoth⟩, Hg⟩, Ho, ⟨%d0, H0⟩, ⟨%d1, H1⟩, ⟨%d2, H2⟩⟩
    iapply ((kernelRun0_A c (grid0.coords t) _ _ _ _ _ _ _ _ _ _ ((hcond0_0 t).mpr h0) (fun h => h1 ((hcond0_1 t).mp h)) (iblk0 V c 0 t)).2.2.2.2 _ _ Set.univ _)
    isplitl [H0]; · iexact H0
    isplitl [H1]; · iexact H1
    isplitl [H2]; · iexact H2
    isplitl [HS0]; · iexact HS0
    isplitl [HS1]; · iexact HS1
    iintro ⟨H0, H1, H2, ⟨%es0, HS0⟩, ⟨%es1, HS1⟩⟩
    isplitl [HS0 HS1 Hoth Hg]
    · isplitl [HS0 HS1 Hoth]
      · isplitl [HS0]
        · unfold owns; iexists _; isplitr
          swap; · iexact HS0
          ipureintro; exact View.read_writes_of_cover _ _ _ _ _ (scover0_A_0 c _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _)
        iexact Hoth
      iexact Hg
    isplitl [Ho]; · iexact Ho
    isplitl [H0]; · iexact H0
    isplitl [H1]; · iexists _; iexact H1
    iexists _; iexact H2
  · by_cases h1 : t.val = 15
    · rw [show (dat0 V c).leavesExact 1 t = owns (c : Thread nD τ) (ms0_1 t) fullShare ((dat0 V c).after 1 t) from by
        unfold Dat.leavesExact; rw [liveAt0_1 t ((hcond0_1 t).mpr h1)], after0_1]
      rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C_1 out0_C_2 sout0_C_0 sout0_C_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩⟩
      iapply ((kernelRun0_C c (grid0.coords t) _ _ _ _ _ _ _ _ _ _ (fun h => h0 ((hcond0_0 t).mp h)) ((hcond0_1 t).mpr h1) (iblk0 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_C_0 c _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover0_C_1 c _ _ _ _ _ _ _ _ _ _ _ _ _ _ _ _)
      unfold owns; iexists _; isplitr
      swap; · iexact H2
      ipureintro; exact View.read_writes_of_cover _ _ _ _ _ (cover0_C_2 c _ _ _ _ _ _ _ _ _ _ _ _ _ _ _ _)
    · rw [Dat.leavesExact_idle (dat0 V c) 1 t (idleAt0_1 t (fun h => h1 ((hcond0_1 t).mp h))) (noFlush0_1 t (fun h => h1 ((hcond0_1 t).mp h)))]
      rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B_0 sout0_B_1; (try dsimp only)
      rw [PhiS_castSucc V c t, PhiS_pos V c _ _ h0]
      iintro ⟨⟨⟨HS0, HS1, Hoth⟩, Hg⟩, Ho, ⟨%d0, H0⟩, ⟨%d1, H1⟩, ⟨%d2, H2⟩⟩
      iapply ((kernelRun0_B c (grid0.coords t) _ _ _ _ _ _ _ _ _ _ (fun h => h0 ((hcond0_0 t).mp h)) (fun h => h1 ((hcond0_1 t).mp h)) (iblk0 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class invariant back: the cells' named contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 16 := N_0; omega), PhiA0_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

end Cert.KernelIdeal.Hand

end
-- ==== Proof.KI.Region1.lean ====
/-
  Region 1 of @main (the four-layer chain over a block of 1024 packed rows), the pipeline's half of its frame:
  every input window's staging buffer holds that window's block of its array at every grid point (the row block
  of the packed input moves with the point; the scale and the twelve weight, bias and bias-scale arrays are one
  block each, fetched once); the body loads all of them whole, computes, and stores the output block whole, so
  the output's staging buffer after the body is one function of the fourteen input blocks. Stated at any entry
  contents `V` of the core's buffers and at any float instance.
-/
import proofs.«147168_j38843684225834_2_alg».proof.Proof.Gen.KernelIdeal.Launch
import proofs.«147168_j38843684225834_2_alg».proof.Proof.Gen.KernelIdeal.Skeleton
import proofs.«147168_j38843684225834_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not (where it is not
    fetched its block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not (where it is not
    fetched its block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not (where it is not
    fetched its block index has not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block at every point, fetched there or not (where it is not
    fetched its block index has not moved). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block at every point, fetched there or not (where it is not
    fetched its block index has not moved). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's staging buffer holds its block at every point, fetched there or not (where it is not
    fetched its block index has not moved). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's staging buffer holds its block at every point, fetched there or not (where it is not
    fetched its block index has not moved). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's staging buffer holds its block at every point, fetched there or not (where it is not
    fetched its block index has not moved). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-- Input window 8's staging buffer holds its block at every point, fetched there or not (where it is not
    fetched its block index has not moved). -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- Input window 9's staging buffer holds its block at every point, fetched there or not (where it is not
    fetched its block index has not moved). -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-- Input window 10's staging buffer holds its block at every point, fetched there or not (where it is not
    fetched its block index has not moved). -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-- Input window 11's staging buffer holds its block at every point, fetched there or not (where it is not
    fetched its block index has not moved). -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

/-- Input window 12's staging buffer holds its block at every point, fetched there or not (where it is not
    fetched its block index has not moved). -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-- Input window 13's staging buffer holds its block at every point, fetched there or not (where it is not
    fetched its block index has not moved). -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a buffer whole -/

abbrev r1_0 : Rect S1024x128 := Rect.unit (s := S1024x128) ![0, 0] S1024x128.size inb_S1024x128_S1024x128_0_0
abbrev r1_1 : Rect S1x1 := Rect.unit (s := S1x1) ![0, 0] S1x1.size inb_S1x1_S1x1_0_0
abbrev r1_2 : Rect S128x512 := Rect.unit (s := S128x512) ![0, 0] S128x512.size inb_S128x512_S128x512_0_0
abbrev r1_3 : Rect S1x512 := Rect.unit (s := S1x512) ![0, 0] S1x512.size inb_S1x512_S1x512_0_0
abbrev r1_4 : Rect S1x512 := Rect.unit (s := S1x512) ![0, 0] S1x512.size inb_S1x512_S1x512_0_0
abbrev r1_5 : Rect S512x256 := Rect.unit (s := S512x256) ![0, 0] S512x256.size inb_S512x256_S512x256_0_0
abbrev r1_6 : Rect S1x256 := Rect.unit (s := S1x256) ![0, 0] S1x256.size inb_S1x256_S1x256_0_0
abbrev r1_7 : Rect S1x256 := Rect.unit (s := S1x256) ![0, 0] S1x256.size inb_S1x256_S1x256_0_0
abbrev r1_8 : Rect S256x256 := Rect.unit (s := S256x256) ![0, 0] S256x256.size inb_S256x256_S256x256_0_0
abbrev r1_9 : Rect S1x256 := Rect.unit (s := S1x256) ![0, 0] S1x256.size inb_S1x256_S1x256_0_0
abbrev r1_10 : Rect S1x256 := Rect.unit (s := S1x256) ![0, 0] S1x256.size inb_S1x256_S1x256_0_0
abbrev r1_11 : Rect S256x40 := Rect.unit (s := S256x40) ![0, 0] S256x40.size inb_S256x40_S256x40_0_0
abbrev r1_12 : Rect S1x40 := Rect.unit (s := S1x40) ![0, 0] S1x40.size inb_S1x40_S1x40_0_0
abbrev r1_13 : Rect S1x40 := Rect.unit (s := S1x40) ![0, 0] S1x40.size inb_S1x40_S1x40_0_0
abbrev r1_14 : Rect S1024x40 := Rect.unit (s := S1024x40) ![0, 0] S1024x40.size inb_S1024x40_S1024x40_0_0

/-! ## What the body leaves in the output window's buffer -/

/-- The output block as the body computes it from the fourteen input blocks: the scale `s` is entry (0,0) of its
    1×1 block; the first two layers' result divided by `s` is one payload of the row block and the first two
    layers' arrays, the last two layers are the other payload over it. One store of the whole block. -/
def out1_14 (x0 : Vec F S1024x128 .f32) (x1 : Vec F S1x1 .f32) (x2 : Vec F S128x512 .bf16) (x3 : Vec F S1x512 .f32) (x4 : Vec F S1x512 .f32) (x5 : Vec F S512x256 .f32) (x6 : Vec F S1x256 .f32) (x7 : Vec F S1x256 .f32) (x8 : Vec F S256x256 .f32) (x9 : Vec F S1x256 .f32) (x10 : Vec F S1x256 .f32) (x11 : Vec F S256x40 .f32) (x12 : Vec F S1x40 .f32) (x13 : Vec F S1x40 .f32) : Vec F S1024x40 .f32 :=
  View.canon [⟨r1_14, k1_pay1 (k1_pay2 (View.ld x1 r1_1)) (k1_pay3 (View.ld x1 r1_1) (View.ld x0 r1_0) (View.ld x2 r1_2) (View.ld x3 r1_3) (View.ld x4 r1_4) (View.ld x5 r1_5) (View.ld x6 r1_6) (View.ld x7 r1_7)) (View.ld x8 r1_8) (View.ld x9 r1_9) (View.ld x10 r1_10) (View.ld x11 r1_11) (View.ld x12 r1_12) (View.ld x13 r1_13)⟩]

/-- The one store covers the output block. -/
theorem cover1_14 (p0 : Vec F S1024x40 .f32) (y : S1024x40.Idx) :
    ∃ pc ∈ ([⟨r1_14, p0⟩] : List (View.Piece (Elt F) S1024x40 .f32)), y ∈ pc.1.set :=
  View.cover_of_tiled [⟨r1_14, p0⟩] S1024x40.size (by rfl) y

/-! ## The body's triple -/

set_option maxHeartbeats 4000000 in
/-- The body on whole staging memrefs, the inputs' at contents `xW` and the output's at anything, runs to the
    continuation holding the inputs' as they were and the output's at `out1_14` of the inputs'. -/
theorem sound_kernel1 (c : Dev nD) (E : Set ℕ) (i : grid1.Coords) (arg0 : Memref sig .tc .vmem S1024x128 .f32) (harg0 : arg0.IsWhole) (arg1 : Memref sig .tc .vmem S1x1 .f32) (harg1 : arg1.IsWhole) (arg2 : Memref sig .tc .vmem S128x512 .bf16) (harg2 : arg2.IsWhole) (arg3 : Memref sig .tc .vmem S1x512 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S256x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S256x40 .f32) (harg11 : arg11.IsWhole) (arg12 : Memref sig .tc .vmem S1x40 .f32) (harg12 : arg12.IsWhole) (arg13 : Memref sig .tc .vmem S1x40 .f32) (harg13 : arg13.IsWhole) (arg14 : Memref sig .tc .vmem S1024x40 .f32) (harg14 : arg14.IsWhole)
    (x0 : Vec F S1024x128 .f32) (x1 : Vec F S1x1 .f32) (x2 : Vec F S128x512 .bf16) (x3 : Vec F S1x512 .f32) (x4 : Vec F S1x512 .f32) (x5 : Vec F S512x256 .f32) (x6 : Vec F S1x256 .f32) (x7 : Vec F S1x256 .f32) (x8 : Vec F S256x256 .f32) (x9 : Vec F S1x256 .f32) (x10 : Vec F S1x256 .f32) (x11 : Vec F S256x40 .f32) (x12 : Vec F S1x40 .f32) (x13 : Vec F S1x40 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare (out1_14 x0 x1 x2 x3 x4 x5 x6 x7 x8 x9 x10 x11 x12 x13)) -∗ K ⟨⟩))
      ⊢ wp frame (wpE (defs₀ (F := F)) Variants.none c none) E (cc1__mlp_kernel i arg0 harg0 arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__mlp_kernel_eq_skeleton]; unfold cc1__mlp_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0; subst hf1; subst hf2; subst hf3; subst hf4; subst hf5; subst hf6; subst hf7; subst hf8; subst hf9; subst hf10; subst hf11; subst hf12; subst hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover1_14 _)

/-! ## The pipeline's proof data -/

/-- The proof data of pipeline 1 on core `c`: the arrays as the region finds them; after the body at point `t`
    each input's buffer at its block and the output's at `out1_14` of the input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = out1_14 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t))

set_option maxHeartbeats 4000000 in
/-- The body at any point: the inputs' memrefs hold their blocks, so the body's triple applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel1 c Set.univ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of @main: host operations, region 0 (the running minimum and maximum), forty-one stretches of host
  operations (the activation scale, and each layer's quantized weights, bias and bias scale repacked block-diagonally),
  region 1 (the four-layer chain), and the final reshape. Each region enters with the core's unscoped buffers at the
  contents the host operations before it leave, and leaves them with its output arrays at what its write-backs
  leave and every other buffer untouched. Here: what the two regions leave, the proof data of the two pipelines at
  their entry contents, and the two regions as segments of the run.
-/
import proofs.«147168_j38843684225834_2_alg».proof.Proof.KI.RegionsP
import proofs.«147168_j38843684225834_2_alg».proof.Proof.KI.Region0
import proofs.«147168_j38843684225834_2_alg».proof.Proof.KI.Region1
import Idealize.ShloMosaic.Lib.Pipeline.RegionsLoop
import Idealize.ShloMosaic.Lib.Pipeline.FrameSuffix

set_option maxRecDepth 65536

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave -/

/-- Region 0's entry contents, read at the TensorCore's references. -/
abbrev VR1 (c : Dev nD) (b : Ref sig .tc) : Buf (Elt F) ((c : Thread nD τ).loc b) := GenP.V1 m c b

/-- Region 0 leaves its two output arrays at what its write-backs leave (the last point's), every other buffer as
    entered. -/
def W2 (c : Dev nD) : Valuation τ sig (Elt F) :=
  Function.update (Function.update (GenP.V1 m c) main_v1_0 ((dat0 (VR1 m) c).arrAt 1 cfg0.N)) main_v1_1 ((dat0 (VR1 m) c).arrAt 2 cfg0.N)

/-- The contents the regions leave, up to region 0 only (what region 1's entry contents are computed from). -/
def outsA : GenP.Outs (F := F) := fun _ r c => W2 m c r

/-- Region 1's entry contents, read at the TensorCore's references. -/
abbrev VR43 (c : Dev nD) (b : Ref sig .tc) : Buf (Elt F) ((c : Thread nD τ).loc b) := GenP.V43 m (outsA m) c b

/-- What the two regions leave: region 0 as above, region 1 its one output array at what its write-backs leave. -/
def outs : GenP.Outs (F := F) := fun J r c =>
  if J = 44 then Function.update (GenP.V43 m (outsA m) c) main_v152 ((dat1 (VR43 m) c).arrAt 14 cfg1.N) r else W2 m c r

theorem V2_outs (c : Dev nD) : GenP.V2 m (outs m) c = W2 m c := by
  funext b
  show Function.update (Function.update (GenP.V1 m c) main_v1_0 (W2 m c main_v1_0)) main_v1_1 (W2 m c main_v1_1) b = W2 m c b
  unfold W2
  by_cases h1 : b = main_v1_1
  · subst h1; simp only [Function.update_self]
  · rw [Function.update_of_ne h1, Function.update_of_ne h1]
    by_cases h0 : b = main_v1_0
    · subst h0; simp only [Function.update_self]; rw [Function.update_of_ne (by decide), Function.update_self]
    · rw [Function.update_of_ne h0, Function.update_of_ne h0]

theorem V2_outsA (c : Dev nD) : GenP.V2 m (outsA m) c = W2 m c := by
  funext b
  show Function.update (Function.update (GenP.V1 m c) main_v1_0 (W2 m c main_v1_0)) main_v1_1 (W2 m c main_v1_1) b = W2 m c b
  unfold W2
  by_cases h1 : b = main_v1_1
  · subst h1; simp only [Function.update_self]
  · rw [Function.update_of_ne h1, Function.update_of_ne h1]
    by_cases h0 : b = main_v1_0
    · subst h0; simp only [Function.update_self]; rw [Function.update_of_ne (by decide), Function.update_self]
    · rw [Function.update_of_ne h0, Function.update_of_ne h0]

/-! ## The proof data family and what rides beside the buffers -/

/-- Every pipeline's proof data at its region's entry contents (a literal match on the pipeline's number). -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR43 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev Rr (c : Dev nD) : sProp 𝕄 := iprop((∃ r, prngReg c r) ∗ ∃ W, owes (c : Thread nD τ) (0 : CellTallies nD τ sig Unit) W)

/-- Region 1 leaves its output array at what its write-backs leave, every other buffer as entered. -/
def W44 (c : Dev nD) : Valuation τ sig (Elt F) :=
  Function.update (GenP.V43 m (outsA m) c) main_v152 ((dat1 (VR43 m) c).arrAt 14 cfg1.N)

/-! ## Each region's arrays at its exit -/

theorem hF0 (c : Dev nD) (w : Fin cfg0.W) : (pdats m 0 c).arrAt w cfg0.N = W2 m c (Pipeline.arrRef spec0 w) := by
  match w with
  | ⟨0, _⟩ =>
    show (dat0 (VR1 m) c).arrAt 0 cfg0.N = W2 m c main_v0
    unfold W2
    rw [Function.update_of_ne (by decide), Function.update_of_ne (by decide)]
    exact ((dat0 (VR1 m) c).arrAt_in 0 rfl _).trans (A_eq0 (VR1 m) c 0)
  | ⟨1, _⟩ =>
    show (dat0 (VR1 m) c).arrAt 1 cfg0.N = W2 m c main_v1_0
    unfold W2
    rw [Function.update_of_ne (by decide), Function.update_self]
  | ⟨2, _⟩ =>
    show (dat0 (VR1 m) c).arrAt 2 cfg0.N = W2 m c main_v1_1
    unfold W2
    rw [Function.update_self]

theorem hrest0 (c : Dev nD) : ∀ b : Ref sig .tc, b ∉ Finset.univ.image (Pipeline.arrRef spec0) → W2 m c b = VR1 m c b := by
  intro b hb
  have h1 : (b : DevRef τ sig) ≠ main_v1_1 := fun e => hb (Finset.mem_image.mpr ⟨2, Finset.mem_univ _, (Proc.devRef_injective _ e).symm⟩)
  have h0 : (b : DevRef τ sig) ≠ main_v1_0 := fun e => hb (Finset.mem_image.mpr ⟨1, Finset.mem_univ _, (Proc.devRef_injective _ e).symm⟩)
  unfold W2
  rw [Function.update_of_ne h1, Function.update_of_ne h0]

theorem hF1 (c : Dev nD) (w : Fin cfg1.W) : (pdats m 1 c).arrAt w cfg1.N = W44 m c (Pipeline.arrRef spec1 w) := by
  by_cases hw : w = 14
  · subst hw
    show (dat1 (VR43 m) c).arrAt 14 cfg1.N = W44 m c main_v152
    unfold W44; rw [Function.update_self]
  · have hin : (cfg1.win w).isOut = false := by
      revert hw; revert w; decide
    have hne : ((Pipeline.arrRef spec1 w : Ref sig .tc) : DevRef τ sig) ≠ main_v152 := by
      revert hw; revert w; decide
    show (dat1 (VR43 m) c).arrAt w cfg1.N = W44 m c (Pipeline.arrRef spec1 w)
    unfold W44; rw [Function.update_of_ne hne]
    exact ((dat1 (VR43 m) c).arrAt_in w hin _).trans (A_eq1 (VR43 m) c w)

theorem hrest1 (c : Dev nD) : ∀ b : Ref sig .tc, b ∉ Finset.univ.image (Pipeline.arrRef spec1) → W44 m c b = VR43 m c b := by
  intro b hb
  have h1 : (b : DevRef τ sig) ≠ main_v152 := fun e => hb (Finset.mem_image.mpr ⟨14, Finset.mem_univ _, (Proc.devRef_injective _ e).symm⟩)
  unfold W44
  rw [Function.update_of_ne h1]

/-! ## The regions as segments -/

set_option backward.isDefEq.respectTransparency.types false in
/-- Region 0 over the thread state: entered with every unscoped buffer at the contents the reshape before it leaves,
    left with its two outputs at what the last point wrote back. The generator register goes into the invariant
    and comes out of it; the two scratch cells' named contents are forgotten at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (GenP.V1 m c) ∗ Rr c)
  post c := iprop(StableHlo.held (c : Thread nD τ) (Pipeline.ucRefs τ sig) (W2 m c) ∗ Rr c)
  X c := iprop(∃ r, prngReg c r)
  Y c := iprop(∃ r, prngReg c r)
  Z c := Pipeline.unscopedRest (Ix := Unit) (Name := ℕ) (U := UR sig nD τ) (Lvl := ℕ) spec0 c (fun b => GenP.V1 m c b)
  hentry c := by
    rw [Pipeline.ownSems0_none]
    have hsplit := Pipeline.arrays_of_unscopedBufs (p := 0) (pcfgs (F := F)) adm (pdats m) launch0.win launch0.arr_whole c
      ((pdats m 0 c).share_full fun _ => rfl) (fun b => GenP.V1 m c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (VR1 m) c)
    unfold Pipeline.ΦA
    iintro ⟨Hp, -, Hr⟩
    isplitl [Hr]; · iexact Hr
    iexact Hp
  hout c := by
    rw [Pipeline.ownSems0_none]
    refine BIBase.Entails.trans (hout0 (VR1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => GenP.V1 m c b) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at what the forty-one host stretches leave,
    left with its output array at what its write-backs leave. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR43 m) c).loose
  hwaits := Pipeline.hwaits_of_owed_zero _ _ _ _ L lv 1 fun _ _ => rfl
  pre c := iprop(StableHlo.held (c : Thread nD τ) (Pipeline.ucRefs τ sig) (GenP.V43 m (outsA m) c) ∗ Rr c)
  post c := iprop(StableHlo.held (c : Thread nD τ) (Pipeline.ucRefs τ sig) (W44 m c) ∗ Rr c)
  X c := iprop(∃ r, prngReg c r)
  Y c := iprop(∃ r, prngReg c r)
  Z c := Pipeline.unscopedRest (Ix := Unit) (Name := ℕ) (U := UR sig nD τ) (Lvl := ℕ) spec1 c (fun b => GenP.V43 m (outsA m) c b)
  hentry c := by
    rw [Pipeline.ownSems0_none]
    have hsplit := Pipeline.arrays_of_unscopedBufs (p := 1) (pcfgs (F := F)) adm (pdats m) launch1.win launch1.arr_whole c
      ((pdats m 1 c).share_full fun _ => rfl) (fun b => GenP.V43 m (outsA m) c b) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]
    unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (fun b => GenP.V43 m (outsA m) c b) (fun b => W44 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The regions' entry and exit contents are the run's -/

/-- Region 1's entry contents depend on what region 0 leaves only. -/
theorem V43_outs (c : Dev nD) : GenP.V43 m (outs m) c = GenP.V43 m (outsA m) c :=
  congrArg (fun v : Valuation τ sig (Elt F) => StableHlo.after hostOps1_40 (StableHlo.after hostOps1_39 (StableHlo.after hostOps1_38 (StableHlo.after hostOps1_37 (StableHlo.after hostOps1_36 (StableHlo.after hostOps1_35 (StableHlo.after hostOps1_34 (StableHlo.after hostOps1_33 (StableHlo.after hostOps1_32 (StableHlo.after hostOps1_31 (StableHlo.after hostOps1_30 (StableHlo.after hostOps1_29 (StableHlo.after hostOps1_28 (StableHlo.after hostOps1_27 (StableHlo.after hostOps1_26 (StableHlo.after hostOps1_25 (StableHlo.after hostOps1_24 (StableHlo.after hostOps1_23 (StableHlo.after hostOps1_22 (StableHlo.after hostOps1_21 (StableHlo.after hostOps1_20 (StableHlo.after hostOps1_19 (StableHlo.after hostOps1_18 (StableHlo.after hostOps1_17 (StableHlo.after hostOps1_16 (StableHlo.after hostOps1_15 (StableHlo.after hostOps1_14 (StableHlo.after hostOps1_13 (StableHlo.after hostOps1_12 (StableHlo.after hostOps1_11 (StableHlo.after hostOps1_10 (StableHlo.after hostOps1_9 (StableHlo.after hostOps1_8 (StableHlo.after hostOps1_7 (StableHlo.after hostOps1_6 (StableHlo.after hostOps1_5 (StableHlo.after hostOps1_4 (StableHlo.after hostOps1_3 (StableHlo.after hostOps1_2 (StableHlo.after hostOps1_1 (StableHlo.after hostOps1 v))))))))))))))))))))))))))))))))))))))))) ((V2_outs m c).trans (V2_outsA m c).symm)

theorem V44_outs (c : Dev nD) : GenP.V44 m (outs m) c = W44 m c := by
  show Function.update (GenP.V43 m (outs m) c) main_v152 (outs m 44 main_v152 c) = W44 m c
  rw [V43_outs]
  show Function.update (GenP.V43 m (outsA m) c) main_v152 (Function.update (GenP.V43 m (outsA m) c) main_v152 ((dat1 (VR43 m) c).arrAt 14 cfg1.N) main_v152) = W44 m c
  rw [Function.update_self]; rfl

/-! ## The frame -/

set_option maxHeartbeats 4000000 in
set_option backward.isDefEq.respectTransparency.types false in
/-- Every weakly fair execution of @main from memory `m` with zero counters terminates, nothing faulting, and every
    argument array ends as launched: the conditional frame of the run at the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  GenP.frame_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl)
    (hpost0 := fun c => by rw [V2_outs]; exact .rfl)
    (R1 := reg1 m) (hpre1 := fun c => by rw [V43_outs]; exact .rfl)
    (hpost1 := fun c => by rw [V44_outs]; exact .rfl)

end Cert.KernelIdeal.Hand

end
-- ==== Proof.KI.RunCond.lean ====
/-
  The run of @main with every unscoped buffer's final contents in its post: from the two regions' records, every
  weakly fair execution terminates, nothing faulting, and on every core every unscoped buffer ends at the last
  valuation of the run — in particular the result buffer, at the final reshape of what region 1 leaves.
-/
import proofs.«147168_j38843684225834_2_alg».proof.Proof.KI.RegionsP

-- decided memberships and the launch kit's enumerations over 285 references recurse past the default depth
set_option maxRecDepth 65536

noncomputable section

namespace Cert.KernelIdeal.GenP
open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ) (outs : Outs (F := F))

section
variable {Ix : Type} [DecidableEq Ix] {U : Type} [URA U] {Lvl : Type} [Preorder Lvl]
end

set_option maxHeartbeats 4000000 in
set_option backward.isDefEq.respectTransparency.types false in
/-- The conditional run. Given, per region, a segment record entered from the thread state before it and left at the
    one after it, every weakly fair execution of @main from memory `m` with zero counters terminates and every final
    memory holds, on every core, each unscoped buffer at the last valuation. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V43 m outs c) ∗ E 1 c) ⊢ R1.pre c)
    (hpost1 : ∀ c : Dev nD, R1.post c ⊢ iprop(StableHlo.held (c : Thread nD τ) (Pipeline.ucRefs τ sig) (V44 m outs c) ∗ E 2 c)) :
    θ_run defs (onTc (τ := τ) (main (F := F))) ⟨m, fun _ => 0, ρ⟩ (fun r => ∀ c : Dev nD,
      ∀ b ∈ Pipeline.ucRefs τ sig, r.2.mem (((c.tc : Thread nD τ)).1, b) = V45 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          StableHlo.seq hostOps1_11,
          StableHlo.seq hostOps1_12,
          StableHlo.seq hostOps1_13,
          StableHlo.seq hostOps1_14,
          StableHlo.seq hostOps1_15,
          StableHlo.seq hostOps1_16,
          StableHlo.seq hostOps1_17,
          StableHlo.seq hostOps1_18,
          StableHlo.seq hostOps1_19,
          StableHlo.seq hostOps1_20,
          StableHlo.seq hostOps1_21,
          StableHlo.seq hostOps1_22,
          StableHlo.seq hostOps1_23,
          StableHlo.seq hostOps1_24,
          StableHlo.seq hostOps1_25,
          StableHlo.seq hostOps1_26,
          StableHlo.seq hostOps1_27,
          StableHlo.seq hostOps1_28,
          StableHlo.seq hostOps1_29,
          StableHlo.seq hostOps1_30,
          StableHlo.seq hostOps1_31,
          StableHlo.seq hostOps1_32,
          StableHlo.seq hostOps1_33,
          StableHlo.seq hostOps1_34,
          StableHlo.seq hostOps1_35,
          StableHlo.seq hostOps1_36,
          StableHlo.seq hostOps1_37,
          StableHlo.seq hostOps1_38,
          StableHlo.seq hostOps1_39,
          StableHlo.seq hostOps1_40,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V45 m outs c))
    (hch := fun c => ⟨.rfl, hpre0 c, hpost0 c, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre1 c, hpost1 c, sep_mono .rfl (hE2 c)⟩)
    (hinit := ?_) (QY := fun c s => ∀ b ∈ Pipeline.ucRefs τ sig, s.mem (((c.tc : Thread nD τ)).1, b) = V45 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V45 m outs c) s') $$ [Hh HSI]
    · isplitl [Hh] <;> iassumption
    icases Hr with ⟨%h, HSI⟩
    imodintro
    isplitr
    · ipureintro
      exact h
    · iexact HSI

end Cert.KernelIdeal.GenP

end
-- ==== Proof.KI.RunAll.lean ====
/-
  The value run of @main at the two regions' records: every unscoped buffer's final contents, in particular the
  result buffer's.
-/
import proofs.«147168_j38843684225834_2_alg».proof.Proof.KI.Run
import proofs.«147168_j38843684225834_2_alg».proof.Proof.KI.RunCond

set_option maxRecDepth 65536

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
set_option backward.isDefEq.respectTransparency.types false in
/-- Every weakly fair execution of @main from memory `m` with zero counters terminates, nothing faulting, and on every
    core every unscoped buffer ends at the run's last valuation: the conditional run at the two regions' records. -/
theorem run_all : θ_run defs (onTc (τ := τ) (main (F := F))) ⟨m, fun _ => 0, ρ⟩ (fun r => ∀ c : Dev nD,
      ∀ b ∈ Pipeline.ucRefs τ sig, r.2.mem (((c.tc : Thread nD τ)).1, b) = GenP.V45 m (outs m) c b) :=
  GenP.run_cond (m := m) (EP := emb₁) (ι := ()) (𝒱₀ := 𝒱₀) (L := L) (lv := lv) (hL := fun _ _ => rfl) (ρ := ρ) (outs := outs m)
    (pdats := pdats m) (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := Pipeline.initEach L lv fun c => by
      iintro ⟨⟨-, HO, -, Hp, -⟩, -⟩
      imodintro
      isplitl [Hp]; · iexists _; iexact Hp
      iexists ∅; iexact HO)
    (hE2 := fun c => by iintro ⟨-, HO⟩; iexact HO)
    (R0 := reg0 m) (hpre0 := fun c => .rfl)
    (hpost0 := fun c => by rw [V2_outs]; exact .rfl)
    (R1 := reg1 m) (hpre1 := fun c => by rw [V43_outs]; exact .rfl)
    (hpost1 := fun c => by rw [V44_outs]; exact .rfl)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.LibAffine.lean ====
/-
  General lemmas: a dense layer over the extended reals, as one function of its operands read at an index.

  A dense layer takes a matrix `x` of shape [a, k], a weight `w` of shape [k, n] and a bias row `b` of shape [1, n],
  and returns the [a, n] matrix whose entry (p, j) is the sum over q of x (p, q) · w (q, j), plus b (0, j). The layer
  with a second product, on a second matrix `h` and weight `wr`, adds to that the sum over q of h (p, q) · wr (q, j).

  * `affine`, `affine2`: the two layers as functions of their operands, with `affineAt`, `affine2At` their entries;
  * `hostDot_ix2`: the host's plain product [a, k] × [k, n] at (p, j) is that sum of products;
  * `hostAffine_eq`, `hostAffine2_eq`: the host's product, plus the bias row laid along every row (a broadcast along
    both axes), plus for the second layer the second product, is the layer;
  * `coreAffine_eq`, `coreAffine2_eq`: a matrix-unit product into a zero accumulator, plus the bias row broadcast over
    the rows, plus for the second layer a second such product, is the layer;
  * `affineAt_congr`, `affine2At_congr`: the entry (p, j) only reads row p of the matrices, column j of the weights and
    entry j of the bias, so operands that agree there give the same entry (a block of rows of the layer is the layer
    of the block of rows).
  Nothing here mentions a program: the extents are variables and the dimension records are hypotheses.
-/
import Idealize.ShloMosaic.Lib.ValueLayout
import Idealize.ShloMosaic.Lib.ValueIdx
import Idealize.ShloMosaic.Lib.Pipeline.Value
import Idealize.ShloMosaic.PureOps.Ideal.Laws

noncomputable section

namespace Cert.LibAffine

open Idealize.ShloMosaic Idealize.ShloMosaic.ValueIdx

variable {a k n : ℕ}

/-- Entry (p, j) of `x · w + b`: the sum over q of x (p, q) · w (q, j), plus the bias row's entry j. -/
def affineAt (x : FVec Ideal ⟨2, ![a, k]⟩ .f32) (w : FVec Ideal ⟨2, ![k, n]⟩ .f32) (b : FVec Ideal ⟨2, ![1, n]⟩ .f32)
    (p : Fin a) (j : Fin n) : Ideal .f32 :=
  (∑ q : Fin k, x (ix2 p q) * w (ix2 q j)) + b (ix2 (0 : Fin 1) j)

/-- The dense layer `x · w + b` as an [a, n] array. -/
def affine (x : FVec Ideal ⟨2, ![a, k]⟩ .f32) (w : FVec Ideal ⟨2, ![k, n]⟩ .f32) (b : FVec Ideal ⟨2, ![1, n]⟩ .f32) :
    FVec Ideal ⟨2, ![a, n]⟩ .f32 :=
  fun i => affineAt x w b (i 0) (i 1)

theorem affine_ix2 (x : FVec Ideal ⟨2, ![a, k]⟩ .f32) (w : FVec Ideal ⟨2, ![k, n]⟩ .f32) (b : FVec Ideal ⟨2, ![1, n]⟩ .f32)
    (p : Fin a) (j : Fin n) : affine x w b (ix2 p j) = affineAt x w b p j := rfl

/-- Entry (p, j) of `s · wl + b + h · wr`. -/
def affine2At (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : Ideal .f32 :=
  (∑ q : Fin k, s (ix2 p q) * wl (ix2 q j)) + b (ix2 (0 : Fin 1) j) + ∑ q : Fin k, h (ix2 p q) * wr (ix2 q j)

/-- The two-product layer `s · wl + b + h · wr` as an [a, n] array. -/
def affine2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) : FVec Ideal ⟨2, ![a, n]⟩ .f32 :=
  fun i => affine2At s h wl b wr (i 0) (i 1)

theorem affine2_ix2 (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) (p : Fin a) (j : Fin n) : affine2 s h wl b wr (ix2 p j) = affine2At s h wl b wr p j := rfl

/-- Entry (p, j) reads only row p of the matrix, column j of the weight and entry j of the bias. -/
theorem affineAt_congr {a' : ℕ} (X : FVec Ideal ⟨2, ![a, k]⟩ .f32) (W : FVec Ideal ⟨2, ![k, n]⟩ .f32) (B : FVec Ideal ⟨2, ![1, n]⟩ .f32)
    (x : FVec Ideal ⟨2, ![a', k]⟩ .f32) (w : FVec Ideal ⟨2, ![k, n]⟩ .f32) (b : FVec Ideal ⟨2, ![1, n]⟩ .f32)
    (p : Fin a') (p' : Fin a) (j : Fin n)
    (hx : ∀ q : Fin k, x (ix2 p q) = X (ix2 p' q)) (hw : ∀ q : Fin k, w (ix2 q j) = W (ix2 q j))
    (hb : b (ix2 (0 : Fin 1) j) = B (ix2 (0 : Fin 1) j)) :
    affineAt x w b p j = affineAt X W B p' j := by
  unfold affineAt
  rw [hb]
  exact congrArg (· + B (ix2 (0 : Fin 1) j)) (Finset.sum_congr rfl fun q _ => by rw [hx q, hw q])

/-- The same for the two-product layer. -/
theorem affine2At_congr {a' : ℕ} (S H : FVec Ideal ⟨2, ![a, k]⟩ .f32) (WL : FVec Ideal ⟨2, ![k, n]⟩ .f32) (B : FVec Ideal ⟨2, ![1, n]⟩ .f32)
    (WR : FVec Ideal ⟨2, ![k, n]⟩ .f32)
    (s h : FVec Ideal ⟨2, ![a', k]⟩ .f32) (wl : FVec Ideal ⟨2, ![k, n]⟩ .f32) (b : FVec Ideal ⟨2, ![1, n]⟩ .f32)
    (wr : FVec Ideal ⟨2, ![k, n]⟩ .f32) (p : Fin a') (p' : Fin a) (j : Fin n)
    (hs : ∀ q : Fin k, s (ix2 p q) = S (ix2 p' q)) (hh : ∀ q : Fin k, h (ix2 p q) = H (ix2 p' q))
    (hwl : ∀ q : Fin k, wl (ix2 q j) = WL (ix2 q j)) (hb : b (ix2 (0 : Fin 1) j) = B (ix2 (0 : Fin 1) j))
    (hwr : ∀ q : Fin k, wr (ix2 q j) = WR (ix2 q j)) :
    affine2At s h wl b wr p j = affine2At S H WL B WR p' j := by
  unfold affine2At
  rw [hb, Finset.sum_congr rfl fun q _ => (by rw [hs q, hwl q] : s (ix2 p q) * wl (ix2 q j) = S (ix2 p' q) * WL (ix2 q j)),
    Finset.sum_congr rfl fun q _ => (by rw [hh q, hwr q] : h (ix2 p q) * wr (ix2 q j) = H (ix2 p' q) * WR (ix2 q j))]

/-- The host's plain product of an [a, k] by a [k, n] array, whose dimension record contracts the left operand's
    columns against the right operand's rows (the four coordinate facts), is at (p, j) the sum over q of
    L (p, q) · R (q, j). -/
theorem hostDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    Host.dotGeneral D prec L R (ix2 p j) = ∑ q : Fin k, L (ix2 p q) * R (ix2 q j) := by
  show FloatOps.dotGeneral D prec .single L R (ix2 p j) = _
  rw [Ideal.dotGeneral_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A matrix-unit product of an [a, k] by a [k, n] array into the zero accumulator, under the same four coordinate
    facts, is at (p, j) the sum over q of L (p, q) · R (q, j). -/
theorem coreDot_ix2 {φ₁ φ₂ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (L : FVec Ideal ⟨2, ![a, k]⟩ φ₁) (R : FVec Ideal ⟨2, ![k, n]⟩ φ₂) (p : Fin a) (j : Fin n) :
    FloatOps.matmul D prec L R (constant ⟨2, ![a, n]⟩ .f32 0x00000000#32) (ix2 p j) = ∑ q : Fin k, L (ix2 p q) * R (ix2 q j) := by
  rw [Ideal.matmul_constant_zero_apply, ← Equiv.sum_comp (contrEquiv1 D k hr hs).symm]
  refine Finset.sum_congr rfl fun q _ => ?_
  have hq := contrEquiv1_symm_val D k hr hs q
  have el : D.lhsIdx (ix2 p j) ((contrEquiv1 D k hr hs).symm q) = ix2 p q := funext fun ax => Fin.ext (by
    match ax with
    | ⟨0, _⟩ => exact hl0 _ _
    | ⟨1, _⟩ => exact (hl1 _ _).trans hq)
  have er : D.rhsIdx (ix2 p j) ((contrEquiv1 D k hr hs).symm q) = ix2 q j := funext fun ax => Fin.ext (by
    match ax with
    | ⟨0, _⟩ => exact (hr0 _ _).trans hq
    | ⟨1, _⟩ => exact hr1 _ _)
  rw [el, er]

/-- A row [1, n] laid along every row of an [a, n] array by a broadcast along both axes reads, at (p, j), the row's
    entry j. -/
theorem broadcastInDim_1n_an_apply {α : Type} (hd : (⟨2, ![1, n]⟩ : Shape).BroadcastsInDim ⟨2, ![a, n]⟩ ![0, 1])
    (v : (⟨2, ![1, n]⟩ : Shape).Idx → α) (p : Fin a) (j : Fin n) :
    broadcastInDim ⟨2, ![a, n]⟩ ![0, 1] hd v (ix2 p j) = v (ix2 (0 : Fin 1) j) := by
  refine broadcastInDim_apply ![0, 1] hd v (ix2 p j) (ix2 (0 : Fin 1) j) fun ax => ?_
  match ax with
  | ⟨0, _⟩ =>
    show (0 : ℕ) = if (1 : ℕ) = 1 then 0 else p.val
    rw [if_pos rfl]
  | ⟨1, _⟩ =>
    show j.val = if n = 1 then 0 else j.val
    split
    · have := j.isLt; omega
    · rfl

/-- The host's product plus the bias row laid along every row is the dense layer. -/
theorem hostAffine_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (x : FVec Ideal ⟨2, ![a, k]⟩ .f32) (w : FVec Ideal ⟨2, ![k, n]⟩ .f32) (b : FVec Ideal ⟨2, ![1, n]⟩ .f32) :
    addf (Host.dotGeneral D prec x w) (broadcastInDim ⟨2, ![a, n]⟩ ![0, 1] hd b) = affine x w b := by
  funext i
  obtain ⟨p, j, rfl⟩ : ∃ (p : Fin a) (j : Fin n), i = ix2 p j := ⟨i 0, i 1, eq_ix2 i⟩
  rw [addf_apply, hostDot_ix2 D hr hs hl0 hl1 hr0 hr1, broadcastInDim_1n_an_apply, affine_ix2]
  rfl

/-- The host's product plus the bias row plus a second product is the two-product layer. -/
theorem hostAffine2_eq (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hd : (⟨2, ![1, n]⟩ : Shape).BroadcastsInDim ⟨2, ![a, n]⟩ ![0, 1]) (prec : Option ContractPrecision)
    (s h : FVec Ideal ⟨2, ![a, k]⟩ .f32) (wl : FVec Ideal ⟨2, ![k, n]⟩ .f32) (b : FVec Ideal ⟨2, ![1, n]⟩ .f32)
    (wr : FVec Ideal ⟨2, ![k, n]⟩ .f32) :
    addf (addf (Host.dotGeneral D prec s wl) (broadcastInDim ⟨2, ![a, n]⟩ ![0, 1] hd b)) (Host.dotGeneral D prec h wr)
      = affine2 s h wl b wr := by
  funext i
  obtain ⟨p, j, rfl⟩ : ∃ (p : Fin a) (j : Fin n), i = ix2 p j := ⟨i 0, i 1, eq_ix2 i⟩
  rw [addf_apply, addf_apply, hostDot_ix2 D hr hs hl0 hl1 hr0 hr1, hostDot_ix2 D hr hs hl0 hl1 hr0 hr1,
    broadcastInDim_1n_an_apply, affine2_ix2]
  rfl

/-- A matrix-unit product into the zero accumulator plus the bias row broadcast over the rows is the dense layer. -/
theorem coreAffine_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b : FVec Ideal ⟨2, ![1, n]⟩ .f32) :
    addf (FloatOps.matmul D prec x w (constant ⟨2, ![a, n]⟩ .f32 0x00000000#32)) (broadcastTo ⟨2, ![a, n]⟩ b hb)
      = affine (fun i => x i) (fun i => w i) b := by
  funext i
  obtain ⟨p, j, rfl⟩ : ∃ (p : Fin a) (j : Fin n), i = ix2 p j := ⟨i 0, i 1, eq_ix2 i⟩
  rw [addf_apply, coreDot_ix2 D hr hs hl0 hl1 hr0 hr1, broadcastTo_1b_ab_apply, affine_ix2]
  rfl

/-- Two matrix-unit products into zero accumulators, the bias row broadcast over the rows added to the first, is the
    two-product layer. -/
theorem coreAffine2_eq {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (s h : FVec Ideal ⟨2, ![a, k]⟩ φ) (wl wr : FVec Ideal ⟨2, ![k, n]⟩ φ) (b : FVec Ideal ⟨2, ![1, n]⟩ .f32) :
    addf (addf (FloatOps.matmul D prec s wl (constant ⟨2, ![a, n]⟩ .f32 0x00000000#32)) (broadcastTo ⟨2, ![a, n]⟩ b hb))
        (FloatOps.matmul D prec h wr (constant ⟨2, ![a, n]⟩ .f32 0x00000000#32))
      = affine2 (fun i => s i) (fun i => h i) (fun i => wl i) b (fun i => wr i) := by
  funext i
  obtain ⟨p, j, rfl⟩ : ∃ (p : Fin a) (j : Fin n), i = ix2 p j := ⟨i 0, i 1, eq_ix2 i⟩
  rw [addf_apply, addf_apply, coreDot_ix2 D hr hs hl0 hl1 hr0 hr1, coreDot_ix2 D hr hs hl0 hl1 hr0 hr1,
    broadcastTo_1b_ab_apply, affine2_ix2]
  rfl

end Cert.LibAffine

end
-- ==== Proof.Spec.lean ====
/-
  The quantized four-layer network, one row at a time, over the extended reals.

  An 8-bit symmetric quantizer sends y to round-half-even of y, clipped to [-127, 127]. The reference spells the round
  "straight through": y + (round y - y), which is round y whenever y is a real number. A layer with activation scale s,
  quantized weights W (o, k), quantized bias B o and bias scale Bsf o sends a row h to
  ((the sum over k of (h k / s) · W (o, k)) + B o) · Bsf o. The quantized weight of a weight w (o, k) under a per-row scale
  ws o is quantize (w (o, k) / ws o); the bias scale is ws o · s; the quantized bias of b o is quantize (b o / (ws o · s)).
-/
import Idealize.ShloMosaic.PureOps.Ideal
import Idealize.ShloMosaic.PureOps.Ideal.Laws
import Idealize.ShloMosaic.Lib.ValueIdx

noncomputable section

namespace Cert.Spec

open Idealize.ShloMosaic

/-- Round to the nearest integer, ties to even; the infinities fixed. -/
def rnd (y : EReal) : EReal := Ideal.liftRound Ideal.roundHalfEven y
/-- The clip bounds, as the host reads the 32-bit integer words -127 and 127 into floats. -/
def lo : EReal := (((4294967169#32 : BitVec 32).toInt : ℝ) : EReal)
def hi : EReal := (((127#32 : BitVec 32).toInt : ℝ) : EReal)
def clip (y : EReal) : EReal := min hi (max lo y)
/-- The straight-through spelling of the round. -/
def ste (y : EReal) : EReal := y + (rnd y - y)
/-- The quantizer, and its straight-through spelling. -/
def quant (y : EReal) : EReal := clip (rnd y)
def quantSte (y : EReal) : EReal := clip (ste y)

variable {I O : ℕ}

/-- The quantized weight, the bias scale and the quantized bias under a per-row weight scale `ws` and activation scale `s`. -/
def wq (w : Fin O → Fin I → EReal) (ws : Fin O → EReal) (o : Fin O) (k : Fin I) : EReal := quant (Ideal.div (w o k) (ws o))
def bsf (ws : Fin O → EReal) (s : EReal) (o : Fin O) : EReal := ws o * s
def bq (b : Fin O → EReal) (ws : Fin O → EReal) (s : EReal) (o : Fin O) : EReal := quant (Ideal.div (b o) (ws o * s))
def wqSte (w : Fin O → Fin I → EReal) (ws : Fin O → EReal) (o : Fin O) (k : Fin I) : EReal := quantSte (Ideal.div (w o k) (ws o))
def bqSte (b : Fin O → EReal) (ws : Fin O → EReal) (s : EReal) (o : Fin O) : EReal := quantSte (Ideal.div (b o) (ws o * s))

/-- One layer at a row `h`: entry `o` of the result. -/
def layerAt (h : Fin I → EReal) (s : EReal) (W : Fin O → Fin I → EReal) (B Bsf : Fin O → EReal) (o : Fin O) : EReal :=
  ((∑ k : Fin I, Ideal.div (h k) s * W o k) + B o) * Bsf o
/-- The first layer fed the quantized row directly (no division by the scale). -/
def layer0At (q : Fin I → EReal) (W : Fin O → Fin I → EReal) (B Bsf : Fin O → EReal) (o : Fin O) : EReal :=
  ((∑ k : Fin I, q k * W o k) + B o) * Bsf o

end Cert.Spec

end
-- ==== Proof.KI.Region1Val.lean ====
/-
  Region 1, the value of its output block: entry (p, q) of what the body stores is four nested layers of the input
  blocks. With s the scale (entry (0,0) of its block), the quantized row q(p, ·) = clip(round(x(p, ·)/s)) goes through
  layer 0 undivided; each later layer takes the layer before it divided by s. Every layer is a matrix product into a
  zero accumulator, plus a bias row, times a bias-scale row.
-/
import proofs.«147168_j38843684225834_2_alg».proof.Proof.KI.Region1
import proofs.«147168_j38843684225834_2_alg».proof.Proof.LibAffine
import proofs.«147168_j38843684225834_2_alg».proof.Proof.Spec
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Cert.LibAffine
open Idealize.ShloMosaic.Pipeline (Dat Cfg Window)

/-! ## The four matrix products' coordinate facts -/

theorem d0_l0 (i : S1024x512.Idx) (q : dot_S1024x128_S128x512_S1024x512_1_0_0_1_n_n.contr.Idx) : (dot_S1024x128_S128x512_S1024x512_1_0_0_1_n_n.lhsIdx i q 0).val = (i 0).val := by
  unfold DotDims.lhsIdx
  rw [dif_neg (show ¬(0 : Fin S1024x128.rank) ∈ dot_S1024x128_S128x512_S1024x512_1_0_0_1_n_n.lhsBatch by decide), dif_pos (show (0 : Fin S1024x128.rank) ∈ dot_S1024x128_S128x512_S1024x512_1_0_0_1_n_n.lhsNonContracting by decide)]
  rfl
theorem d0_l1 (i : S1024x512.Idx) (q : dot_S1024x128_S128x512_S1024x512_1_0_0_1_n_n.contr.Idx) : (dot_S1024x128_S128x512_S1024x512_1_0_0_1_n_n.lhsIdx i q 1).val = (q ⟨0, by decide⟩).val :=
  dot_S1024x128_S128x512_S1024x512_1_0_0_1_n_n.lhsIdx_val_of_single rfl i q
theorem d0_r0 (i : S1024x512.Idx) (q : dot_S1024x128_S128x512_S1024x512_1_0_0_1_n_n.contr.Idx) : (dot_S1024x128_S128x512_S1024x512_1_0_0_1_n_n.rhsIdx i q 0).val = (q ⟨0, by decide⟩).val :=
  dot_S1024x128_S128x512_S1024x512_1_0_0_1_n_n.rhsIdx_val_of_single rfl i q
theorem d0_r1 (i : S1024x512.Idx) (q : dot_S1024x128_S128x512_S1024x512_1_0_0_1_n_n.contr.Idx) : (dot_S1024x128_S128x512_S1024x512_1_0_0_1_n_n.rhsIdx i q 1).val = (i 1).val := by
  unfold DotDims.rhsIdx
  rw [dif_neg (show ¬(1 : Fin S128x512.rank) ∈ dot_S1024x128_S128x512_S1024x512_1_0_0_1_n_n.rhsBatch by decide), dif_pos (show (1 : Fin S128x512.rank) ∈ dot_S1024x128_S128x512_S1024x512_1_0_0_1_n_n.rhsNonContracting by decide)]
  rfl
theorem d2_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem d2_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem d2_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem d2_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
theorem d4_l0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem d4_l1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem d4_r0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem d4_r1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
theorem d6_l0 (i : S1024x40.Idx) (q : dot_S1024x256_S256x40_S1024x40_1_0_0_1_n_n.contr.Idx) : (dot_S1024x256_S256x40_S1024x40_1_0_0_1_n_n.lhsIdx i q 0).val = (i 0).val := by
  unfold DotDims.lhsIdx
  rw [dif_neg (show ¬(0 : Fin S1024x256.rank) ∈ dot_S1024x256_S256x40_S1024x40_1_0_0_1_n_n.lhsBatch by decide), dif_pos (show (0 : Fin S1024x256.rank) ∈ dot_S1024x256_S256x40_S1024x40_1_0_0_1_n_n.lhsNonContracting by decide)]
  rfl
theorem d6_l1 (i : S1024x40.Idx) (q : dot_S1024x256_S256x40_S1024x40_1_0_0_1_n_n.contr.Idx) : (dot_S1024x256_S256x40_S1024x40_1_0_0_1_n_n.lhsIdx i q 1).val = (q ⟨0, by decide⟩).val :=
  dot_S1024x256_S256x40_S1024x40_1_0_0_1_n_n.lhsIdx_val_of_single rfl i q
theorem d6_r0 (i : S1024x40.Idx) (q : dot_S1024x256_S256x40_S1024x40_1_0_0_1_n_n.contr.Idx) : (dot_S1024x256_S256x40_S1024x40_1_0_0_1_n_n.rhsIdx i q 0).val = (q ⟨0, by decide⟩).val :=
  dot_S1024x256_S256x40_S1024x40_1_0_0_1_n_n.rhsIdx_val_of_single rfl i q
theorem d6_r1 (i : S1024x40.Idx) (q : dot_S1024x256_S256x40_S1024x40_1_0_0_1_n_n.contr.Idx) : (dot_S1024x256_S256x40_S1024x40_1_0_0_1_n_n.rhsIdx i q 1).val = (i 1).val := by
  unfold DotDims.rhsIdx
  rw [dif_neg (show ¬(1 : Fin S256x40.rank) ∈ dot_S1024x256_S256x40_S1024x40_1_0_0_1_n_n.rhsBatch by decide), dif_pos (show (1 : Fin S256x40.rank) ∈ dot_S1024x256_S256x40_S1024x40_1_0_0_1_n_n.rhsNonContracting by decide)]
  rfl

/-! ## One layer of the body read at an index -/

/-- A matrix product into a zero accumulator, plus a bias row, times a bias-scale row, at (p, j). -/
theorem coreLayer_ix2 {a k n : ℕ} {φ : FTy} (D : DotDims ⟨2, ![a, k]⟩ ⟨2, ![k, n]⟩ ⟨2, ![a, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (hb : (⟨2, ![1, n]⟩ : Shape).Broadcasts ⟨2, ![a, n]⟩) (prec : Option ContractPrecision)
    (x : FVec Ideal ⟨2, ![a, k]⟩ φ) (w : FVec Ideal ⟨2, ![k, n]⟩ φ) (b bsf : FVec Ideal ⟨2, ![1, n]⟩ .f32) (p : Fin a) (j : Fin n) :
    mulf (addf (FloatOps.matmul D prec x w (constant ⟨2, ![a, n]⟩ .f32 0x00000000#32)) (broadcastTo ⟨2, ![a, n]⟩ b hb))
        (broadcastTo ⟨2, ![a, n]⟩ bsf hb) (ix2 p j)
      = ((∑ q : Fin k, x (ix2 p q) * w (ix2 q j)) + b (ix2 (0 : Fin 1) j)) * bsf (ix2 (0 : Fin 1) j) := by
  rw [mulf_apply, addf_apply, coreDot_ix2 D hr hs hl0 hl1 hr0 hr1, broadcastTo_1b_ab_apply, broadcastTo_1b_ab_apply]

/-- The quantized input entry as the body computes it. -/
def qin (x s : EReal) : EReal :=
  min (Ideal.ofBits .f32 0x42FE0000#32) (max (Ideal.ofBits .f32 0xC2FE0000#32) (Cert.Spec.rnd (Ideal.div x s)))

/-- The first payload: the first two layers, divided by the scale, at (p, k). -/
theorem pay3_at (v0 : Vec Ideal S1x1 .f32) (v2 : Vec Ideal S1024x128 .f32) (v12 : Vec Ideal S128x512 .bf16) (v15 v19 : Vec Ideal S1x512 .f32)
    (v25 : Vec Ideal S512x256 .f32) (v28 v32 : Vec Ideal S1x256 .f32) (p : Fin 1024) (k : Fin 256) :
    k1_pay3 (F := Ideal) v0 v2 v12 v15 v19 v25 v28 v32 (ix2 p k)
      = Ideal.div (Cert.Spec.layerAt
          (fun j : Fin 512 => Cert.Spec.layer0At (fun d : Fin 128 => qin (v2 (ix2 p d)) (v0 (ix2 (0 : Fin 1) (0 : Fin 1))))
            (fun j d => v12 (ix2 d j)) (fun j => v15 (ix2 (0 : Fin 1) j)) (fun j => v19 (ix2 (0 : Fin 1) j)) j)
          (v0 (ix2 (0 : Fin 1) (0 : Fin 1))) (fun k j => v25 (ix2 j k)) (fun k => v28 (ix2 (0 : Fin 1) k)) (fun k => v32 (ix2 (0 : Fin 1) k)) k)
        (v0 (ix2 (0 : Fin 1) (0 : Fin 1))) := by
  unfold k1_pay3 k1_pay2
  simp only [shapeCast_self]
  have hs : extractAt ![0, 0] v0 inpos_S1x1_p0_0 = v0 (ix2 (0 : Fin 1) (0 : Fin 1)) := by
    unfold extractAt
    exact congrArg v0 (funext fun a => Fin.ext (by match a with | ⟨0, _⟩ => rfl | ⟨1, _⟩ => rfl))
  rw [hs]
  refine (divf_apply _ _ _).trans ?_
  refine congrArg (fun t => Ideal.div t (v0 (ix2 (0 : Fin 1) (0 : Fin 1)))) ?_
  refine (coreLayer_ix2 dot_S1024x512_S512x256_S1024x256_1_0_0_1_n_n rfl rfl d2_l0 d2_l1 d2_r0 d2_r1 _ _ _ _ _ _ p k).trans ?_
  unfold Cert.Spec.layerAt
  refine congrArg (fun t => (t + v28 (ix2 (0 : Fin 1) k)) * v32 (ix2 (0 : Fin 1) k)) (Finset.sum_congr rfl fun j _ => ?_)
  refine congrArg (fun t => t * v25 (ix2 j k)) ?_
  refine (divf_apply _ _ _).trans ?_
  refine congrArg (fun t => Ideal.div t (v0 (ix2 (0 : Fin 1) (0 : Fin 1)))) ?_
  show _ = Cert.Spec.layer0At _ _ _ _ j
  refine (coreLayer_ix2 (φ := .bf16) dot_S1024x128_S128x512_S1024x512_1_0_0_1_n_n rfl rfl d0_l0 d0_l1 d0_r0 d0_r1 broadcasts_S1x512_S1024x512 none _ (fun i => v12 i) v15 v19 p j).trans ?_
  unfold Cert.Spec.layer0At
  refine congrArg (fun t => (t + v15 (ix2 (0 : Fin 1) j)) * v19 (ix2 (0 : Fin 1) j)) (Finset.sum_congr rfl fun d _ => ?_)
  rfl

/-- The second payload: the last two layers over the first payload's array, at (p, q). -/
theorem pay1_at (v1 : Ideal .f32) (v37 : FVec Ideal S1024x256 .f32) (v38 : Vec Ideal S256x256 .f32) (v41 v45 : Vec Ideal S1x256 .f32)
    (v51 : Vec Ideal S256x40 .f32) (v54 v58 : Vec Ideal S1x40 .f32) (p : Fin 1024) (q : Fin 40) :
    k1_pay1 (F := Ideal) v1 v37 v38 v41 v45 v51 v54 v58 (ix2 p q)
      = Cert.Spec.layer0At
          (fun k' : Fin 256 => Ideal.div (Cert.Spec.layer0At (fun k : Fin 256 => v37 (ix2 p k))
            (fun k' k => v38 (ix2 k k')) (fun k' => v41 (ix2 (0 : Fin 1) k')) (fun k' => v45 (ix2 (0 : Fin 1) k')) k') v1)
          (fun q k' => v51 (ix2 k' q)) (fun q => v54 (ix2 (0 : Fin 1) q)) (fun q => v58 (ix2 (0 : Fin 1) q)) q := by
  unfold k1_pay1
  simp only [shapeCast_self]
  refine (coreLayer_ix2 dot_S1024x256_S256x40_S1024x40_1_0_0_1_n_n rfl rfl d6_l0 d6_l1 d6_r0 d6_r1 _ _ _ _ _ _ p q).trans ?_
  unfold Cert.Spec.layer0At
  refine congrArg (fun t => (t + v54 (ix2 (0 : Fin 1) q)) * v58 (ix2 (0 : Fin 1) q)) (Finset.sum_congr rfl fun k' _ => ?_)
  refine congrArg (fun t => t * v51 (ix2 k' q)) ?_
  refine (divf_apply _ _ _).trans ?_
  refine congrArg (fun t => Ideal.div t v1) ?_
  exact coreLayer_ix2 dot_S1024x256_S256x256_S1024x256_1_0_0_1_n_n rfl rfl d4_l0 d4_l1 d4_r0 d4_r1 _ _ _ _ _ _ p k'

theorem hz2 : (![0, 0] : Fin 2 → Nat) = fun _ => 0 := funext fun a => by fin_cases a <;> rfl

/-- The output block as the four nested layers of the input blocks, entry by entry. -/
theorem out1_14_at (x0 : Vec Ideal S1024x128 .f32) (x1 : Vec Ideal S1x1 .f32) (x2 : Vec Ideal S128x512 .bf16) (x3 x4 : Vec Ideal S1x512 .f32)
    (x5 : Vec Ideal S512x256 .f32) (x6 x7 : Vec Ideal S1x256 .f32) (x8 : Vec Ideal S256x256 .f32) (x9 x10 : Vec Ideal S1x256 .f32)
    (x11 : Vec Ideal S256x40 .f32) (x12 x13 : Vec Ideal S1x40 .f32) (p : Fin 1024) (q : Fin 40) :
    out1_14 (F := Ideal) x0 x1 x2 x3 x4 x5 x6 x7 x8 x9 x10 x11 x12 x13 (ix2 p q)
      = Cert.Spec.layerAt (fun k' : Fin 256 => Cert.Spec.layerAt (fun k : Fin 256 => Cert.Spec.layerAt
            (fun j : Fin 512 => Cert.Spec.layer0At (fun d : Fin 128 => qin (x0 (ix2 p d)) (x1 (ix2 (0 : Fin 1) (0 : Fin 1))))
              (fun j d => x2 (ix2 d j)) (fun j => x3 (ix2 (0 : Fin 1) j)) (fun j => x4 (ix2 (0 : Fin 1) j)) j)
            (x1 (ix2 (0 : Fin 1) (0 : Fin 1))) (fun k j => x5 (ix2 j k)) (fun k => x6 (ix2 (0 : Fin 1) k)) (fun k => x7 (ix2 (0 : Fin 1) k)) k)
          (x1 (ix2 (0 : Fin 1) (0 : Fin 1))) (fun k' k => x8 (ix2 k k')) (fun k' => x9 (ix2 (0 : Fin 1) k')) (fun k' => x10 (ix2 (0 : Fin 1) k')) k')
        (x1 (ix2 (0 : Fin 1) (0 : Fin 1))) (fun q k' => x11 (ix2 k' q)) (fun q => x12 (ix2 (0 : Fin 1) q)) (fun q => x13 (ix2 (0 : Fin 1) q)) q := by
  unfold out1_14
  rw [View.canon_unit_zero hz2]
  simp only [View.ld_unit_zero (S := S1024x128) hz2, View.ld_unit_zero (S := S1x1) hz2, View.ld_unit_zero (S := S128x512) hz2,
    View.ld_unit_zero (S := S1x512) hz2, View.ld_unit_zero (S := S512x256) hz2, View.ld_unit_zero (S := S1x256) hz2,
    View.ld_unit_zero (S := S256x256) hz2, View.ld_unit_zero (S := S256x40) hz2, View.ld_unit_zero (S := S1x40) hz2]
  refine (pay1_at _ _ _ _ _ _ _ _ p q).trans ?_
  have hs : k1_pay2 (F := Ideal) x1 = x1 (ix2 (0 : Fin 1) (0 : Fin 1)) := by
    unfold k1_pay2 extractAt
    exact congrArg x1 (funext fun a => Fin.ext (by match a with | ⟨0, _⟩ => rfl | ⟨1, _⟩ => rfl))
  rw [hs]
  unfold Cert.Spec.layerAt Cert.Spec.layer0At
  refine congrArg (fun t => (t + x12 (ix2 (0 : Fin 1) q)) * x13 (ix2 (0 : Fin 1) q)) (Finset.sum_congr rfl fun k' _ => ?_)
  refine congrArg (fun t => Ideal.div t (x1 (ix2 (0 : Fin 1) (0 : Fin 1))) * x11 (ix2 k' q)) ?_
  refine congrArg (fun t => (t + x9 (ix2 (0 : Fin 1) k')) * x10 (ix2 (0 : Fin 1) k')) (Finset.sum_congr rfl fun k _ => ?_)
  refine congrArg (fun t => t * x8 (ix2 k k')) ?_
  refine (pay3_at _ _ _ _ _ _ _ _ p k).trans ?_
  rfl

/-! ## From blocks to the output array -/

/-- One packed row through the four layers: entry q of the result, from the row x, the scale s and the twelve arrays. -/
def rowNet (x : Fin 128 → EReal) (s : EReal) (W0 : S128x512.Idx → EReal) (B0 Bsf0 : S1x512.Idx → EReal)
    (W2 : S512x256.Idx → EReal) (B2 Bsf2 : S1x256.Idx → EReal) (W4 : S256x256.Idx → EReal) (B4 Bsf4 : S1x256.Idx → EReal)
    (W6 : S256x40.Idx → EReal) (B6 Bsf6 : S1x40.Idx → EReal) (q : Fin 40) : EReal :=
  Cert.Spec.layerAt (fun k' : Fin 256 => Cert.Spec.layerAt (fun k : Fin 256 => Cert.Spec.layerAt
        (fun j : Fin 512 => Cert.Spec.layer0At (fun d : Fin 128 => qin (x d) s)
          (fun j d => W0 (ix2 d j)) (fun j => B0 (ix2 (0 : Fin 1) j)) (fun j => Bsf0 (ix2 (0 : Fin 1) j)) j)
        s (fun k j => W2 (ix2 j k)) (fun k => B2 (ix2 (0 : Fin 1) k)) (fun k => Bsf2 (ix2 (0 : Fin 1) k)) k)
      s (fun k' k => W4 (ix2 k k')) (fun k' => B4 (ix2 (0 : Fin 1) k')) (fun k' => Bsf4 (ix2 (0 : Fin 1) k')) k')
    s (fun q k' => W6 (ix2 k' q)) (fun q => B6 (ix2 (0 : Fin 1) q)) (fun q => Bsf6 (ix2 (0 : Fin 1) q)) q

theorem out1_14_row (x0 : Vec Ideal S1024x128 .f32) (x1 : Vec Ideal S1x1 .f32) (x2 : Vec Ideal S128x512 .bf16) (x3 x4 : Vec Ideal S1x512 .f32)
    (x5 : Vec Ideal S512x256 .f32) (x6 x7 : Vec Ideal S1x256 .f32) (x8 : Vec Ideal S256x256 .f32) (x9 x10 : Vec Ideal S1x256 .f32)
    (x11 : Vec Ideal S256x40 .f32) (x12 x13 : Vec Ideal S1x40 .f32) (p : Fin 1024) (q : Fin 40) :
    out1_14 (F := Ideal) x0 x1 x2 x3 x4 x5 x6 x7 x8 x9 x10 x11 x12 x13 (ix2 p q)
      = rowNet (fun d => x0 (ix2 p d)) (x1 (ix2 (0 : Fin 1) (0 : Fin 1))) (fun i => x2 i) x3 x4 x5 x6 x7 x8 x9 x10 x11 x12 x13 q :=
  out1_14_at x0 x1 x2 x3 x4 x5 x6 x7 x8 x9 x10 x11 x12 x13 p q

/-- The whole output array: row R of it is row R of the packed input through the four layers. -/
def G14 (A0 : S131072x128.Idx → EReal) (s : EReal) (W0 : S128x512.Idx → EReal) (B0 Bsf0 : S1x512.Idx → EReal)
    (W2 : S512x256.Idx → EReal) (B2 Bsf2 : S1x256.Idx → EReal) (W4 : S256x256.Idx → EReal) (B4 Bsf4 : S1x256.Idx → EReal)
    (W6 : S256x40.Idx → EReal) (B6 Bsf6 : S1x40.Idx → EReal) : S131072x40.Idx → EReal :=
  fun i => rowNet (fun d => A0 (ix2 ⟨(i 0).val, (i 0).isLt⟩ d)) s W0 B0 Bsf0 W2 B2 Bsf2 W4 B4 Bsf4 W6 B6 Bsf6 ⟨(i 1).val, (i 1).isLt⟩

variable (V : (c : Dev nD) → (b : Ref sig .tc) → Buf (Elt Ideal) ((c : Thread nD τ).loc b))

/-- The index maps, decided over the grid: the row block of the packed input and of the output move with the point;
    every other window is one block. -/
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_14 : ∀ t : Fin cfg1.N, win1_14.index t (0 : Fin 2) = t.val ∧ win1_14.index t (1 : Fin 2) = 0 :=
  (by decide +kernel : ∀ t : Fin grid1.N, win1_14.index t (0 : Fin 2) = t.val ∧ win1_14.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = 0 ∧ win1_7.index t (1 : Fin 2) = 0 :=
  (by decide +kernel : ∀ t : Fin grid1.N, win1_7.index t (0 : Fin 2) = 0 ∧ win1_7.index t (1 : Fin 2) = 0)
theorem idx1_8 : ∀ t : Fin cfg1.N, win1_8.index t (0 : Fin 2) = 0 ∧ win1_8.index t (1 : Fin 2) = 0 :=
  (by decide +kernel : ∀ t : Fin grid1.N, win1_8.index t (0 : Fin 2) = 0 ∧ win1_8.index t (1 : Fin 2) = 0)
theorem idx1_9 : ∀ t : Fin cfg1.N, win1_9.index t (0 : Fin 2) = 0 ∧ win1_9.index t (1 : Fin 2) = 0 :=
  (by decide +kernel : ∀ t : Fin grid1.N, win1_9.index t (0 : Fin 2) = 0 ∧ win1_9.index t (1 : Fin 2) = 0)
theorem idx1_10 : ∀ t : Fin cfg1.N, win1_10.index t (0 : Fin 2) = 0 ∧ win1_10.index t (1 : Fin 2) = 0 :=
  (by decide +kernel : ∀ t : Fin grid1.N, win1_10.index t (0 : Fin 2) = 0 ∧ win1_10.index t (1 : Fin 2) = 0)
theorem idx1_11 : ∀ t : Fin cfg1.N, win1_11.index t (0 : Fin 2) = 0 ∧ win1_11.index t (1 : Fin 2) = 0 :=
  (by decide +kernel : ∀ t : Fin grid1.N, win1_11.index t (0 : Fin 2) = 0 ∧ win1_11.index t (1 : Fin 2) = 0)
theorem idx1_12 : ∀ t : Fin cfg1.N, win1_12.index t (0 : Fin 2) = 0 ∧ win1_12.index t (1 : Fin 2) = 0 :=
  (by decide +kernel : ∀ t : Fin grid1.N, win1_12.index t (0 : Fin 2) = 0 ∧ win1_12.index t (1 : Fin 2) = 0)
theorem idx1_13 : ∀ t : Fin cfg1.N, win1_13.index t (0 : Fin 2) = 0 ∧ win1_13.index t (1 : Fin 2) = 0 :=
  (by decide +kernel : ∀ t : Fin grid1.N, win1_13.index t (0 : Fin 2) = 0 ∧ win1_13.index t (1 : Fin 2) = 0)

theorem iblk1_0_at (c : Dev nD) (t : Fin cfg1.N) (a : Fin 1024) (b : Fin 128) :
    iblk1 (F := Ideal) V c 0 t (ix2 a b) = V c main_v0 (ix2 (⟨1024 * t.val + a.val, by have := t.isLt; have : cfg1.N = 128 := N_1; omega⟩ : Fin 131072) b) := by
  obtain ⟨h0, h1⟩ := idx1_0 t
  show V c main_v0 (((cfg1.win 0).blk t).view.emb (ix2 a b)) = _
  refine congrArg (V c main_v0) (funext fun ax => Fin.ext ?_)
  match ax with
  | ⟨0, _⟩ => show win1_0.index t (0 : Fin 2) * 1024 + 1 * a.val = 1024 * t.val + a.val; omega
  | ⟨1, _⟩ => show win1_0.index t (1 : Fin 2) * 128 + 1 * b.val = b.val; omega

theorem iblk1_1_at (c : Dev nD) (t : Fin cfg1.N) (a : Fin 1) (b : Fin 1) :
    iblk1 (F := Ideal) V c 1 t (ix2 a b) = V c main_v9 (ix2 a b) := by
  obtain ⟨h0, h1⟩ := idx1_1 t
  show V c main_v9 (((cfg1.win 1).blk t).view.emb (ix2 a b)) = V c main_v9 (ix2 a b)
  refine congrArg (V c main_v9) (funext fun ax => Fin.ext ?_)
  match ax with
  | ⟨0, _⟩ => show win1_1.index t (0 : Fin 2) * 1 + 1 * a.val = a.val; omega
  | ⟨1, _⟩ => show win1_1.index t (1 : Fin 2) * 1 + 1 * b.val = b.val; omega

theorem iblk1_2_at (c : Dev nD) (t : Fin cfg1.N) (a : Fin 128) (b : Fin 512) :
    iblk1 (F := Ideal) V c 2 t (ix2 a b) = V c main_v151 (ix2 a b) := by
  obtain ⟨h0, h1⟩ := idx1_2 t
  show V c main_v151 (((cfg1.win 2).blk t).view.emb (ix2 a b)) = V c main_v151 (ix2 a b)
  refine congrArg (V c main_v151) (funext fun ax => Fin.ext ?_)
  match ax with
  | ⟨0, _⟩ => show win1_2.index t (0 : Fin 2) * 128 + 1 * a.val = a.val; omega
  | ⟨1, _⟩ => show win1_2.index t (1 : Fin 2) * 512 + 1 * b.val = b.val; omega

theorem iblk1_3_at (c : Dev nD) (t : Fin cfg1.N) (a : Fin 1) (b : Fin 512) :
    iblk1 (F := Ideal) V c 3 t (ix2 a b) = V c main_v41 (ix2 a b) := by
  obtain ⟨h0, h1⟩ := idx1_3 t
  show V c main_v41 (((cfg1.win 3).blk t).view.emb (ix2 a b)) = V c main_v41 (ix2 a b)
  refine congrArg (V c main_v41) (funext fun ax => Fin.ext ?_)
  match ax with
  | ⟨0, _⟩ => show win1_3.index t (0 : Fin 2) * 1 + 1 * a.val = a.val; omega
  | ⟨1, _⟩ => show win1_3.index t (1 : Fin 2) * 512 + 1 * b.val = b.val; omega

theorem iblk1_4_at (c : Dev nD) (t : Fin cfg1.N) (a : Fin 1) (b : Fin 512) :
    iblk1 (F := Ideal) V c 4 t (ix2 a b) = V c main_v45 (ix2 a b) := by
  obtain ⟨h0, h1⟩ := idx1_4 t
  show V c main_v45 (((cfg1.win 4).blk t).view.emb (ix2 a b)) = V c main_v45 (ix2 a b)
  refine congrArg (V c main_v45) (funext fun ax => Fin.ext ?_)
  match ax with
  | ⟨0, _⟩ => show win1_4.index t (0 : Fin 2) * 1 + 1 * a.val = a.val; omega
  | ⟨1, _⟩ => show win1_4.index t (1 : Fin 2) * 512 + 1 * b.val = b.val; omega

theorem iblk1_5_at (c : Dev nD) (t : Fin cfg1.N) (a : Fin 512) (b : Fin 256) :
    iblk1 (F := Ideal) V c 5 t (ix2 a b) = V c main_v72 (ix2 a b) := by
  obtain ⟨h0, h1⟩ := idx1_5 t
  show V c main_v72 (((cfg1.win 5).blk t).view.emb (ix2 a b)) = V c main_v72 (ix2 a b)
  refine congrArg (V c main_v72) (funext fun ax => Fin.ext ?_)
  match ax with
  | ⟨0, _⟩ => show win1_5.index t (0 : Fin 2) * 512 + 1 * a.val = a.val; omega
  | ⟨1, _⟩ => show win1_5.index t (1 : Fin 2) * 256 + 1 * b.val = b.val; omega

theorem iblk1_6_at (c : Dev nD) (t : Fin cfg1.N) (a : Fin 1) (b : Fin 256) :
    iblk1 (F := Ideal) V c 6 t (ix2 a b) = V c main_v76 (ix2 a b) := by
  obtain ⟨h0, h1⟩ := idx1_6 t
  show V c main_v76 (((cfg1.win 6).blk t).view.emb (ix2 a b)) = V c main_v76 (ix2 a b)
  refine congrArg (V c main_v76) (funext fun ax => Fin.ext ?_)
  match ax with
  | ⟨0, _⟩ => show win1_6.index t (0 : Fin 2) * 1 + 1 * a.val = a.val; omega
  | ⟨1, _⟩ => show win1_6.index t (1 : Fin 2) * 256 + 1 * b.val = b.val; omega

theorem iblk1_7_at (c : Dev nD) (t : Fin cfg1.N) (a : Fin 1) (b : Fin 256) :
    iblk1 (F := Ideal) V c 7 t (ix2 a b) = V c main_v80 (ix2 a b) := by
  obtain ⟨h0, h1⟩ := idx1_7 t
  show V c main_v80 (((cfg1.win 7).blk t).view.emb (ix2 a b)) = V c main_v80 (ix2 a b)
  refine congrArg (V c main_v80) (funext fun ax => Fin.ext ?_)
  match ax with
  | ⟨0, _⟩ => show win1_7.index t (0 : Fin 2) * 1 + 1 * a.val = a.val; omega
  | ⟨1, _⟩ => show win1_7.index t (1 : Fin 2) * 256 + 1 * b.val = b.val; omega

theorem iblk1_8_at (c : Dev nD) (t : Fin cfg1.N) (a : Fin 256) (b : Fin 256) :
    iblk1 (F := Ideal) V c 8 t (ix2 a b) = V c main_v107 (ix2 a b) := by
  obtain ⟨h0, h1⟩ := idx1_8 t
  show V c main_v107 (((cfg1.win 8).blk t).view.emb (ix2 a b)) = V c main_v107 (ix2 a b)
  refine congrArg (V c main_v107) (funext fun ax => Fin.ext ?_)
  match ax with
  | ⟨0, _⟩ => show win1_8.index t (0 : Fin 2) * 256 + 1 * a.val = a.val; omega
  | ⟨1, _⟩ => show win1_8.index t (1 : Fin 2) * 256 + 1 * b.val = b.val; omega

theorem iblk1_9_at (c : Dev nD) (t : Fin cfg1.N) (a : Fin 1) (b : Fin 256) :
    iblk1 (F := Ideal) V c 9 t (ix2 a b) = V c main_v111 (ix2 a b) := by
  obtain ⟨h0, h1⟩ := idx1_9 t
  show V c main_v111 (((cfg1.win 9).blk t).view.emb (ix2 a b)) = V c main_v111 (ix2 a b)
  refine congrArg (V c main_v111) (funext fun ax => Fin.ext ?_)
  match ax with
  | ⟨0, _⟩ => show win1_9.index t (0 : Fin 2) * 1 + 1 * a.val = a.val; omega
  | ⟨1, _⟩ => show win1_9.index t (1 : Fin 2) * 256 + 1 * b.val = b.val; omega

theorem iblk1_10_at (c : Dev nD) (t : Fin cfg1.N) (a : Fin 1) (b : Fin 256) :
    iblk1 (F := Ideal) V c 10 t (ix2 a b) = V c main_v115 (ix2 a b) := by
  obtain ⟨h0, h1⟩ := idx1_10 t
  show V c main_v115 (((cfg1.win 10).blk t).view.emb (ix2 a b)) = V c main_v115 (ix2 a b)
  refine congrArg (V c main_v115) (funext fun ax => Fin.ext ?_)
  match ax with
  | ⟨0, _⟩ => show win1_10.index t (0 : Fin 2) * 1 + 1 * a.val = a.val; omega
  | ⟨1, _⟩ => show win1_10.index t (1 : Fin 2) * 256 + 1 * b.val = b.val; omega

theorem iblk1_11_at (c : Dev nD) (t : Fin cfg1.N) (a : Fin 256) (b : Fin 40) :
    iblk1 (F := Ideal) V c 11 t (ix2 a b) = V c main_v142 (ix2 a b) := by
  obtain ⟨h0, h1⟩ := idx1_11 t
  show V c main_v142 (((cfg1.win 11).blk t).view.emb (ix2 a b)) = V c main_v142 (ix2 a b)
  refine congrArg (V c main_v142) (funext fun ax => Fin.ext ?_)
  match ax with
  | ⟨0, _⟩ => show win1_11.index t (0 : Fin 2) * 256 + 1 * a.val = a.val; omega
  | ⟨1, _⟩ => show win1_11.index t (1 : Fin 2) * 40 + 1 * b.val = b.val; omega

theorem iblk1_12_at (c : Dev nD) (t : Fin cfg1.N) (a : Fin 1) (b : Fin 40) :
    iblk1 (F := Ideal) V c 12 t (ix2 a b) = V c main_v146 (ix2 a b) := by
  obtain ⟨h0, h1⟩ := idx1_12 t
  show V c main_v146 (((cfg1.win 12).blk t).view.emb (ix2 a b)) = V c main_v146 (ix2 a b)
  refine congrArg (V c main_v146) (funext fun ax => Fin.ext ?_)
  match ax with
  | ⟨0, _⟩ => show win1_12.index t (0 : Fin 2) * 1 + 1 * a.val = a.val; omega
  | ⟨1, _⟩ => show win1_12.index t (1 : Fin 2) * 40 + 1 * b.val = b.val; omega

theorem iblk1_13_at (c : Dev nD) (t : Fin cfg1.N) (a : Fin 1) (b : Fin 40) :
    iblk1 (F := Ideal) V c 13 t (ix2 a b) = V c main_v150 (ix2 a b) := by
  obtain ⟨h0, h1⟩ := idx1_13 t
  show V c main_v150 (((cfg1.win 13).blk t).view.emb (ix2 a b)) = V c main_v150 (ix2 a b)
  refine congrArg (V c main_v150) (funext fun ax => Fin.ext ?_)
  match ax with
  | ⟨0, _⟩ => show win1_13.index t (0 : Fin 2) * 1 + 1 * a.val = a.val; omega
  | ⟨1, _⟩ => show win1_13.index t (1 : Fin 2) * 40 + 1 * b.val = b.val; omega

theorem iblk1_2_eq (c : Dev nD) (t : Fin cfg1.N) : (fun i : (⟨2, ![128, 512]⟩ : Shape).Idx => iblk1 (F := Ideal) V c 2 t i) = fun i => V c main_v151 i :=
  funext fun i => by
    obtain ⟨a, b, rfl⟩ : ∃ (a : Fin 128) (b : Fin 512), i = ix2 a b := ⟨i 0, i 1, eq_ix2 i⟩
    exact iblk1_2_at V c t a b
theorem iblk1_3_eq (c : Dev nD) (t : Fin cfg1.N) : (iblk1 (F := Ideal) V c 3 t : (⟨2, ![1, 512]⟩ : Shape).Idx → EReal) = fun i => V c main_v41 i :=
  funext fun i => by
    obtain ⟨a, b, rfl⟩ : ∃ (a : Fin 1) (b : Fin 512), i = ix2 a b := ⟨i 0, i 1, eq_ix2 i⟩
    exact iblk1_3_at V c t a b
theorem iblk1_4_eq (c : Dev nD) (t : Fin cfg1.N) : (iblk1 (F := Ideal) V c 4 t : (⟨2, ![1, 512]⟩ : Shape).Idx → EReal) = fun i => V c main_v45 i :=
  funext fun i => by
    obtain ⟨a, b, rfl⟩ : ∃ (a : Fin 1) (b : Fin 512), i = ix2 a b := ⟨i 0, i 1, eq_ix2 i⟩
    exact iblk1_4_at V c t a b
theorem iblk1_5_eq (c : Dev nD) (t : Fin cfg1.N) : (iblk1 (F := Ideal) V c 5 t : (⟨2, ![512, 256]⟩ : Shape).Idx → EReal) = fun i => V c main_v72 i :=
  funext fun i => by
    obtain ⟨a, b, rfl⟩ : ∃ (a : Fin 512) (b : Fin 256), i = ix2 a b := ⟨i 0, i 1, eq_ix2 i⟩
    exact iblk1_5_at V c t a b
theorem iblk1_6_eq (c : Dev nD) (t : Fin cfg1.N) : (iblk1 (F := Ideal) V c 6 t : (⟨2, ![1, 256]⟩ : Shape).Idx → EReal) = fun i => V c main_v76 i :=
  funext fun i => by
    obtain ⟨a, b, rfl⟩ : ∃ (a : Fin 1) (b : Fin 256), i = ix2 a b := ⟨i 0, i 1, eq_ix2 i⟩
    exact iblk1_6_at V c t a b
theorem iblk1_7_eq (c : Dev nD) (t : Fin cfg1.N) : (iblk1 (F := Ideal) V c 7 t : (⟨2, ![1, 256]⟩ : Shape).Idx → EReal) = fun i => V c main_v80 i :=
  funext fun i => by
    obtain ⟨a, b, rfl⟩ : ∃ (a : Fin 1) (b : Fin 256), i = ix2 a b := ⟨i 0, i 1, eq_ix2 i⟩
    exact iblk1_7_at V c t a b
theorem iblk1_8_eq (c : Dev nD) (t : Fin cfg1.N) : (iblk1 (F := Ideal) V c 8 t : (⟨2, ![256, 256]⟩ : Shape).Idx → EReal) = fun i => V c main_v107 i :=
  funext fun i => by
    obtain ⟨a, b, rfl⟩ : ∃ (a : Fin 256) (b : Fin 256), i = ix2 a b := ⟨i 0, i 1, eq_ix2 i⟩
    exact iblk1_8_at V c t a b
theorem iblk1_9_eq (c : Dev nD) (t : Fin cfg1.N) : (iblk1 (F := Ideal) V c 9 t : (⟨2, ![1, 256]⟩ : Shape).Idx → EReal) = fun i => V c main_v111 i :=
  funext fun i => by
    obtain ⟨a, b, rfl⟩ : ∃ (a : Fin 1) (b : Fin 256), i = ix2 a b := ⟨i 0, i 1, eq_ix2 i⟩
    exact iblk1_9_at V c t a b
theorem iblk1_10_eq (c : Dev nD) (t : Fin cfg1.N) : (iblk1 (F := Ideal) V c 10 t : (⟨2, ![1, 256]⟩ : Shape).Idx → EReal) = fun i => V c main_v115 i :=
  funext fun i => by
    obtain ⟨a, b, rfl⟩ : ∃ (a : Fin 1) (b : Fin 256), i = ix2 a b := ⟨i 0, i 1, eq_ix2 i⟩
    exact iblk1_10_at V c t a b
theorem iblk1_11_eq (c : Dev nD) (t : Fin cfg1.N) : (iblk1 (F := Ideal) V c 11 t : (⟨2, ![256, 40]⟩ : Shape).Idx → EReal) = fun i => V c main_v142 i :=
  funext fun i => by
    obtain ⟨a, b, rfl⟩ : ∃ (a : Fin 256) (b : Fin 40), i = ix2 a b := ⟨i 0, i 1, eq_ix2 i⟩
    exact iblk1_11_at V c t a b
theorem iblk1_12_eq (c : Dev nD) (t : Fin cfg1.N) : (iblk1 (F := Ideal) V c 12 t : (⟨2, ![1, 40]⟩ : Shape).Idx → EReal) = fun i => V c main_v146 i :=
  funext fun i => by
    obtain ⟨a, b, rfl⟩ : ∃ (a : Fin 1) (b : Fin 40), i = ix2 a b := ⟨i 0, i 1, eq_ix2 i⟩
    exact iblk1_12_at V c t a b
theorem iblk1_13_eq (c : Dev nD) (t : Fin cfg1.N) : (iblk1 (F := Ideal) V c 13 t : (⟨2, ![1, 40]⟩ : Shape).Idx → EReal) = fun i => V c main_v150 i :=
  funext fun i => by
    obtain ⟨a, b, rfl⟩ : ∃ (a : Fin 1) (b : Fin 40), i = ix2 a b := ⟨i 0, i 1, eq_ix2 i⟩
    exact iblk1_13_at V c t a b

/-- What the output array ends holding, from the region's entry contents. -/
abbrev G14V (c : Dev nD) : S131072x40.Idx → EReal := G14 (fun i => V c main_v0 i) (V c main_v9 (ix2 (0 : Fin 1) (0 : Fin 1))) (fun i => V c main_v151 i) (fun i => V c main_v41 i) (fun i => V c main_v45 i) (fun i => V c main_v72 i) (fun i => V c main_v76 i) (fun i => V c main_v80 i) (fun i => V c main_v107 i) (fun i => V c main_v111 i) (fun i => V c main_v115 i) (fun i => V c main_v142 i) (fun i => V c main_v146 i) (fun i => V c main_v150 i)

/-- What point `t` writes back is block `t` of that array. -/
theorem flushed14_eq (c : Dev nD) (t : Fin cfg1.N) :
    (dat1 (F := Ideal) V c).flushed 14 t = ((cfg1.win 14).blk t).view.read (Elt Ideal) (G14V V c) := by
  show (cfg1.win 14).cut (grid1.coords t) ((dat1 V c).after 14 t) = _
  rw [after1_14]
  funext y
  obtain ⟨p, q, rfl⟩ : ∃ (p : Fin 1024) (q : Fin 40), y = ix2 p q := ⟨y 0, y 1, eq_ix2 y⟩
  obtain ⟨h0, h1⟩ := idx1_14 t
  have hb : 1024 * t.val + p.val < 131072 := by have := t.isLt; have : cfg1.N = 128 := N_1; omega
  have he0 : (((cfg1.win 14).blk t).view.emb (ix2 p q) (0 : Fin 2)).val = 1024 * t.val + p.val := by
    show win1_14.index t (0 : Fin 2) * 1024 + 1 * p.val = 1024 * t.val + p.val; omega
  have he1 : (((cfg1.win 14).blk t).view.emb (ix2 p q) (1 : Fin 2)).val = q.val := by
    show win1_14.index t (1 : Fin 2) * 40 + 1 * q.val = q.val; omega
  refine (out1_14_row (iblk1 V c 0 t) (iblk1 V c 1 t) (iblk1 V c 2 t) (iblk1 V c 3 t) (iblk1 V c 4 t) (iblk1 V c 5 t) (iblk1 V c 6 t)
    (iblk1 V c 7 t) (iblk1 V c 8 t) (iblk1 V c 9 t) (iblk1 V c 10 t) (iblk1 V c 11 t) (iblk1 V c 12 t) (iblk1 V c 13 t) p q).trans ?_
  show _ = G14V V c (((cfg1.win 14).blk t).view.emb (ix2 p q))
  unfold G14V G14
  have e0 : (fun d : Fin 128 => iblk1 (F := Ideal) V c 0 t (ix2 p d))
      = fun d => V c main_v0 (ix2 (⟨(((cfg1.win 14).blk t).view.emb (ix2 p q) (0 : Fin 2)).val, (((cfg1.win 14).blk t).view.emb (ix2 p q) (0 : Fin 2)).isLt⟩ : Fin 131072) d) :=
    funext fun d => (iblk1_0_at V c t p d).trans (congrArg (fun r : Fin 131072 => V c main_v0 (ix2 r d)) (Fin.ext he0.symm))
  have e1 : (⟨(((cfg1.win 14).blk t).view.emb (ix2 p q) (1 : Fin 2)).val, (((cfg1.win 14).blk t).view.emb (ix2 p q) (1 : Fin 2)).isLt⟩ : Fin 40) = q := Fin.ext he1
  rw [e1]
  exact congr (congrArg (fun f s => rowNet f s _ _ _ _ _ _ _ _ _ _ _ _ q) e0) (iblk1_1_at V c t 0 0) |>.trans (by
    rw [iblk1_2_eq V c t, iblk1_3_eq V c t, iblk1_4_eq V c t, iblk1_5_eq V c t, iblk1_6_eq V c t, iblk1_7_eq V c t, iblk1_8_eq V c t,
      iblk1_9_eq V c t, iblk1_10_eq V c t, iblk1_11_eq V c t, iblk1_12_eq V c t, iblk1_13_eq V c t]
    rfl)

/-- An index of the output array is in point `t`'s block iff each coordinate is in the block's range on its axis. -/
theorem mem_blk14 (t : Fin cfg1.N) (i : S131072x40.Idx) :
    i ∈ ((cfg1.win 14).blk t).view.set ↔ ∀ a : Fin 2, win1_14.index t a * S1024x40.size a ≤ (i a).val ∧ (i a).val < win1_14.index t a * S1024x40.size a + S1024x40.size a := by
  show i ∈ ((View.whole main_v152).slice (win1_14.rect t)).set ↔ _
  rw [View.set_slice_whole, Rect.mem_set_unit]
  exact Iff.rfl

/-- Every row of the output array is in the block of the point `row / 1024`, which writes it back. -/
theorem cover14 (i : S131072x40.Idx) : ∃ t : Fin cfg1.N, (cfg1.win 14).flush t = true ∧ i ∈ ((cfg1.win 14).blk t).view.set := by
  have hi0 : (i 0).val < 131072 := (i 0).isLt
  have hi1 : (i 1).val < 40 := (i 1).isLt
  have hN : cfg1.N = 128 := N_1
  refine ⟨⟨(i 0).val / 1024, by omega⟩, flush1_14 _, ?_⟩
  rw [mem_blk14]
  obtain ⟨h0, h1⟩ := idx1_14 ⟨(i 0).val / 1024, by omega⟩
  intro a
  match a with
  | ⟨0, _⟩ =>
    show win1_14.index _ (0 : Fin 2) * 1024 ≤ (i 0).val ∧ (i 0).val < win1_14.index _ (0 : Fin 2) * 1024 + 1024
    rw [h0]; show (i 0).val / 1024 * 1024 ≤ (i 0).val ∧ (i 0).val < (i 0).val / 1024 * 1024 + 1024; omega
  | ⟨1, _⟩ =>
    show win1_14.index _ (1 : Fin 2) * 40 ≤ (i 1).val ∧ (i 1).val < win1_14.index _ (1 : Fin 2) * 40 + 40
    rw [h1]; omega

/-- The output array after the region: every row is the packed input's row through the four layers. -/
theorem final14 (c : Dev nD) : (dat1 (F := Ideal) V c).arrAt 14 cfg1.N = G14V V c :=
  (dat1 (F := Ideal) V c).arrAt_eq_of_cover 14 (G14V V c) (fun t _ => flushed14_eq V c t) cover14

end Cert.KernelIdeal.Hand

end
-- ==== Proof.LibPacked.lean ====
/-
  General lemmas: a block-diagonal layer acts on a packed row group by group.

  Pack G rows of width I into one row of width N = G · I (entry I·a + k of the packed row is entry k of row a), and
  pack a weight W (o, k) block-diagonally: W' (O·a + o, I·a' + k) is W (o, k) when a' = a and 0 otherwise, written as
  the product of an identity-matrix entry (1 or 0) with W (o, k). Then a sum of products over the packed width against
  column O·a + o only sees group a, and one layer of the packed row at O·a + o is the layer of row a at o — on the
  extended reals, where 0 · x = 0 and x · 0 = 0 hold for every x, infinite ones included, so nothing needs to be finite.
  The packing is given by an embedding `e a k` whose value is I·a + k, so the extents stay variables.
-/
import Mathlib.Algebra.BigOperators.Fin
import Mathlib.Data.EReal.Operations
import proofs.«147168_j38843684225834_2_alg».proof.Proof.Spec

noncomputable section

namespace Cert.LibPacked

open Cert.Spec

variable {G I O N M : ℕ}

/-- The pairs (group, position) are the packed positions. -/
def packEquiv (hN : N = G * I) : Fin G × Fin I ≃ Fin N := finProdFinEquiv.trans (finCongr hN.symm)

theorem packEquiv_val (hN : N = G * I) (a : Fin G) (k : Fin I) : (packEquiv hN (a, k)).val = I * a.val + k.val := by
  simp [packEquiv, finProdFinEquiv, Nat.add_comm]

/-- A sum over the packed width is the double sum over groups and positions. -/
theorem sum_pack (hN : N = G * I) (e : Fin G → Fin I → Fin N) (he : ∀ a k, (e a k).val = I * a.val + k.val) (f : Fin N → EReal) :
    ∑ k' : Fin N, f k' = ∑ a : Fin G, ∑ k : Fin I, f (e a k) := by
  rw [← Equiv.sum_comp (packEquiv hN) f, Fintype.sum_prod_type]
  refine Finset.sum_congr rfl fun a _ => Finset.sum_congr rfl fun k _ => congrArg f (Fin.ext ?_)
  rw [packEquiv_val, he]

/-- Against a block-diagonal column, a sum of products over the packed width is the sum over one group. -/
theorem sum_blockdiag (hN : N = G * I) (e : Fin G → Fin I → Fin N) (he : ∀ a k, (e a k).val = I * a.val + k.val)
    (f : Fin N → EReal) (w : Fin I → EReal) (a : Fin G) (W' : Fin N → EReal)
    (hW : ∀ (a' : Fin G) (k : Fin I), W' (e a' k) = (if a' = a then (1 : EReal) else 0) * w k) :
    ∑ k' : Fin N, f k' * W' k' = ∑ k : Fin I, f (e a k) * w k := by
  rw [sum_pack hN e he]
  rw [Finset.sum_eq_single a]
  · refine Finset.sum_congr rfl fun k _ => ?_
    rw [hW, if_pos rfl, one_mul]
  · intro a' _ hne
    refine Finset.sum_eq_zero fun k _ => ?_
    rw [hW, if_neg hne, zero_mul, mul_zero]
  · intro h; exact absurd (Finset.mem_univ a) h

/-- One layer of a packed row against block-diagonally packed weights, bias and bias scale, at packed output
    position (a, o), is the layer of group a's row at o. -/
theorem layerAt_packed (hN : N = G * I) (e : Fin G → Fin I → Fin N) (he : ∀ a k, (e a k).val = I * a.val + k.val)
    (eo : Fin G → Fin O → Fin M)
    (h : Fin N → EReal) (s : EReal) (W' : Fin M → Fin N → EReal) (B' Bsf' : Fin M → EReal)
    (W : Fin O → Fin I → EReal) (B Bsf : Fin O → EReal) (a : Fin G) (o : Fin O)
    (hW : ∀ (a' : Fin G) (k : Fin I), W' (eo a o) (e a' k) = (if a' = a then (1 : EReal) else 0) * W o k)
    (hB : B' (eo a o) = B o) (hBsf : Bsf' (eo a o) = Bsf o) :
    layerAt h s W' B' Bsf' (eo a o) = layerAt (fun k => h (e a k)) s W B Bsf o := by
  unfold layerAt
  rw [hB, hBsf, sum_blockdiag hN e he (fun k' => Idealize.ShloMosaic.Ideal.div (h k') s) (W o) a (W' (eo a o)) hW]

/-- The same for the first layer, fed the quantized row undivided. -/
theorem layer0At_packed (hN : N = G * I) (e : Fin G → Fin I → Fin N) (he : ∀ a k, (e a k).val = I * a.val + k.val)
    (eo : Fin G → Fin O → Fin M)
    (q : Fin N → EReal) (W' : Fin M → Fin N → EReal) (B' Bsf' : Fin M → EReal)
    (W : Fin O → Fin I → EReal) (B Bsf : Fin O → EReal) (a : Fin G) (o : Fin O)
    (hW : ∀ (a' : Fin G) (k : Fin I), W' (eo a o) (e a' k) = (if a' = a then (1 : EReal) else 0) * W o k)
    (hB : B' (eo a o) = B o) (hBsf : Bsf' (eo a o) = Bsf o) :
    layer0At q W' B' Bsf' (eo a o) = layer0At (fun k => q (e a k)) W B Bsf o := by
  unfold layer0At
  rw [hB, hBsf, sum_blockdiag hN e he q (W o) a (W' (eo a o)) hW]

end Cert.LibPacked

end
-- ==== Proof.KI.PackedNet.lean ====
/-
  The packed network is the network, group by group: one packed row of 128 = 8 · 16 entries through the four layers whose
  weights are packed block-diagonally (and whose bias and bias-scale rows are the plain ones repeated eight times), read at
  packed output position 5·a + o, is row a (entries 16·a … 16·a + 15) through the four plain layers, read at o.
-/
import proofs.«147168_j38843684225834_2_alg».proof.Proof.KI.Region1Val
import proofs.«147168_j38843684225834_2_alg».proof.Proof.LibPacked

set_option maxRecDepth 16384

noncomputable section

namespace Cert.KernelIdeal.Hand

open Cert.KernelIdeal Cert.KernelIdeal.Gen
open Idealize.ShloMosaic Idealize.ShloMosaic.ValueIdx Cert.LibPacked

/-- Position k of group a in a packed row of G · I entries. -/
def pk (I N : ℕ) (hN : N = 8 * I) (a : Fin 8) (k : Fin I) : Fin N := ⟨I * a.val + k.val, by
  have := a.isLt; have := k.isLt; subst hN; nlinarith⟩

theorem pk_val (I N : ℕ) (hN : N = 8 * I) (a : Fin 8) (k : Fin I) : (pk I N hN a k).val = I * a.val + k.val := rfl

/-- The plain network at a row: the four layers nested. -/
def net (x : Fin 16 → EReal) (s : EReal)
    (w0 : Fin 64 → Fin 16 → EReal) (b0 f0 : Fin 64 → EReal) (w2 : Fin 32 → Fin 64 → EReal) (b2 f2 : Fin 32 → EReal)
    (w4 : Fin 32 → Fin 32 → EReal) (b4 f4 : Fin 32 → EReal) (w6 : Fin 5 → Fin 32 → EReal) (b6 f6 : Fin 5 → EReal) (o : Fin 5) : EReal :=
  Cert.Spec.layerAt (fun k' : Fin 32 => Cert.Spec.layerAt (fun k : Fin 32 => Cert.Spec.layerAt
      (fun j : Fin 64 => Cert.Spec.layer0At (fun d : Fin 16 => qin (x d) s) w0 b0 f0 j) s w2 b2 f2 k) s w4 b4 f4 k') s w6 b6 f6 o

theorem rowNet_packed (x : Fin 128 → EReal) (s : EReal) (W0 : S128x512.Idx → EReal) (B0 Bsf0 : S1x512.Idx → EReal)
    (W2 : S512x256.Idx → EReal) (B2 Bsf2 : S1x256.Idx → EReal) (W4 : S256x256.Idx → EReal) (B4 Bsf4 : S1x256.Idx → EReal)
    (W6 : S256x40.Idx → EReal) (B6 Bsf6 : S1x40.Idx → EReal)
    (w0 : Fin 64 → Fin 16 → EReal) (b0 f0 : Fin 64 → EReal) (w2 : Fin 32 → Fin 64 → EReal) (b2 f2 : Fin 32 → EReal)
    (w4 : Fin 32 → Fin 32 → EReal) (b4 f4 : Fin 32 → EReal) (w6 : Fin 5 → Fin 32 → EReal) (b6 f6 : Fin 5 → EReal)
    (hW0 : ∀ (a' a : Fin 8) (k : Fin 16) (o : Fin 64), W0 (ix2 (pk 16 128 rfl a' k) (pk 64 512 rfl a o)) = (if a' = a then (1 : EReal) else 0) * w0 o k)
    (hB0 : ∀ (a : Fin 8) (o : Fin 64), B0 (ix2 (0 : Fin 1) (pk 64 512 rfl a o)) = b0 o)
    (hF0 : ∀ (a : Fin 8) (o : Fin 64), Bsf0 (ix2 (0 : Fin 1) (pk 64 512 rfl a o)) = f0 o)
    (hW2 : ∀ (a' a : Fin 8) (k : Fin 64) (o : Fin 32), W2 (ix2 (pk 64 512 rfl a' k) (pk 32 256 rfl a o)) = (if a' = a then (1 : EReal) else 0) * w2 o k)
    (hB2 : ∀ (a : Fin 8) (o : Fin 32), B2 (ix2 (0 : Fin 1) (pk 32 256 rfl a o)) = b2 o)
    (hF2 : ∀ (a : Fin 8) (o : Fin 32), Bsf2 (ix2 (0 : Fin 1) (pk 32 256 rfl a o)) = f2 o)
    (hW4 : ∀ (a' a : Fin 8) (k : Fin 32) (o : Fin 32), W4 (ix2 (pk 32 256 rfl a' k) (pk 32 256 rfl a o)) = (if a' = a then (1 : EReal) else 0) * w4 o k)
    (hB4 : ∀ (a : Fin 8) (o : Fin 32), B4 (ix2 (0 : Fin 1) (pk 32 256 rfl a o)) = b4 o)
    (hF4 : ∀ (a : Fin 8) (o : Fin 32), Bsf4 (ix2 (0 : Fin 1) (pk 32 256 rfl a o)) = f4 o)
    (hW6 : ∀ (a' a : Fin 8) (k : Fin 32) (o : Fin 5), W6 (ix2 (pk 32 256 rfl a' k) (pk 5 40 rfl a o)) = (if a' = a then (1 : EReal) else 0) * w6 o k)
    (hB6 : ∀ (a : Fin 8) (o : Fin 5), B6 (ix2 (0 : Fin 1) (pk 5 40 rfl a o)) = b6 o)
    (hF6 : ∀ (a : Fin 8) (o : Fin 5), Bsf6 (ix2 (0 : Fin 1) (pk 5 40 rfl a o)) = f6 o)
    (a : Fin 8) (o : Fin 5) :
    rowNet x s W0 B0 Bsf0 W2 B2 Bsf2 W4 B4 Bsf4 W6 B6 Bsf6 (pk 5 40 rfl a o)
      = net (fun d => x (pk 16 128 rfl a d)) s w0 b0 f0 w2 b2 f2 w4 b4 f4 w6 b6 f6 o := by
  unfold rowNet net
  -- the last layer: packed width 256 = 8 · 32, packed outputs 40 = 8 · 5
  refine (layerAt_packed (G := 8) (I := 32) (O := 5) (N := 256) (M := 40) rfl (pk 32 256 rfl) (pk_val 32 256 rfl) (pk 5 40 rfl)
    _ s (fun q k' => W6 (ix2 k' q)) (fun q => B6 (ix2 (0 : Fin 1) q)) (fun q => Bsf6 (ix2 (0 : Fin 1) q)) w6 b6 f6 a o
    (fun a' k => hW6 a' a k o) (hB6 a o) (hF6 a o)).trans ?_
  refine congrArg (fun h => Cert.Spec.layerAt h s w6 b6 f6 o) (funext fun k' => ?_)
  -- layer 4: packed width 256 = 8 · 32, packed outputs 256 = 8 · 32
  refine (layerAt_packed (G := 8) (I := 32) (O := 32) (N := 256) (M := 256) rfl (pk 32 256 rfl) (pk_val 32 256 rfl) (pk 32 256 rfl)
    _ s (fun k' k => W4 (ix2 k k')) (fun k' => B4 (ix2 (0 : Fin 1) k')) (fun k' => Bsf4 (ix2 (0 : Fin 1) k')) w4 b4 f4 a k'
    (fun a' k => hW4 a' a k k') (hB4 a k') (hF4 a k')).trans ?_
  refine congrArg (fun h => Cert.Spec.layerAt h s w4 b4 f4 k') (funext fun k => ?_)
  -- layer 2: packed width 512 = 8 · 64, packed outputs 256 = 8 · 32
  refine (layerAt_packed (G := 8) (I := 64) (O := 32) (N := 512) (M := 256) rfl (pk 64 512 rfl) (pk_val 64 512 rfl) (pk 32 256 rfl)
    _ s (fun k j => W2 (ix2 j k)) (fun k => B2 (ix2 (0 : Fin 1) k)) (fun k => Bsf2 (ix2 (0 : Fin 1) k)) w2 b2 f2 a k
    (fun a' j => hW2 a' a j k) (hB2 a k) (hF2 a k)).trans ?_
  refine congrArg (fun h => Cert.Spec.layerAt h s w2 b2 f2 k) (funext fun j => ?_)
  -- layer 0: packed width 128 = 8 · 16, packed outputs 512 = 8 · 64
  exact layer0At_packed (G := 8) (I := 16) (O := 64) (N := 128) (M := 512) rfl (pk 16 128 rfl) (pk_val 16 128 rfl) (pk 64 512 rfl)
    (fun d => qin (x d) s) (fun j d => W0 (ix2 d j)) (fun j => B0 (ix2 (0 : Fin 1) j)) (fun j => Bsf0 (ix2 (0 : Fin 1) j)) w0 b0 f0 a j
    (fun a' d => hW0 a' a d j) (hB0 a j) (hF0 a j)

end Cert.KernelIdeal.Hand

end
-- ==== Proof.LibExtrema.lean ====
/-
  Minima, maxima and finiteness on the extended reals.

  Part B (finiteness). An extended real is called real when it is the image of a real number. The round-half-even of a
  real is real, so is its clip to [-127, 127], and on a real the "straight through" spelling y + (round y - y) is the
  round itself; the quotient of a real by a nonzero real is the real quotient; a product by a nonzero real divided by it
  again is the factor; a minimum or maximum of reals over a nonempty finite index set is real (it is attained); and the
  scale max(max(|lo|, |hi|) / 127, eps) of two reals, eps the positive real 11258999 * 2^-50, is a positive real.

  Part A (extrema). The host's reduce with the minimum (maximum) body is the infimum (supremum) of the operand elements
  that reduce to the index, met (joined) with the initial value; when everything reduces to one index it is the infimum
  (supremum) over the whole operand, and with the initial value +infinity (-infinity) nothing else. A minimum (maximum)
  multi-reduction over one axis is the infimum (supremum) along that axis met (joined) with the accumulator's value.
-/
import Idealize.ShloMosaic.PureOps.Ideal
import Idealize.ShloMosaic.PureOps.Ideal.Laws
import Idealize.ShloMosaic.PureOps.Reduce
import Idealize.ShloMosaic.Lib.ValueIdx
import proofs.«147168_j38843684225834_2_alg».proof.Proof.Spec

noncomputable section

namespace Cert.LibExtrema

open Idealize.ShloMosaic

/-! ## Part B: finiteness -/

/-- The round of a real is the real of the rounded integer. -/
theorem rnd_coe (y : ℝ) : Cert.Spec.rnd (y : EReal) = (((Ideal.roundHalfEven y : ℤ) : ℝ) : EReal) := rfl

theorem rnd_real (y : ℝ) : ∃ z : ℝ, Cert.Spec.rnd (y : EReal) = (z : EReal) := ⟨_, rnd_coe y⟩

/-- On a real the straight-through spelling is the round: y + (z - y) = z among reals. -/
theorem ste_real (y : ℝ) : Cert.Spec.ste (y : EReal) = Cert.Spec.rnd (y : EReal) := by
  rw [Cert.Spec.ste, rnd_coe, ← EReal.coe_sub, ← EReal.coe_add]
  congr 1; ring

/-- The lower clip bound is the real -127. -/
theorem lo_eq : Cert.Spec.lo = ((-127 : ℝ) : EReal) := by
  rw [Cert.Spec.lo]; congr 1
  have : (4294967169#32 : BitVec 32).toInt = -127 := by decide
  rw [this]; norm_num

/-- The upper clip bound is the real 127. -/
theorem hi_eq : Cert.Spec.hi = ((127 : ℝ) : EReal) := by
  have h : (127#32 : BitVec 32).toInt = 127 := by decide
  rw [Cert.Spec.hi, h]; norm_num

/-- The inclusion of the reals keeps maxima and minima. -/
theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- The clip of a real is the real clip. -/
theorem clip_coe (y : ℝ) : Cert.Spec.clip (y : EReal) = ((min (127 : ℝ) (max (-127 : ℝ) y) : ℝ) : EReal) := by
  rw [Cert.Spec.clip, lo_eq, hi_eq, coe_min, coe_max]

theorem clip_real (y : ℝ) : ∃ z : ℝ, Cert.Spec.clip (y : EReal) = (z : EReal) := ⟨_, clip_coe y⟩

/-- The quantizer of a real is real. -/
theorem quant_coe (y : ℝ) :
    Cert.Spec.quant (y : EReal) = ((min (127 : ℝ) (max (-127 : ℝ) ((Ideal.roundHalfEven y : ℤ) : ℝ)) : ℝ) : EReal) := by
  rw [Cert.Spec.quant, rnd_coe, clip_coe]

theorem quant_real (y : ℝ) : ∃ z : ℝ, Cert.Spec.quant (y : EReal) = (z : EReal) := ⟨_, quant_coe y⟩

/-- On a real the straight-through quantizer is the quantizer. -/
theorem quantSte_eq (y : ℝ) : Cert.Spec.quantSte (y : EReal) = Cert.Spec.quant (y : EReal) := by
  rw [Cert.Spec.quantSte, ste_real, Cert.Spec.quant]

/-- The quotient of a real by a nonzero real is the real quotient. -/
theorem div_real (x : ℝ) {w : ℝ} (hw : w ≠ 0) : Ideal.div (x : EReal) (w : EReal) = ((x / w : ℝ) : EReal) := by
  rw [Ideal.div_coe hw, ← EReal.coe_mul, mul_one_div]

/-- A product by a nonzero real, divided by it again, is the other factor. -/
theorem mul_div_cancel (q s : ℝ) (hs : s ≠ 0) : Ideal.div ((q : EReal) * (s : EReal)) (s : EReal) = (q : EReal) := by
  rw [← EReal.coe_mul, div_real _ hs, mul_div_assoc, div_self hs, mul_one]

/-- A minimum of reals over a nonempty finite set is real: it is attained. -/
theorem inf_real {ι : Type*} (S : Finset ι) (hS : S.Nonempty) (f : ι → EReal)
    (hf : ∀ i ∈ S, ∃ r : ℝ, f i = (r : EReal)) : ∃ r : ℝ, S.inf f = (r : EReal) := by
  obtain ⟨i, hi, e⟩ := Finset.exists_mem_eq_inf S hS f
  obtain ⟨r, hr⟩ := hf i hi
  exact ⟨r, e.trans hr⟩

/-- A maximum of reals over a nonempty finite set is real: it is attained. -/
theorem sup_real {ι : Type*} (S : Finset ι) (hS : S.Nonempty) (f : ι → EReal)
    (hf : ∀ i ∈ S, ∃ r : ℝ, f i = (r : EReal)) : ∃ r : ℝ, S.sup f = (r : EReal) := by
  obtain ⟨i, hi, e⟩ := Finset.exists_mem_eq_sup S hS f
  obtain ⟨r, hr⟩ := hf i hi
  exact ⟨r, e.trans hr⟩

/-- The infimum of a family of reals over a nonempty finite index type is real. -/
theorem iInf_real {ι : Type*} [Fintype ι] [Nonempty ι] (f : ι → EReal) (hf : ∀ i, ∃ r : ℝ, f i = (r : EReal)) :
    ∃ r : ℝ, (⨅ i, f i) = (r : EReal) := by
  rw [← Finset.inf_univ_eq_iInf]
  exact inf_real Finset.univ Finset.univ_nonempty f fun i _ => hf i

/-- The supremum of a family of reals over a nonempty finite index type is real. -/
theorem iSup_real {ι : Type*} [Fintype ι] [Nonempty ι] (f : ι → EReal) (hf : ∀ i, ∃ r : ℝ, f i = (r : EReal)) :
    ∃ r : ℝ, (⨆ i, f i) = (r : EReal) := by
  rw [← Finset.sup_univ_eq_iSup]
  exact sup_real Finset.univ Finset.univ_nonempty f fun i _ => hf i

/-- The f32 pattern 0x42FE0000 is the real 127. -/
theorem ofBits_127 : Ideal.ofBits .f32 0x42FE0000#32 = ((127 : ℝ) : EReal) := by
  simp [Ideal.ofBits, Ideal.ieee, -EReal.coe_mul]; norm_num

/-- The f32 pattern 0x322BCC77 is a positive real. -/
theorem ofBits_eps : ∃ e : ℝ, 0 < e ∧ Ideal.ofBits .f32 0x322BCC77#32 = (e : EReal) := by
  refine ⟨(11258999 : ℝ) * (2 : ℝ) ^ (-50 : ℤ), by positivity, ?_⟩
  simp [Ideal.ofBits, Ideal.ieee, -EReal.coe_mul]

/-- The scale max(max(|lo|, |hi|) / 127, eps) of two reals is a positive real. -/
theorem scale_pos (lo hi : ℝ) : ∃ w : ℝ, 0 < w ∧
    max (Ideal.div (max (max (lo : EReal) (-(lo : EReal))) (max (hi : EReal) (-(hi : EReal))))
      (Ideal.ofBits .f32 0x42FE0000#32)) (Ideal.ofBits .f32 0x322BCC77#32) = (w : EReal) := by
  obtain ⟨e, he, hE⟩ := ofBits_eps
  refine ⟨max ((max (max lo (-lo)) (max hi (-hi))) / 127) e, lt_max_of_lt_right he, ?_⟩
  rw [hE, ofBits_127, ← EReal.coe_neg, ← EReal.coe_neg, ← coe_max, ← coe_max, ← coe_max,
    div_real _ (by norm_num : (127 : ℝ) ≠ 0), ← coe_max]

/-! ## Part A: extrema -/

/-- A fold of the minimum from b is the infimum met with b. -/
theorem fold_min_eq_inf {ι : Type*} (S : Finset ι) (b : EReal) (f : ι → EReal) :
    S.fold min b f = S.inf f ⊓ b := by
  induction S using Finset.cons_induction with
  | empty => simp
  | cons a S ha ih => rw [Finset.fold_cons, Finset.inf_cons, ih, inf_assoc]

/-- A fold of the maximum from b is the supremum joined with b. -/
theorem fold_max_eq_sup {ι : Type*} (S : Finset ι) (b : EReal) (f : ι → EReal) :
    S.fold max b f = S.sup f ⊔ b := by
  induction S using Finset.cons_induction with
  | empty => simp
  | cons a S ha ih => rw [Finset.fold_cons, Finset.sup_cons, ih, sup_assoc]

/-- The f32 pattern 0x7F800000 is +infinity, and 0xFF800000 is -infinity. -/
theorem ofBits_posInf : Ideal.ofBits .f32 0x7F800000#32 = ⊤ := by simp [Ideal.ofBits, Ideal.ieee]

theorem ofBits_negInf : Ideal.ofBits .f32 0xFF800000#32 = ⊥ := by simp [Ideal.ofBits, Ideal.ieee]

variable {φ : FTy} {s t u : Shape} {axes : List (Fin s.rank)}

/-- The host's reduce with the minimum body: the infimum of the operand elements reducing to the index, met with the
    initial value's element. -/
theorem hostReduce_min (x : s.Idx → EReal) (init : u.Idx → EReal) (h : s.ReducesTo axes t) (hu : 0 < u.numel)
    (j : t.Idx) :
    Host.reduce (FloatOps.minimumf (F := Ideal) (φ := φ)) x init h hu j
      = (Finset.univ.filter fun i => h.drop i = j).inf x ⊓ init (Shape.Idx.first hu) := by
  rw [Host.reduce_eq_fold]; exact fold_min_eq_inf _ _ _

/-- The host's reduce with the maximum body: the supremum of the operand elements reducing to the index, joined with
    the initial value's element. -/
theorem hostReduce_max (x : s.Idx → EReal) (init : u.Idx → EReal) (h : s.ReducesTo axes t) (hu : 0 < u.numel)
    (j : t.Idx) :
    Host.reduce (FloatOps.maximumf (F := Ideal) (φ := φ)) x init h hu j
      = (Finset.univ.filter fun i => h.drop i = j).sup x ⊔ init (Shape.Idx.first hu) := by
  rw [Host.reduce_eq_fold]; exact fold_max_eq_sup _ _ _

/-- When the result has no axis, every operand index reduces to its one index. -/
theorem filter_drop_eq_univ (h : s.ReducesTo axes t) (ht : t.rank = 0) (j : t.Idx) :
    (Finset.univ.filter fun i => h.drop i = j) = Finset.univ := by
  have : Subsingleton t.Idx := ⟨fun a b => funext fun c => (Fin.cast ht c).elim0⟩
  exact Finset.filter_true_of_mem fun i _ => Subsingleton.elim _ _

/-- Reducing every axis with the minimum body: the infimum of the whole operand met with the initial value. -/
theorem hostReduce_min_all (x : s.Idx → EReal) (init : u.Idx → EReal) (h : s.ReducesTo axes t) (hu : 0 < u.numel)
    (ht : t.rank = 0) (j : t.Idx) :
    Host.reduce (FloatOps.minimumf (F := Ideal) (φ := φ)) x init h hu j = (⨅ i, x i) ⊓ init (Shape.Idx.first hu) := by
  rw [hostReduce_min, filter_drop_eq_univ h ht, Finset.inf_univ_eq_iInf]

/-- Reducing every axis with the maximum body: the supremum of the whole operand joined with the initial value. -/
theorem hostReduce_max_all (x : s.Idx → EReal) (init : u.Idx → EReal) (h : s.ReducesTo axes t) (hu : 0 < u.numel)
    (ht : t.rank = 0) (j : t.Idx) :
    Host.reduce (FloatOps.maximumf (F := Ideal) (φ := φ)) x init h hu j = (⨆ i, x i) ⊔ init (Shape.Idx.first hu) := by
  rw [hostReduce_max, filter_drop_eq_univ h ht, Finset.sup_univ_eq_iSup]

/-- From the initial value +infinity the minimum over every axis is the infimum of the operand. -/
theorem hostReduce_min_all_top (x : s.Idx → EReal) (init : u.Idx → EReal) (h : s.ReducesTo axes t) (hu : 0 < u.numel)
    (ht : t.rank = 0) (hinit : init (Shape.Idx.first hu) = ⊤) (j : t.Idx) :
    Host.reduce (FloatOps.minimumf (F := Ideal) (φ := φ)) x init h hu j = ⨅ i, x i := by
  rw [hostReduce_min_all x init h hu ht, hinit, inf_top_eq]

/-- From the initial value -infinity the maximum over every axis is the supremum of the operand. -/
theorem hostReduce_max_all_bot (x : s.Idx → EReal) (init : u.Idx → EReal) (h : s.ReducesTo axes t) (hu : 0 < u.numel)
    (ht : t.rank = 0) (hinit : init (Shape.Idx.first hu) = ⊥) (j : t.Idx) :
    Host.reduce (FloatOps.maximumf (F := Ideal) (φ := φ)) x init h hu j = ⨆ i, x i := by
  rw [hostReduce_max_all x init h hu ht, hinit, sup_bot_eq]

/-- The same with the f32 patterns of the two infinities as the splat initial value. -/
theorem hostReduce_min_all_posInf (x : s.Idx → EReal) (h : s.ReducesTo axes t) (hu : 0 < u.numel) (ht : t.rank = 0)
    (j : t.Idx) :
    Host.reduce (u := u) (FloatOps.minimumf (F := Ideal) (φ := .f32)) x (fun _ => Ideal.ofBits .f32 0x7F800000#32) h hu j
      = ⨅ i, x i :=
  hostReduce_min_all_top x _ h hu ht ofBits_posInf j

theorem hostReduce_max_all_negInf (x : s.Idx → EReal) (h : s.ReducesTo axes t) (hu : 0 < u.numel) (ht : t.rank = 0)
    (j : t.Idx) :
    Host.reduce (u := u) (FloatOps.maximumf (F := Ideal) (φ := .f32)) x (fun _ => Ideal.ofBits .f32 0xFF800000#32) h hu j
      = ⨆ i, x i :=
  hostReduce_max_all_bot x _ h hu ht ofBits_negInf j

/-- A minimum multi-reduction over one axis: the infimum along that axis met with the accumulator's value. -/
theorem coreReduce_min_single {a : Fin s.rank} (src : FVec Ideal s φ) (acc : BitVec φ.bits) (h : s.Reduces [a] t)
    (hφ : FKind.Formats φ) (hacc : acc = FKind.minimumf.neutral φ hφ) (j : t.Idx) :
    multiReduction .minimumf [a] t src acc h hφ hacc j
      = (Finset.univ : Finset (Fin (s.size a))).inf (src ∘ h.lift j) ⊓ FloatOps.ofBits (F := Ideal) φ acc := by
  rw [multiReduction_minimumf_eq_fold, h.fold_filter_drop_single]; exact fold_min_eq_inf _ _ _

/-- A maximum multi-reduction over one axis: the supremum along that axis joined with the accumulator's value. -/
theorem coreReduce_max_single {a : Fin s.rank} (src : FVec Ideal s φ) (acc : BitVec φ.bits) (h : s.Reduces [a] t)
    (hφ : FKind.Formats φ) (hacc : acc = FKind.maximumf.neutral φ hφ) (j : t.Idx) :
    multiReduction .maximumf [a] t src acc h hφ hacc j
      = (Finset.univ : Finset (Fin (s.size a))).sup (src ∘ h.lift j) ⊔ FloatOps.ofBits (F := Ideal) φ acc := by
  rw [multiReduction_maximumf_eq_fold, h.fold_filter_drop_single]; exact fold_max_eq_sup _ _ _

end Cert.LibExtrema

end
-- ==== Proof.KI.Bridge1.lean ====
/-
  The result of the kernel's program is the last reshape of region 1's output array: entry (r, o) of the [1048576, 5]
  result is entry (r / 8, 5 · (r mod 8) + o) of the [131072, 40] array. The body's quantized input entry is the
  specification's quantizer of x / s (the body's clip bounds are the float words of -127 and 127).
-/
import proofs.«147168_j38843684225834_2_alg».proof.Proof.KI.Run
import proofs.«147168_j38843684225834_2_alg».proof.Proof.KI.Region1Val
import proofs.«147168_j38843684225834_2_alg».proof.Proof.KI.PackedNet
import proofs.«147168_j38843684225834_2_alg».proof.Proof.LibExtrema
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.ValueIdx Idealize.SL.Sem Idealize.ShloMosaic.StableHlo

/-- The last host stretch (one reshape), over any contents before it. -/
theorem v153_of (W : Valuation τ sig (Elt Ideal)) :
    (StableHlo.after hostOps2 W (Proc.devRef .tc main_v153) : S1048576x5.Idx → EReal)
      = shapeCast S1048576x5 (W (Proc.devRef .tc main_v152) : S131072x40.Idx → EReal) shapeCasts_S131072x40_S1048576x5 := by
  dsimp only [hostOps2]; after_results <;> rfl

/-- The result at (r, o) is the packed output at (r / 8, 5 · (r mod 8) + o). -/
theorem v153_at (W : Valuation τ sig (Elt Ideal)) (R : Fin 131072) (a : Fin 8) (o : Fin 5) :
    (StableHlo.after hostOps2 W (Proc.devRef .tc main_v153) : S1048576x5.Idx → EReal)
        (ix2 (⟨8 * R.val + a.val, by have := R.isLt; have := a.isLt; omega⟩ : Fin 1048576) o)
      = (W (Proc.devRef .tc main_v152) : S131072x40.Idx → EReal) (ix2 R (pk 5 40 rfl a o)) := by
  rw [v153_of]
  refine shapeCast_apply (s := S131072x40) (t := S1048576x5) _ shapeCasts_S131072x40_S1048576x5 _ _ ?_
  show ((⟨2, ![131072, 40]⟩ : Shape).rowMajor (ix2 R (pk 5 40 rfl a o))).val
    = ((⟨2, ![1048576, 5]⟩ : Shape).rowMajor (ix2 (⟨8 * R.val + a.val, by have := R.isLt; have := a.isLt; omega⟩ : Fin 1048576) o)).val
  rw [Shape.rowMajor_val_two, Shape.rowMajor_val_two]
  show R.val * 40 + (5 * a.val + o.val) = (8 * R.val + a.val) * 5 + o.val
  omega

theorem qin_eq (x s : EReal) : qin x s = Cert.Spec.quant (Ideal.div x s) := by
  unfold qin Cert.Spec.quant Cert.Spec.clip
  have hhi : Ideal.ofBits .f32 0x42FE0000#32 = Cert.Spec.hi := by rw [Cert.LibExtrema.ofBits_127, Cert.LibExtrema.hi_eq]
  have hlo : Ideal.ofBits .f32 0xC2FE0000#32 = Cert.Spec.lo := by
    rw [Cert.LibExtrema.lo_eq]; simp [Ideal.ofBits, Ideal.ieee, -EReal.coe_mul, -EReal.coe_neg]; norm_num
  rw [hhi, hlo]

end Cert.KernelIdeal.Hand

end
-- ==== Proof.KI.GlueA.lean ====
/-
  The host operations of the kernel program between its two regions, read at an index: the packed input, the
  activation scale, and the repacked quantized weights, biases and bias scales of layers 0 and 2.

  Each layer quantizes its weight w (o, k) by a per-row scale ws o (the same operations on the same argument as the
  reference's), its bias by ws o · s for the activation scale s, and then repacks: the weight as the Kronecker product
  of the 8 × 8 identity with the transposed quantized weight, entry (I · a' + k, O · a + o) = [a' = a] · Wq (o, k); the
  quantized bias and the bias scale tiled eight times along the row, entry (0, O · a + o) = Bq o, Bsf o.
-/
import proofs.«147168_j38843684225834_2_alg».proof.Proof.KI.RegionsP
import proofs.«147168_j38843684225834_2_alg».proof.Proof.Gen.ReferenceIdeal.Read
import proofs.«147168_j38843684225834_2_alg».proof.Proof.Spec
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

set_option maxRecDepth 65536

noncomputable section

namespace Cert.KernelIdeal.GlueA

open Cert.KernelIdeal Cert.KernelIdeal.Gen Idealize.ShloMosaic.StableHlo Cert.KernelIdeal.GenP Idealize.ShloMosaic Idealize.ShloMosaic.TcCoe Idealize.ShloMosaic.ValueIdx Idealize.SL.Sem

variable (m : (ℓ : Loc nD τ sig) → Buf (Elt Ideal) ℓ) (outs : GenP.Outs (F := Ideal)) (c : Dev nD)

/-- The activation scale as the kernel program computes it. -/
def sK : EReal := GenP.V43 m outs c main_v9 (ix2 (0 : Fin 1) (0 : Fin 1))

/-- The launch contents of the arguments the two layers read. -/
abbrev X0 : (⟨S1048576x16, .f32⟩ : BufTy).Contents (Elt Ideal) := m ((c : Thread nD τ).loc main_arg0)
abbrev X1 : (⟨S64x16, .f32⟩ : BufTy).Contents (Elt Ideal) := m ((c : Thread nD τ).loc main_arg1)
abbrev X2 : (⟨S64, .f32⟩ : BufTy).Contents (Elt Ideal) := m ((c : Thread nD τ).loc main_arg2)
abbrev X3 : (⟨S32x64, .f32⟩ : BufTy).Contents (Elt Ideal) := m ((c : Thread nD τ).loc main_arg3)
abbrev X4 : (⟨S32, .f32⟩ : BufTy).Contents (Elt Ideal) := m ((c : Thread nD τ).loc main_arg4)

/-- The per-row weight scales of layers 0 and 2, as the reference computes them. -/
abbrev ws0 (o : Fin 64) : EReal := Cert.ReferenceIdeal.Read.val_main_v23 (F := Ideal) (X1 m c) (ix1 o)
abbrev ws2 (o : Fin 32) : EReal := Cert.ReferenceIdeal.Read.val_main_v56 (F := Ideal) (X3 m c) (ix1 o)

/-! ## Buffers no later stretch writes -/

theorem v0_back : GenP.V43 m outs c main_v0 = GenP.V1 m c main_v0 :=
  (V43_of m outs c main_v0 (by decide)).trans <| (V42_of m outs c main_v0 (by decide)).trans <| (V41_of m outs c main_v0 (by decide)).trans <| (V40_of m outs c main_v0 (by decide)).trans <| (V39_of m outs c main_v0 (by decide)).trans <| (V38_of m outs c main_v0 (by decide)).trans <| (V37_of m outs c main_v0 (by decide)).trans <| (V36_of m outs c main_v0 (by decide)).trans <| (V35_of m outs c main_v0 (by decide)).trans <| (V34_of m outs c main_v0 (by decide)).trans <| (V33_of m outs c main_v0 (by decide)).trans <| (V32_of m outs c main_v0 (by decide)).trans <| (V31_of m outs c main_v0 (by decide)).trans <| (V30_of m outs c main_v0 (by decide)).trans <| (V29_of m outs c main_v0 (by decide)).trans <| (V28_of m outs c main_v0 (by decide)).trans <| (V27_of m outs c main_v0 (by decide)).trans <| (V26_of m outs c main_v0 (by decide)).trans <| (V25_of m outs c main_v0 (by decide)).trans <| (V24_of m outs c main_v0 (by decide)).trans <| (V23_of m outs c main_v0 (by decide)).trans <| (V22_of m outs c main_v0 (by decide)).trans <| (V21_of m outs c main_v0 (by decide)).trans <| (V20_of m outs c main_v0 (by decide)).trans <| (V19_of m outs c main_v0 (by decide)).trans <| (V18_of m outs c main_v0 (by decide)).trans <| (V17_of m outs c main_v0 (by decide)).trans <| (V16_of m outs c main_v0 (by decide)).trans <| (V15_of m outs c main_v0 (by decide)).trans <| (V14_of m outs c main_v0 (by decide)).trans <| (V13_of m outs c main_v0 (by decide)).trans <| (V12_of m outs c main_v0 (by decide)).trans <| (V11_of m outs c main_v0 (by decide)).trans <| (V10_of m outs c main_v0 (by decide)).trans <| (V9_of m outs c main_v0 (by decide)).trans <| (V8_of m outs c main_v0 (by decide)).trans <| (V7_of m outs c main_v0 (by decide)).trans <| (V6_of m outs c main_v0 (by decide)).trans <| (V5_of m outs c main_v0 (by decide)).trans <| (V4_of m outs c main_v0 (by decide)).trans <| (V3_of m outs c main_v0 (by decide)).trans <| (V2_of m outs c main_v0 (by decide))
theorem v9_back : GenP.V43 m outs c main_v9 = GenP.V3 m outs c main_v9 :=
  (V43_of m outs c main_v9 (by decide)).trans <| (V42_of m outs c main_v9 (by decide)).trans <| (V41_of m outs c main_v9 (by decide)).trans <| (V40_of m outs c main_v9 (by decide)).trans <| (V39_of m outs c main_v9 (by decide)).trans <| (V38_of m outs c main_v9 (by decide)).trans <| (V37_of m outs c main_v9 (by decide)).trans <| (V36_of m outs c main_v9 (by decide)).trans <| (V35_of m outs c main_v9 (by decide)).trans <| (V34_of m outs c main_v9 (by decide)).trans <| (V33_of m outs c main_v9 (by decide)).trans <| (V32_of m outs c main_v9 (by decide)).trans <| (V31_of m outs c main_v9 (by decide)).trans <| (V30_of m outs c main_v9 (by decide)).trans <| (V29_of m outs c main_v9 (by decide)).trans <| (V28_of m outs c main_v9 (by decide)).trans <| (V27_of m outs c main_v9 (by decide)).trans <| (V26_of m outs c main_v9 (by decide)).trans <| (V25_of m outs c main_v9 (by decide)).trans <| (V24_of m outs c main_v9 (by decide)).trans <| (V23_of m outs c main_v9 (by decide)).trans <| (V22_of m outs c main_v9 (by decide)).trans <| (V21_of m outs c main_v9 (by decide)).trans <| (V20_of m outs c main_v9 (by decide)).trans <| (V19_of m outs c main_v9 (by decide)).trans <| (V18_of m outs c main_v9 (by decide)).trans <| (V17_of m outs c main_v9 (by decide)).trans <| (V16_of m outs c main_v9 (by decide)).trans <| (V15_of m outs c main_v9 (by decide)).trans <| (V14_of m outs c main_v9 (by decide)).trans <| (V13_of m outs c main_v9 (by decide)).trans <| (V12_of m outs c main_v9 (by decide)).trans <| (V11_of m outs c main_v9 (by decide)).trans <| (V10_of m outs c main_v9 (by decide)).trans <| (V9_of m outs c main_v9 (by decide)).trans <| (V8_of m outs c main_v9 (by decide)).trans <| (V7_of m outs c main_v9 (by decide)).trans <| (V6_of m outs c main_v9 (by decide)).trans <| (V5_of m outs c main_v9 (by decide)).trans <| (V4_of m outs c main_v9 (by decide))

theorem arg0_V2 : GenP.V2 m outs c main_arg0 = X0 m c := (V2_of m outs c main_arg0 (by decide)).trans <| (V1_of m c main_arg0 (by decide))
theorem arg1_V2 : GenP.V2 m outs c main_arg1 = X1 m c := (V2_of m outs c main_arg1 (by decide)).trans <| (V1_of m c main_arg1 (by decide))

theorem V2_v1_0 : GenP.V2 m outs c main_v1_0 = outs 2 main_v1_0 c := by
  simp only [GenP.V2, Function.update_of_ne (StableHlo.devRef_ne_of_ne (by decide) : (Proc.devRef .tc main_v1_0 : DevRef τ sig) ≠ Proc.devRef .tc main_v1_1), Function.update_self]
theorem V2_v1_1 : GenP.V2 m outs c main_v1_1 = outs 2 main_v1_1 c := by
  simp only [GenP.V2, Function.update_self]

/-- The packed input: row R of the packed array holds rows 8R … 8R + 7 of the input, sixteen entries each. -/
theorem xr_at (R : Fin 131072) (a : Fin 8) (d : Fin 16) :
    GenP.V43 m outs c main_v0 (ix2 R (⟨16 * a.val + d.val, by omega⟩ : Fin 128))
      = m ((c : Thread nD τ).loc main_arg0) (ix2 (⟨8 * R.val + a.val, by omega⟩ : Fin 1048576) d) := by
  rw [v0_back]
  have e : (GenP.V1 m c main_v0 : S131072x128.Idx → EReal) = shapeCast S131072x128 (X0 m c) shapeCasts_S1048576x16_S131072x128 := by
    dsimp only [GenP.V1, GenP.V0, hostOps0]; after_results; rfl
  rw [e]
  exact shapeCast_apply _ _ _ _ (by
    rw [Shape.rowMajor_val_two, Shape.rowMajor_val_two]
    show (8 * R.val + a.val) * 16 + d.val = R.val * 128 + (16 * a.val + d.val)
    omega)

/-- The scale buffer after the first stretch, over what region 0 left. -/
theorem e9 : (GenP.V3 m outs c main_v9 : S1x1.Idx → EReal)
    = shapeCast S1x1 (maximumf (Host.divf (maximumf (Host.absf (shapeCast S_ (outs 2 main_v1_0 c : S1x1.Idx → EReal) shapeCasts_S1x1_S_)) (Host.absf (shapeCast S_ (outs 2 main_v1_1 c : S1x1.Idx → EReal) shapeCasts_S1x1_S_))) (constant (F := Ideal) S_ .f32 0x42FE0000#32)) (constant (F := Ideal) S_ .f32 0x322BCC77#32)) shapeCasts_S_S1x1 := by
  dsimp only [GenP.V3, hostOps1]; after_results
  rw [V2_v1_0, V2_v1_1]
  rfl

/-- The activation scale is the reference's, once region 0 leaves the input's minimum and maximum. -/
theorem sK_eq
    (hmin : outs 2 main_v1_0 c (ix2 (0 : Fin 1) (0 : Fin 1)) = Cert.ReferenceIdeal.Read.val_main_v0 (F := Ideal) (X0 m c) (fun a => a.elim0))
    (hmax : outs 2 main_v1_1 c (ix2 (0 : Fin 1) (0 : Fin 1)) = Cert.ReferenceIdeal.Read.val_main_v2 (F := Ideal) (X0 m c) (fun a => a.elim0)) :
    sK m outs c = Cert.ReferenceIdeal.Read.val_main_v6 (F := Ideal) (X0 m c) (fun a => a.elim0) := by
  unfold sK
  rw [v9_back, e9]
  refine (shapeCast_apply _ shapeCasts_S_S1x1 _ (fun a => a.elim0) (by decide)).trans ?_
  have h0 : (shapeCast S_ (outs 2 main_v1_0 c : S1x1.Idx → EReal) shapeCasts_S1x1_S_ : S_.Idx → EReal) = Cert.ReferenceIdeal.Read.val_main_v0 (F := Ideal) (X0 m c) := by
    funext i; rw [eq_ix0 i]
    exact (shapeCast_apply _ shapeCasts_S1x1_S_ _ (ix2 (0 : Fin 1) (0 : Fin 1)) (by decide)).trans hmin
  have h1 : (shapeCast S_ (outs 2 main_v1_1 c : S1x1.Idx → EReal) shapeCasts_S1x1_S_ : S_.Idx → EReal) = Cert.ReferenceIdeal.Read.val_main_v2 (F := Ideal) (X0 m c) := by
    funext i; rw [eq_ix0 i]
    exact (shapeCast_apply _ shapeCasts_S1x1_S_ _ (ix2 (0 : Fin 1) (0 : Fin 1)) (by decide)).trans hmax
  rw [h0, h1]
  rfl

/-! ## Host spellings read at an index -/

/-- The quantizer's clip as the host spells it: the bounds are 32-bit integer words read as floats and broadcast. -/
theorem clip_read {T : Shape} (h : (⟨0, ![]⟩ : Shape).BroadcastsInDim T ![]) (Q : FVec Ideal T .f32) (j : T.Idx) :
    minimumf (broadcastInDim T ![] h (sitofp (F := Ideal) .f32 (constantI ⟨0, ![]⟩ 32 127#32)))
        (maximumf (broadcastInDim T ![] h (sitofp (F := Ideal) .f32 (constantI ⟨0, ![]⟩ 32 4294967169#32))) Q) j
      = Cert.Spec.clip (Q j) := by
  show min (broadcastInDim T ![] h (sitofp (F := Ideal) .f32 (constantI ⟨0, ![]⟩ 32 127#32)) j)
      (max (broadcastInDim T ![] h (sitofp (F := Ideal) .f32 (constantI ⟨0, ![]⟩ 32 4294967169#32)) j) (Q j)) = _
  rw [broadcastInDim_scalar_apply, broadcastInDim_scalar_apply]
  rfl

/-- The 8 × 8 identity as the host builds it: the row index compared with the column index, the bit read as a float. -/
theorem eye_read (a' a : Fin 8) :
    uitofp (F := Ideal) .f32 (cmpi .eq (addi (iotaInDim S8x8 32 0) (broadcastInDim S8x8 ![] bcast_S_S8x8 (constantI S_ 32 0#32))) (iotaInDim S8x8 32 1)) (ix2 a' a)
      = if a' = a then (1 : EReal) else 0 := by
  have key : ∀ a' a : Fin 8, (IntOp.cmpi .eq (IntOp.addi (BitVec.ofNat 32 a'.val) 0#32) (BitVec.ofNat 32 a.val)).toNat = if a' = a then 1 else 0 := by decide
  have hb : broadcastInDim S8x8 ![] bcast_S_S8x8 (constantI S_ 32 0#32) (ix2 a' a) = 0#32 := by
    rw [broadcastInDim_scalar_apply]; rfl
  show (((IntOp.cmpi .eq (IntOp.addi (BitVec.ofNat 32 a'.val) (broadcastInDim S8x8 ![] bcast_S_S8x8 (constantI S_ 32 0#32) (ix2 a' a))) (BitVec.ofNat 32 a.val)).toNat : ℝ) : EReal) = _
  rw [hb, key]
  split_ifs <;> simp

/-! ## The activation scale's two buffers and layer 0's last conversion, over any contents before the stretch -/

theorem st_v9 (W : Valuation τ sig (Elt Ideal)) : @Eq ((⟨S1x1, .f32⟩ : BufTy).Contents (Elt Ideal)) (StableHlo.after hostOps1 W (Proc.devRef .tc main_v9))
    (shapeCast S1x1 (maximumf (F := Ideal) (s := S_) (φ := .f32) (Host.divf (maximumf (Host.absf (shapeCast S_ (W (Proc.devRef .tc main_v1_0)) shapeCasts_S1x1_S_)) (Host.absf (shapeCast S_ (W (Proc.devRef .tc main_v1_1)) shapeCasts_S1x1_S_))) (constant (F := Ideal) S_ .f32 0x42FE0000#32)) (constant (F := Ideal) S_ .f32 0x322BCC77#32)) shapeCasts_S_S1x1) := by
  dsimp only [hostOps1]; after_results <;> rfl
theorem st_v10 (W : Valuation τ sig (Elt Ideal)) : @Eq ((⟨S_, .f32⟩ : BufTy).Contents (Elt Ideal)) (StableHlo.after hostOps1 W (Proc.devRef .tc main_v10))
    (shapeCast S_ (shapeCast S1x1 (maximumf (F := Ideal) (s := S_) (φ := .f32) (Host.divf (maximumf (Host.absf (shapeCast S_ (W (Proc.devRef .tc main_v1_0)) shapeCasts_S1x1_S_)) (Host.absf (shapeCast S_ (W (Proc.devRef .tc main_v1_1)) shapeCasts_S1x1_S_))) (constant (F := Ideal) S_ .f32 0x42FE0000#32)) (constant (F := Ideal) S_ .f32 0x322BCC77#32)) shapeCasts_S_S1x1) shapeCasts_S1x1_S_) := by
  dsimp only [hostOps1]; after_results <;> rfl
theorem st0_out (W : Valuation τ sig (Elt Ideal)) : @Eq ((⟨S128x512, .bf16⟩ : BufTy).Contents (Elt Ideal)) (StableHlo.after hostOps1_40 W (Proc.devRef .tc main_v151))
    (truncf (F := Ideal) (s := S128x512) (φ := .f32) .bf16 (W (Proc.devRef .tc main_v37)) bitsLt_bf16_f32) := by
  dsimp only [hostOps1_40]; after_results <;> rfl

/-- The scalar every layer's bias scale multiplies by is the activation scale. -/
theorem v10_at : GenP.V3 m outs c (Proc.devRef .tc main_v10) ix0 = sK m outs c := by
  unfold sK
  rw [v9_back, show GenP.V3 m outs c (Proc.devRef .tc main_v10) = _ from st_v10 (GenP.V2 m outs c), show GenP.V3 m outs c (Proc.devRef .tc main_v9) = _ from st_v9 (GenP.V2 m outs c)]
  exact shapeCast_apply _ shapeCasts_S1x1_S_ _ (ix2 (0 : Fin 1) (0 : Fin 1)) (by decide)

/-! ## Layer 0: what each stretch of host operations writes, over any contents before it -/

theorem st0_ws (W : Valuation τ sig (Elt Ideal)) : @Eq ((⟨S64, .f32⟩ : BufTy).Contents (Elt Ideal)) (StableHlo.after hostOps1 W (Proc.devRef .tc main_v19))
    (Cert.ReferenceIdeal.Read.val_main_v23 (F := Ideal) (W (Proc.devRef .tc main_arg1))) := by
  dsimp only [hostOps1]; after_results <;> rfl
theorem st0_div (W : Valuation τ sig (Elt Ideal)) : @Eq ((⟨S64x16, .f32⟩ : BufTy).Contents (Elt Ideal)) (StableHlo.after hostOps1 W (Proc.devRef .tc main_v22))
    (Cert.ReferenceIdeal.Read.val_main_v26 (F := Ideal) (W (Proc.devRef .tc main_arg1))) := by
  dsimp only [hostOps1]; after_results <;> rfl
theorem st0_round (W : Valuation τ sig (Elt Ideal)) : @Eq ((⟨S64x16, .f32⟩ : BufTy).Contents (Elt Ideal)) (StableHlo.after hostOps1_1 W (Proc.devRef .tc main_v23))
    (Host.roundeven (F := Ideal) (s := S64x16) (φ := .f32) (W (Proc.devRef .tc main_v22))) := by
  dsimp only [hostOps1_1]; after_results <;> rfl
theorem st0_cL (W : Valuation τ sig (Elt Ideal)) : @Eq ((⟨S_, .i32⟩ : BufTy).Contents (Elt Ideal)) (StableHlo.after hostOps1_2 W (Proc.devRef .tc main_c))
    (constantI S_ 32 4294967169#32) := by
  dsimp only [hostOps1_2]; after_results <;> rfl
theorem st0_cH (W : Valuation τ sig (Elt Ideal)) : @Eq ((⟨S_, .i32⟩ : BufTy).Contents (Elt Ideal)) (StableHlo.after hostOps1_2 W (Proc.devRef .tc main_c_5))
    (constantI S_ 32 127#32) := by
  dsimp only [hostOps1_2]; after_results <;> rfl
theorem st0_clip (W : Valuation τ sig (Elt Ideal)) : @Eq ((⟨S64x16, .f32⟩ : BufTy).Contents (Elt Ideal)) (StableHlo.after hostOps1_3 W (Proc.devRef .tc main_v24))
    (minimumf (F := Ideal) (s := S64x16) (φ := .f32) (broadcastInDim S64x16 ![] bcast_S_S64x16 (sitofp (F := Ideal) .f32 (w := 32) (W (Proc.devRef .tc main_c_5))))
        (maximumf (broadcastInDim S64x16 ![] bcast_S_S64x16 (sitofp (F := Ideal) .f32 (w := 32) (W (Proc.devRef .tc main_c)))) (W (Proc.devRef .tc main_v23)))) := by
  dsimp only [hostOps1_3]; after_results <;> rfl
theorem st0_bsf (W : Valuation τ sig (Elt Ideal)) : @Eq ((⟨S64, .f32⟩ : BufTy).Contents (Elt Ideal)) (StableHlo.after hostOps1_4 W (Proc.devRef .tc main_v26))
    (mulf (F := Ideal) (s := S64) (φ := .f32) (W (Proc.devRef .tc main_v19)) (broadcastInDim S64 ![] bcast_S_S64 (W (Proc.devRef .tc main_v10)))) := by
  dsimp only [hostOps1_4]; after_results <;> rfl
theorem st0_bdiv (W : Valuation τ sig (Elt Ideal)) : @Eq ((⟨S64, .f32⟩ : BufTy).Contents (Elt Ideal)) (StableHlo.after hostOps1_4 W (Proc.devRef .tc main_v27))
    (Host.divf (F := Ideal) (s := S64) (φ := .f32) (W (Proc.devRef .tc main_arg2)) (mulf (W (Proc.devRef .tc main_v19)) (broadcastInDim S64 ![] bcast_S_S64 (W (Proc.devRef .tc main_v10))))) := by
  dsimp only [hostOps1_4]; after_results <;> rfl
theorem st0_bround (W : Valuation τ sig (Elt Ideal)) : @Eq ((⟨S64, .f32⟩ : BufTy).Contents (Elt Ideal)) (StableHlo.after hostOps1_5 W (Proc.devRef .tc main_v28))
    (Host.roundeven (F := Ideal) (s := S64) (φ := .f32) (W (Proc.devRef .tc main_v27))) := by
  dsimp only [hostOps1_5]; after_results <;> rfl
theorem st0_bcL (W : Valuation τ sig (Elt Ideal)) : @Eq ((⟨S_, .i32⟩ : BufTy).Contents (Elt Ideal)) (StableHlo.after hostOps1_6 W (Proc.devRef .tc main_c_6))
    (constantI S_ 32 4294967169#32) := by
  dsimp only [hostOps1_6]; after_results <;> rfl
theorem st0_bcH (W : Valuation τ sig (Elt Ideal)) : @Eq ((⟨S_, .i32⟩ : BufTy).Contents (Elt Ideal)) (StableHlo.after hostOps1_6 W (Proc.devRef .tc main_c_7))
    (constantI S_ 32 127#32) := by
  dsimp only [hostOps1_6]; after_results <;> rfl
theorem st0_bclip (W : Valuation τ sig (Elt Ideal)) : @Eq ((⟨S64, .f32⟩ : BufTy).Contents (Elt Ideal)) (StableHlo.after hostOps1_7 W (Proc.devRef .tc main_v29))
    (minimumf (F := Ideal) (s := S64) (φ := .f32) (broadcastInDim S64 ![] bcast_S_S64 (sitofp (F := Ideal) .f32 (w := 32) (W (Proc.devRef .tc main_c_7))))
        (maximumf (broadcastInDim S64 ![] bcast_S_S64 (sitofp (F := Ideal) .f32 (w := 32) (W (Proc.devRef .tc main_c_6)))) (W (Proc.devRef .tc main_v28)))) := by
  dsimp only [hostOps1_7]; after_results <;> rfl
theorem st0_eye (W : Valuation τ sig (Elt Ideal)) : @Eq ((⟨S8x8, .f32⟩ : BufTy).Contents (Elt Ideal)) (StableHlo.after hostOps1_8 W (Proc.devRef .tc main_v35))
    (uitofp (F := Ideal) .f32 (cmpi .eq (addi (iotaInDim S8x8 32 0) (broadcastInDim S8x8 ![] bcast_S_S8x8 (constantI S_ 32 0#32))) (iotaInDim S8x8 32 1))) := by
  dsimp only [hostOps1_8]; after_results <;> rfl
theorem st0_T (W : Valuation τ sig (Elt Ideal)) : @Eq ((⟨S16x64, .f32⟩ : BufTy).Contents (Elt Ideal)) (StableHlo.after hostOps1_8 W (Proc.devRef .tc main_v36))
    (transpose S16x64 [1, 0] (W (Proc.devRef .tc main_v24)) transposes_S64x16_S16x64_1_0) := by
  dsimp only [hostOps1_8]; after_results <;> rfl
theorem st0_kron (W : Valuation τ sig (Elt Ideal)) : @Eq ((⟨S128x512, .f32⟩ : BufTy).Contents (Elt Ideal)) (StableHlo.after hostOps1_9 W (Proc.devRef .tc main_v37))
    (shapeCast S128x512 (mulf (F := Ideal) (s := S8x16x8x64) (φ := .f32) (broadcastInDim S8x16x8x64 ![0, 1, 2, 3] bcast_S8x1x8x1_S8x16x8x64_0_1_2_3 (broadcastInDim S8x1x8x1 ![0, 2] bcast_S8x8_S8x1x8x1_0_2 (W (Proc.devRef .tc main_v35))))
        (broadcastInDim S8x16x8x64 ![0, 1, 2, 3] bcast_S1x16x1x64_S8x16x8x64_0_1_2_3 (broadcastInDim S1x16x1x64 ![1, 3] bcast_S16x64_S1x16x1x64_1_3 (W (Proc.devRef .tc main_v36))))) shapeCasts_S8x16x8x64_S128x512) := by
  dsimp only [hostOps1_9]; after_results <;> rfl
theorem st0_bbd (W : Valuation τ sig (Elt Ideal)) : @Eq ((⟨S1x512, .f32⟩ : BufTy).Contents (Elt Ideal)) (StableHlo.after hostOps1_10 W (Proc.devRef .tc main_v41))
    (shapeCast S1x512 (shapeCast S512 (broadcastInDim S8x64 ![0, 1] bcast_S1x64_S8x64_0_1 (shapeCast S1x64 (W (Proc.devRef .tc main_v29)) shapeCasts_S64_S1x64)) shapeCasts_S8x64_S512) shapeCasts_S512_S1x512) := by
  dsimp only [hostOps1_10]; after_results <;> rfl
theorem st0_bsfbd (W : Valuation τ sig (Elt Ideal)) : @Eq ((⟨S1x512, .f32⟩ : BufTy).Contents (Elt Ideal)) (StableHlo.after hostOps1_10 W (Proc.devRef .tc main_v45))
    (shapeCast S1x512 (shapeCast S512 (broadcastInDim S8x64 ![0, 1] bcast_S1x64_S8x64_0_1 (shapeCast S1x64 (W (Proc.devRef .tc main_v26)) shapeCasts_S64_S1x64)) shapeCasts_S8x64_S512) shapeCasts_S512_S1x512) := by
  dsimp only [hostOps1_10]; after_results <;> rfl

/-! ## Layer 0: the buffers as whole arrays -/

/-- Layer 0's quantized weight, bias scale and quantized bias as the host operations compute them. -/
def WqBuf0 : (⟨S64x16, .f32⟩ : BufTy).Contents (Elt Ideal) := (minimumf (F := Ideal) (s := S64x16) (φ := .f32) (broadcastInDim S64x16 ![] bcast_S_S64x16 (sitofp (F := Ideal) .f32 (w := 32) (constantI S_ 32 127#32)))
      (maximumf (broadcastInDim S64x16 ![] bcast_S_S64x16 (sitofp (F := Ideal) .f32 (w := 32) (constantI S_ 32 4294967169#32))) (Host.roundeven (Cert.ReferenceIdeal.Read.val_main_v26 (F := Ideal) (X1 m c)))))
def BsfBuf0 : (⟨S64, .f32⟩ : BufTy).Contents (Elt Ideal) := mulf (F := Ideal) (s := S64) (φ := .f32) (Cert.ReferenceIdeal.Read.val_main_v23 (F := Ideal) (X1 m c)) (broadcastInDim S64 ![] bcast_S_S64 (GenP.V3 m outs c (Proc.devRef .tc main_v10)))
def BqBuf0 : (⟨S64, .f32⟩ : BufTy).Contents (Elt Ideal) := (minimumf (F := Ideal) (s := S64) (φ := .f32) (broadcastInDim S64 ![] bcast_S_S64 (sitofp (F := Ideal) .f32 (w := 32) (constantI S_ 32 127#32)))
      (maximumf (broadcastInDim S64 ![] bcast_S_S64 (sitofp (F := Ideal) .f32 (w := 32) (constantI S_ 32 4294967169#32))) (Host.roundeven (Host.divf (X2 m c) (BsfBuf0 m outs c)))))

theorem argW0_back : @Eq ((⟨S64x16, .f32⟩ : BufTy).Contents (Elt Ideal)) ((GenP.V2 m outs c) (Proc.devRef .tc main_arg1)) ((GenP.V0 m c) (Proc.devRef .tc main_arg1)) :=
  (V2_of m outs c main_arg1 (by decide)).trans <| (V1_of m c main_arg1 (by decide))

theorem argB0_back : @Eq ((⟨S64, .f32⟩ : BufTy).Contents (Elt Ideal)) ((GenP.V6 m outs c) (Proc.devRef .tc main_arg2)) ((GenP.V0 m c) (Proc.devRef .tc main_arg2)) :=
  (V6_of m outs c main_arg2 (by decide)).trans <| (V5_of m outs c main_arg2 (by decide)).trans <| (V4_of m outs c main_arg2 (by decide)).trans <| (V3_of m outs c main_arg2 (by decide)).trans <| (V2_of m outs c main_arg2 (by decide)).trans <| (V1_of m c main_arg2 (by decide))

theorem round0_back : @Eq ((⟨S64x16, .f32⟩ : BufTy).Contents (Elt Ideal)) ((GenP.V5 m outs c) (Proc.devRef .tc main_v23)) ((GenP.V4 m outs c) (Proc.devRef .tc main_v23)) :=
  (V5_of m outs c main_v23 (by decide))

theorem ws0_back : @Eq ((⟨S64, .f32⟩ : BufTy).Contents (Elt Ideal)) ((GenP.V6 m outs c) (Proc.devRef .tc main_v19)) ((GenP.V3 m outs c) (Proc.devRef .tc main_v19)) :=
  (V6_of m outs c main_v19 (by decide)).trans <| (V5_of m outs c main_v19 (by decide)).trans <| (V4_of m outs c main_v19 (by decide))

theorem v10_back0 : @Eq ((⟨S_, .f32⟩ : BufTy).Contents (Elt Ideal)) ((GenP.V6 m outs c) (Proc.devRef .tc main_v10)) ((GenP.V3 m outs c) (Proc.devRef .tc main_v10)) :=
  (V6_of m outs c main_v10 (by decide)).trans <| (V5_of m outs c main_v10 (by decide)).trans <| (V4_of m outs c main_v10 (by decide))

theorem bround0_back : @Eq ((⟨S64, .f32⟩ : BufTy).Contents (Elt Ideal)) ((GenP.V9 m outs c) (Proc.devRef .tc main_v28)) ((GenP.V8 m outs c) (Proc.devRef .tc main_v28)) :=
  (V9_of m outs c main_v28 (by decide))

theorem clip0_back : @Eq ((⟨S64x16, .f32⟩ : BufTy).Contents (Elt Ideal)) ((GenP.V10 m outs c) (Proc.devRef .tc main_v24)) ((GenP.V6 m outs c) (Proc.devRef .tc main_v24)) :=
  (V10_of m outs c main_v24 (by decide)).trans <| (V9_of m outs c main_v24 (by decide)).trans <| (V8_of m outs c main_v24 (by decide)).trans <| (V7_of m outs c main_v24 (by decide))

theorem bclip0_back : @Eq ((⟨S64, .f32⟩ : BufTy).Contents (Elt Ideal)) ((GenP.V12 m outs c) (Proc.devRef .tc main_v29)) ((GenP.V10 m outs c) (Proc.devRef .tc main_v29)) :=
  (V12_of m outs c main_v29 (by decide)).trans <| (V11_of m outs c main_v29 (by decide))

theorem bsf0_back : @Eq ((⟨S64, .f32⟩ : BufTy).Contents (Elt Ideal)) ((GenP.V12 m outs c) (Proc.devRef .tc main_v26)) ((GenP.V7 m outs c) (Proc.devRef .tc main_v26)) :=
  (V12_of m outs c main_v26 (by decide)).trans <| (V11_of m outs c main_v26 (by decide)).trans <| (V10_of m outs c main_v26 (by decide)).trans <| (V9_of m outs c main_v26 (by decide)).trans <| (V8_of m outs c main_v26 (by decide))

theorem kron0_back : @Eq ((⟨S128x512, .f32⟩ : BufTy).Contents (Elt Ideal)) ((GenP.V42 m outs c) (Proc.devRef .tc main_v37)) ((GenP.V12 m outs c) (Proc.devRef .tc main_v37)) :=
  (V42_of m outs c main_v37 (by decide)).trans <| (V41_of m outs c main_v37 (by decide)).trans <| (V40_of m outs c main_v37 (by decide)).trans <| (V39_of m outs c main_v37 (by decide)).trans <| (V38_of m outs c main_v37 (by decide)).trans <| (V37_of m outs c main_v37 (by decide)).trans <| (V36_of m outs c main_v37 (by decide)).trans <| (V35_of m outs c main_v37 (by decide)).trans <| (V34_of m outs c main_v37 (by decide)).trans <| (V33_of m outs c main_v37 (by decide)).trans <| (V32_of m outs c main_v37 (by decide)).trans <| (V31_of m outs c main_v37 (by decide)).trans <| (V30_of m outs c main_v37 (by decide)).trans <| (V29_of m outs c main_v37 (by decide)).trans <| (V28_of m outs c main_v37 (by decide)).trans <| (V27_of m outs c main_v37 (by decide)).trans <| (V26_of m outs c main_v37 (by decide)).trans <| (V25_of m outs c main_v37 (by decide)).trans <| (V24_of m outs c main_v37 (by decide)).trans <| (V23_of m outs c main_v37 (by decide)).trans <| (V22_of m outs c main_v37 (by decide)).trans <| (V21_of m outs c main_v37 (by decide)).trans <| (V20_of m outs c main_v37 (by decide)).trans <| (V19_of m outs c main_v37 (by decide)).trans <| (V18_of m outs c main_v37 (by decide)).trans <| (V17_of m outs c main_v37 (by decide)).trans <| (V16_of m outs c main_v37 (by decide)).trans <| (V15_of m outs c main_v37 (by decide)).trans <| (V14_of m outs c main_v37 (by decide)).trans <| (V13_of m outs c main_v37 (by decide))

theorem bbd0_back : @Eq ((⟨S1x512, .f32⟩ : BufTy).Contents (Elt Ideal)) ((GenP.V43 m outs c) (Proc.devRef .tc main_v41)) ((GenP.V13 m outs c) (Proc.devRef .tc main_v41)) :=
  (V43_of m outs c main_v41 (by decide)).trans <| (V42_of m outs c main_v41 (by decide)).trans <| (V41_of m outs c main_v41 (by decide)).trans <| (V40_of m outs c main_v41 (by decide)).trans <| (V39_of m outs c main_v41 (by decide)).trans <| (V38_of m outs c main_v41 (by decide)).trans <| (V37_of m outs c main_v41 (by decide)).trans <| (V36_of m outs c main_v41 (by decide)).trans <| (V35_of m outs c main_v41 (by decide)).trans <| (V34_of m outs c main_v41 (by decide)).trans <| (V33_of m outs c main_v41 (by decide)).trans <| (V32_of m outs c main_v41 (by decide)).trans <| (V31_of m outs c main_v41 (by decide)).trans <| (V30_of m outs c main_v41 (by decide)).trans <| (V29_of m outs c main_v41 (by decide)).trans <| (V28_of m outs c main_v41 (by decide)).trans <| (V27_of m outs c main_v41 (by decide)).trans <| (V26_of m outs c main_v41 (by decide)).trans <| (V25_of m outs c main_v41 (by decide)).trans <| (V24_of m outs c main_v41 (by decide)).trans <| (V23_of m outs c main_v41 (by decide)).trans <| (V22_of m outs c main_v41 (by decide)).trans <| (V21_of m outs c main_v41 (by decide)).trans <| (V20_of m outs c main_v41 (by decide)).trans <| (V19_of m outs c main_v41 (by decide)).trans <| (V18_of m outs c main_v41 (by decide)).trans <| (V17_of m outs c main_v41 (by decide)).trans <| (V16_of m outs c main_v41 (by decide)).trans <| (V15_of m outs c main_v41 (by decide)).trans <| (V14_of m outs c main_v41 (by decide))

theorem bsfbd0_back : @Eq ((⟨S1x512, .f32⟩ : BufTy).Contents (Elt Ideal)) ((GenP.V43 m outs c) (Proc.devRef .tc main_v45)) ((GenP.V13 m outs c) (Proc.devRef .tc main_v45)) :=
  (V43_of m outs c main_v45 (by decide)).trans <| (V42_of m outs c main_v45 (by decide)).trans <| (V41_of m outs c main_v45 (by decide)).trans <| (V40_of m outs c main_v45 (by decide)).trans <| (V39_of m outs c main_v45 (by decide)).trans <| (V38_of m outs c main_v45 (by decide)).trans <| (V37_of m outs c main_v45 (by decide)).trans <| (V36_of m outs c main_v45 (by decide)).trans <| (V35_of m outs c main_v45 (by decide)).trans <| (V34_of m outs c main_v45 (by decide)).trans <| (V33_of m outs c main_v45 (by decide)).trans <| (V32_of m outs c main_v45 (by decide)).trans <| (V31_of m outs c main_v45 (by decide)).trans <| (V30_of m outs c main_v45 (by decide)).trans <| (V29_of m outs c main_v45 (by decide)).trans <| (V28_of m outs c main_v45 (by decide)).trans <| (V27_of m outs c main_v45 (by decide)).trans <| (V26_of m outs c main_v45 (by decide)).trans <| (V25_of m outs c main_v45 (by decide)).trans <| (V24_of m outs c main_v45 (by decide)).trans <| (V23_of m outs c main_v45 (by decide)).trans <| (V22_of m outs c main_v45 (by decide)).trans <| (V21_of m outs c main_v45 (by decide)).trans <| (V20_of m outs c main_v45 (by decide)).trans <| (V19_of m outs c main_v45 (by decide)).trans <| (V18_of m outs c main_v45 (by decide)).trans <| (V17_of m outs c main_v45 (by decide)).trans <| (V16_of m outs c main_v45 (by decide)).trans <| (V15_of m outs c main_v45 (by decide)).trans <| (V14_of m outs c main_v45 (by decide))

theorem ws0_buf : @Eq ((⟨S64, .f32⟩ : BufTy).Contents (Elt Ideal)) ((GenP.V3 m outs c) (Proc.devRef .tc main_v19)) (Cert.ReferenceIdeal.Read.val_main_v23 (F := Ideal) (X1 m c)) := by
  have h := st0_ws (GenP.V2 m outs c); rw [argW0_back] at h; exact h
theorem div0_buf : @Eq ((⟨S64x16, .f32⟩ : BufTy).Contents (Elt Ideal)) ((GenP.V3 m outs c) (Proc.devRef .tc main_v22)) (Cert.ReferenceIdeal.Read.val_main_v26 (F := Ideal) (X1 m c)) := by
  have h := st0_div (GenP.V2 m outs c); rw [argW0_back] at h; exact h
theorem clip0_buf : @Eq ((⟨S64x16, .f32⟩ : BufTy).Contents (Elt Ideal)) ((GenP.V6 m outs c) (Proc.devRef .tc main_v24)) (WqBuf0 m c) := by
  have h := st0_clip (GenP.V5 m outs c)
  rw [show (GenP.V5 m outs c) (Proc.devRef .tc main_c_5) = _ from st0_cH (GenP.V4 m outs c), show (GenP.V5 m outs c) (Proc.devRef .tc main_c) = _ from st0_cL (GenP.V4 m outs c), round0_back,
    show (GenP.V4 m outs c) (Proc.devRef .tc main_v23) = _ from st0_round (GenP.V3 m outs c), div0_buf] at h
  exact h
theorem bsf0_buf : @Eq ((⟨S64, .f32⟩ : BufTy).Contents (Elt Ideal)) ((GenP.V7 m outs c) (Proc.devRef .tc main_v26)) (BsfBuf0 m outs c) := by
  have h := st0_bsf (GenP.V6 m outs c); rw [ws0_back, ws0_buf, v10_back0] at h; exact h
theorem bclip0_buf : @Eq ((⟨S64, .f32⟩ : BufTy).Contents (Elt Ideal)) ((GenP.V10 m outs c) (Proc.devRef .tc main_v29)) (BqBuf0 m outs c) := by
  have h := st0_bclip (GenP.V9 m outs c)
  have hd := st0_bdiv (GenP.V6 m outs c); rw [ws0_back, ws0_buf, v10_back0, argB0_back] at hd
  rw [show (GenP.V9 m outs c) (Proc.devRef .tc main_c_7) = _ from st0_bcH (GenP.V8 m outs c), show (GenP.V9 m outs c) (Proc.devRef .tc main_c_6) = _ from st0_bcL (GenP.V8 m outs c), bround0_back,
    show (GenP.V8 m outs c) (Proc.devRef .tc main_v28) = _ from st0_bround (GenP.V7 m outs c), show (GenP.V7 m outs c) (Proc.devRef .tc main_v27) = _ from hd] at h
  exact h

/-! ## Layer 0: the buffers read at an index -/

theorem WqBuf0_at (o : Fin 64) (k : Fin 16) :
    WqBuf0 m c (ix2 o k) = Cert.Spec.wq (fun o k => X1 m c (ix2 o k)) (ws0 m c) o k := by
  unfold WqBuf0
  refine (clip_read _ _ _).trans ?_
  have hidx : Cert.ReferenceIdeal.Read.idx_main_v24 (Cert.ReferenceIdeal.Read.idx_main_v25 (ix2 o k)) = ix1 o := by
    funext d; match d with | ⟨0, _⟩ => rfl
  have hd : Cert.ReferenceIdeal.Read.val_main_v26 (F := Ideal) (X1 m c) (ix2 o k) = Ideal.div (X1 m c (ix2 o k)) (ws0 m c o) := by
    rw [Cert.ReferenceIdeal.Read.val_main_v26_apply, Cert.ReferenceIdeal.Read.val_main_v25_apply, Cert.ReferenceIdeal.Read.val_main_v24_apply, hidx]; rfl
  show Cert.Spec.clip (Cert.Spec.rnd (Cert.ReferenceIdeal.Read.val_main_v26 (F := Ideal) (X1 m c) (ix2 o k))) = _
  rw [hd]; rfl

theorem BsfBuf0_at (o : Fin 64) : BsfBuf0 m outs c (ix1 o) = Cert.Spec.bsf (ws0 m c) (sK m outs c) o := by
  unfold BsfBuf0
  show Cert.ReferenceIdeal.Read.val_main_v23 (F := Ideal) (X1 m c) (ix1 o) * broadcastInDim S64 ![] bcast_S_S64 (GenP.V3 m outs c (Proc.devRef .tc main_v10)) (ix1 o) = _
  rw [broadcastInDim_scalar_apply, v10_at]; rfl

theorem BqBuf0_at (o : Fin 64) :
    BqBuf0 m outs c (ix1 o) = Cert.Spec.bq (fun o => X2 m c (ix1 o)) (ws0 m c) (sK m outs c) o := by
  unfold BqBuf0
  refine (clip_read _ _ _).trans ?_
  show Cert.Spec.clip (Cert.Spec.rnd (Ideal.div (X2 m c (ix1 o)) (BsfBuf0 m outs c (ix1 o)))) = _
  rw [BsfBuf0_at]; rfl

/-- The Kronecker product with the 8 × 8 identity, read at an entry: the identity's factor times the matrix's entry. -/
theorem kron0_read (E : FVec Ideal S8x8 .f32) (T : FVec Ideal S16x64 .f32) (a' a : Fin 8) (k : Fin 16) (o : Fin 64) :
    shapeCast S128x512 (mulf (F := Ideal) (s := S8x16x8x64) (φ := .f32)
        (broadcastInDim S8x16x8x64 ![0, 1, 2, 3] bcast_S8x1x8x1_S8x16x8x64_0_1_2_3 (broadcastInDim S8x1x8x1 ![0, 2] bcast_S8x8_S8x1x8x1_0_2 E))
        (broadcastInDim S8x16x8x64 ![0, 1, 2, 3] bcast_S1x16x1x64_S8x16x8x64_0_1_2_3 (broadcastInDim S1x16x1x64 ![1, 3] bcast_S16x64_S1x16x1x64_1_3 T)))
        shapeCasts_S8x16x8x64_S128x512 (ix2 (⟨16 * a'.val + k.val, by omega⟩ : Fin 128) (⟨64 * a.val + o.val, by omega⟩ : Fin 512))
      = E (ix2 a' a) * T (ix2 k o) := by
  refine (shapeCast_apply _ _ _ (ix4 a' k a o) (by
    rw [Shape.rowMajor_val_four, Shape.rowMajor_val_two]
    show ((a'.val * 16 + k.val) * 8 + a.val) * 64 + o.val = (16 * a'.val + k.val) * 512 + (64 * a.val + o.val)
    omega)).trans ?_
  refine congrArg₂ (· * ·) ?_ ?_
  · refine (broadcastInDim_apply _ bcast_S8x1x8x1_S8x16x8x64_0_1_2_3 _ _ (ix4 a' (0 : Fin 1) a (0 : Fin 1)) (fun b => match b with
      | ⟨0, _⟩ => by show a'.val = if (8 : ℕ) = 1 then 0 else a'.val; rw [if_neg (by decide)]
      | ⟨1, _⟩ => by show 0 = if (1 : ℕ) = 1 then 0 else k.val; rw [if_pos rfl]
      | ⟨2, _⟩ => by show a.val = if (8 : ℕ) = 1 then 0 else a.val; rw [if_neg (by decide)]
      | ⟨3, _⟩ => by show 0 = if (1 : ℕ) = 1 then 0 else o.val; rw [if_pos rfl])).trans ?_
    exact broadcastInDim_apply _ bcast_S8x8_S8x1x8x1_0_2 _ _ (ix2 a' a) (fun b => match b with
      | ⟨0, _⟩ => by show a'.val = if (8 : ℕ) = 1 then 0 else a'.val; rw [if_neg (by decide)]
      | ⟨1, _⟩ => by show a.val = if (8 : ℕ) = 1 then 0 else a.val; rw [if_neg (by decide)])
  · refine (broadcastInDim_apply _ bcast_S1x16x1x64_S8x16x8x64_0_1_2_3 _ _ (ix4 (0 : Fin 1) k (0 : Fin 1) o) (fun b => match b with
      | ⟨0, _⟩ => by show 0 = if (1 : ℕ) = 1 then 0 else a'.val; rw [if_pos rfl]
      | ⟨1, _⟩ => by show k.val = if (16 : ℕ) = 1 then 0 else k.val; rw [if_neg (by decide)]
      | ⟨2, _⟩ => by show 0 = if (1 : ℕ) = 1 then 0 else a.val; rw [if_pos rfl]
      | ⟨3, _⟩ => by show o.val = if (64 : ℕ) = 1 then 0 else o.val; rw [if_neg (by decide)])).trans ?_
    exact broadcastInDim_apply _ bcast_S16x64_S1x16x1x64_1_3 _ _ (ix2 k o) (fun b => match b with
      | ⟨0, _⟩ => by show k.val = if (16 : ℕ) = 1 then 0 else k.val; rw [if_neg (by decide)]
      | ⟨1, _⟩ => by show o.val = if (64 : ℕ) = 1 then 0 else o.val; rw [if_neg (by decide)])

/-- A vector tiled eight times along a row, read at an entry: the vector's entry. -/
theorem tile0_read (B : FVec Ideal S64 .f32) (a : Fin 8) (o : Fin 64) :
    shapeCast S1x512 (shapeCast S512 (broadcastInDim S8x64 ![0, 1] bcast_S1x64_S8x64_0_1 (shapeCast S1x64 B shapeCasts_S64_S1x64)) shapeCasts_S8x64_S512) shapeCasts_S512_S1x512
        (ix2 (0 : Fin 1) (⟨64 * a.val + o.val, by omega⟩ : Fin 512))
      = B (ix1 o) := by
  refine (shapeCast_apply _ _ _ (ix1 (⟨64 * a.val + o.val, by omega⟩ : Fin 512)) (by
    rw [Shape.rowMajor_val_one, Shape.rowMajor_val_two]
    show 64 * a.val + o.val = 0 * 512 + (64 * a.val + o.val)
    omega)).trans ?_
  refine (shapeCast_apply _ _ _ (ix2 a o) (by
    rw [Shape.rowMajor_val_one, Shape.rowMajor_val_two]
    show a.val * 64 + o.val = 64 * a.val + o.val
    omega)).trans ?_
  refine (broadcastInDim_apply _ bcast_S1x64_S8x64_0_1 _ _ (ix2 (0 : Fin 1) o) (fun b => match b with
      | ⟨0, _⟩ => by show 0 = if (1 : ℕ) = 1 then 0 else a.val; rw [if_pos rfl]
      | ⟨1, _⟩ => by show o.val = if (64 : ℕ) = 1 then 0 else o.val; rw [if_neg (by decide)])).trans ?_
  exact shapeCast_a_1a_apply B shapeCasts_S64_S1x64 (0 : Fin 1) o

/-! ## Layer 0: region 1's windows -/

theorem w0_at (a' a : Fin 8) (k : Fin 16) (o : Fin 64) :
    GenP.V43 m outs c main_v151 (ix2 (⟨16 * a'.val + k.val, by omega⟩ : Fin 128) (⟨64 * a.val + o.val, by omega⟩ : Fin 512))
      = (if a' = a then (1 : EReal) else 0) * Cert.Spec.wq (fun o k => X1 m c (ix2 o k)) (ws0 m c) o k := by
  have hk : @Eq ((⟨S128x512, .f32⟩ : BufTy).Contents (Elt Ideal)) ((GenP.V12 m outs c) (Proc.devRef .tc main_v37)) _ := st0_kron (GenP.V11 m outs c)
  rw [show (GenP.V11 m outs c) (Proc.devRef .tc main_v35) = _ from st0_eye (GenP.V10 m outs c), show (GenP.V11 m outs c) (Proc.devRef .tc main_v36) = _ from st0_T (GenP.V10 m outs c), clip0_back, clip0_buf] at hk
  rw [show GenP.V43 m outs c (Proc.devRef .tc main_v151) = _ from st0_out (GenP.V42 m outs c)]
  show (GenP.V42 m outs c) (Proc.devRef .tc main_v37) _ = _
  rw [kron0_back, hk]
  refine (kron0_read _ _ a' a k o).trans ?_
  rw [eye_read, transpose_ix2_apply, WqBuf0_at]

theorem b0_at (a : Fin 8) (o : Fin 64) :
    GenP.V43 m outs c main_v41 (ix2 (0 : Fin 1) (⟨64 * a.val + o.val, by omega⟩ : Fin 512))
      = Cert.Spec.bq (fun o => X2 m c (ix1 o)) (ws0 m c) (sK m outs c) o := by
  rw [bbd0_back, show (GenP.V13 m outs c) (Proc.devRef .tc main_v41) = _ from st0_bbd (GenP.V12 m outs c), bclip0_back, bclip0_buf]
  exact (tile0_read _ a o).trans (BqBuf0_at m outs c o)

theorem bsf0_at (a : Fin 8) (o : Fin 64) :
    GenP.V43 m outs c main_v45 (ix2 (0 : Fin 1) (⟨64 * a.val + o.val, by omega⟩ : Fin 512))
      = Cert.Spec.bsf (ws0 m c) (sK m outs c) o := by
  rw [bsfbd0_back, show (GenP.V13 m outs c) (Proc.devRef .tc main_v45) = _ from st0_bsfbd (GenP.V12 m outs c), bsf0_back, bsf0_buf]
  exact (tile0_read _ a o).trans (BsfBuf0_at m outs c o)

/-! ## Layer 2: what each stretch of host operations writes, over any contents before it -/

theorem st2_ws (W : Valuation τ sig (Elt Ideal)) : @Eq ((⟨S32, .f32⟩ : BufTy).Contents (Elt Ideal)) (StableHlo.after hostOps1_10 W (Proc.devRef .tc main_v54))
    (Cert.ReferenceIdeal.Read.val_main_v56 (F := Ideal) (W (Proc.devRef .tc main_arg3))) := by
  dsimp only [hostOps1_10]; after_results <;> rfl
theorem st2_div (W : Valuation τ sig (Elt Ideal)) : @Eq ((⟨S32x64, .f32⟩ : BufTy).Contents (Elt Ideal)) (StableHlo.after hostOps1_10 W (Proc.devRef .tc main_v57))
    (Cert.ReferenceIdeal.Read.val_main_v59 (F := Ideal) (W (Proc.devRef .tc main_arg3))) := by
  dsimp only [hostOps1_10]; after_results <;> rfl
theorem st2_round (W : Valuation τ sig (Elt Ideal)) : @Eq ((⟨S32x64, .f32⟩ : BufTy).Contents (Elt Ideal)) (StableHlo.after hostOps1_11 W (Proc.devRef .tc main_v58))
    (Host.roundeven (F := Ideal) (s := S32x64) (φ := .f32) (W (Proc.devRef .tc main_v57))) := by
  dsimp only [hostOps1_11]; after_results <;> rfl
theorem st2_cL (W : Valuation τ sig (Elt Ideal)) : @Eq ((⟨S_, .i32⟩ : BufTy).Contents (Elt Ideal)) (StableHlo.after hostOps1_12 W (Proc.devRef .tc main_c_13))
    (constantI S_ 32 4294967169#32) := by
  dsimp only [hostOps1_12]; after_results <;> rfl
theorem st2_cH (W : Valuation τ sig (Elt Ideal)) : @Eq ((⟨S_, .i32⟩ : BufTy).Contents (Elt Ideal)) (StableHlo.after hostOps1_12 W (Proc.devRef .tc main_c_14))
    (constantI S_ 32 127#32) := by
  dsimp only [hostOps1_12]; after_results <;> rfl
theorem st2_clip (W : Valuation τ sig (Elt Ideal)) : @Eq ((⟨S32x64, .f32⟩ : BufTy).Contents (Elt Ideal)) (StableHlo.after hostOps1_13 W (Proc.devRef .tc main_v59))
    (minimumf (F := Ideal) (s := S32x64) (φ := .f32) (broadcastInDim S32x64 ![] bcast_S_S32x64 (sitofp (F := Ideal) .f32 (w := 32) (W (Proc.devRef .tc main_c_14))))
        (maximumf (broadcastInDim S32x64 ![] bcast_S_S32x64 (sitofp (F := Ideal) .f32 (w := 32) (W (Proc.devRef .tc main_c_13)))) (W (Proc.devRef .tc main_v58)))) := by
  dsimp only [hostOps1_13]; after_results <;> rfl
theorem st2_bsf (W : Valuation τ sig (Elt Ideal)) : @Eq ((⟨S32, .f32⟩ : BufTy).Contents (Elt Ideal)) (StableHlo.after hostOps1_14 W (Proc.devRef .tc main_v61))
    (mulf (F := Ideal) (s := S32) (φ := .f32) (W (Proc.devRef .tc main_v54)) (broadcastInDim S32 ![] bcast_S_S32 (W (Proc.devRef .tc main_v10)))) := by
  dsimp only [hostOps1_14]; after_results <;> rfl
theorem st2_bdiv (W : Valuation τ sig (Elt Ideal)) : @Eq ((⟨S32, .f32⟩ : BufTy).Contents (Elt Ideal)) (StableHlo.after hostOps1_14 W (Proc.devRef .tc main_v62))
    (Host.divf (F := Ideal) (s := S32) (φ := .f32) (W (Proc.devRef .tc main_arg4)) (mulf (W (Proc.devRef .tc main_v54)) (broadcastInDim S32 ![] bcast_S_S32 (W (Proc.devRef .tc main_v10))))) := by
  dsimp only [hostOps1_14]; after_results <;> rfl
theorem st2_bround (W : Valuation τ sig (Elt Ideal)) : @Eq ((⟨S32, .f32⟩ : BufTy).Contents (Elt Ideal)) (StableHlo.after hostOps1_15 W (Proc.devRef .tc main_v63))
    (Host.roundeven (F := Ideal) (s := S32) (φ := .f32) (W (Proc.devRef .tc main_v62))) := by
  dsimp only [hostOps1_15]; after_results <;> rfl
theorem st2_bcL (W : Valuation τ sig (Elt Ideal)) : @Eq ((⟨S_, .i32⟩ : BufTy).Contents (Elt Ideal)) (StableHlo.after hostOps1_16 W (Proc.devRef .tc main_c_15))
    (constantI S_ 32 4294967169#32) := by
  dsimp only [hostOps1_16]; after_results <;> rfl
theorem st2_bcH (W : Valuation τ sig (Elt Ideal)) : @Eq ((⟨S_, .i32⟩ : BufTy).Contents (Elt Ideal)) (StableHlo.after hostOps1_16 W (Proc.devRef .tc main_c_16))
    (constantI S_ 32 127#32) := by
  dsimp only [hostOps1_16]; after_results <;> rfl
theorem st2_bclip (W : Valuation τ sig (Elt Ideal)) : @Eq ((⟨S32, .f32⟩ : BufTy).Contents (Elt Ideal)) (StableHlo.after hostOps1_17 W (Proc.devRef .tc main_v64))
    (minimumf (F := Ideal) (s := S32) (φ := .f32) (broadcastInDim S32 ![] bcast_S_S32 (sitofp (F := Ideal) .f32 (w := 32) (W (Proc.devRef .tc main_c_16))))
        (maximumf (broadcastInDim S32 ![] bcast_S_S32 (sitofp (F := Ideal) .f32 (w := 32) (W (Proc.devRef .tc main_c_15)))) (W (Proc.devRef .tc main_v63)))) := by
  dsimp only [hostOps1_17]; after_results <;> rfl
theorem st2_eye (W : Valuation τ sig (Elt Ideal)) : @Eq ((⟨S8x8, .f32⟩ : BufTy).Contents (Elt Ideal)) (StableHlo.after hostOps1_18 W (Proc.devRef .tc main_v70))
    (uitofp (F := Ideal) .f32 (cmpi .eq (addi (iotaInDim S8x8 32 0) (broadcastInDim S8x8 ![] bcast_S_S8x8 (constantI S_ 32 0#32))) (iotaInDim S8x8 32 1))) := by
  dsimp only [hostOps1_18]; after_results <;> rfl
theorem st2_T (W : Valuation τ sig (Elt Ideal)) : @Eq ((⟨S64x32, .f32⟩ : BufTy).Contents (Elt Ideal)) (StableHlo.after hostOps1_18 W (Proc.devRef .tc main_v71))
    (transpose S64x32 [1, 0] (W (Proc.devRef .tc main_v59)) transposes_S32x64_S64x32_1_0) := by
  dsimp only [hostOps1_18]; after_results <;> rfl
theorem st2_kron (W : Valuation τ sig (Elt Ideal)) : @Eq ((⟨S512x256, .f32⟩ : BufTy).Contents (Elt Ideal)) (StableHlo.after hostOps1_19 W (Proc.devRef .tc main_v72))
    (shapeCast S512x256 (mulf (F := Ideal) (s := S8x64x8x32) (φ := .f32) (broadcastInDim S8x64x8x32 ![0, 1, 2, 3] bcast_S8x1x8x1_S8x64x8x32_0_1_2_3 (broadcastInDim S8x1x8x1 ![0, 2] bcast_S8x8_S8x1x8x1_0_2 (W (Proc.devRef .tc main_v70))))
        (broadcastInDim S8x64x8x32 ![0, 1, 2, 3] bcast_S1x64x1x32_S8x64x8x32_0_1_2_3 (broadcastInDim S1x64x1x32 ![1, 3] bcast_S64x32_S1x64x1x32_1_3 (W (Proc.devRef .tc main_v71))))) shapeCasts_S8x64x8x32_S512x256) := by
  dsimp only [hostOps1_19]; after_results <;> rfl
theorem st2_bbd (W : Valuation τ sig (Elt Ideal)) : @Eq ((⟨S1x256, .f32⟩ : BufTy).Contents (Elt Ideal)) (StableHlo.after hostOps1_20 W (Proc.devRef .tc main_v76))
    (shapeCast S1x256 (shapeCast S256 (broadcastInDim S8x32 ![0, 1] bcast_S1x32_S8x32_0_1 (shapeCast S1x32 (W (Proc.devRef .tc main_v64)) shapeCasts_S32_S1x32)) shapeCasts_S8x32_S256) shapeCasts_S256_S1x256) := by
  dsimp only [hostOps1_20]; after_results <;> rfl
theorem st2_bsfbd (W : Valuation τ sig (Elt Ideal)) : @Eq ((⟨S1x256, .f32⟩ : BufTy).Contents (Elt Ideal)) (StableHlo.after hostOps1_20 W (Proc.devRef .tc main_v80))
    (shapeCast S1x256 (shapeCast S256 (broadcastInDim S8x32 ![0, 1] bcast_S1x32_S8x32_0_1 (shapeCast S1x32 (W (Proc.devRef .tc main_v61)) shapeCasts_S32_S1x32)) shapeCasts_S8x32_S256) shapeCasts_S256_S1x256) := by
  dsimp only [hostOps1_20]; after_results <;> rfl

/-! ## Layer 2: the buffers as whole arrays -/

/-- Layer 2's quantized weight, bias scale and quantized bias as the host operations compute them. -/
def WqBuf2 : (⟨S32x64, .f32⟩ : BufTy).Contents (Elt Ideal) := (minimumf (F := Ideal) (s := S32x64) (φ := .f32) (broadcastInDim S32x64 ![] bcast_S_S32x64 (sitofp (F := Ideal) .f32 (w := 32) (constantI S_ 32 127#32)))
      (maximumf (broadcastInDim S32x64 ![] bcast_S_S32x64 (sitofp (F := Ideal) .f32 (w := 32) (constantI S_ 32 4294967169#32))) (Host.roundeven (Cert.ReferenceIdeal.Read.val_main_v59 (F := Ideal) (X3 m c)))))
def BsfBuf2 : (⟨S32, .f32⟩ : BufTy).Contents (Elt Ideal) := mulf (F := Ideal) (s := S32) (φ := .f32) (Cert.ReferenceIdeal.Read.val_main_v56 (F := Ideal) (X3 m c)) (broadcastInDim S32 ![] bcast_S_S32 (GenP.V3 m outs c (Proc.devRef .tc main_v10)))
def BqBuf2 : (⟨S32, .f32⟩ : BufTy).Contents (Elt Ideal) := (minimumf (F := Ideal) (s := S32) (φ := .f32) (broadcastInDim S32 ![] bcast_S_S32 (sitofp (F := Ideal) .f32 (w := 32) (constantI S_ 32 127#32)))
      (maximumf (broadcastInDim S32 ![] bcast_S_S32 (sitofp (F := Ideal) .f32 (w := 32) (constantI S_ 32 4294967169#32))) (Host.roundeven (Host.divf (X4 m c) (BsfBuf2 m outs c)))))

theorem argW2_back : @Eq ((⟨S32x64, .f32⟩ : BufTy).Contents (Elt Ideal)) ((GenP.V12 m outs c) (Proc.devRef .tc main_arg3)) ((GenP.V0 m c) (Proc.devRef .tc main_arg3)) :=
  (V12_of m outs c main_arg3 (by decide)).trans <| (V11_of m outs c main_arg3 (by decide)).trans <| (V10_of m outs c main_arg3 (by decide)).trans <| (V9_of m outs c main_arg3 (by decide)).trans <| (V8_of m outs c main_arg3 (by decide)).trans <| (V7_of m outs c main_arg3 (by decide)).trans <| (V6_of m outs c main_arg3 (by decide)).trans <| (V5_of m outs c main_arg3 (by decide)).trans <| (V4_of m outs c main_arg3 (by decide)).trans <| (V3_of m outs c main_arg3 (by decide)).trans <| (V2_of m outs c main_arg3 (by decide)).trans <| (V1_of m c main_arg3 (by decide))

theorem argB2_back : @Eq ((⟨S32, .f32⟩ : BufTy).Contents (Elt Ideal)) ((GenP.V16 m outs c) (Proc.devRef .tc main_arg4)) ((GenP.V0 m c) (Proc.devRef .tc main_arg4)) :=
  (V16_of m outs c main_arg4 (by decide)).trans <| (V15_of m outs c main_arg4 (by decide)).trans <| (V14_of m outs c main_arg4 (by decide)).trans <| (V13_of m outs c main_arg4 (by decide)).trans <| (V12_of m outs c main_arg4 (by decide)).trans <| (V11_of m outs c main_arg4 (by decide)).trans <| (V10_of m outs c main_arg4 (by decide)).trans <| (V9_of m outs c main_arg4 (by decide)).trans <| (V8_of m outs c main_arg4 (by decide)).trans <| (V7_of m outs c main_arg4 (by decide)).trans <| (V6_of m outs c main_arg4 (by decide)).trans <| (V5_of m outs c main_arg4 (by decide)).trans <| (V4_of m outs c main_arg4 (by decide)).trans <| (V3_of m outs c main_arg4 (by decide)).trans <| (V2_of m outs c main_arg4 (by decide)).trans <| (V1_of m c main_arg4 (by decide))

theorem round2_back : @Eq ((⟨S32x64, .f32⟩ : BufTy).Contents (Elt Ideal)) ((GenP.V15 m outs c) (Proc.devRef .tc main_v58)) ((GenP.V14 m outs c) (Proc.devRef .tc main_v58)) :=
  (V15_of m outs c main_v58 (by decide))

theorem ws2_back : @Eq ((⟨S32, .f32⟩ : BufTy).Contents (Elt Ideal)) ((GenP.V16 m outs c) (Proc.devRef .tc main_v54)) ((GenP.V13 m outs c) (Proc.devRef .tc main_v54)) :=
  (V16_of m outs c main_v54 (by decide)).trans <| (V15_of m outs c main_v54 (by decide)).trans <| (V14_of m outs c main_v54 (by decide))

theorem v10_back2 : @Eq ((⟨S_, .f32⟩ : BufTy).Contents (Elt Ideal)) ((GenP.V16 m outs c) (Proc.devRef .tc main_v10)) ((GenP.V3 m outs c) (Proc.devRef .tc main_v10)) :=
  (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| (V10_of m outs c main_v10 (by decide)).trans <| (V9_of m outs c main_v10 (by decide)).trans <| (V8_of m outs c main_v10 (by decide)).trans <| (V7_of m outs c main_v10 (by decide)).trans <| (V6_of m outs c main_v10 (by decide)).trans <| (V5_of m outs c main_v10 (by decide)).trans <| (V4_of m outs c main_v10 (by decide))

theorem bround2_back : @Eq ((⟨S32, .f32⟩ : BufTy).Contents (Elt Ideal)) ((GenP.V19 m outs c) (Proc.devRef .tc main_v63)) ((GenP.V18 m outs c) (Proc.devRef .tc main_v63)) :=
  (V19_of m outs c main_v63 (by decide))

theorem clip2_back : @Eq ((⟨S32x64, .f32⟩ : BufTy).Contents (Elt Ideal)) ((GenP.V20 m outs c) (Proc.devRef .tc main_v59)) ((GenP.V16 m outs c) (Proc.devRef .tc main_v59)) :=
  (V20_of m outs c main_v59 (by decide)).trans <| (V19_of m outs c main_v59 (by decide)).trans <| (V18_of m outs c main_v59 (by decide)).trans <| (V17_of m outs c main_v59 (by decide))

theorem bclip2_back : @Eq ((⟨S32, .f32⟩ : BufTy).Contents (Elt Ideal)) ((GenP.V22 m outs c) (Proc.devRef .tc main_v64)) ((GenP.V20 m outs c) (Proc.devRef .tc main_v64)) :=
  (V22_of m outs c main_v64 (by decide)).trans <| (V21_of m outs c main_v64 (by decide))

theorem bsf2_back : @Eq ((⟨S32, .f32⟩ : BufTy).Contents (Elt Ideal)) ((GenP.V22 m outs c) (Proc.devRef .tc main_v61)) ((GenP.V17 m outs c) (Proc.devRef .tc main_v61)) :=
  (V22_of m outs c main_v61 (by decide)).trans <| (V21_of m outs c main_v61 (by decide)).trans <| (V20_of m outs c main_v61 (by decide)).trans <| (V19_of m outs c main_v61 (by decide)).trans <| (V18_of m outs c main_v61 (by decide))

theorem kron2_back : @Eq ((⟨S512x256, .f32⟩ : BufTy).Contents (Elt Ideal)) ((GenP.V43 m outs c) (Proc.devRef .tc main_v72)) ((GenP.V22 m outs c) (Proc.devRef .tc main_v72)) :=
  (V43_of m outs c main_v72 (by decide)).trans <| (V42_of m outs c main_v72 (by decide)).trans <| (V41_of m outs c main_v72 (by decide)).trans <| (V40_of m outs c main_v72 (by decide)).trans <| (V39_of m outs c main_v72 (by decide)).trans <| (V38_of m outs c main_v72 (by decide)).trans <| (V37_of m outs c main_v72 (by decide)).trans <| (V36_of m outs c main_v72 (by decide)).trans <| (V35_of m outs c main_v72 (by decide)).trans <| (V34_of m outs c main_v72 (by decide)).trans <| (V33_of m outs c main_v72 (by decide)).trans <| (V32_of m outs c main_v72 (by decide)).trans <| (V31_of m outs c main_v72 (by decide)).trans <| (V30_of m outs c main_v72 (by decide)).trans <| (V29_of m outs c main_v72 (by decide)).trans <| (V28_of m outs c main_v72 (by decide)).trans <| (V27_of m outs c main_v72 (by decide)).trans <| (V26_of m outs c main_v72 (by decide)).trans <| (V25_of m outs c main_v72 (by decide)).trans <| (V24_of m outs c main_v72 (by decide)).trans <| (V23_of m outs c main_v72 (by decide))

theorem bbd2_back : @Eq ((⟨S1x256, .f32⟩ : BufTy).Contents (Elt Ideal)) ((GenP.V43 m outs c) (Proc.devRef .tc main_v76)) ((GenP.V23 m outs c) (Proc.devRef .tc main_v76)) :=
  (V43_of m outs c main_v76 (by decide)).trans <| (V42_of m outs c main_v76 (by decide)).trans <| (V41_of m outs c main_v76 (by decide)).trans <| (V40_of m outs c main_v76 (by decide)).trans <| (V39_of m outs c main_v76 (by decide)).trans <| (V38_of m outs c main_v76 (by decide)).trans <| (V37_of m outs c main_v76 (by decide)).trans <| (V36_of m outs c main_v76 (by decide)).trans <| (V35_of m outs c main_v76 (by decide)).trans <| (V34_of m outs c main_v76 (by decide)).trans <| (V33_of m outs c main_v76 (by decide)).trans <| (V32_of m outs c main_v76 (by decide)).trans <| (V31_of m outs c main_v76 (by decide)).trans <| (V30_of m outs c main_v76 (by decide)).trans <| (V29_of m outs c main_v76 (by decide)).trans <| (V28_of m outs c main_v76 (by decide)).trans <| (V27_of m outs c main_v76 (by decide)).trans <| (V26_of m outs c main_v76 (by decide)).trans <| (V25_of m outs c main_v76 (by decide)).trans <| (V24_of m outs c main_v76 (by decide))

theorem bsfbd2_back : @Eq ((⟨S1x256, .f32⟩ : BufTy).Contents (Elt Ideal)) ((GenP.V43 m outs c) (Proc.devRef .tc main_v80)) ((GenP.V23 m outs c) (Proc.devRef .tc main_v80)) :=
  (V43_of m outs c main_v80 (by decide)).trans <| (V42_of m outs c main_v80 (by decide)).trans <| (V41_of m outs c main_v80 (by decide)).trans <| (V40_of m outs c main_v80 (by decide)).trans <| (V39_of m outs c main_v80 (by decide)).trans <| (V38_of m outs c main_v80 (by decide)).trans <| (V37_of m outs c main_v80 (by decide)).trans <| (V36_of m outs c main_v80 (by decide)).trans <| (V35_of m outs c main_v80 (by decide)).trans <| (V34_of m outs c main_v80 (by decide)).trans <| (V33_of m outs c main_v80 (by decide)).trans <| (V32_of m outs c main_v80 (by decide)).trans <| (V31_of m outs c main_v80 (by decide)).trans <| (V30_of m outs c main_v80 (by decide)).trans <| (V29_of m outs c main_v80 (by decide)).trans <| (V28_of m outs c main_v80 (by decide)).trans <| (V27_of m outs c main_v80 (by decide)).trans <| (V26_of m outs c main_v80 (by decide)).trans <| (V25_of m outs c main_v80 (by decide)).trans <| (V24_of m outs c main_v80 (by decide))

theorem ws2_buf : @Eq ((⟨S32, .f32⟩ : BufTy).Contents (Elt Ideal)) ((GenP.V13 m outs c) (Proc.devRef .tc main_v54)) (Cert.ReferenceIdeal.Read.val_main_v56 (F := Ideal) (X3 m c)) := by
  have h := st2_ws (GenP.V12 m outs c); rw [argW2_back] at h; exact h
theorem div2_buf : @Eq ((⟨S32x64, .f32⟩ : BufTy).Contents (Elt Ideal)) ((GenP.V13 m outs c) (Proc.devRef .tc main_v57)) (Cert.ReferenceIdeal.Read.val_main_v59 (F := Ideal) (X3 m c)) := by
  have h := st2_div (GenP.V12 m outs c); rw [argW2_back] at h; exact h
theorem clip2_buf : @Eq ((⟨S32x64, .f32⟩ : BufTy).Contents (Elt Ideal)) ((GenP.V16 m outs c) (Proc.devRef .tc main_v59)) (WqBuf2 m c) := by
  have h := st2_clip (GenP.V15 m outs c)
  rw [show (GenP.V15 m outs c) (Proc.devRef .tc main_c_14) = _ from st2_cH (GenP.V14 m outs c), show (GenP.V15 m outs c) (Proc.devRef .tc main_c_13) = _ from st2_cL (GenP.V14 m outs c), round2_back,
    show (GenP.V14 m outs c) (Proc.devRef .tc main_v58) = _ from st2_round (GenP.V13 m outs c), div2_buf] at h
  exact h
theorem bsf2_buf : @Eq ((⟨S32, .f32⟩ : BufTy).Contents (Elt Ideal)) ((GenP.V17 m outs c) (Proc.devRef .tc main_v61)) (BsfBuf2 m outs c) := by
  have h := st2_bsf (GenP.V16 m outs c); rw [ws2_back, ws2_buf, v10_back2] at h; exact h
theorem bclip2_buf : @Eq ((⟨S32, .f32⟩ : BufTy).Contents (Elt Ideal)) ((GenP.V20 m outs c) (Proc.devRef .tc main_v64)) (BqBuf2 m outs c) := by
  have h := st2_bclip (GenP.V19 m outs c)
  have hd := st2_bdiv (GenP.V16 m outs c); rw [ws2_back, ws2_buf, v10_back2, argB2_back] at hd
  rw [show (GenP.V19 m outs c) (Proc.devRef .tc main_c_16) = _ from st2_bcH (GenP.V18 m outs c), show (GenP.V19 m outs c) (Proc.devRef .tc main_c_15) = _ from st2_bcL (GenP.V18 m outs c), bround2_back,
    show (GenP.V18 m outs c) (Proc.devRef .tc main_v63) = _ from st2_bround (GenP.V17 m outs c), show (GenP.V17 m outs c) (Proc.devRef .tc main_v62) = _ from hd] at h
  exact h

/-! ## Layer 2: the buffers read at an index -/

theorem WqBuf2_at (o : Fin 32) (k : Fin 64) :
    WqBuf2 m c (ix2 o k) = Cert.Spec.wq (fun o k => X3 m c (ix2 o k)) (ws2 m c) o k := by
  unfold WqBuf2
  refine (clip_read _ _ _).trans ?_
  have hidx : Cert.ReferenceIdeal.Read.idx_main_v57 (Cert.ReferenceIdeal.Read.idx_main_v58 (ix2 o k)) = ix1 o := by
    funext d; match d with | ⟨0, _⟩ => rfl
  have hd : Cert.ReferenceIdeal.Read.val_main_v59 (F := Ideal) (X3 m c) (ix2 o k) = Ideal.div (X3 m c (ix2 o k)) (ws2 m c o) := by
    rw [Cert.ReferenceIdeal.Read.val_main_v59_apply, Cert.ReferenceIdeal.Read.val_main_v58_apply, Cert.ReferenceIdeal.Read.val_main_v57_apply, hidx]; rfl
  show Cert.Spec.clip (Cert.Spec.rnd (Cert.ReferenceIdeal.Read.val_main_v59 (F := Ideal) (X3 m c) (ix2 o k))) = _
  rw [hd]; rfl

theorem BsfBuf2_at (o : Fin 32) : BsfBuf2 m outs c (ix1 o) = Cert.Spec.bsf (ws2 m c) (sK m outs c) o := by
  unfold BsfBuf2
  show Cert.ReferenceIdeal.Read.val_main_v56 (F := Ideal) (X3 m c) (ix1 o) * broadcastInDim S32 ![] bcast_S_S32 (GenP.V3 m outs c (Proc.devRef .tc main_v10)) (ix1 o) = _
  rw [broadcastInDim_scalar_apply, v10_at]; rfl

theorem BqBuf2_at (o : Fin 32) :
    BqBuf2 m outs c (ix1 o) = Cert.Spec.bq (fun o => X4 m c (ix1 o)) (ws2 m c) (sK m outs c) o := by
  unfold BqBuf2
  refine (clip_read _ _ _).trans ?_
  show Cert.Spec.clip (Cert.Spec.rnd (Ideal.div (X4 m c (ix1 o)) (BsfBuf2 m outs c (ix1 o)))) = _
  rw [BsfBuf2_at]; rfl

/-- The Kronecker product with the 8 × 8 identity, read at an entry: the identity's factor times the matrix's entry. -/
theorem kron2_read (E : FVec Ideal S8x8 .f32) (T : FVec Ideal S64x32 .f32) (a' a : Fin 8) (k : Fin 64) (o : Fin 32) :
    shapeCast S512x256 (mulf (F := Ideal) (s := S8x64x8x32) (φ := .f32)
        (broadcastInDim S8x64x8x32 ![0, 1, 2, 3] bcast_S8x1x8x1_S8x64x8x32_0_1_2_3 (broadcastInDim S8x1x8x1 ![0, 2] bcast_S8x8_S8x1x8x1_0_2 E))
        (broadcastInDim S8x64x8x32 ![0, 1, 2, 3] bcast_S1x64x1x32_S8x64x8x32_0_1_2_3 (broadcastInDim S1x64x1x32 ![1, 3] bcast_S64x32_S1x64x1x32_1_3 T)))
        shapeCasts_S8x64x8x32_S512x256 (ix2 (⟨64 * a'.val + k.val, by omega⟩ : Fin 512) (⟨32 * a.val + o.val, by omega⟩ : Fin 256))
      = E (ix2 a' a) * T (ix2 k o) := by
  refine (shapeCast_apply _ _ _ (ix4 a' k a o) (by
    rw [Shape.rowMajor_val_four, Shape.rowMajor_val_two]
    show ((a'.val * 64 + k.val) * 8 + a.val) * 32 + o.val = (64 * a'.val + k.val) * 256 + (32 * a.val + o.val)
    omega)).trans ?_
  refine congrArg₂ (· * ·) ?_ ?_
  · refine (broadcastInDim_apply _ bcast_S8x1x8x1_S8x64x8x32_0_1_2_3 _ _ (ix4 a' (0 : Fin 1) a (0 : Fin 1)) (fun b => match b with
      | ⟨0, _⟩ => by show a'.val = if (8 : ℕ) = 1 then 0 else a'.val; rw [if_neg (by decide)]
      | ⟨1, _⟩ => by show 0 = if (1 : ℕ) = 1 then 0 else k.val; rw [if_pos rfl]
      | ⟨2, _⟩ => by show a.val = if (8 : ℕ) = 1 then 0 else a.val; rw [if_neg (by decide)]
      | ⟨3, _⟩ => by show 0 = if (1 : ℕ) = 1 then 0 else o.val; rw [if_pos rfl])).trans ?_
    exact broadcastInDim_apply _ bcast_S8x8_S8x1x8x1_0_2 _ _ (ix2 a' a) (fun b => match b with
      | ⟨0, _⟩ => by show a'.val = if (8 : ℕ) = 1 then 0 else a'.val; rw [if_neg (by decide)]
      | ⟨1, _⟩ => by show a.val = if (8 : ℕ) = 1 then 0 else a.val; rw [if_neg (by decide)])
  · refine (broadcastInDim_apply _ bcast_S1x64x1x32_S8x64x8x32_0_1_2_3 _ _ (ix4 (0 : Fin 1) k (0 : Fin 1) o) (fun b => match b with
      | ⟨0, _⟩ => by show 0 = if (1 : ℕ) = 1 then 0 else a'.val; rw [if_pos rfl]
      | ⟨1, _⟩ => by show k.val = if (64 : ℕ) = 1 then 0 else k.val; rw [if_neg (by decide)]
      | ⟨2, _⟩ => by show 0 = if (1 : ℕ) = 1 then 0 else a.val; rw [if_pos rfl]
      | ⟨3, _⟩ => by show o.val = if (32 : ℕ) = 1 then 0 else o.val; rw [if_neg (by decide)])).trans ?_
    exact broadcastInDim_apply _ bcast_S64x32_S1x64x1x32_1_3 _ _ (ix2 k o) (fun b => match b with
      | ⟨0, _⟩ => by show k.val = if (64 : ℕ) = 1 then 0 else k.val; rw [if_neg (by decide)]
      | ⟨1, _⟩ => by show o.val = if (32 : ℕ) = 1 then 0 else o.val; rw [if_neg (by decide)])

/-- A vector tiled eight times along a row, read at an entry: the vector's entry. -/
theorem tile2_read (B : FVec Ideal S32 .f32) (a : Fin 8) (o : Fin 32) :
    shapeCast S1x256 (shapeCast S256 (broadcastInDim S8x32 ![0, 1] bcast_S1x32_S8x32_0_1 (shapeCast S1x32 B shapeCasts_S32_S1x32)) shapeCasts_S8x32_S256) shapeCasts_S256_S1x256
        (ix2 (0 : Fin 1) (⟨32 * a.val + o.val, by omega⟩ : Fin 256))
      = B (ix1 o) := by
  refine (shapeCast_apply _ _ _ (ix1 (⟨32 * a.val + o.val, by omega⟩ : Fin 256)) (by
    rw [Shape.rowMajor_val_one, Shape.rowMajor_val_two]
    show 32 * a.val + o.val = 0 * 256 + (32 * a.val + o.val)
    omega)).trans ?_
  refine (shapeCast_apply _ _ _ (ix2 a o) (by
    rw [Shape.rowMajor_val_one, Shape.rowMajor_val_two]
    show a.val * 32 + o.val = 32 * a.val + o.val
    omega)).trans ?_
  refine (broadcastInDim_apply _ bcast_S1x32_S8x32_0_1 _ _ (ix2 (0 : Fin 1) o) (fun b => match b with
      | ⟨0, _⟩ => by show 0 = if (1 : ℕ) = 1 then 0 else a.val; rw [if_pos rfl]
      | ⟨1, _⟩ => by show o.val = if (32 : ℕ) = 1 then 0 else o.val; rw [if_neg (by decide)])).trans ?_
  exact shapeCast_a_1a_apply B shapeCasts_S32_S1x32 (0 : Fin 1) o

/-! ## Layer 2: region 1's windows -/

theorem w2_at (a' a : Fin 8) (k : Fin 64) (o : Fin 32) :
    GenP.V43 m outs c main_v72 (ix2 (⟨64 * a'.val + k.val, by omega⟩ : Fin 512) (⟨32 * a.val + o.val, by omega⟩ : Fin 256))
      = (if a' = a then (1 : EReal) else 0) * Cert.Spec.wq (fun o k => X3 m c (ix2 o k)) (ws2 m c) o k := by
  have hk : @Eq ((⟨S512x256, .f32⟩ : BufTy).Contents (Elt Ideal)) ((GenP.V22 m outs c) (Proc.devRef .tc main_v72)) _ := st2_kron (GenP.V21 m outs c)
  rw [show (GenP.V21 m outs c) (Proc.devRef .tc main_v70) = _ from st2_eye (GenP.V20 m outs c), show (GenP.V21 m outs c) (Proc.devRef .tc main_v71) = _ from st2_T (GenP.V20 m outs c), clip2_back, clip2_buf] at hk
  rw [kron2_back, hk]
  refine (kron2_read _ _ a' a k o).trans ?_
  rw [eye_read, transpose_ix2_apply, WqBuf2_at]

theorem b2_at (a : Fin 8) (o : Fin 32) :
    GenP.V43 m outs c main_v76 (ix2 (0 : Fin 1) (⟨32 * a.val + o.val, by omega⟩ : Fin 256))
      = Cert.Spec.bq (fun o => X4 m c (ix1 o)) (ws2 m c) (sK m outs c) o := by
  rw [bbd2_back, show (GenP.V23 m outs c) (Proc.devRef .tc main_v76) = _ from st2_bbd (GenP.V22 m outs c), bclip2_back, bclip2_buf]
  exact (tile2_read _ a o).trans (BqBuf2_at m outs c o)

theorem bsf2_at (a : Fin 8) (o : Fin 32) :
    GenP.V43 m outs c main_v80 (ix2 (0 : Fin 1) (⟨32 * a.val + o.val, by omega⟩ : Fin 256))
      = Cert.Spec.bsf (ws2 m c) (sK m outs c) o := by
  rw [bsfbd2_back, show (GenP.V23 m outs c) (Proc.devRef .tc main_v80) = _ from st2_bsfbd (GenP.V22 m outs c), bsf2_back, bsf2_buf]
  exact (tile2_read _ a o).trans (BsfBuf2_at m outs c o)

end Cert.KernelIdeal.GlueA

end
-- ==== Proof.KI.Bridge2.lean ====
/-
  The kernel program's result, entry by entry: entry (8·R + a, o) of the result is row 8·R + a of the input through the
  four plain layers, with the activation scale, the quantized weights, the quantized biases and the bias scales the
  host operations between the two regions compute.
-/
import proofs.«147168_j38843684225834_2_alg».proof.Proof.KI.Bridge1
import proofs.«147168_j38843684225834_2_alg».proof.Proof.KI.GlueA
import proofs.«147168_j38843684225834_2_alg».proof.Proof.Spec

set_option maxRecDepth 16384

noncomputable section

namespace Cert.KernelIdeal.Hand

open Cert.KernelIdeal Cert.KernelIdeal.Gen Cert.KernelIdeal.GenP Cert.KernelIdeal.GlueA
open Idealize.ShloMosaic Idealize.ShloMosaic.TcCoe Idealize.ShloMosaic.ValueIdx Idealize.SL.Sem

variable (m : (ℓ : Loc nD τ sig) → Buf (Elt Ideal) ℓ) (c : Dev nD)

/-- The kernel program's result on core `c`. -/
def resK : S1048576x5.Idx → EReal := GenP.V45 m (outs m) c main_v153

/-- The result at (8·R + a, o) is the packed output array at (R, 5·a + o), which is the packed row R through the four
    block-diagonal layers. -/
theorem resK_packed (R : Fin 131072) (a : Fin 8) (o : Fin 5) :
    resK m c (ix2 (⟨8 * R.val + a.val, by have := R.isLt; have := a.isLt; omega⟩ : Fin 1048576) o)
      = G14V (VR43 m) c (ix2 R (pk 5 40 rfl a o)) := by
  unfold resK
  refine (v153_at (GenP.V44 m (outs m) c) R a o).trans ?_
  rw [V44_outs]
  have h : (W44 m c (Proc.devRef .tc main_v152) : S131072x40.Idx → EReal) = (dat1 (F := Ideal) (VR43 m) c).arrAt 14 cfg1.N := by
    unfold W44; exact Function.update_self _ _ _
  rw [h, final14]

/-- The activation scale as the kernel program computes it, at region 0's real exit contents. -/
abbrev sKm : EReal := sK m (outsA m) c

/-- The kernel program's result at (8·R + a, o): row 8·R + a of the input through the four plain layers. The facts
    about layers 4 and 6 of the host operations are taken as hypotheses here. -/
theorem resK_at (ws4 : Fin 32 → EReal) (ws6 : Fin 5 → EReal) (x5 : S32x32.Idx → EReal) (x6 : S32.Idx → EReal)
    (x7 : S5x32.Idx → EReal) (x8 : S5.Idx → EReal)
    (hW4 : ∀ (a' a : Fin 8) (k : Fin 32) (o : Fin 32), (GenP.V43 m (outsA m) c main_v107 : S256x256.Idx → EReal) (ix2 (pk 32 256 rfl a' k) (pk 32 256 rfl a o))
      = (if a' = a then (1 : EReal) else 0) * Cert.Spec.wq (fun o k => x5 (ix2 o k)) ws4 o k)
    (hB4 : ∀ (a : Fin 8) (o : Fin 32), (GenP.V43 m (outsA m) c main_v111 : S1x256.Idx → EReal) (ix2 (0 : Fin 1) (pk 32 256 rfl a o)) = Cert.Spec.bq (fun o => x6 (ix1 o)) ws4 (sKm m c) o)
    (hF4 : ∀ (a : Fin 8) (o : Fin 32), (GenP.V43 m (outsA m) c main_v115 : S1x256.Idx → EReal) (ix2 (0 : Fin 1) (pk 32 256 rfl a o)) = Cert.Spec.bsf ws4 (sKm m c) o)
    (hW6 : ∀ (a' a : Fin 8) (k : Fin 32) (o : Fin 5), (GenP.V43 m (outsA m) c main_v142 : S256x40.Idx → EReal) (ix2 (pk 32 256 rfl a' k) (pk 5 40 rfl a o))
      = (if a' = a then (1 : EReal) else 0) * Cert.Spec.wq (fun o k => x7 (ix2 o k)) ws6 o k)
    (hB6 : ∀ (a : Fin 8) (o : Fin 5), (GenP.V43 m (outsA m) c main_v146 : S1x40.Idx → EReal) (ix2 (0 : Fin 1) (pk 5 40 rfl a o)) = Cert.Spec.bq (fun o => x8 (ix1 o)) ws6 (sKm m c) o)
    (hF6 : ∀ (a : Fin 8) (o : Fin 5), (GenP.V43 m (outsA m) c main_v150 : S1x40.Idx → EReal) (ix2 (0 : Fin 1) (pk 5 40 rfl a o)) = Cert.Spec.bsf ws6 (sKm m c) o)
    (R : Fin 131072) (a : Fin 8) (o : Fin 5) :
    resK m c (ix2 (⟨8 * R.val + a.val, by have := R.isLt; have := a.isLt; omega⟩ : Fin 1048576) o)
      = net (fun d => X0 m c (ix2 (⟨8 * R.val + a.val, by have := R.isLt; have := a.isLt; omega⟩ : Fin 1048576) d)) (sKm m c)
          (Cert.Spec.wq (fun o k => X1 m c (ix2 o k)) (ws0 m c)) (Cert.Spec.bq (fun o => X2 m c (ix1 o)) (ws0 m c) (sKm m c)) (Cert.Spec.bsf (ws0 m c) (sKm m c))
          (Cert.Spec.wq (fun o k => X3 m c (ix2 o k)) (ws2 m c)) (Cert.Spec.bq (fun o => X4 m c (ix1 o)) (ws2 m c) (sKm m c)) (Cert.Spec.bsf (ws2 m c) (sKm m c))
          (Cert.Spec.wq (fun o k => x5 (ix2 o k)) ws4) (Cert.Spec.bq (fun o => x6 (ix1 o)) ws4 (sKm m c)) (Cert.Spec.bsf ws4 (sKm m c))
          (Cert.Spec.wq (fun o k => x7 (ix2 o k)) ws6) (Cert.Spec.bq (fun o => x8 (ix1 o)) ws6 (sKm m c)) (Cert.Spec.bsf ws6 (sKm m c)) o := by
  rw [resK_packed]
  show rowNet (fun d => VR43 m c main_v0 (ix2 R d)) (VR43 m c main_v9 (ix2 (0 : Fin 1) (0 : Fin 1)))
      (fun i => VR43 m c main_v151 i) (fun i => VR43 m c main_v41 i) (fun i => VR43 m c main_v45 i)
      (fun i => VR43 m c main_v72 i) (fun i => VR43 m c main_v76 i) (fun i => VR43 m c main_v80 i)
      (fun i => VR43 m c main_v107 i) (fun i => VR43 m c main_v111 i) (fun i => VR43 m c main_v115 i)
      (fun i => VR43 m c main_v142 i) (fun i => VR43 m c main_v146 i) (fun i => VR43 m c main_v150 i) (pk 5 40 rfl a o) = _
  refine (rowNet_packed _ _ _ _ _ _ _ _ _ _ _ _ _ _
    (Cert.Spec.wq (fun o k => X1 m c (ix2 o k)) (ws0 m c)) (Cert.Spec.bq (fun o => X2 m c (ix1 o)) (ws0 m c) (sKm m c)) (Cert.Spec.bsf (ws0 m c) (sKm m c))
    (Cert.Spec.wq (fun o k => X3 m c (ix2 o k)) (ws2 m c)) (Cert.Spec.bq (fun o => X4 m c (ix1 o)) (ws2 m c) (sKm m c)) (Cert.Spec.bsf (ws2 m c) (sKm m c))
    (Cert.Spec.wq (fun o k => x5 (ix2 o k)) ws4) (Cert.Spec.bq (fun o => x6 (ix1 o)) ws4 (sKm m c)) (Cert.Spec.bsf ws4 (sKm m c))
    (Cert.Spec.wq (fun o k => x7 (ix2 o k)) ws6) (Cert.Spec.bq (fun o => x8 (ix1 o)) ws6 (sKm m c)) (Cert.Spec.bsf ws6 (sKm m c))
    (fun a' a k o => w0_at m (outsA m) c a' a k o) (fun a o => b0_at m (outsA m) c a o) (fun a o => bsf0_at m (outsA m) c a o)
    (fun a' a k o => w2_at m (outsA m) c a' a k o) (fun a o => b2_at m (outsA m) c a o) (fun a o => bsf2_at m (outsA m) c a o)
    hW4 hB4 hF4 hW6 hB6 hF6 a o).trans ?_
  exact congrArg (fun x => net x _ _ _ _ _ _ _ _ _ _ _ _ _ o) (funext fun d => xr_at m (outsA m) c R a d)

end Cert.KernelIdeal.Hand

end
-- ==== Proof.RefAt.lean ====
/-
  The reference program read at an index.

  Each layer of the reference is ((h / s) · Wqᵀ + Bq) · Bsf, entry by entry a finite sum over the layer's input width;
  the quantized weights, bias scales and quantized biases are the straight-through quantizer applied entry by entry.
  The theorems below read the program's values at an index and identify them with the specification's functions.
-/
import proofs.«147168_j38843684225834_2_alg».proof.Proof.Gen.ReferenceIdeal.Read
import proofs.«147168_j38843684225834_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.RefAt

open Idealize.ShloMosaic Idealize.ShloMosaic.ValueIdx Cert.ReferenceIdeal Cert.ReferenceIdeal.Read

variable (x0 : (⟨S1048576x16, .f32⟩ : BufTy).Contents (Elt Ideal))
  (x1 : (⟨S64x16, .f32⟩ : BufTy).Contents (Elt Ideal)) (x2 : (⟨S64, .f32⟩ : BufTy).Contents (Elt Ideal))
  (x3 : (⟨S32x64, .f32⟩ : BufTy).Contents (Elt Ideal)) (x4 : (⟨S32, .f32⟩ : BufTy).Contents (Elt Ideal))
  (x5 : (⟨S32x32, .f32⟩ : BufTy).Contents (Elt Ideal)) (x6 : (⟨S32, .f32⟩ : BufTy).Contents (Elt Ideal))
  (x7 : (⟨S5x32, .f32⟩ : BufTy).Contents (Elt Ideal)) (x8 : (⟨S5, .f32⟩ : BufTy).Contents (Elt Ideal))

/-- The last layer: the result at row `r`, column `o`. -/
theorem out_at (r : Fin 1048576) (o : Fin 5) :
    val_main_v146 (F := Ideal) x0 x1 x2 x3 x4 x5 x6 x7 x8 (ix2 r o) =
      Cert.Spec.layerAt (fun k => val_main_v113 (F := Ideal) x0 x1 x2 x3 x4 x5 x6 (ix2 r k))
        (val_main_v6 (F := Ideal) x0 (fun a => a.elim0))
        (fun o k => val_main_v129 (F := Ideal) x7 (ix2 o k))
        (fun o => val_main_v136 (F := Ideal) x0 x7 x8 (ix1 o))
        (fun o => val_main_v131 (F := Ideal) x0 x7 (ix1 o)) o := by
  have e1 : ∀ k : Fin 32, lidx_main_v140 (ix2 r o) k = ix2 r k := fun k =>
    funext fun a => Fin.ext (by match a with | ⟨0, _⟩ => rfl | ⟨1, _⟩ => rfl)
  have e2 : ∀ k : Fin 32, idx_main_v139 (ridx_main_v140 (ix2 r o) k) = ix2 o k := fun k =>
    funext fun a => Fin.ext (by match a with | ⟨0, _⟩ => rfl | ⟨1, _⟩ => rfl)
  have e3 : idx_main_v141 (idx_main_v142 (ix2 r o)) = ix1 o :=
    funext fun a => Fin.ext (by match a with | ⟨0, _⟩ => rfl)
  have e4 : idx_main_v144 (idx_main_v145 (ix2 r o)) = ix1 o :=
    funext fun a => Fin.ext (by match a with | ⟨0, _⟩ => rfl)
  rw [val_main_v146_apply, val_main_v143_apply, val_main_v140_apply, val_main_v142_apply, val_main_v141_apply,
    val_main_v145_apply, val_main_v144_apply, e3, e4]
  simp only [val_main_v138_apply, val_main_v137_apply, val_main_v139_apply, e1, e2, Ideal.mulf_def, Ideal.addf_def,
    Ideal.hostDivf_def]
  rfl

/-- The third layer at row `r`, column `o`. -/
theorem h4_at (r : Fin 1048576) (o : Fin 32) :
    val_main_v113 (F := Ideal) x0 x1 x2 x3 x4 x5 x6 (ix2 r o) =
      Cert.Spec.layerAt (fun k => val_main_v80 (F := Ideal) x0 x1 x2 x3 x4 (ix2 r k))
        (val_main_v6 (F := Ideal) x0 (fun a => a.elim0))
        (fun o k => val_main_v96 (F := Ideal) x5 (ix2 o k))
        (fun o => val_main_v103 (F := Ideal) x0 x5 x6 (ix1 o))
        (fun o => val_main_v98 (F := Ideal) x0 x5 (ix1 o)) o := by
  have e1 : ∀ k : Fin 32, lidx_main_v107 (ix2 r o) k = ix2 r k := fun k =>
    funext fun a => Fin.ext (by match a with | ⟨0, _⟩ => rfl | ⟨1, _⟩ => rfl)
  have e2 : ∀ k : Fin 32, idx_main_v106 (ridx_main_v107 (ix2 r o) k) = ix2 o k := fun k =>
    funext fun a => Fin.ext (by match a with | ⟨0, _⟩ => rfl | ⟨1, _⟩ => rfl)
  have e3 : idx_main_v108 (idx_main_v109 (ix2 r o)) = ix1 o :=
    funext fun a => Fin.ext (by match a with | ⟨0, _⟩ => rfl)
  have e4 : idx_main_v111 (idx_main_v112 (ix2 r o)) = ix1 o :=
    funext fun a => Fin.ext (by match a with | ⟨0, _⟩ => rfl)
  rw [val_main_v113_apply, val_main_v110_apply, val_main_v107_apply, val_main_v109_apply, val_main_v108_apply,
    val_main_v112_apply, val_main_v111_apply, e3, e4]
  simp only [val_main_v105_apply, val_main_v104_apply, val_main_v106_apply, e1, e2, Ideal.mulf_def, Ideal.addf_def,
    Ideal.hostDivf_def]
  rfl

/-- The second layer at row `r`, column `o`. -/
theorem h2_at (r : Fin 1048576) (o : Fin 32) :
    val_main_v80 (F := Ideal) x0 x1 x2 x3 x4 (ix2 r o) =
      Cert.Spec.layerAt (fun k => val_main_v47 (F := Ideal) x0 x1 x2 (ix2 r k))
        (val_main_v6 (F := Ideal) x0 (fun a => a.elim0))
        (fun o k => val_main_v63 (F := Ideal) x3 (ix2 o k))
        (fun o => val_main_v70 (F := Ideal) x0 x3 x4 (ix1 o))
        (fun o => val_main_v65 (F := Ideal) x0 x3 (ix1 o)) o := by
  have e1 : ∀ k : Fin 64, lidx_main_v74 (ix2 r o) k = ix2 r k := fun k =>
    funext fun a => Fin.ext (by match a with | ⟨0, _⟩ => rfl | ⟨1, _⟩ => rfl)
  have e2 : ∀ k : Fin 64, idx_main_v73 (ridx_main_v74 (ix2 r o) k) = ix2 o k := fun k =>
    funext fun a => Fin.ext (by match a with | ⟨0, _⟩ => rfl | ⟨1, _⟩ => rfl)
  have e3 : idx_main_v75 (idx_main_v76 (ix2 r o)) = ix1 o :=
    funext fun a => Fin.ext (by match a with | ⟨0, _⟩ => rfl)
  have e4 : idx_main_v78 (idx_main_v79 (ix2 r o)) = ix1 o :=
    funext fun a => Fin.ext (by match a with | ⟨0, _⟩ => rfl)
  rw [val_main_v80_apply, val_main_v77_apply, val_main_v74_apply, val_main_v76_apply, val_main_v75_apply,
    val_main_v79_apply, val_main_v78_apply, e3, e4]
  simp only [val_main_v72_apply, val_main_v71_apply, val_main_v73_apply, e1, e2, Ideal.mulf_def, Ideal.addf_def,
    Ideal.hostDivf_def]
  rfl

/-- The first layer at row `r`, column `o`: its left factor is the input already divided by the scale. -/
theorem h0_at (r : Fin 1048576) (o : Fin 64) :
    val_main_v47 (F := Ideal) x0 x1 x2 (ix2 r o) =
      Cert.Spec.layer0At (fun d => val_main_v39 (F := Ideal) x0 (ix2 r d))
        (fun o k => val_main_v30 (F := Ideal) x1 (ix2 o k))
        (fun o => val_main_v37 (F := Ideal) x0 x1 x2 (ix1 o))
        (fun o => val_main_v32 (F := Ideal) x0 x1 (ix1 o)) o := by
  have e1 : ∀ k : Fin 16, lidx_main_v41 (ix2 r o) k = ix2 r k := fun k =>
    funext fun a => Fin.ext (by match a with | ⟨0, _⟩ => rfl | ⟨1, _⟩ => rfl)
  have e2 : ∀ k : Fin 16, idx_main_v40 (ridx_main_v41 (ix2 r o) k) = ix2 o k := fun k =>
    funext fun a => Fin.ext (by match a with | ⟨0, _⟩ => rfl | ⟨1, _⟩ => rfl)
  have e3 : idx_main_v42 (idx_main_v43 (ix2 r o)) = ix1 o :=
    funext fun a => Fin.ext (by match a with | ⟨0, _⟩ => rfl)
  have e4 : idx_main_v45 (idx_main_v46 (ix2 r o)) = ix1 o :=
    funext fun a => Fin.ext (by match a with | ⟨0, _⟩ => rfl)
  rw [val_main_v47_apply, val_main_v44_apply, val_main_v41_apply, val_main_v43_apply, val_main_v42_apply,
    val_main_v46_apply, val_main_v45_apply, e3, e4]
  simp only [val_main_v40_apply, e1, e2, Ideal.mulf_def, Ideal.addf_def]
  rfl

/-- The first layer's input: the input quantized at the scale `s`, scaled back, and divided by `s` again. -/
theorem xin_at (r : Fin 1048576) (d : Fin 16) :
    val_main_v39 (F := Ideal) x0 (ix2 r d) =
      Ideal.div (Cert.Spec.quantSte (Ideal.div (x0 (ix2 r d)) (val_main_v6 (F := Ideal) x0 (fun a => a.elim0))) *
        val_main_v6 (F := Ideal) x0 (fun a => a.elim0)) (val_main_v6 (F := Ideal) x0 (fun a => a.elim0)) := by
  rw [val_main_v39_apply, val_main_v14_apply, val_main_v38_apply, val_main_v13_apply, val_main_v12_apply,
    val_main_call1_v4_apply, val_main_call1_v3_apply, val_main_c_3_apply, val_main_call1_v2_apply,
    val_main_call1_v1_apply, val_main_call1_v0_apply, val_main_c_apply, val_main_v11_apply, val_main_v10_apply,
    val_main_v9_apply, val_main_v8_apply, val_main_v7_apply]
  simp only [Ideal.mulf_def, Ideal.addf_def, Ideal.subf_def, Ideal.hostDivf_def, Ideal.minimumf_def, Ideal.maximumf_def,
    Ideal.hostUnary_roundeven_def]
  rfl

/-- The first layer's quantized weight at row `o`, column `k`: the straight-through quantizer of the weight over its row's scale. -/
theorem wq0_at (o : Fin 64) (k : Fin 16) :
    val_main_v30 (F := Ideal) x1 (ix2 o k) =
      Cert.Spec.wqSte (fun o k => x1 (ix2 o k)) (fun o => val_main_v23 (F := Ideal) x1 (ix1 o)) o k := by
  have e : idx_main_v24 (idx_main_v25 (ix2 o k)) = ix1 o :=
    funext fun a => Fin.ext (by match a with | ⟨0, _⟩ => rfl)
  rw [val_main_v30_apply, val_main_call3_v4_apply, val_main_call3_v3_apply, val_main_c_9_apply, val_main_call3_v2_apply,
    val_main_call3_v1_apply, val_main_call3_v0_apply, val_main_c_8_apply, val_main_v29_apply, val_main_v28_apply,
    val_main_v27_apply, val_main_v26_apply, val_main_v25_apply, val_main_v24_apply, e]
  simp only [Ideal.mulf_def, Ideal.addf_def, Ideal.subf_def, Ideal.hostDivf_def, Ideal.minimumf_def, Ideal.maximumf_def,
    Ideal.hostUnary_roundeven_def]
  rfl

/-- The second layer's quantized weight at row `o`, column `k`: the straight-through quantizer of the weight over its row's scale. -/
theorem wq2_at (o : Fin 32) (k : Fin 64) :
    val_main_v63 (F := Ideal) x3 (ix2 o k) =
      Cert.Spec.wqSte (fun o k => x3 (ix2 o k)) (fun o => val_main_v56 (F := Ideal) x3 (ix1 o)) o k := by
  have e : idx_main_v57 (idx_main_v58 (ix2 o k)) = ix1 o :=
    funext fun a => Fin.ext (by match a with | ⟨0, _⟩ => rfl)
  rw [val_main_v63_apply, val_main_call7_v4_apply, val_main_call7_v3_apply, val_main_c_17_apply, val_main_call7_v2_apply,
    val_main_call7_v1_apply, val_main_call7_v0_apply, val_main_c_16_apply, val_main_v62_apply, val_main_v61_apply,
    val_main_v60_apply, val_main_v59_apply, val_main_v58_apply, val_main_v57_apply, e]
  simp only [Ideal.mulf_def, Ideal.addf_def, Ideal.subf_def, Ideal.hostDivf_def, Ideal.minimumf_def, Ideal.maximumf_def,
    Ideal.hostUnary_roundeven_def]
  rfl

/-- The third layer's quantized weight at row `o`, column `k`: the straight-through quantizer of the weight over its row's scale. -/
theorem wq4_at (o : Fin 32) (k : Fin 32) :
    val_main_v96 (F := Ideal) x5 (ix2 o k) =
      Cert.Spec.wqSte (fun o k => x5 (ix2 o k)) (fun o => val_main_v89 (F := Ideal) x5 (ix1 o)) o k := by
  have e : idx_main_v90 (idx_main_v91 (ix2 o k)) = ix1 o :=
    funext fun a => Fin.ext (by match a with | ⟨0, _⟩ => rfl)
  rw [val_main_v96_apply, val_main_call11_v4_apply, val_main_call11_v3_apply, val_main_c_25_apply, val_main_call11_v2_apply,
    val_main_call11_v1_apply, val_main_call11_v0_apply, val_main_c_24_apply, val_main_v95_apply, val_main_v94_apply,
    val_main_v93_apply, val_main_v92_apply, val_main_v91_apply, val_main_v90_apply, e]
  simp only [Ideal.mulf_def, Ideal.addf_def, Ideal.subf_def, Ideal.hostDivf_def, Ideal.minimumf_def, Ideal.maximumf_def,
    Ideal.hostUnary_roundeven_def]
  rfl

/-- The last layer's quantized weight at row `o`, column `k`: the straight-through quantizer of the weight over its row's scale. -/
theorem wq6_at (o : Fin 5) (k : Fin 32) :
    val_main_v129 (F := Ideal) x7 (ix2 o k) =
      Cert.Spec.wqSte (fun o k => x7 (ix2 o k)) (fun o => val_main_v122 (F := Ideal) x7 (ix1 o)) o k := by
  have e : idx_main_v123 (idx_main_v124 (ix2 o k)) = ix1 o :=
    funext fun a => Fin.ext (by match a with | ⟨0, _⟩ => rfl)
  rw [val_main_v129_apply, val_main_call15_v4_apply, val_main_call15_v3_apply, val_main_c_33_apply, val_main_call15_v2_apply,
    val_main_call15_v1_apply, val_main_call15_v0_apply, val_main_c_32_apply, val_main_v128_apply, val_main_v127_apply,
    val_main_v126_apply, val_main_v125_apply, val_main_v124_apply, val_main_v123_apply, e]
  simp only [Ideal.mulf_def, Ideal.addf_def, Ideal.subf_def, Ideal.hostDivf_def, Ideal.minimumf_def, Ideal.maximumf_def,
    Ideal.hostUnary_roundeven_def]
  rfl

/-- The first layer's bias scale at `o`: the row's weight scale times the activation scale. -/
theorem bsf0_at (o : Fin 64) :
    val_main_v32 (F := Ideal) x0 x1 (ix1 o) =
      Cert.Spec.bsf (fun o => val_main_v23 (F := Ideal) x1 (ix1 o)) (val_main_v6 (F := Ideal) x0 (fun a => a.elim0)) o := by
  rw [val_main_v32_apply, val_main_v31_apply]
  simp only [Ideal.mulf_def]
  rfl

/-- The second layer's bias scale at `o`: the row's weight scale times the activation scale. -/
theorem bsf2_at (o : Fin 32) :
    val_main_v65 (F := Ideal) x0 x3 (ix1 o) =
      Cert.Spec.bsf (fun o => val_main_v56 (F := Ideal) x3 (ix1 o)) (val_main_v6 (F := Ideal) x0 (fun a => a.elim0)) o := by
  rw [val_main_v65_apply, val_main_v64_apply]
  simp only [Ideal.mulf_def]
  rfl

/-- The third layer's bias scale at `o`: the row's weight scale times the activation scale. -/
theorem bsf4_at (o : Fin 32) :
    val_main_v98 (F := Ideal) x0 x5 (ix1 o) =
      Cert.Spec.bsf (fun o => val_main_v89 (F := Ideal) x5 (ix1 o)) (val_main_v6 (F := Ideal) x0 (fun a => a.elim0)) o := by
  rw [val_main_v98_apply, val_main_v97_apply]
  simp only [Ideal.mulf_def]
  rfl

/-- The last layer's bias scale at `o`: the row's weight scale times the activation scale. -/
theorem bsf6_at (o : Fin 5) :
    val_main_v131 (F := Ideal) x0 x7 (ix1 o) =
      Cert.Spec.bsf (fun o => val_main_v122 (F := Ideal) x7 (ix1 o)) (val_main_v6 (F := Ideal) x0 (fun a => a.elim0)) o := by
  rw [val_main_v131_apply, val_main_v130_apply]
  simp only [Ideal.mulf_def]
  rfl

/-- The first layer's quantized bias at `o`: the straight-through quantizer of the bias over the bias scale. -/
theorem bq0_at (o : Fin 64) :
    val_main_v37 (F := Ideal) x0 x1 x2 (ix1 o) =
      Cert.Spec.bqSte (fun o => x2 (ix1 o)) (fun o => val_main_v23 (F := Ideal) x1 (ix1 o)) (val_main_v6 (F := Ideal) x0 (fun a => a.elim0)) o := by
  rw [val_main_v37_apply, val_main_call5_v4_apply, val_main_call5_v3_apply, val_main_c_11_apply, val_main_call5_v2_apply,
    val_main_call5_v1_apply, val_main_call5_v0_apply, val_main_c_10_apply, val_main_v36_apply, val_main_v35_apply,
    val_main_v34_apply, val_main_v33_apply, val_main_v32_apply, val_main_v31_apply]
  simp only [Ideal.mulf_def, Ideal.addf_def, Ideal.subf_def, Ideal.hostDivf_def, Ideal.minimumf_def, Ideal.maximumf_def,
    Ideal.hostUnary_roundeven_def]
  rfl

/-- The second layer's quantized bias at `o`: the straight-through quantizer of the bias over the bias scale. -/
theorem bq2_at (o : Fin 32) :
    val_main_v70 (F := Ideal) x0 x3 x4 (ix1 o) =
      Cert.Spec.bqSte (fun o => x4 (ix1 o)) (fun o => val_main_v56 (F := Ideal) x3 (ix1 o)) (val_main_v6 (F := Ideal) x0 (fun a => a.elim0)) o := by
  rw [val_main_v70_apply, val_main_call9_v4_apply, val_main_call9_v3_apply, val_main_c_19_apply, val_main_call9_v2_apply,
    val_main_call9_v1_apply, val_main_call9_v0_apply, val_main_c_18_apply, val_main_v69_apply, val_main_v68_apply,
    val_main_v67_apply, val_main_v66_apply, val_main_v65_apply, val_main_v64_apply]
  simp only [Ideal.mulf_def, Ideal.addf_def, Ideal.subf_def, Ideal.hostDivf_def, Ideal.minimumf_def, Ideal.maximumf_def,
    Ideal.hostUnary_roundeven_def]
  rfl

/-- The third layer's quantized bias at `o`: the straight-through quantizer of the bias over the bias scale. -/
theorem bq4_at (o : Fin 32) :
    val_main_v103 (F := Ideal) x0 x5 x6 (ix1 o) =
      Cert.Spec.bqSte (fun o => x6 (ix1 o)) (fun o => val_main_v89 (F := Ideal) x5 (ix1 o)) (val_main_v6 (F := Ideal) x0 (fun a => a.elim0)) o := by
  rw [val_main_v103_apply, val_main_call13_v4_apply, val_main_call13_v3_apply, val_main_c_27_apply, val_main_call13_v2_apply,
    val_main_call13_v1_apply, val_main_call13_v0_apply, val_main_c_26_apply, val_main_v102_apply, val_main_v101_apply,
    val_main_v100_apply, val_main_v99_apply, val_main_v98_apply, val_main_v97_apply]
  simp only [Ideal.mulf_def, Ideal.addf_def, Ideal.subf_def, Ideal.hostDivf_def, Ideal.minimumf_def, Ideal.maximumf_def,
    Ideal.hostUnary_roundeven_def]
  rfl

/-- The last layer's quantized bias at `o`: the straight-through quantizer of the bias over the bias scale. -/
theorem bq6_at (o : Fin 5) :
    val_main_v136 (F := Ideal) x0 x7 x8 (ix1 o) =
      Cert.Spec.bqSte (fun o => x8 (ix1 o)) (fun o => val_main_v122 (F := Ideal) x7 (ix1 o)) (val_main_v6 (F := Ideal) x0 (fun a => a.elim0)) o := by
  rw [val_main_v136_apply, val_main_call17_v4_apply, val_main_call17_v3_apply, val_main_c_35_apply, val_main_call17_v2_apply,
    val_main_call17_v1_apply, val_main_call17_v0_apply, val_main_c_34_apply, val_main_v135_apply, val_main_v134_apply,
    val_main_v133_apply, val_main_v132_apply, val_main_v131_apply, val_main_v130_apply]
  simp only [Ideal.mulf_def, Ideal.addf_def, Ideal.subf_def, Ideal.hostDivf_def, Ideal.minimumf_def, Ideal.maximumf_def,
    Ideal.hostUnary_roundeven_def]
  rfl

end Cert.RefAt

end
-- ==== Proof.RefScales.lean ====
/-
  The reference's scale functions, read on the extended reals.

  The activation scale of the reference is max(max(|min x|, |max x|) / 127, eps), the minimum and maximum taken over the
  whole input; a weight scale is the same expression with the minimum and maximum taken along a row of the weight
  matrix. Here: the two global extrema are the infimum and the supremum of the input; on an input (a weight matrix)
  whose entries are all real, the activation scale (each row's weight scale) is a positive real; and with real weights,
  real biases and positive real scales the "straight through" quantized weights and biases are the quantized weights
  and biases, these are real, and the bias scales are positive reals; the dequantized then requantized input
  (q * s) / s is the quantized input q.
-/
import proofs.«147168_j38843684225834_2_alg».proof.Proof.Gen.ReferenceIdeal.Read
import proofs.«147168_j38843684225834_2_alg».proof.Proof.Spec
import proofs.«147168_j38843684225834_2_alg».proof.Proof.LibExtrema

noncomputable section

namespace Cert.RefScales

open Cert.ReferenceIdeal Cert.ReferenceIdeal.Gen Cert.ReferenceIdeal.Read Idealize.ShloMosaic Idealize.ShloMosaic.ValueIdx
  Cert.LibExtrema

/-! ## The straight-through forms collapse on real data -/

section Collapse

variable {I O : ℕ}

/-- With real weights and positive real row scales the straight-through quantized weight is the quantized weight. -/
theorem wqSte_eq (w : Fin O → Fin I → EReal) (ws : Fin O → EReal) (hw : ∀ o k, ∃ r : ℝ, w o k = (r : EReal))
    (hws : ∀ o, ∃ r : ℝ, 0 < r ∧ ws o = (r : EReal)) : Cert.Spec.wqSte w ws = Cert.Spec.wq w ws := by
  funext o k
  obtain ⟨r, hr⟩ := hw o k
  obtain ⟨v, hv, hv'⟩ := hws o
  rw [Cert.Spec.wqSte, Cert.Spec.wq, hr, hv', div_real r hv.ne', quantSte_eq]

/-- The quantized weights are real. -/
theorem wq_real (w : Fin O → Fin I → EReal) (ws : Fin O → EReal) (hw : ∀ o k, ∃ r : ℝ, w o k = (r : EReal))
    (hws : ∀ o, ∃ r : ℝ, 0 < r ∧ ws o = (r : EReal)) : ∀ o k, ∃ r : ℝ, Cert.Spec.wq w ws o k = (r : EReal) := by
  intro o k
  obtain ⟨r, hr⟩ := hw o k
  obtain ⟨v, hv, hv'⟩ := hws o
  rw [Cert.Spec.wq, hr, hv', div_real r hv.ne']
  exact quant_real _

/-- The bias scale, a product of two positive reals, is a positive real. -/
theorem bsf_pos (ws : Fin O → EReal) (s : EReal) (hws : ∀ o, ∃ r : ℝ, 0 < r ∧ ws o = (r : EReal))
    (hs : ∃ r : ℝ, 0 < r ∧ s = (r : EReal)) : ∀ o, ∃ r : ℝ, 0 < r ∧ Cert.Spec.bsf ws s o = (r : EReal) := by
  intro o
  obtain ⟨v, hv, hv'⟩ := hws o
  obtain ⟨t, ht, ht'⟩ := hs
  exact ⟨v * t, mul_pos hv ht, by rw [Cert.Spec.bsf, hv', ht', ← EReal.coe_mul]⟩

/-- With real biases and positive real scales the straight-through quantized bias is the quantized bias. -/
theorem bqSte_eq (b ws : Fin O → EReal) (s : EReal) (hb : ∀ o, ∃ r : ℝ, b o = (r : EReal))
    (hws : ∀ o, ∃ r : ℝ, 0 < r ∧ ws o = (r : EReal)) (hs : ∃ r : ℝ, 0 < r ∧ s = (r : EReal)) :
    Cert.Spec.bqSte b ws s = Cert.Spec.bq b ws s := by
  funext o
  obtain ⟨r, hr⟩ := hb o
  obtain ⟨v, hv, hv'⟩ := hws o
  obtain ⟨t, ht, ht'⟩ := hs
  rw [Cert.Spec.bqSte, Cert.Spec.bq, hr, hv', ht', ← EReal.coe_mul, div_real r (mul_pos hv ht).ne', quantSte_eq]

/-- The quantized biases are real. -/
theorem bq_real (b ws : Fin O → EReal) (s : EReal) (hb : ∀ o, ∃ r : ℝ, b o = (r : EReal))
    (hws : ∀ o, ∃ r : ℝ, 0 < r ∧ ws o = (r : EReal)) (hs : ∃ r : ℝ, 0 < r ∧ s = (r : EReal)) :
    ∀ o, ∃ r : ℝ, Cert.Spec.bq b ws s o = (r : EReal) := by
  intro o
  obtain ⟨r, hr⟩ := hb o
  obtain ⟨v, hv, hv'⟩ := hws o
  obtain ⟨t, ht, ht'⟩ := hs
  rw [Cert.Spec.bq, hr, hv', ht', ← EReal.coe_mul, div_real r (mul_pos hv ht).ne']
  exact quant_real _

/-- The quantized input, scaled back and divided by the scale again, is the quantized input. -/
theorem xin_eq (x s : ℝ) (hs : 0 < s) :
    Ideal.div (Cert.Spec.quantSte (Ideal.div (x : EReal) (s : EReal)) * (s : EReal)) (s : EReal)
      = Cert.Spec.quant (Ideal.div (x : EReal) (s : EReal)) := by
  rw [div_real x hs.ne', quantSte_eq]
  obtain ⟨z, hz⟩ := quant_real (x / s)
  rw [hz, LibExtrema.mul_div_cancel z s hs.ne']

end Collapse

/-! ## A scale taken from host reduces is a positive real -/

/-- When a reduced axis has a coordinate, some operand index reduces to each result index. -/
theorem filter_drop_nonempty {s t : Shape} {a : Fin s.rank} (h' : s.ReducesTo [a] t) (h : s.Reduces [a] t)
    (ha : 0 < s.size a) (j : t.Idx) : (Finset.univ.filter fun i => h'.drop i = j).Nonempty :=
  ⟨h.lift j ⟨0, ha⟩, Finset.mem_filter.2 ⟨Finset.mem_univ _, by rw [h'.drop_eq_drop h]; exact h.drop_lift j _⟩⟩

/-- The scale max(max(|m|, |M|) / 127, eps), m and M the host's minimum and maximum reduces of a real operand from
    +infinity and -infinity, read at an index some operand index reduces to, is a positive real. -/
theorem hostScale_pos {s t u : Shape} {axes : List (Fin s.rank)} (x : s.Idx → EReal)
    (hx : ∀ i, ∃ r : ℝ, x i = (r : EReal)) (initMin initMax : u.Idx → EReal) (h : s.ReducesTo axes t)
    (hu : 0 < u.numel) (hmin : initMin (Shape.Idx.first hu) = ⊤) (hmax : initMax (Shape.Idx.first hu) = ⊥) (j : t.Idx)
    (hne : (Finset.univ.filter fun i => h.drop i = j).Nonempty) :
    ∃ w : ℝ, 0 < w ∧
      max (Ideal.div
        (max (max (Host.reduce (FloatOps.minimumf (F := Ideal) (φ := .f32)) x initMin h hu j)
              (-(Host.reduce (FloatOps.minimumf (F := Ideal) (φ := .f32)) x initMin h hu j)))
          (max (Host.reduce (FloatOps.maximumf (F := Ideal) (φ := .f32)) x initMax h hu j)
              (-(Host.reduce (FloatOps.maximumf (F := Ideal) (φ := .f32)) x initMax h hu j))))
        (Ideal.ofBits .f32 0x42FE0000#32)) (Ideal.ofBits .f32 0x322BCC77#32) = (w : EReal) := by
  obtain ⟨lo, hlo⟩ := inf_real _ hne x fun i _ => hx i
  obtain ⟨hi, hhi⟩ := sup_real _ hne x fun i _ => hx i
  rw [hostReduce_min, hostReduce_max, hmin, hmax, inf_top_eq, sup_bot_eq, hlo, hhi]
  exact scale_pos lo hi

/-! ## The reference's extrema and scales -/

/-- The reference's global minimum is the infimum of the input. -/
theorem gmin_eq (x0 : (⟨S1048576x16, .f32⟩ : BufTy).Contents (Elt Ideal)) :
    val_main_v0 (F := Ideal) x0 (fun a => a.elim0) = ⨅ i, x0 i := by
  unfold val_main_v0
  exact hostReduce_min_all_top (φ := .f32) (s := S1048576x16) (t := S_) (u := S_) x0 (val_main_cst (F := Ideal))
    reducesTo_S1048576x16_S_d0_1 h_S_ rfl ((val_main_cst_apply _).trans ofBits_posInf) _

/-- The reference's global maximum is the supremum of the input. -/
theorem gmax_eq (x0 : (⟨S1048576x16, .f32⟩ : BufTy).Contents (Elt Ideal)) :
    val_main_v2 (F := Ideal) x0 (fun a => a.elim0) = ⨆ i, x0 i := by
  unfold val_main_v2
  exact hostReduce_max_all_bot (φ := .f32) (s := S1048576x16) (t := S_) (u := S_) x0 (val_main_cst_0 (F := Ideal))
    reducesTo_S1048576x16_S_d0_1 h_S_ rfl ((val_main_cst_0_apply _).trans ofBits_negInf) _

/-- The host's absolute value on the extended reals. -/
theorem hostAbsf_eq (x : EReal) : FloatOps.hostAbsf (F := Ideal) (φ := .f32) x = max x (-x) := rfl

/-- The activation scale of a real input is a positive real. -/
theorem s_pos (x0 : (⟨S1048576x16, .f32⟩ : BufTy).Contents (Elt Ideal)) (h0 : ∀ i, ∃ r : ℝ, x0 i = (r : EReal)) :
    ∃ s : ℝ, 0 < s ∧ val_main_v6 (F := Ideal) x0 (fun a => a.elim0) = (s : EReal) := by
  have hne : (Finset.univ.filter fun i => reducesTo_S1048576x16_S_d0_1.drop i = (fun a => a.elim0 : S_.Idx)).Nonempty := by
    rw [filter_drop_eq_univ reducesTo_S1048576x16_S_d0_1 rfl]
    exact ⟨ix2 (⟨0, by decide⟩ : Fin 1048576) (⟨0, by decide⟩ : Fin 16), Finset.mem_univ _⟩
  rw [val_main_v6_apply, val_main_v5_apply, val_main_v4_apply, val_main_v1_apply, val_main_v3_apply,
    val_main_cst_1_apply, val_main_cst_2_apply]
  simp only [Ideal.maximumf_def, Ideal.hostDivf_def, hostAbsf_eq, Ideal.ofBits_def]
  unfold val_main_v0 val_main_v2
  exact hostScale_pos (s := S1048576x16) (t := S_) (u := S_) x0 h0 (val_main_cst (F := Ideal))
    (val_main_cst_0 (F := Ideal)) reducesTo_S1048576x16_S_d0_1 h_S_ ((val_main_cst_apply _).trans ofBits_posInf)
    ((val_main_cst_0_apply _).trans ofBits_negInf) _ hne

/-- A weight scale of a real weight matrix is a positive real: 64 rows of 16. -/
theorem ws0_pos_idx (x1 : (⟨S64x16, .f32⟩ : BufTy).Contents (Elt Ideal)) (hx : ∀ i, ∃ r : ℝ, x1 i = (r : EReal))
    (j : S64.Idx) : ∃ w : ℝ, 0 < w ∧ val_main_v23 (F := Ideal) x1 j = (w : EReal) := by
  rw [val_main_v23_apply, val_main_v21_apply, val_main_v22_apply, val_main_v20_apply, val_main_v19_apply,
    val_main_v16_apply, val_main_v18_apply, val_main_cst_6_apply, val_main_cst_7_apply]
  simp only [Ideal.maximumf_def, Ideal.hostDivf_def, hostAbsf_eq, Ideal.ofBits_def]
  unfold val_main_v15 val_main_v17
  exact hostScale_pos (s := S64x16) (t := S64) (u := S_) x1 hx (val_main_cst_4 (F := Ideal))
    (val_main_cst_5 (F := Ideal)) reducesTo_S64x16_S64_d1 h_S_ ((val_main_cst_4_apply _).trans ofBits_posInf)
    ((val_main_cst_5_apply _).trans ofBits_negInf) j (filter_drop_nonempty reducesTo_S64x16_S64_d1 (by decide) (by decide) j)

/-- The same for 32 rows of 64. -/
theorem ws2_pos_idx (x3 : (⟨S32x64, .f32⟩ : BufTy).Contents (Elt Ideal)) (hx : ∀ i, ∃ r : ℝ, x3 i = (r : EReal))
    (j : S32.Idx) : ∃ w : ℝ, 0 < w ∧ val_main_v56 (F := Ideal) x3 j = (w : EReal) := by
  rw [val_main_v56_apply, val_main_v54_apply, val_main_v55_apply, val_main_v53_apply, val_main_v52_apply,
    val_main_v49_apply, val_main_v51_apply, val_main_cst_14_apply, val_main_cst_15_apply]
  simp only [Ideal.maximumf_def, Ideal.hostDivf_def, hostAbsf_eq, Ideal.ofBits_def]
  unfold val_main_v48 val_main_v50
  exact hostScale_pos (s := S32x64) (t := S32) (u := S_) x3 hx (val_main_cst_12 (F := Ideal))
    (val_main_cst_13 (F := Ideal)) reducesTo_S32x64_S32_d1 h_S_ ((val_main_cst_12_apply _).trans ofBits_posInf)
    ((val_main_cst_13_apply _).trans ofBits_negInf) j (filter_drop_nonempty reducesTo_S32x64_S32_d1 (by decide) (by decide) j)

/-- The same for 32 rows of 32. -/
theorem ws4_pos_idx (x5 : (⟨S32x32, .f32⟩ : BufTy).Contents (Elt Ideal)) (hx : ∀ i, ∃ r : ℝ, x5 i = (r : EReal))
    (j : S32.Idx) : ∃ w : ℝ, 0 < w ∧ val_main_v89 (F := Ideal) x5 j = (w : EReal) := by
  rw [val_main_v89_apply, val_main_v87_apply, val_main_v88_apply, val_main_v86_apply, val_main_v85_apply,
    val_main_v82_apply, val_main_v84_apply, val_main_cst_22_apply, val_main_cst_23_apply]
  simp only [Ideal.maximumf_def, Ideal.hostDivf_def, hostAbsf_eq, Ideal.ofBits_def]
  unfold val_main_v81 val_main_v83
  exact hostScale_pos (s := S32x32) (t := S32) (u := S_) x5 hx (val_main_cst_20 (F := Ideal))
    (val_main_cst_21 (F := Ideal)) reducesTo_S32x32_S32_d1 h_S_ ((val_main_cst_20_apply _).trans ofBits_posInf)
    ((val_main_cst_21_apply _).trans ofBits_negInf) j (filter_drop_nonempty reducesTo_S32x32_S32_d1 (by decide) (by decide) j)

/-- The same for 5 rows of 32. -/
theorem ws6_pos_idx (x7 : (⟨S5x32, .f32⟩ : BufTy).Contents (Elt Ideal)) (hx : ∀ i, ∃ r : ℝ, x7 i = (r : EReal))
    (j : S5.Idx) : ∃ w : ℝ, 0 < w ∧ val_main_v122 (F := Ideal) x7 j = (w : EReal) := by
  rw [val_main_v122_apply, val_main_v120_apply, val_main_v121_apply, val_main_v119_apply, val_main_v118_apply,
    val_main_v115_apply, val_main_v117_apply, val_main_cst_30_apply, val_main_cst_31_apply]
  simp only [Ideal.maximumf_def, Ideal.hostDivf_def, hostAbsf_eq, Ideal.ofBits_def]
  unfold val_main_v114 val_main_v116
  exact hostScale_pos (s := S5x32) (t := S5) (u := S_) x7 hx (val_main_cst_28 (F := Ideal))
    (val_main_cst_29 (F := Ideal)) reducesTo_S5x32_S5_d1 h_S_ ((val_main_cst_28_apply _).trans ofBits_posInf)
    ((val_main_cst_29_apply _).trans ofBits_negInf) j (filter_drop_nonempty reducesTo_S5x32_S5_d1 (by decide) (by decide) j)

/-- The four weight scales at a row given by its number. -/
theorem ws0_pos (x1 : (⟨S64x16, .f32⟩ : BufTy).Contents (Elt Ideal)) (h1 : ∀ i, ∃ r : ℝ, x1 i = (r : EReal))
    (o : Fin 64) : ∃ w : ℝ, 0 < w ∧ val_main_v23 (F := Ideal) x1 (ix1 o) = (w : EReal) := ws0_pos_idx x1 h1 (ix1 o)

theorem ws2_pos (x3 : (⟨S32x64, .f32⟩ : BufTy).Contents (Elt Ideal)) (h3 : ∀ i, ∃ r : ℝ, x3 i = (r : EReal))
    (o : Fin 32) : ∃ w : ℝ, 0 < w ∧ val_main_v56 (F := Ideal) x3 (ix1 o) = (w : EReal) := ws2_pos_idx x3 h3 (ix1 o)

theorem ws4_pos (x5 : (⟨S32x32, .f32⟩ : BufTy).Contents (Elt Ideal)) (h5 : ∀ i, ∃ r : ℝ, x5 i = (r : EReal))
    (o : Fin 32) : ∃ w : ℝ, 0 < w ∧ val_main_v89 (F := Ideal) x5 (ix1 o) = (w : EReal) := ws4_pos_idx x5 h5 (ix1 o)

theorem ws6_pos (x7 : (⟨S5x32, .f32⟩ : BufTy).Contents (Elt Ideal)) (h7 : ∀ i, ∃ r : ℝ, x7 i = (r : EReal))
    (o : Fin 5) : ∃ w : ℝ, 0 < w ∧ val_main_v122 (F := Ideal) x7 (ix1 o) = (w : EReal) := ws6_pos_idx x7 h7 (ix1 o)

end Cert.RefScales

end
-- ==== Proof.RefBridge.lean ====
/-
  The reference's result, entry by entry: entry (r, o) is row r of the input through the four plain layers — the
  straight-through spellings of the round are the round itself on real numbers, and dividing the quantized input times
  the scale by the scale gives the quantized input back, because under the precondition every argument entry is real
  and every scale is a positive real.
-/
import proofs.«147168_j38843684225834_2_alg».proof.Proof.RefAt
import proofs.«147168_j38843684225834_2_alg».proof.Proof.RefScales
import proofs.«147168_j38843684225834_2_alg».proof.Proof.KI.Bridge1

set_option maxRecDepth 16384

noncomputable section

namespace Cert.RefBridge

open Cert.ReferenceIdeal Cert.ReferenceIdeal.Read Idealize.ShloMosaic Idealize.ShloMosaic.ValueIdx
open Cert.KernelIdeal.Hand (net qin qin_eq)

variable (x0 : (⟨S1048576x16, .f32⟩ : BufTy).Contents (Elt Ideal)) (x1 : (⟨S64x16, .f32⟩ : BufTy).Contents (Elt Ideal))
  (x2 : (⟨S64, .f32⟩ : BufTy).Contents (Elt Ideal)) (x3 : (⟨S32x64, .f32⟩ : BufTy).Contents (Elt Ideal))
  (x4 : (⟨S32, .f32⟩ : BufTy).Contents (Elt Ideal)) (x5 : (⟨S32x32, .f32⟩ : BufTy).Contents (Elt Ideal))
  (x6 : (⟨S32, .f32⟩ : BufTy).Contents (Elt Ideal)) (x7 : (⟨S5x32, .f32⟩ : BufTy).Contents (Elt Ideal))
  (x8 : (⟨S5, .f32⟩ : BufTy).Contents (Elt Ideal))

theorem ref_at (h0 : ∀ i, ∃ r : ℝ, x0 i = (r : EReal)) (h1 : ∀ i, ∃ r : ℝ, x1 i = (r : EReal)) (h2 : ∀ i, ∃ r : ℝ, x2 i = (r : EReal))
    (h3 : ∀ i, ∃ r : ℝ, x3 i = (r : EReal)) (h4 : ∀ i, ∃ r : ℝ, x4 i = (r : EReal)) (h5 : ∀ i, ∃ r : ℝ, x5 i = (r : EReal))
    (h6 : ∀ i, ∃ r : ℝ, x6 i = (r : EReal)) (h7 : ∀ i, ∃ r : ℝ, x7 i = (r : EReal)) (h8 : ∀ i, ∃ r : ℝ, x8 i = (r : EReal))
    (r : Fin 1048576) (o : Fin 5) :
    val_main_v146 (F := Ideal) x0 x1 x2 x3 x4 x5 x6 x7 x8 (ix2 r o)
      = net (fun d => x0 (ix2 r d)) (val_main_v6 (F := Ideal) x0 (fun a => a.elim0))
        (Cert.Spec.wq (fun o k => x1 (ix2 o k)) (fun o => val_main_v23 (F := Ideal) x1 (ix1 o))) (Cert.Spec.bq (fun o => x2 (ix1 o)) (fun o => val_main_v23 (F := Ideal) x1 (ix1 o)) (val_main_v6 (F := Ideal) x0 (fun a => a.elim0))) (Cert.Spec.bsf (fun o => val_main_v23 (F := Ideal) x1 (ix1 o)) (val_main_v6 (F := Ideal) x0 (fun a => a.elim0)))
        (Cert.Spec.wq (fun o k => x3 (ix2 o k)) (fun o => val_main_v56 (F := Ideal) x3 (ix1 o))) (Cert.Spec.bq (fun o => x4 (ix1 o)) (fun o => val_main_v56 (F := Ideal) x3 (ix1 o)) (val_main_v6 (F := Ideal) x0 (fun a => a.elim0))) (Cert.Spec.bsf (fun o => val_main_v56 (F := Ideal) x3 (ix1 o)) (val_main_v6 (F := Ideal) x0 (fun a => a.elim0)))
        (Cert.Spec.wq (fun o k => x5 (ix2 o k)) (fun o => val_main_v89 (F := Ideal) x5 (ix1 o))) (Cert.Spec.bq (fun o => x6 (ix1 o)) (fun o => val_main_v89 (F := Ideal) x5 (ix1 o)) (val_main_v6 (F := Ideal) x0 (fun a => a.elim0))) (Cert.Spec.bsf (fun o => val_main_v89 (F := Ideal) x5 (ix1 o)) (val_main_v6 (F := Ideal) x0 (fun a => a.elim0)))
        (Cert.Spec.wq (fun o k => x7 (ix2 o k)) (fun o => val_main_v122 (F := Ideal) x7 (ix1 o))) (Cert.Spec.bq (fun o => x8 (ix1 o)) (fun o => val_main_v122 (F := Ideal) x7 (ix1 o)) (val_main_v6 (F := Ideal) x0 (fun a => a.elim0))) (Cert.Spec.bsf (fun o => val_main_v122 (F := Ideal) x7 (ix1 o)) (val_main_v6 (F := Ideal) x0 (fun a => a.elim0))) o := by
  have hs : ∃ r : ℝ, 0 < r ∧ val_main_v6 (F := Ideal) x0 (fun a => a.elim0) = (r : EReal) := Cert.RefScales.s_pos x0 h0
  have hws0 : ∀ o : Fin 64, ∃ r : ℝ, 0 < r ∧ val_main_v23 (F := Ideal) x1 (ix1 o) = (r : EReal) := fun o => Cert.RefScales.ws0_pos x1 h1 o
  have W0eq : (fun (o : Fin 64) (k : Fin 16) => val_main_v30 (F := Ideal) x1 (ix2 o k)) = Cert.Spec.wq (fun o k => x1 (ix2 o k)) (fun o => val_main_v23 (F := Ideal) x1 (ix1 o)) :=
    (funext fun o => funext fun k => Cert.RefAt.wq0_at x1 o k).trans (Cert.RefScales.wqSte_eq _ _ (fun o k => h1 _) hws0)
  have B0eq : (fun o : Fin 64 => val_main_v37 (F := Ideal) x0 x1 x2 (ix1 o)) = Cert.Spec.bq (fun o => x2 (ix1 o)) (fun o => val_main_v23 (F := Ideal) x1 (ix1 o)) (val_main_v6 (F := Ideal) x0 (fun a => a.elim0)) :=
    (funext fun o => Cert.RefAt.bq0_at x0 x1 x2 o).trans (Cert.RefScales.bqSte_eq _ _ _ (fun o => h2 _) hws0 hs)
  have F0eq : (fun o : Fin 64 => val_main_v32 (F := Ideal) x0 x1 (ix1 o)) = Cert.Spec.bsf (fun o => val_main_v23 (F := Ideal) x1 (ix1 o)) (val_main_v6 (F := Ideal) x0 (fun a => a.elim0)) :=
    funext fun o => Cert.RefAt.bsf0_at x0 x1 o
  have hws2 : ∀ o : Fin 32, ∃ r : ℝ, 0 < r ∧ val_main_v56 (F := Ideal) x3 (ix1 o) = (r : EReal) := fun o => Cert.RefScales.ws2_pos x3 h3 o
  have W2eq : (fun (o : Fin 32) (k : Fin 64) => val_main_v63 (F := Ideal) x3 (ix2 o k)) = Cert.Spec.wq (fun o k => x3 (ix2 o k)) (fun o => val_main_v56 (F := Ideal) x3 (ix1 o)) :=
    (funext fun o => funext fun k => Cert.RefAt.wq2_at x3 o k).trans (Cert.RefScales.wqSte_eq _ _ (fun o k => h3 _) hws2)
  have B2eq : (fun o : Fin 32 => val_main_v70 (F := Ideal) x0 x3 x4 (ix1 o)) = Cert.Spec.bq (fun o => x4 (ix1 o)) (fun o => val_main_v56 (F := Ideal) x3 (ix1 o)) (val_main_v6 (F := Ideal) x0 (fun a => a.elim0)) :=
    (funext fun o => Cert.RefAt.bq2_at x0 x3 x4 o).trans (Cert.RefScales.bqSte_eq _ _ _ (fun o => h4 _) hws2 hs)
  have F2eq : (fun o : Fin 32 => val_main_v65 (F := Ideal) x0 x3 (ix1 o)) = Cert.Spec.bsf (fun o => val_main_v56 (F := Ideal) x3 (ix1 o)) (val_main_v6 (F := Ideal) x0 (fun a => a.elim0)) :=
    funext fun o => Cert.RefAt.bsf2_at x0 x3 o
  have hws4 : ∀ o : Fin 32, ∃ r : ℝ, 0 < r ∧ val_main_v89 (F := Ideal) x5 (ix1 o) = (r : EReal) := fun o => Cert.RefScales.ws4_pos x5 h5 o
  have W4eq : (fun (o : Fin 32) (k : Fin 32) => val_main_v96 (F := Ideal) x5 (ix2 o k)) = Cert.Spec.wq (fun o k => x5 (ix2 o k)) (fun o => val_main_v89 (F := Ideal) x5 (ix1 o)) :=
    (funext fun o => funext fun k => Cert.RefAt.wq4_at x5 o k).trans (Cert.RefScales.wqSte_eq _ _ (fun o k => h5 _) hws4)
  have B4eq : (fun o : Fin 32 => val_main_v103 (F := Ideal) x0 x5 x6 (ix1 o)) = Cert.Spec.bq (fun o => x6 (ix1 o)) (fun o => val_main_v89 (F := Ideal) x5 (ix1 o)) (val_main_v6 (F := Ideal) x0 (fun a => a.elim0)) :=
    (funext fun o => Cert.RefAt.bq4_at x0 x5 x6 o).trans (Cert.RefScales.bqSte_eq _ _ _ (fun o => h6 _) hws4 hs)
  have F4eq : (fun o : Fin 32 => val_main_v98 (F := Ideal) x0 x5 (ix1 o)) = Cert.Spec.bsf (fun o => val_main_v89 (F := Ideal) x5 (ix1 o)) (val_main_v6 (F := Ideal) x0 (fun a => a.elim0)) :=
    funext fun o => Cert.RefAt.bsf4_at x0 x5 o
  have hws6 : ∀ o : Fin 5, ∃ r : ℝ, 0 < r ∧ val_main_v122 (F := Ideal) x7 (ix1 o) = (r : EReal) := fun o => Cert.RefScales.ws6_pos x7 h7 o
  have W6eq : (fun (o : Fin 5) (k : Fin 32) => val_main_v129 (F := Ideal) x7 (ix2 o k)) = Cert.Spec.wq (fun o k => x7 (ix2 o k)) (fun o => val_main_v122 (F := Ideal) x7 (ix1 o)) :=
    (funext fun o => funext fun k => Cert.RefAt.wq6_at x7 o k).trans (Cert.RefScales.wqSte_eq _ _ (fun o k => h7 _) hws6)
  have B6eq : (fun o : Fin 5 => val_main_v136 (F := Ideal) x0 x7 x8 (ix1 o)) = Cert.Spec.bq (fun o => x8 (ix1 o)) (fun o => val_main_v122 (F := Ideal) x7 (ix1 o)) (val_main_v6 (F := Ideal) x0 (fun a => a.elim0)) :=
    (funext fun o => Cert.RefAt.bq6_at x0 x7 x8 o).trans (Cert.RefScales.bqSte_eq _ _ _ (fun o => h8 _) hws6 hs)
  have F6eq : (fun o : Fin 5 => val_main_v131 (F := Ideal) x0 x7 (ix1 o)) = Cert.Spec.bsf (fun o => val_main_v122 (F := Ideal) x7 (ix1 o)) (val_main_v6 (F := Ideal) x0 (fun a => a.elim0)) :=
    funext fun o => Cert.RefAt.bsf6_at x0 x7 o
  have Xeq : (fun d : Fin 16 => val_main_v39 (F := Ideal) x0 (ix2 r d)) = fun d => qin (x0 (ix2 r d)) (val_main_v6 (F := Ideal) x0 (fun a => a.elim0)) := funext fun d => by
    rw [Cert.RefAt.xin_at, qin_eq]
    obtain ⟨xr, hx⟩ := h0 (ix2 r d)
    obtain ⟨sr, hsr, hs'⟩ := hs
    rw [hx, hs']
    exact Cert.RefScales.xin_eq xr sr hsr
  unfold net
  rw [Cert.RefAt.out_at, W6eq, B6eq, F6eq]
  refine congrArg (fun h => Cert.Spec.layerAt h _ _ _ _ o) (funext fun k' => ?_)
  rw [Cert.RefAt.h4_at, W4eq, B4eq, F4eq]
  refine congrArg (fun h => Cert.Spec.layerAt h _ _ _ _ k') (funext fun k => ?_)
  rw [Cert.RefAt.h2_at, W2eq, B2eq, F2eq]
  refine congrArg (fun h => Cert.Spec.layerAt h _ _ _ _ k) (funext fun j => ?_)
  rw [Cert.RefAt.h0_at, W0eq, B0eq, F0eq, Xeq]

end Cert.RefBridge

end
-- ==== Proof.PreReal.lean ====
/-
  The precondition read back: it says that, for each of the nine float arguments, every entry's absolute value is below
  +infinity (nine conjunctions of an "all" over the array). On the extended reals an entry with |x| < +infinity is
  neither +infinity nor -infinity, so it is a real number.
-/
import proofs.«147168_j38843684225834_2_alg».proof.Pre_finite_inputs
import proofs.«147168_j38843684225834_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.PreReal

open Idealize.ShloMosaic Cert.Pre_finite_inputs

instance : Subsingleton S_.Idx := ⟨fun a b => funext fun d => d.elim0⟩

/-- An extended real whose absolute value is below +infinity is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- One "all entries are finite" conjunct, read back: every entry is a real number. -/
theorem real_of_all {s : Shape} (x : FVec Ideal s .f32) (hb : S_.BroadcastsInDim s ![]) {axes : List (Fin s.rank)}
    (hr : s.ReducesTo axes S_) (hu : 0 < S_.numel) (j : S_.Idx)
    (e : Host.reduce IntOp.andi
      (cmpf .olt (Host.absf x) (broadcastInDim s ![] hb (constant S_ .f32 0x7F800000#32))) (constantI S_ 1 1#1) hr hu j
        = 1#1)
    (i : s.Idx) : ∃ r : ℝ, x i = (r : EReal) := by
  have h := Host.reduce_andi_all _ _ hr hu j e i
  refine real_of_abs_lt (x i) ?_
  have hbc : broadcastInDim s ![] hb (constant (F := Ideal) S_ .f32 0x7F800000#32) i = Ideal.ofBits .f32 0x7F800000#32 :=
    (broadcastInDim_apply _ hb _ i (fun a => a.elim0) (fun a => a.elim0)).trans rfl
  have h' : Ideal.cmp .olt (max (x i) (-(x i)))
      (broadcastInDim s ![] hb (constant (F := Ideal) S_ .f32 0x7F800000#32) i) = 1#1 := h
  rw [hbc] at h'
  exact h'

/-- A conjunction of two one-bit arrays that is 1 at an index has both 1 there. -/
theorem andi_apply {s : Shape} (A B : IVec s 1) (j : s.Idx) (h : andi A B j = 1#1) : A j = 1#1 ∧ B j = 1#1 :=
  IntOp.andi_eq_one.1 h

/-- The precondition says every entry of every argument is a real number. -/
theorem real_of_pre (a0 : FVec Ideal S1048576x16 .f32) (a1 : FVec Ideal S64x16 .f32) (a2 : FVec Ideal S64 .f32)
    (a3 : FVec Ideal S32x64 .f32) (a4 : FVec Ideal S32 .f32) (a5 : FVec Ideal S32x32 .f32) (a6 : FVec Ideal S32 .f32)
    (a7 : FVec Ideal S5x32 .f32) (a8 : FVec Ideal S5 .f32)
    (h : @Cert.Pre_finite_inputs.fn Cert.Pre_finite_inputs.Gen.facts Ideal _ a0 a1 a2 a3 a4 a5 a6 a7 a8 = fun _ => 1#1) :
    (∀ i, ∃ r : ℝ, a0 i = (r : EReal)) ∧ (∀ i, ∃ r : ℝ, a1 i = (r : EReal)) ∧ (∀ i, ∃ r : ℝ, a2 i = (r : EReal)) ∧
    (∀ i, ∃ r : ℝ, a3 i = (r : EReal)) ∧ (∀ i, ∃ r : ℝ, a4 i = (r : EReal)) ∧ (∀ i, ∃ r : ℝ, a5 i = (r : EReal)) ∧
    (∀ i, ∃ r : ℝ, a6 i = (r : EReal)) ∧ (∀ i, ∃ r : ℝ, a7 i = (r : EReal)) ∧ (∀ i, ∃ r : ℝ, a8 i = (r : EReal)) := by
  have h0 := congrFun h (fun a => a.elim0)
  unfold Cert.Pre_finite_inputs.fn Cert.Pre_finite_inputs.fn_part1 Cert.Pre_finite_inputs.fn_part2 at h0
  dsimp only at h0
  obtain ⟨h0, e8⟩ := andi_apply _ _ _ h0
  obtain ⟨h0, e7⟩ := andi_apply _ _ _ h0
  obtain ⟨h0, e6⟩ := andi_apply _ _ _ h0
  obtain ⟨h0, e5⟩ := andi_apply _ _ _ h0
  obtain ⟨h0, e4⟩ := andi_apply _ _ _ h0
  obtain ⟨h0, e3⟩ := andi_apply _ _ _ h0
  obtain ⟨h0, e2⟩ := andi_apply _ _ _ h0
  obtain ⟨e0, e1⟩ := andi_apply _ _ _ h0
  refine ⟨?_, ?_, ?_, ?_, ?_, ?_, ?_, ?_, ?_⟩
  · with_reducible exact real_of_all a0 _ _ _ _ e0
  · with_reducible exact real_of_all a1 _ _ _ _ e1
  · with_reducible exact real_of_all a2 _ _ _ _ e2
  · with_reducible exact real_of_all a3 _ _ _ _ e3
  · with_reducible exact real_of_all a4 _ _ _ _ e4
  · with_reducible exact real_of_all a5 _ _ _ _ e5
  · with_reducible exact real_of_all a6 _ _ _ _ e6
  · with_reducible exact real_of_all a7 _ _ _ _ e7
  · with_reducible exact real_of_all a8 _ _ _ _ e8

end Cert.PreReal

end
-- ==== Proof.KI.Final.lean ====
/-
  The two programs' results agree on every core: under the precondition every argument entry is a real number; the
  kernel program's result at (8·R + a, o) and the reference's at the same entry are both that input row through the four
  plain layers, once the kernel program's activation scale is the reference's.
-/
import proofs.«147168_j38843684225834_2_alg».proof.Proof.KI.Bridge2
import proofs.«147168_j38843684225834_2_alg».proof.Proof.RefBridge
import proofs.«147168_j38843684225834_2_alg».proof.Proof.PreReal

set_option maxRecDepth 16384

noncomputable section

namespace Cert.KernelIdeal.Hand

open Cert.KernelIdeal Cert.KernelIdeal.Gen Cert.KernelIdeal.GenP Cert.KernelIdeal.GlueA
open Idealize.ShloMosaic Idealize.ShloMosaic.TcCoe Idealize.ShloMosaic.ValueIdx Idealize.SL.Sem

variable (m : (ℓ : Loc nD τ sig) → Buf (Elt Ideal) ℓ) (c : Dev nD)

/-- Layer 4's and layer 6's per-row weight scales, as the reference's functions of the weights. -/
abbrev wsR4 (o : Fin 32) : EReal := Cert.ReferenceIdeal.Read.val_main_v89 (F := Ideal) (m ((c : Thread nD τ).loc main_arg5)) (ix1 o)
abbrev wsR6 (o : Fin 5) : EReal := Cert.ReferenceIdeal.Read.val_main_v122 (F := Ideal) (m ((c : Thread nD τ).loc main_arg7)) (ix1 o)

theorem result_eq
    (hpre : @Cert.Pre_finite_inputs.fn Cert.Pre_finite_inputs.Gen.facts Ideal _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) = fun _ => 1#1)
    (hs : sK m (outsA m) c = Cert.ReferenceIdeal.Read.val_main_v6 (F := Ideal) (X0 m c) (fun a => a.elim0))
    (hW4 : ∀ (a' a : Fin 8) (k : Fin 32) (o : Fin 32), (GenP.V43 m (outsA m) c main_v107 : S256x256.Idx → EReal) (ix2 (pk 32 256 rfl a' k) (pk 32 256 rfl a o))
      = (if a' = a then (1 : EReal) else 0) * Cert.Spec.wq (fun o k => (m ((c : Thread nD τ).loc main_arg5)) (ix2 o k)) (wsR4 m c) o k)
    (hB4 : ∀ (a : Fin 8) (o : Fin 32), (GenP.V43 m (outsA m) c main_v111 : S1x256.Idx → EReal) (ix2 (0 : Fin 1) (pk 32 256 rfl a o)) = Cert.Spec.bq (fun o => (m ((c : Thread nD τ).loc main_arg6)) (ix1 o)) (wsR4 m c) (sKm m c) o)
    (hF4 : ∀ (a : Fin 8) (o : Fin 32), (GenP.V43 m (outsA m) c main_v115 : S1x256.Idx → EReal) (ix2 (0 : Fin 1) (pk 32 256 rfl a o)) = Cert.Spec.bsf (wsR4 m c) (sKm m c) o)
    (hW6 : ∀ (a' a : Fin 8) (k : Fin 32) (o : Fin 5), (GenP.V43 m (outsA m) c main_v142 : S256x40.Idx → EReal) (ix2 (pk 32 256 rfl a' k) (pk 5 40 rfl a o))
      = (if a' = a then (1 : EReal) else 0) * Cert.Spec.wq (fun o k => (m ((c : Thread nD τ).loc main_arg7)) (ix2 o k)) (wsR6 m c) o k)
    (hB6 : ∀ (a : Fin 8) (o : Fin 5), (GenP.V43 m (outsA m) c main_v146 : S1x40.Idx → EReal) (ix2 (0 : Fin 1) (pk 5 40 rfl a o)) = Cert.Spec.bq (fun o => (m ((c : Thread nD τ).loc main_arg8)) (ix1 o)) (wsR6 m c) (sKm m c) o)
    (hF6 : ∀ (a : Fin 8) (o : Fin 5), (GenP.V43 m (outsA m) c main_v150 : S1x40.Idx → EReal) (ix2 (0 : Fin 1) (pk 5 40 rfl a o)) = Cert.Spec.bsf (wsR6 m c) (sKm m c) o) :
    resK m c = Cert.ReferenceIdeal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  obtain ⟨h0, h1, h2, h3, h4, h5, h6, h7, h8⟩ := Cert.PreReal.real_of_pre _ _ _ _ _ _ _ _ _ hpre
  funext i
  obtain ⟨r, o, rfl⟩ : ∃ (r : Fin 1048576) (o : Fin 5), i = ix2 r o := ⟨i 0, i 1, eq_ix2 i⟩
  have hR : r.val / 8 < 131072 := by have := r.isLt; omega
  have hr : r = (⟨8 * (⟨r.val / 8, hR⟩ : Fin 131072).val + (⟨r.val % 8, Nat.mod_lt _ (by decide)⟩ : Fin 8).val, by
      have := r.isLt; show 8 * (r.val / 8) + r.val % 8 < 1048576; omega⟩ : Fin 1048576) :=
    Fin.ext (by show r.val = 8 * (r.val / 8) + r.val % 8; omega)
  rw [hr]
  refine (resK_at m c (wsR4 m c) (wsR6 m c) (m ((c : Thread nD τ).loc main_arg5)) (m ((c : Thread nD τ).loc main_arg6)) (m ((c : Thread nD τ).loc main_arg7)) (m ((c : Thread nD τ).loc main_arg8)) hW4 hB4 hF4 hW6 hB6 hF6 ⟨r.val / 8, hR⟩ ⟨r.val % 8, Nat.mod_lt _ (by decide)⟩ o).trans ?_
  refine Eq.trans ?_ (Cert.RefBridge.ref_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) h0 h1 h2 h3 h4 h5 h6 h7 h8 _ o).symm
  rw [show sKm m c = Cert.ReferenceIdeal.Read.val_main_v6 (F := Ideal) (X0 m c) (fun a => a.elim0) from hs]

end Cert.KernelIdeal.Hand

end
-- ==== Proof.KI.GlueD.lean ====
/-
  The host operations of the kernel program between its two regions, read at an index, for layer 4 (thirty-two
  outputs, thirty-two inputs): the weight quantized by its per-row scale and repacked as the Kronecker product of the
  8 × 8 identity with its transpose, entry (32 · a' + k, 32 · a + o) = [a' = a] · Wq (o, k); the quantized bias and the
  bias scale tiled eight times along a row, entry (0, 32 · a + o) = Bq o, Bsf o.
-/
import proofs.«147168_j38843684225834_2_alg».proof.Proof.KI.GlueA

set_option maxRecDepth 65536

noncomputable section

namespace Cert.KernelIdeal.GlueD

open Cert.KernelIdeal Cert.KernelIdeal.Gen Idealize.ShloMosaic.StableHlo Cert.KernelIdeal.GenP Idealize.ShloMosaic Idealize.ShloMosaic.TcCoe Idealize.ShloMosaic.ValueIdx Idealize.SL.Sem
open Cert.KernelIdeal.GlueA (sK clip_read eye_read v10_at)

variable (m : (ℓ : Loc nD τ sig) → Buf (Elt Ideal) ℓ) (outs : GenP.Outs (F := Ideal)) (c : Dev nD)

/-- The launch contents of layer 4's weight and bias. -/
abbrev X5 : (⟨S32x32, .f32⟩ : BufTy).Contents (Elt Ideal) := m ((c : Thread nD τ).loc main_arg5)
abbrev X6 : (⟨S32, .f32⟩ : BufTy).Contents (Elt Ideal) := m ((c : Thread nD τ).loc main_arg6)

/-- Layer 4's per-row weight scale, as the reference computes it. -/
abbrev ws4 (o : Fin 32) : EReal := Cert.ReferenceIdeal.Read.val_main_v89 (F := Ideal) (X5 m c) (ix1 o)

/-! ## Layer 4: what each stretch of host operations writes, over any contents before it -/

set_option maxHeartbeats 1000000 in
theorem st4_ws (W : Valuation τ sig (Elt Ideal)) : @Eq ((⟨S32, .f32⟩ : BufTy).Contents (Elt Ideal)) (StableHlo.after hostOps1_20 W (Proc.devRef .tc main_v89))
    (Cert.ReferenceIdeal.Read.val_main_v89 (F := Ideal) (W (Proc.devRef .tc main_arg5))) := by
  dsimp only [hostOps1_20]; after_results <;> rfl
set_option maxHeartbeats 1000000 in
theorem st4_div (W : Valuation τ sig (Elt Ideal)) : @Eq ((⟨S32x32, .f32⟩ : BufTy).Contents (Elt Ideal)) (StableHlo.after hostOps1_20 W (Proc.devRef .tc main_v92))
    (Cert.ReferenceIdeal.Read.val_main_v92 (F := Ideal) (W (Proc.devRef .tc main_arg5))) := by
  dsimp only [hostOps1_20]; after_results <;> rfl
theorem st4_round (W : Valuation τ sig (Elt Ideal)) : @Eq ((⟨S32x32, .f32⟩ : BufTy).Contents (Elt Ideal)) (StableHlo.after hostOps1_21 W (Proc.devRef .tc main_v93))
    (Host.roundeven (F := Ideal) (s := S32x32) (φ := .f32) (W (Proc.devRef .tc main_v92))) := by
  dsimp only [hostOps1_21]; after_results <;> rfl
theorem st4_cL (W : Valuation τ sig (Elt Ideal)) : @Eq ((⟨S_, .i32⟩ : BufTy).Contents (Elt Ideal)) (StableHlo.after hostOps1_22 W (Proc.devRef .tc main_c_22))
    (constantI S_ 32 4294967169#32) := by
  dsimp only [hostOps1_22]; after_results <;> rfl
theorem st4_cH (W : Valuation τ sig (Elt Ideal)) : @Eq ((⟨S_, .i32⟩ : BufTy).Contents (Elt Ideal)) (StableHlo.after hostOps1_22 W (Proc.devRef .tc main_c_23))
    (constantI S_ 32 127#32) := by
  dsimp only [hostOps1_22]; after_results <;> rfl
theorem st4_clip (W : Valuation τ sig (Elt Ideal)) : @Eq ((⟨S32x32, .f32⟩ : BufTy).Contents (Elt Ideal)) (StableHlo.after hostOps1_23 W (Proc.devRef .tc main_v94))
    (minimumf (F := Ideal) (s := S32x32) (φ := .f32) (broadcastInDim S32x32 ![] bcast_S_S32x32 (sitofp (F := Ideal) .f32 (w := 32) (W (Proc.devRef .tc main_c_23))))
        (maximumf (broadcastInDim S32x32 ![] bcast_S_S32x32 (sitofp (F := Ideal) .f32 (w := 32) (W (Proc.devRef .tc main_c_22)))) (W (Proc.devRef .tc main_v93)))) := by
  dsimp only [hostOps1_23]; after_results <;> rfl
theorem st4_bsf (W : Valuation τ sig (Elt Ideal)) : @Eq ((⟨S32, .f32⟩ : BufTy).Contents (Elt Ideal)) (StableHlo.after hostOps1_24 W (Proc.devRef .tc main_v96))
    (mulf (F := Ideal) (s := S32) (φ := .f32) (W (Proc.devRef .tc main_v89)) (broadcastInDim S32 ![] bcast_S_S32 (W (Proc.devRef .tc main_v10)))) := by
  dsimp only [hostOps1_24]; after_results <;> rfl
theorem st4_bdiv (W : Valuation τ sig (Elt Ideal)) : @Eq ((⟨S32, .f32⟩ : BufTy).Contents (Elt Ideal)) (StableHlo.after hostOps1_24 W (Proc.devRef .tc main_v97))
    (Host.divf (F := Ideal) (s := S32) (φ := .f32) (W (Proc.devRef .tc main_arg6)) (mulf (W (Proc.devRef .tc main_v89)) (broadcastInDim S32 ![] bcast_S_S32 (W (Proc.devRef .tc main_v10))))) := by
  dsimp only [hostOps1_24]; after_results <;> rfl
theorem st4_bround (W : Valuation τ sig (Elt Ideal)) : @Eq ((⟨S32, .f32⟩ : BufTy).Contents (Elt Ideal)) (StableHlo.after hostOps1_25 W (Proc.devRef .tc main_v98))
    (Host.roundeven (F := Ideal) (s := S32) (φ := .f32) (W (Proc.devRef .tc main_v97))) := by
  dsimp only [hostOps1_25]; after_results <;> rfl
theorem st4_bcL (W : Valuation τ sig (Elt Ideal)) : @Eq ((⟨S_, .i32⟩ : BufTy).Contents (Elt Ideal)) (StableHlo.after hostOps1_26 W (Proc.devRef .tc main_c_24))
    (constantI S_ 32 4294967169#32) := by
  dsimp only [hostOps1_26]; after_results <;> rfl
theorem st4_bcH (W : Valuation τ sig (Elt Ideal)) : @Eq ((⟨S_, .i32⟩ : BufTy).Contents (Elt Ideal)) (StableHlo.after hostOps1_26 W (Proc.devRef .tc main_c_25))
    (constantI S_ 32 127#32) := by
  dsimp only [hostOps1_26]; after_results <;> rfl
theorem st4_bclip (W : Valuation τ sig (Elt Ideal)) : @Eq ((⟨S32, .f32⟩ : BufTy).Contents (Elt Ideal)) (StableHlo.after hostOps1_27 W (Proc.devRef .tc main_v99))
    (minimumf (F := Ideal) (s := S32) (φ := .f32) (broadcastInDim S32 ![] bcast_S_S32 (sitofp (F := Ideal) .f32 (w := 32) (W (Proc.devRef .tc main_c_25))))
        (maximumf (broadcastInDim S32 ![] bcast_S_S32 (sitofp (F := Ideal) .f32 (w := 32) (W (Proc.devRef .tc main_c_24)))) (W (Proc.devRef .tc main_v98)))) := by
  dsimp only [hostOps1_27]; after_results <;> rfl
theorem st4_eye (W : Valuation τ sig (Elt Ideal)) : @Eq ((⟨S8x8, .f32⟩ : BufTy).Contents (Elt Ideal)) (StableHlo.after hostOps1_28 W (Proc.devRef .tc main_v105))
    (uitofp (F := Ideal) .f32 (cmpi .eq (addi (iotaInDim S8x8 32 0) (broadcastInDim S8x8 ![] bcast_S_S8x8 (constantI S_ 32 0#32))) (iotaInDim S8x8 32 1))) := by
  dsimp only [hostOps1_28]; after_results <;> rfl
theorem st4_T (W : Valuation τ sig (Elt Ideal)) : @Eq ((⟨S32x32, .f32⟩ : BufTy).Contents (Elt Ideal)) (StableHlo.after hostOps1_28 W (Proc.devRef .tc main_v106))
    (transpose S32x32 [1, 0] (W (Proc.devRef .tc main_v94)) transposes_S32x32_S32x32_1_0) := by
  dsimp only [hostOps1_28]; after_results <;> rfl
theorem st4_kron (W : Valuation τ sig (Elt Ideal)) : @Eq ((⟨S256x256, .f32⟩ : BufTy).Contents (Elt Ideal)) (StableHlo.after hostOps1_29 W (Proc.devRef .tc main_v107))
    (shapeCast S256x256 (mulf (F := Ideal) (s := S8x32x8x32) (φ := .f32) (broadcastInDim S8x32x8x32 ![0, 1, 2, 3] bcast_S8x1x8x1_S8x32x8x32_0_1_2_3 (broadcastInDim S8x1x8x1 ![0, 2] bcast_S8x8_S8x1x8x1_0_2 (W (Proc.devRef .tc main_v105))))
        (broadcastInDim S8x32x8x32 ![0, 1, 2, 3] bcast_S1x32x1x32_S8x32x8x32_0_1_2_3 (broadcastInDim S1x32x1x32 ![1, 3] bcast_S32x32_S1x32x1x32_1_3 (W (Proc.devRef .tc main_v106))))) shapeCasts_S8x32x8x32_S256x256) := by
  dsimp only [hostOps1_29]; after_results <;> rfl
theorem st4_bbd (W : Valuation τ sig (Elt Ideal)) : @Eq ((⟨S1x256, .f32⟩ : BufTy).Contents (Elt Ideal)) (StableHlo.after hostOps1_30 W (Proc.devRef .tc main_v111))
    (shapeCast S1x256 (shapeCast S256 (broadcastInDim S8x32 ![0, 1] bcast_S1x32_S8x32_0_1 (shapeCast S1x32 (W (Proc.devRef .tc main_v99)) shapeCasts_S32_S1x32)) shapeCasts_S8x32_S256) shapeCasts_S256_S1x256) := by
  dsimp only [hostOps1_30]; after_results <;> rfl
theorem st4_bsfbd (W : Valuation τ sig (Elt Ideal)) : @Eq ((⟨S1x256, .f32⟩ : BufTy).Contents (Elt Ideal)) (StableHlo.after hostOps1_30 W (Proc.devRef .tc main_v115))
    (shapeCast S1x256 (shapeCast S256 (broadcastInDim S8x32 ![0, 1] bcast_S1x32_S8x32_0_1 (shapeCast S1x32 (W (Proc.devRef .tc main_v96)) shapeCasts_S32_S1x32)) shapeCasts_S8x32_S256) shapeCasts_S256_S1x256) := by
  dsimp only [hostOps1_30]; after_results <;> rfl

/-! ## Layer 4: the buffers as whole arrays -/

/-- Layer 4's quantized weight, bias scale and quantized bias as the host operations compute them. -/
def WqBuf4 : (⟨S32x32, .f32⟩ : BufTy).Contents (Elt Ideal) := (minimumf (F := Ideal) (s := S32x32) (φ := .f32) (broadcastInDim S32x32 ![] bcast_S_S32x32 (sitofp (F := Ideal) .f32 (w := 32) (constantI S_ 32 127#32)))
      (maximumf (broadcastInDim S32x32 ![] bcast_S_S32x32 (sitofp (F := Ideal) .f32 (w := 32) (constantI S_ 32 4294967169#32))) (Host.roundeven (Cert.ReferenceIdeal.Read.val_main_v92 (F := Ideal) (X5 m c)))))
def BsfBuf4 : (⟨S32, .f32⟩ : BufTy).Contents (Elt Ideal) := mulf (F := Ideal) (s := S32) (φ := .f32) (Cert.ReferenceIdeal.Read.val_main_v89 (F := Ideal) (X5 m c)) (broadcastInDim S32 ![] bcast_S_S32 (GenP.V3 m outs c (Proc.devRef .tc main_v10)))
def BqBuf4 : (⟨S32, .f32⟩ : BufTy).Contents (Elt Ideal) := (minimumf (F := Ideal) (s := S32) (φ := .f32) (broadcastInDim S32 ![] bcast_S_S32 (sitofp (F := Ideal) .f32 (w := 32) (constantI S_ 32 127#32)))
      (maximumf (broadcastInDim S32 ![] bcast_S_S32 (sitofp (F := Ideal) .f32 (w := 32) (constantI S_ 32 4294967169#32))) (Host.roundeven (Host.divf (X6 m c) (BsfBuf4 m outs c)))))

theorem argW4_back : @Eq ((⟨S32x32, .f32⟩ : BufTy).Contents (Elt Ideal)) ((GenP.V22 m outs c) (Proc.devRef .tc main_arg5)) ((GenP.V0 m c) (Proc.devRef .tc main_arg5)) :=
  (V22_of m outs c main_arg5 (by decide)).trans <| (V21_of m outs c main_arg5 (by decide)).trans <| (V20_of m outs c main_arg5 (by decide)).trans <| (V19_of m outs c main_arg5 (by decide)).trans <| (V18_of m outs c main_arg5 (by decide)).trans <| (V17_of m outs c main_arg5 (by decide)).trans <| (V16_of m outs c main_arg5 (by decide)).trans <| (V15_of m outs c main_arg5 (by decide)).trans <| (V14_of m outs c main_arg5 (by decide)).trans <| (V13_of m outs c main_arg5 (by decide)).trans <| (V12_of m outs c main_arg5 (by decide)).trans <| (V11_of m outs c main_arg5 (by decide)).trans <| (V10_of m outs c main_arg5 (by decide)).trans <| (V9_of m outs c main_arg5 (by decide)).trans <| (V8_of m outs c main_arg5 (by decide)).trans <| (V7_of m outs c main_arg5 (by decide)).trans <| (V6_of m outs c main_arg5 (by decide)).trans <| (V5_of m outs c main_arg5 (by decide)).trans <| (V4_of m outs c main_arg5 (by decide)).trans <| (V3_of m outs c main_arg5 (by decide)).trans <| (V2_of m outs c main_arg5 (by decide)).trans <| (V1_of m c main_arg5 (by decide))

theorem argB4_back : @Eq ((⟨S32, .f32⟩ : BufTy).Contents (Elt Ideal)) ((GenP.V26 m outs c) (Proc.devRef .tc main_arg6)) ((GenP.V0 m c) (Proc.devRef .tc main_arg6)) :=
  (V26_of m outs c main_arg6 (by decide)).trans <| (V25_of m outs c main_arg6 (by decide)).trans <| (V24_of m outs c main_arg6 (by decide)).trans <| (V23_of m outs c main_arg6 (by decide)).trans <| (V22_of m outs c main_arg6 (by decide)).trans <| (V21_of m outs c main_arg6 (by decide)).trans <| (V20_of m outs c main_arg6 (by decide)).trans <| (V19_of m outs c main_arg6 (by decide)).trans <| (V18_of m outs c main_arg6 (by decide)).trans <| (V17_of m outs c main_arg6 (by decide)).trans <| (V16_of m outs c main_arg6 (by decide)).trans <| (V15_of m outs c main_arg6 (by decide)).trans <| (V14_of m outs c main_arg6 (by decide)).trans <| (V13_of m outs c main_arg6 (by decide)).trans <| (V12_of m outs c main_arg6 (by decide)).trans <| (V11_of m outs c main_arg6 (by decide)).trans <| (V10_of m outs c main_arg6 (by decide)).trans <| (V9_of m outs c main_arg6 (by decide)).trans <| (V8_of m outs c main_arg6 (by decide)).trans <| (V7_of m outs c main_arg6 (by decide)).trans <| (V6_of m outs c main_arg6 (by decide)).trans <| (V5_of m outs c main_arg6 (by decide)).trans <| (V4_of m outs c main_arg6 (by decide)).trans <| (V3_of m outs c main_arg6 (by decide)).trans <| (V2_of m outs c main_arg6 (by decide)).trans <| (V1_of m c main_arg6 (by decide))

theorem round4_back : @Eq ((⟨S32x32, .f32⟩ : BufTy).Contents (Elt Ideal)) ((GenP.V25 m outs c) (Proc.devRef .tc main_v93)) ((GenP.V24 m outs c) (Proc.devRef .tc main_v93)) :=
  (V25_of m outs c main_v93 (by decide))

theorem ws4_back : @Eq ((⟨S32, .f32⟩ : BufTy).Contents (Elt Ideal)) ((GenP.V26 m outs c) (Proc.devRef .tc main_v89)) ((GenP.V23 m outs c) (Proc.devRef .tc main_v89)) :=
  (V26_of m outs c main_v89 (by decide)).trans <| (V25_of m outs c main_v89 (by decide)).trans <| (V24_of m outs c main_v89 (by decide))

theorem v10_back4 : @Eq ((⟨S_, .f32⟩ : BufTy).Contents (Elt Ideal)) ((GenP.V26 m outs c) (Proc.devRef .tc main_v10)) ((GenP.V3 m outs c) (Proc.devRef .tc main_v10)) :=
  (V26_of m outs c main_v10 (by decide)).trans <| (V25_of m outs c main_v10 (by decide)).trans <| (V24_of m outs c main_v10 (by decide)).trans <| (V23_of m outs c main_v10 (by decide)).trans <| (V22_of m outs c main_v10 (by decide)).trans <| (V21_of m outs c main_v10 (by decide)).trans <| (V20_of m outs c main_v10 (by decide)).trans <| (V19_of m outs c main_v10 (by decide)).trans <| (V18_of m outs c main_v10 (by decide)).trans <| (V17_of m outs c main_v10 (by decide)).trans <| (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| (V10_of m outs c main_v10 (by decide)).trans <| (V9_of m outs c main_v10 (by decide)).trans <| (V8_of m outs c main_v10 (by decide)).trans <| (V7_of m outs c main_v10 (by decide)).trans <| (V6_of m outs c main_v10 (by decide)).trans <| (V5_of m outs c main_v10 (by decide)).trans <| (V4_of m outs c main_v10 (by decide))

theorem bround4_back : @Eq ((⟨S32, .f32⟩ : BufTy).Contents (Elt Ideal)) ((GenP.V29 m outs c) (Proc.devRef .tc main_v98)) ((GenP.V28 m outs c) (Proc.devRef .tc main_v98)) :=
  (V29_of m outs c main_v98 (by decide))

theorem clip4_back : @Eq ((⟨S32x32, .f32⟩ : BufTy).Contents (Elt Ideal)) ((GenP.V30 m outs c) (Proc.devRef .tc main_v94)) ((GenP.V26 m outs c) (Proc.devRef .tc main_v94)) :=
  (V30_of m outs c main_v94 (by decide)).trans <| (V29_of m outs c main_v94 (by decide)).trans <| (V28_of m outs c main_v94 (by decide)).trans <| (V27_of m outs c main_v94 (by decide))

theorem bclip4_back : @Eq ((⟨S32, .f32⟩ : BufTy).Contents (Elt Ideal)) ((GenP.V32 m outs c) (Proc.devRef .tc main_v99)) ((GenP.V30 m outs c) (Proc.devRef .tc main_v99)) :=
  (V32_of m outs c main_v99 (by decide)).trans <| (V31_of m outs c main_v99 (by decide))

theorem bsf4_back : @Eq ((⟨S32, .f32⟩ : BufTy).Contents (Elt Ideal)) ((GenP.V32 m outs c) (Proc.devRef .tc main_v96)) ((GenP.V27 m outs c) (Proc.devRef .tc main_v96)) :=
  (V32_of m outs c main_v96 (by decide)).trans <| (V31_of m outs c main_v96 (by decide)).trans <| (V30_of m outs c main_v96 (by decide)).trans <| (V29_of m outs c main_v96 (by decide)).trans <| (V28_of m outs c main_v96 (by decide))

theorem kron4_back : @Eq ((⟨S256x256, .f32⟩ : BufTy).Contents (Elt Ideal)) ((GenP.V43 m outs c) (Proc.devRef .tc main_v107)) ((GenP.V32 m outs c) (Proc.devRef .tc main_v107)) :=
  (V43_of m outs c main_v107 (by decide)).trans <| (V42_of m outs c main_v107 (by decide)).trans <| (V41_of m outs c main_v107 (by decide)).trans <| (V40_of m outs c main_v107 (by decide)).trans <| (V39_of m outs c main_v107 (by decide)).trans <| (V38_of m outs c main_v107 (by decide)).trans <| (V37_of m outs c main_v107 (by decide)).trans <| (V36_of m outs c main_v107 (by decide)).trans <| (V35_of m outs c main_v107 (by decide)).trans <| (V34_of m outs c main_v107 (by decide)).trans <| (V33_of m outs c main_v107 (by decide))

theorem bbd4_back : @Eq ((⟨S1x256, .f32⟩ : BufTy).Contents (Elt Ideal)) ((GenP.V43 m outs c) (Proc.devRef .tc main_v111)) ((GenP.V33 m outs c) (Proc.devRef .tc main_v111)) :=
  (V43_of m outs c main_v111 (by decide)).trans <| (V42_of m outs c main_v111 (by decide)).trans <| (V41_of m outs c main_v111 (by decide)).trans <| (V40_of m outs c main_v111 (by decide)).trans <| (V39_of m outs c main_v111 (by decide)).trans <| (V38_of m outs c main_v111 (by decide)).trans <| (V37_of m outs c main_v111 (by decide)).trans <| (V36_of m outs c main_v111 (by decide)).trans <| (V35_of m outs c main_v111 (by decide)).trans <| (V34_of m outs c main_v111 (by decide))

theorem bsfbd4_back : @Eq ((⟨S1x256, .f32⟩ : BufTy).Contents (Elt Ideal)) ((GenP.V43 m outs c) (Proc.devRef .tc main_v115)) ((GenP.V33 m outs c) (Proc.devRef .tc main_v115)) :=
  (V43_of m outs c main_v115 (by decide)).trans <| (V42_of m outs c main_v115 (by decide)).trans <| (V41_of m outs c main_v115 (by decide)).trans <| (V40_of m outs c main_v115 (by decide)).trans <| (V39_of m outs c main_v115 (by decide)).trans <| (V38_of m outs c main_v115 (by decide)).trans <| (V37_of m outs c main_v115 (by decide)).trans <| (V36_of m outs c main_v115 (by decide)).trans <| (V35_of m outs c main_v115 (by decide)).trans <| (V34_of m outs c main_v115 (by decide))

theorem ws4_buf : @Eq ((⟨S32, .f32⟩ : BufTy).Contents (Elt Ideal)) ((GenP.V23 m outs c) (Proc.devRef .tc main_v89)) (Cert.ReferenceIdeal.Read.val_main_v89 (F := Ideal) (X5 m c)) := by
  have h := st4_ws (GenP.V22 m outs c); rw [argW4_back] at h; exact h
theorem div4_buf : @Eq ((⟨S32x32, .f32⟩ : BufTy).Contents (Elt Ideal)) ((GenP.V23 m outs c) (Proc.devRef .tc main_v92)) (Cert.ReferenceIdeal.Read.val_main_v92 (F := Ideal) (X5 m c)) := by
  have h := st4_div (GenP.V22 m outs c); rw [argW4_back] at h; exact h
theorem clip4_buf : @Eq ((⟨S32x32, .f32⟩ : BufTy).Contents (Elt Ideal)) ((GenP.V26 m outs c) (Proc.devRef .tc main_v94)) (WqBuf4 m c) := by
  have h := st4_clip (GenP.V25 m outs c)
  rw [show (GenP.V25 m outs c) (Proc.devRef .tc main_c_23) = _ from st4_cH (GenP.V24 m outs c), show (GenP.V25 m outs c) (Proc.devRef .tc main_c_22) = _ from st4_cL (GenP.V24 m outs c), round4_back,
    show (GenP.V24 m outs c) (Proc.devRef .tc main_v93) = _ from st4_round (GenP.V23 m outs c), div4_buf] at h
  exact h
theorem bsf4_buf : @Eq ((⟨S32, .f32⟩ : BufTy).Contents (Elt Ideal)) ((GenP.V27 m outs c) (Proc.devRef .tc main_v96)) (BsfBuf4 m outs c) := by
  have h := st4_bsf (GenP.V26 m outs c); rw [ws4_back, ws4_buf, v10_back4] at h; exact h
theorem bclip4_buf : @Eq ((⟨S32, .f32⟩ : BufTy).Contents (Elt Ideal)) ((GenP.V30 m outs c) (Proc.devRef .tc main_v99)) (BqBuf4 m outs c) := by
  have h := st4_bclip (GenP.V29 m outs c)
  have hd := st4_bdiv (GenP.V26 m outs c); rw [ws4_back, ws4_buf, v10_back4, argB4_back] at hd
  rw [show (GenP.V29 m outs c) (Proc.devRef .tc main_c_25) = _ from st4_bcH (GenP.V28 m outs c), show (GenP.V29 m outs c) (Proc.devRef .tc main_c_24) = _ from st4_bcL (GenP.V28 m outs c), bround4_back,
    show (GenP.V28 m outs c) (Proc.devRef .tc main_v98) = _ from st4_bround (GenP.V27 m outs c), show (GenP.V27 m outs c) (Proc.devRef .tc main_v97) = _ from hd] at h
  exact h

/-! ## Layer 4: the buffers read at an index -/

theorem WqBuf4_at (o : Fin 32) (k : Fin 32) :
    WqBuf4 m c (ix2 o k) = Cert.Spec.wq (fun o k => X5 m c (ix2 o k)) (ws4 m c) o k := by
  unfold WqBuf4
  refine (clip_read _ _ _).trans ?_
  have hidx : Cert.ReferenceIdeal.Read.idx_main_v90 (Cert.ReferenceIdeal.Read.idx_main_v91 (ix2 o k)) = ix1 o := by
    funext d; match d with | ⟨0, _⟩ => rfl
  have hd : Cert.ReferenceIdeal.Read.val_main_v92 (F := Ideal) (X5 m c) (ix2 o k) = Ideal.div (X5 m c (ix2 o k)) (ws4 m c o) := by
    rw [Cert.ReferenceIdeal.Read.val_main_v92_apply, Cert.ReferenceIdeal.Read.val_main_v91_apply, Cert.ReferenceIdeal.Read.val_main_v90_apply, hidx]; rfl
  show Cert.Spec.clip (Cert.Spec.rnd (Cert.ReferenceIdeal.Read.val_main_v92 (F := Ideal) (X5 m c) (ix2 o k))) = _
  rw [hd]; rfl

theorem BsfBuf4_at (o : Fin 32) : BsfBuf4 m outs c (ix1 o) = Cert.Spec.bsf (ws4 m c) (sK m outs c) o := by
  unfold BsfBuf4
  show Cert.ReferenceIdeal.Read.val_main_v89 (F := Ideal) (X5 m c) (ix1 o) * broadcastInDim S32 ![] bcast_S_S32 (GenP.V3 m outs c (Proc.devRef .tc main_v10)) (ix1 o) = _
  rw [broadcastInDim_scalar_apply, v10_at]; rfl

theorem BqBuf4_at (o : Fin 32) :
    BqBuf4 m outs c (ix1 o) = Cert.Spec.bq (fun o => X6 m c (ix1 o)) (ws4 m c) (sK m outs c) o := by
  unfold BqBuf4
  refine (clip_read _ _ _).trans ?_
  show Cert.Spec.clip (Cert.Spec.rnd (Ideal.div (X6 m c (ix1 o)) (BsfBuf4 m outs c (ix1 o)))) = _
  rw [BsfBuf4_at]; rfl

/-- The Kronecker product with the 8 × 8 identity, read at an entry: the identity's factor times the matrix's entry. -/
theorem kron4_read (E : FVec Ideal S8x8 .f32) (T : FVec Ideal S32x32 .f32) (a' a : Fin 8) (k : Fin 32) (o : Fin 32) :
    shapeCast S256x256 (mulf (F := Ideal) (s := S8x32x8x32) (φ := .f32)
        (broadcastInDim S8x32x8x32 ![0, 1, 2, 3] bcast_S8x1x8x1_S8x32x8x32_0_1_2_3 (broadcastInDim S8x1x8x1 ![0, 2] bcast_S8x8_S8x1x8x1_0_2 E))
        (broadcastInDim S8x32x8x32 ![0, 1, 2, 3] bcast_S1x32x1x32_S8x32x8x32_0_1_2_3 (broadcastInDim S1x32x1x32 ![1, 3] bcast_S32x32_S1x32x1x32_1_3 T)))
        shapeCasts_S8x32x8x32_S256x256 (ix2 (⟨32 * a'.val + k.val, by omega⟩ : Fin 256) (⟨32 * a.val + o.val, by omega⟩ : Fin 256))
      = E (ix2 a' a) * T (ix2 k o) := by
  refine (shapeCast_apply _ _ _ (ix4 a' k a o) (by
    rw [Shape.rowMajor_val_four, Shape.rowMajor_val_two]
    show ((a'.val * 32 + k.val) * 8 + a.val) * 32 + o.val = (32 * a'.val + k.val) * 256 + (32 * a.val + o.val)
    omega)).trans ?_
  refine congrArg₂ (· * ·) ?_ ?_
  · refine (broadcastInDim_apply _ bcast_S8x1x8x1_S8x32x8x32_0_1_2_3 _ _ (ix4 a' (0 : Fin 1) a (0 : Fin 1)) (fun b => match b with
      | ⟨0, _⟩ => by show a'.val = if (8 : ℕ) = 1 then 0 else a'.val; rw [if_neg (by decide)]
      | ⟨1, _⟩ => by show 0 = if (1 : ℕ) = 1 then 0 else k.val; rw [if_pos rfl]
      | ⟨2, _⟩ => by show a.val = if (8 : ℕ) = 1 then 0 else a.val; rw [if_neg (by decide)]
      | ⟨3, _⟩ => by show 0 = if (1 : ℕ) = 1 then 0 else o.val; rw [if_pos rfl])).trans ?_
    exact broadcastInDim_apply _ bcast_S8x8_S8x1x8x1_0_2 _ _ (ix2 a' a) (fun b => match b with
      | ⟨0, _⟩ => by show a'.val = if (8 : ℕ) = 1 then 0 else a'.val; rw [if_neg (by decide)]
      | ⟨1, _⟩ => by show a.val = if (8 : ℕ) = 1 then 0 else a.val; rw [if_neg (by decide)])
  · refine (broadcastInDim_apply _ bcast_S1x32x1x32_S8x32x8x32_0_1_2_3 _ _ (ix4 (0 : Fin 1) k (0 : Fin 1) o) (fun b => match b with
      | ⟨0, _⟩ => by show 0 = if (1 : ℕ) = 1 then 0 else a'.val; rw [if_pos rfl]
      | ⟨1, _⟩ => by show k.val = if (32 : ℕ) = 1 then 0 else k.val; rw [if_neg (by decide)]
      | ⟨2, _⟩ => by show 0 = if (1 : ℕ) = 1 then 0 else a.val; rw [if_pos rfl]
      | ⟨3, _⟩ => by show o.val = if (32 : ℕ) = 1 then 0 else o.val; rw [if_neg (by decide)])).trans ?_
    exact broadcastInDim_apply _ bcast_S32x32_S1x32x1x32_1_3 _ _ (ix2 k o) (fun b => match b with
      | ⟨0, _⟩ => by show k.val = if (32 : ℕ) = 1 then 0 else k.val; rw [if_neg (by decide)]
      | ⟨1, _⟩ => by show o.val = if (32 : ℕ) = 1 then 0 else o.val; rw [if_neg (by decide)])

/-- A vector tiled eight times along a row, read at an entry: the vector's entry. -/
theorem tile4_read (B : FVec Ideal S32 .f32) (a : Fin 8) (o : Fin 32) :
    shapeCast S1x256 (shapeCast S256 (broadcastInDim S8x32 ![0, 1] bcast_S1x32_S8x32_0_1 (shapeCast S1x32 B shapeCasts_S32_S1x32)) shapeCasts_S8x32_S256) shapeCasts_S256_S1x256
        (ix2 (0 : Fin 1) (⟨32 * a.val + o.val, by omega⟩ : Fin 256))
      = B (ix1 o) := by
  refine (shapeCast_apply _ _ _ (ix1 (⟨32 * a.val + o.val, by omega⟩ : Fin 256)) (by
    rw [Shape.rowMajor_val_one, Shape.rowMajor_val_two]
    show 32 * a.val + o.val = 0 * 256 + (32 * a.val + o.val)
    omega)).trans ?_
  refine (shapeCast_apply _ _ _ (ix2 a o) (by
    rw [Shape.rowMajor_val_one, Shape.rowMajor_val_two]
    show a.val * 32 + o.val = 32 * a.val + o.val
    omega)).trans ?_
  refine (broadcastInDim_apply _ bcast_S1x32_S8x32_0_1 _ _ (ix2 (0 : Fin 1) o) (fun b => match b with
      | ⟨0, _⟩ => by show 0 = if (1 : ℕ) = 1 then 0 else a.val; rw [if_pos rfl]
      | ⟨1, _⟩ => by show o.val = if (32 : ℕ) = 1 then 0 else o.val; rw [if_neg (by decide)])).trans ?_
  exact shapeCast_a_1a_apply B shapeCasts_S32_S1x32 (0 : Fin 1) o

/-! ## Layer 4: region 1's windows -/

theorem w4_at (a' a : Fin 8) (k : Fin 32) (o : Fin 32) :
    GenP.V43 m outs c main_v107 (ix2 (⟨32 * a'.val + k.val, by omega⟩ : Fin 256) (⟨32 * a.val + o.val, by omega⟩ : Fin 256))
      = (if a' = a then (1 : EReal) else 0) * Cert.Spec.wq (fun o k => X5 m c (ix2 o k)) (ws4 m c) o k := by
  have hk : @Eq ((⟨S256x256, .f32⟩ : BufTy).Contents (Elt Ideal)) ((GenP.V32 m outs c) (Proc.devRef .tc main_v107)) _ := st4_kron (GenP.V31 m outs c)
  rw [show (GenP.V31 m outs c) (Proc.devRef .tc main_v105) = _ from st4_eye (GenP.V30 m outs c), show (GenP.V31 m outs c) (Proc.devRef .tc main_v106) = _ from st4_T (GenP.V30 m outs c), clip4_back, clip4_buf] at hk
  rw [kron4_back, hk]
  refine (kron4_read _ _ a' a k o).trans ?_
  rw [eye_read, transpose_ix2_apply, WqBuf4_at]

theorem b4_at (a : Fin 8) (o : Fin 32) :
    GenP.V43 m outs c main_v111 (ix2 (0 : Fin 1) (⟨32 * a.val + o.val, by omega⟩ : Fin 256))
      = Cert.Spec.bq (fun o => X6 m c (ix1 o)) (ws4 m c) (GenP.V43 m outs c main_v9 (ix2 (0 : Fin 1) (0 : Fin 1))) o := by
  rw [bbd4_back, show (GenP.V33 m outs c) (Proc.devRef .tc main_v111) = _ from st4_bbd (GenP.V32 m outs c), bclip4_back, bclip4_buf]
  exact (tile4_read _ a o).trans (BqBuf4_at m outs c o)

theorem bsf4_at (a : Fin 8) (o : Fin 32) :
    GenP.V43 m outs c main_v115 (ix2 (0 : Fin 1) (⟨32 * a.val + o.val, by omega⟩ : Fin 256))
      = Cert.Spec.bsf (ws4 m c) (GenP.V43 m outs c main_v9 (ix2 (0 : Fin 1) (0 : Fin 1))) o := by
  rw [bsfbd4_back, show (GenP.V33 m outs c) (Proc.devRef .tc main_v115) = _ from st4_bsfbd (GenP.V32 m outs c), bsf4_back, bsf4_buf]
  exact (tile4_read _ a o).trans (BsfBuf4_at m outs c o)

end Cert.KernelIdeal.GlueD

end
-- ==== Proof.KI.GlueC.lean ====
/-
  The host operations of the kernel program between its two regions, read at an index, for layer 6 (five outputs,
  thirty-two inputs): the weight quantized by its per-row scale and repacked as the Kronecker product of the 8 × 8
  identity with its transpose, entry (32 · a' + k, 5 · a + o) = [a' = a] · Wq (o, k); the quantized bias and the bias
  scale tiled eight times along a row, entry (0, 5 · a + o) = Bq o, Bsf o.
-/
import proofs.«147168_j38843684225834_2_alg».proof.Proof.KI.GlueA

set_option maxRecDepth 65536

noncomputable section

namespace Cert.KernelIdeal.GlueC

open Cert.KernelIdeal Cert.KernelIdeal.Gen Idealize.ShloMosaic.StableHlo Cert.KernelIdeal.GenP Idealize.ShloMosaic Idealize.ShloMosaic.TcCoe Idealize.ShloMosaic.ValueIdx Idealize.SL.Sem
open Cert.KernelIdeal.GlueA (sK clip_read eye_read v10_at)

variable (m : (ℓ : Loc nD τ sig) → Buf (Elt Ideal) ℓ) (outs : GenP.Outs (F := Ideal)) (c : Dev nD)

/-- The launch contents of layer 6's weight and bias. -/
abbrev X7 : (⟨S5x32, .f32⟩ : BufTy).Contents (Elt Ideal) := m ((c : Thread nD τ).loc main_arg7)
abbrev X8 : (⟨S5, .f32⟩ : BufTy).Contents (Elt Ideal) := m ((c : Thread nD τ).loc main_arg8)

/-- Layer 6's per-row weight scale, as the reference computes it. -/
abbrev ws6 (o : Fin 5) : EReal := Cert.ReferenceIdeal.Read.val_main_v122 (F := Ideal) (X7 m c) (ix1 o)

/-! ## Layer 6: what each stretch of host operations writes, over any contents before it -/

set_option maxHeartbeats 1000000 in
theorem st6_ws (W : Valuation τ sig (Elt Ideal)) : @Eq ((⟨S5, .f32⟩ : BufTy).Contents (Elt Ideal)) (StableHlo.after hostOps1_30 W (Proc.devRef .tc main_v124))
    (Cert.ReferenceIdeal.Read.val_main_v122 (F := Ideal) (W (Proc.devRef .tc main_arg7))) := by
  dsimp only [hostOps1_30]; after_results <;> rfl
set_option maxHeartbeats 1000000 in
theorem st6_div (W : Valuation τ sig (Elt Ideal)) : @Eq ((⟨S5x32, .f32⟩ : BufTy).Contents (Elt Ideal)) (StableHlo.after hostOps1_30 W (Proc.devRef .tc main_v127))
    (Cert.ReferenceIdeal.Read.val_main_v125 (F := Ideal) (W (Proc.devRef .tc main_arg7))) := by
  dsimp only [hostOps1_30]; after_results <;> rfl
theorem st6_round (W : Valuation τ sig (Elt Ideal)) : @Eq ((⟨S5x32, .f32⟩ : BufTy).Contents (Elt Ideal)) (StableHlo.after hostOps1_31 W (Proc.devRef .tc main_v128))
    (Host.roundeven (F := Ideal) (s := S5x32) (φ := .f32) (W (Proc.devRef .tc main_v127))) := by
  dsimp only [hostOps1_31]; after_results <;> rfl
theorem st6_cL (W : Valuation τ sig (Elt Ideal)) : @Eq ((⟨S_, .i32⟩ : BufTy).Contents (Elt Ideal)) (StableHlo.after hostOps1_32 W (Proc.devRef .tc main_c_31))
    (constantI S_ 32 4294967169#32) := by
  dsimp only [hostOps1_32]; after_results <;> rfl
theorem st6_cH (W : Valuation τ sig (Elt Ideal)) : @Eq ((⟨S_, .i32⟩ : BufTy).Contents (Elt Ideal)) (StableHlo.after hostOps1_32 W (Proc.devRef .tc main_c_32))
    (constantI S_ 32 127#32) := by
  dsimp only [hostOps1_32]; after_results <;> rfl
theorem st6_clip (W : Valuation τ sig (Elt Ideal)) : @Eq ((⟨S5x32, .f32⟩ : BufTy).Contents (Elt Ideal)) (StableHlo.after hostOps1_33 W (Proc.devRef .tc main_v129))
    (minimumf (F := Ideal) (s := S5x32) (φ := .f32) (broadcastInDim S5x32 ![] bcast_S_S5x32 (sitofp (F := Ideal) .f32 (w := 32) (W (Proc.devRef .tc main_c_32))))
        (maximumf (broadcastInDim S5x32 ![] bcast_S_S5x32 (sitofp (F := Ideal) .f32 (w := 32) (W (Proc.devRef .tc main_c_31)))) (W (Proc.devRef .tc main_v128)))) := by
  dsimp only [hostOps1_33]; after_results <;> rfl
theorem st6_bsf (W : Valuation τ sig (Elt Ideal)) : @Eq ((⟨S5, .f32⟩ : BufTy).Contents (Elt Ideal)) (StableHlo.after hostOps1_34 W (Proc.devRef .tc main_v131))
    (mulf (F := Ideal) (s := S5) (φ := .f32) (W (Proc.devRef .tc main_v124)) (broadcastInDim S5 ![] bcast_S_S5 (W (Proc.devRef .tc main_v10)))) := by
  dsimp only [hostOps1_34]; after_results <;> rfl
theorem st6_bdiv (W : Valuation τ sig (Elt Ideal)) : @Eq ((⟨S5, .f32⟩ : BufTy).Contents (Elt Ideal)) (StableHlo.after hostOps1_34 W (Proc.devRef .tc main_v132))
    (Host.divf (F := Ideal) (s := S5) (φ := .f32) (W (Proc.devRef .tc main_arg8)) (mulf (W (Proc.devRef .tc main_v124)) (broadcastInDim S5 ![] bcast_S_S5 (W (Proc.devRef .tc main_v10))))) := by
  dsimp only [hostOps1_34]; after_results <;> rfl
theorem st6_bround (W : Valuation τ sig (Elt Ideal)) : @Eq ((⟨S5, .f32⟩ : BufTy).Contents (Elt Ideal)) (StableHlo.after hostOps1_35 W (Proc.devRef .tc main_v133))
    (Host.roundeven (F := Ideal) (s := S5) (φ := .f32) (W (Proc.devRef .tc main_v132))) := by
  dsimp only [hostOps1_35]; after_results <;> rfl
theorem st6_bcL (W : Valuation τ sig (Elt Ideal)) : @Eq ((⟨S_, .i32⟩ : BufTy).Contents (Elt Ideal)) (StableHlo.after hostOps1_36 W (Proc.devRef .tc main_c_33))
    (constantI S_ 32 4294967169#32) := by
  dsimp only [hostOps1_36]; after_results <;> rfl
theorem st6_bcH (W : Valuation τ sig (Elt Ideal)) : @Eq ((⟨S_, .i32⟩ : BufTy).Contents (Elt Ideal)) (StableHlo.after hostOps1_36 W (Proc.devRef .tc main_c_34))
    (constantI S_ 32 127#32) := by
  dsimp only [hostOps1_36]; after_results <;> rfl
theorem st6_bclip (W : Valuation τ sig (Elt Ideal)) : @Eq ((⟨S5, .f32⟩ : BufTy).Contents (Elt Ideal)) (StableHlo.after hostOps1_37 W (Proc.devRef .tc main_v134))
    (minimumf (F := Ideal) (s := S5) (φ := .f32) (broadcastInDim S5 ![] bcast_S_S5 (sitofp (F := Ideal) .f32 (w := 32) (W (Proc.devRef .tc main_c_34))))
        (maximumf (broadcastInDim S5 ![] bcast_S_S5 (sitofp (F := Ideal) .f32 (w := 32) (W (Proc.devRef .tc main_c_33)))) (W (Proc.devRef .tc main_v133)))) := by
  dsimp only [hostOps1_37]; after_results <;> rfl
theorem st6_eye (W : Valuation τ sig (Elt Ideal)) : @Eq ((⟨S8x8, .f32⟩ : BufTy).Contents (Elt Ideal)) (StableHlo.after hostOps1_38 W (Proc.devRef .tc main_v140))
    (uitofp (F := Ideal) .f32 (cmpi .eq (addi (iotaInDim S8x8 32 0) (broadcastInDim S8x8 ![] bcast_S_S8x8 (constantI S_ 32 0#32))) (iotaInDim S8x8 32 1))) := by
  dsimp only [hostOps1_38]; after_results <;> rfl
theorem st6_T (W : Valuation τ sig (Elt Ideal)) : @Eq ((⟨S32x5, .f32⟩ : BufTy).Contents (Elt Ideal)) (StableHlo.after hostOps1_38 W (Proc.devRef .tc main_v141))
    (transpose S32x5 [1, 0] (W (Proc.devRef .tc main_v129)) transposes_S5x32_S32x5_1_0) := by
  dsimp only [hostOps1_38]; after_results <;> rfl
theorem st6_kron (W : Valuation τ sig (Elt Ideal)) : @Eq ((⟨S256x40, .f32⟩ : BufTy).Contents (Elt Ideal)) (StableHlo.after hostOps1_39 W (Proc.devRef .tc main_v142))
    (shapeCast S256x40 (mulf (F := Ideal) (s := S8x32x8x5) (φ := .f32) (broadcastInDim S8x32x8x5 ![0, 1, 2, 3] bcast_S8x1x8x1_S8x32x8x5_0_1_2_3 (broadcastInDim S8x1x8x1 ![0, 2] bcast_S8x8_S8x1x8x1_0_2 (W (Proc.devRef .tc main_v140))))
        (broadcastInDim S8x32x8x5 ![0, 1, 2, 3] bcast_S1x32x1x5_S8x32x8x5_0_1_2_3 (broadcastInDim S1x32x1x5 ![1, 3] bcast_S32x5_S1x32x1x5_1_3 (W (Proc.devRef .tc main_v141))))) shapeCasts_S8x32x8x5_S256x40) := by
  dsimp only [hostOps1_39]; after_results <;> rfl
theorem st6_bbd (W : Valuation τ sig (Elt Ideal)) : @Eq ((⟨S1x40, .f32⟩ : BufTy).Contents (Elt Ideal)) (StableHlo.after hostOps1_40 W (Proc.devRef .tc main_v146))
    (shapeCast S1x40 (shapeCast S40 (broadcastInDim S8x5 ![0, 1] bcast_S1x5_S8x5_0_1 (shapeCast S1x5 (W (Proc.devRef .tc main_v134)) shapeCasts_S5_S1x5)) shapeCasts_S8x5_S40) shapeCasts_S40_S1x40) := by
  dsimp only [hostOps1_40]; after_results <;> rfl
theorem st6_bsfbd (W : Valuation τ sig (Elt Ideal)) : @Eq ((⟨S1x40, .f32⟩ : BufTy).Contents (Elt Ideal)) (StableHlo.after hostOps1_40 W (Proc.devRef .tc main_v150))
    (shapeCast S1x40 (shapeCast S40 (broadcastInDim S8x5 ![0, 1] bcast_S1x5_S8x5_0_1 (shapeCast S1x5 (W (Proc.devRef .tc main_v131)) shapeCasts_S5_S1x5)) shapeCasts_S8x5_S40) shapeCasts_S40_S1x40) := by
  dsimp only [hostOps1_40]; after_results <;> rfl

/-! ## Layer 6: the buffers as whole arrays -/

/-- Layer 6's quantized weight, bias scale and quantized bias as the host operations compute them. -/
def WqBuf6 : (⟨S5x32, .f32⟩ : BufTy).Contents (Elt Ideal) := (minimumf (F := Ideal) (s := S5x32) (φ := .f32) (broadcastInDim S5x32 ![] bcast_S_S5x32 (sitofp (F := Ideal) .f32 (w := 32) (constantI S_ 32 127#32)))
      (maximumf (broadcastInDim S5x32 ![] bcast_S_S5x32 (sitofp (F := Ideal) .f32 (w := 32) (constantI S_ 32 4294967169#32))) (Host.roundeven (Cert.ReferenceIdeal.Read.val_main_v125 (F := Ideal) (X7 m c)))))
def BsfBuf6 : (⟨S5, .f32⟩ : BufTy).Contents (Elt Ideal) := mulf (F := Ideal) (s := S5) (φ := .f32) (Cert.ReferenceIdeal.Read.val_main_v122 (F := Ideal) (X7 m c)) (broadcastInDim S5 ![] bcast_S_S5 (GenP.V3 m outs c (Proc.devRef .tc main_v10)))
def BqBuf6 : (⟨S5, .f32⟩ : BufTy).Contents (Elt Ideal) := (minimumf (F := Ideal) (s := S5) (φ := .f32) (broadcastInDim S5 ![] bcast_S_S5 (sitofp (F := Ideal) .f32 (w := 32) (constantI S_ 32 127#32)))
      (maximumf (broadcastInDim S5 ![] bcast_S_S5 (sitofp (F := Ideal) .f32 (w := 32) (constantI S_ 32 4294967169#32))) (Host.roundeven (Host.divf (X8 m c) (BsfBuf6 m outs c)))))

theorem argW6_back : @Eq ((⟨S5x32, .f32⟩ : BufTy).Contents (Elt Ideal)) ((GenP.V32 m outs c) (Proc.devRef .tc main_arg7)) ((GenP.V0 m c) (Proc.devRef .tc main_arg7)) :=
  (V32_of m outs c main_arg7 (by decide)).trans <| (V31_of m outs c main_arg7 (by decide)).trans <| (V30_of m outs c main_arg7 (by decide)).trans <| (V29_of m outs c main_arg7 (by decide)).trans <| (V28_of m outs c main_arg7 (by decide)).trans <| (V27_of m outs c main_arg7 (by decide)).trans <| (V26_of m outs c main_arg7 (by decide)).trans <| (V25_of m outs c main_arg7 (by decide)).trans <| (V24_of m outs c main_arg7 (by decide)).trans <| (V23_of m outs c main_arg7 (by decide)).trans <| (V22_of m outs c main_arg7 (by decide)).trans <| (V21_of m outs c main_arg7 (by decide)).trans <| (V20_of m outs c main_arg7 (by decide)).trans <| (V19_of m outs c main_arg7 (by decide)).trans <| (V18_of m outs c main_arg7 (by decide)).trans <| (V17_of m outs c main_arg7 (by decide)).trans <| (V16_of m outs c main_arg7 (by decide)).trans <| (V15_of m outs c main_arg7 (by decide)).trans <| (V14_of m outs c main_arg7 (by decide)).trans <| (V13_of m outs c main_arg7 (by decide)).trans <| (V12_of m outs c main_arg7 (by decide)).trans <| (V11_of m outs c main_arg7 (by decide)).trans <| (V10_of m outs c main_arg7 (by decide)).trans <| (V9_of m outs c main_arg7 (by decide)).trans <| (V8_of m outs c main_arg7 (by decide)).trans <| (V7_of m outs c main_arg7 (by decide)).trans <| (V6_of m outs c main_arg7 (by decide)).trans <| (V5_of m outs c main_arg7 (by decide)).trans <| (V4_of m outs c main_arg7 (by decide)).trans <| (V3_of m outs c main_arg7 (by decide)).trans <| (V2_of m outs c main_arg7 (by decide)).trans <| (V1_of m c main_arg7 (by decide))

theorem argB6_back : @Eq ((⟨S5, .f32⟩ : BufTy).Contents (Elt Ideal)) ((GenP.V36 m outs c) (Proc.devRef .tc main_arg8)) ((GenP.V0 m c) (Proc.devRef .tc main_arg8)) :=
  (V36_of m outs c main_arg8 (by decide)).trans <| (V35_of m outs c main_arg8 (by decide)).trans <| (V34_of m outs c main_arg8 (by decide)).trans <| (V33_of m outs c main_arg8 (by decide)).trans <| (V32_of m outs c main_arg8 (by decide)).trans <| (V31_of m outs c main_arg8 (by decide)).trans <| (V30_of m outs c main_arg8 (by decide)).trans <| (V29_of m outs c main_arg8 (by decide)).trans <| (V28_of m outs c main_arg8 (by decide)).trans <| (V27_of m outs c main_arg8 (by decide)).trans <| (V26_of m outs c main_arg8 (by decide)).trans <| (V25_of m outs c main_arg8 (by decide)).trans <| (V24_of m outs c main_arg8 (by decide)).trans <| (V23_of m outs c main_arg8 (by decide)).trans <| (V22_of m outs c main_arg8 (by decide)).trans <| (V21_of m outs c main_arg8 (by decide)).trans <| (V20_of m outs c main_arg8 (by decide)).trans <| (V19_of m outs c main_arg8 (by decide)).trans <| (V18_of m outs c main_arg8 (by decide)).trans <| (V17_of m outs c main_arg8 (by decide)).trans <| (V16_of m outs c main_arg8 (by decide)).trans <| (V15_of m outs c main_arg8 (by decide)).trans <| (V14_of m outs c main_arg8 (by decide)).trans <| (V13_of m outs c main_arg8 (by decide)).trans <| (V12_of m outs c main_arg8 (by decide)).trans <| (V11_of m outs c main_arg8 (by decide)).trans <| (V10_of m outs c main_arg8 (by decide)).trans <| (V9_of m outs c main_arg8 (by decide)).trans <| (V8_of m outs c main_arg8 (by decide)).trans <| (V7_of m outs c main_arg8 (by decide)).trans <| (V6_of m outs c main_arg8 (by decide)).trans <| (V5_of m outs c main_arg8 (by decide)).trans <| (V4_of m outs c main_arg8 (by decide)).trans <| (V3_of m outs c main_arg8 (by decide)).trans <| (V2_of m outs c main_arg8 (by decide)).trans <| (V1_of m c main_arg8 (by decide))

theorem round6_back : @Eq ((⟨S5x32, .f32⟩ : BufTy).Contents (Elt Ideal)) ((GenP.V35 m outs c) (Proc.devRef .tc main_v128)) ((GenP.V34 m outs c) (Proc.devRef .tc main_v128)) :=
  (V35_of m outs c main_v128 (by decide))

theorem ws6_back : @Eq ((⟨S5, .f32⟩ : BufTy).Contents (Elt Ideal)) ((GenP.V36 m outs c) (Proc.devRef .tc main_v124)) ((GenP.V33 m outs c) (Proc.devRef .tc main_v124)) :=
  (V36_of m outs c main_v124 (by decide)).trans <| (V35_of m outs c main_v124 (by decide)).trans <| (V34_of m outs c main_v124 (by decide))

theorem v10_back6 : @Eq ((⟨S_, .f32⟩ : BufTy).Contents (Elt Ideal)) ((GenP.V36 m outs c) (Proc.devRef .tc main_v10)) ((GenP.V3 m outs c) (Proc.devRef .tc main_v10)) :=
  (V36_of m outs c main_v10 (by decide)).trans <| (V35_of m outs c main_v10 (by decide)).trans <| (V34_of m outs c main_v10 (by decide)).trans <| (V33_of m outs c main_v10 (by decide)).trans <| (V32_of m outs c main_v10 (by decide)).trans <| (V31_of m outs c main_v10 (by decide)).trans <| (V30_of m outs c main_v10 (by decide)).trans <| (V29_of m outs c main_v10 (by decide)).trans <| (V28_of m outs c main_v10 (by decide)).trans <| (V27_of m outs c main_v10 (by decide)).trans <| (V26_of m outs c main_v10 (by decide)).trans <| (V25_of m outs c main_v10 (by decide)).trans <| (V24_of m outs c main_v10 (by decide)).trans <| (V23_of m outs c main_v10 (by decide)).trans <| (V22_of m outs c main_v10 (by decide)).trans <| (V21_of m outs c main_v10 (by decide)).trans <| (V20_of m outs c main_v10 (by decide)).trans <| (V19_of m outs c main_v10 (by decide)).trans <| (V18_of m outs c main_v10 (by decide)).trans <| (V17_of m outs c main_v10 (by decide)).trans <| (V16_of m outs c main_v10 (by decide)).trans <| (V15_of m outs c main_v10 (by decide)).trans <| (V14_of m outs c main_v10 (by decide)).trans <| (V13_of m outs c main_v10 (by decide)).trans <| (V12_of m outs c main_v10 (by decide)).trans <| (V11_of m outs c main_v10 (by decide)).trans <| (V10_of m outs c main_v10 (by decide)).trans <| (V9_of m outs c main_v10 (by decide)).trans <| (V8_of m outs c main_v10 (by decide)).trans <| (V7_of m outs c main_v10 (by decide)).trans <| (V6_of m outs c main_v10 (by decide)).trans <| (V5_of m outs c main_v10 (by decide)).trans <| (V4_of m outs c main_v10 (by decide))

theorem bround6_back : @Eq ((⟨S5, .f32⟩ : BufTy).Contents (Elt Ideal)) ((GenP.V39 m outs c) (Proc.devRef .tc main_v133)) ((GenP.V38 m outs c) (Proc.devRef .tc main_v133)) :=
  (V39_of m outs c main_v133 (by decide))

theorem clip6_back : @Eq ((⟨S5x32, .f32⟩ : BufTy).Contents (Elt Ideal)) ((GenP.V40 m outs c) (Proc.devRef .tc main_v129)) ((GenP.V36 m outs c) (Proc.devRef .tc main_v129)) :=
  (V40_of m outs c main_v129 (by decide)).trans <| (V39_of m outs c main_v129 (by decide)).trans <| (V38_of m outs c main_v129 (by decide)).trans <| (V37_of m outs c main_v129 (by decide))

theorem bclip6_back : @Eq ((⟨S5, .f32⟩ : BufTy).Contents (Elt Ideal)) ((GenP.V42 m outs c) (Proc.devRef .tc main_v134)) ((GenP.V40 m outs c) (Proc.devRef .tc main_v134)) :=
  (V42_of m outs c main_v134 (by decide)).trans <| (V41_of m outs c main_v134 (by decide))

theorem bsf6_back : @Eq ((⟨S5, .f32⟩ : BufTy).Contents (Elt Ideal)) ((GenP.V42 m outs c) (Proc.devRef .tc main_v131)) ((GenP.V37 m outs c) (Proc.devRef .tc main_v131)) :=
  (V42_of m outs c main_v131 (by decide)).trans <| (V41_of m outs c main_v131 (by decide)).trans <| (V40_of m outs c main_v131 (by decide)).trans <| (V39_of m outs c main_v131 (by decide)).trans <| (V38_of m outs c main_v131 (by decide))

theorem kron6_back : @Eq ((⟨S256x40, .f32⟩ : BufTy).Contents (Elt Ideal)) ((GenP.V43 m outs c) (Proc.devRef .tc main_v142)) ((GenP.V42 m outs c) (Proc.devRef .tc main_v142)) :=
  (V43_of m outs c main_v142 (by decide))

theorem ws6_buf : @Eq ((⟨S5, .f32⟩ : BufTy).Contents (Elt Ideal)) ((GenP.V33 m outs c) (Proc.devRef .tc main_v124)) (Cert.ReferenceIdeal.Read.val_main_v122 (F := Ideal) (X7 m c)) := by
  have h := st6_ws (GenP.V32 m outs c); rw [argW6_back] at h; exact h
theorem div6_buf : @Eq ((⟨S5x32, .f32⟩ : BufTy).Contents (Elt Ideal)) ((GenP.V33 m outs c) (Proc.devRef .tc main_v127)) (Cert.ReferenceIdeal.Read.val_main_v125 (F := Ideal) (X7 m c)) := by
  have h := st6_div (GenP.V32 m outs c); rw [argW6_back] at h; exact h
theorem clip6_buf : @Eq ((⟨S5x32, .f32⟩ : BufTy).Contents (Elt Ideal)) ((GenP.V36 m outs c) (Proc.devRef .tc main_v129)) (WqBuf6 m c) := by
  have h := st6_clip (GenP.V35 m outs c)
  rw [show (GenP.V35 m outs c) (Proc.devRef .tc main_c_32) = _ from st6_cH (GenP.V34 m outs c), show (GenP.V35 m outs c) (Proc.devRef .tc main_c_31) = _ from st6_cL (GenP.V34 m outs c), round6_back,
    show (GenP.V34 m outs c) (Proc.devRef .tc main_v128) = _ from st6_round (GenP.V33 m outs c), div6_buf] at h
  exact h
theorem bsf6_buf : @Eq ((⟨S5, .f32⟩ : BufTy).Contents (Elt Ideal)) ((GenP.V37 m outs c) (Proc.devRef .tc main_v131)) (BsfBuf6 m outs c) := by
  have h := st6_bsf (GenP.V36 m outs c); rw [ws6_back, ws6_buf, v10_back6] at h; exact h
theorem bclip6_buf : @Eq ((⟨S5, .f32⟩ : BufTy).Contents (Elt Ideal)) ((GenP.V40 m outs c) (Proc.devRef .tc main_v134)) (BqBuf6 m outs c) := by
  have h := st6_bclip (GenP.V39 m outs c)
  have hd := st6_bdiv (GenP.V36 m outs c); rw [ws6_back, ws6_buf, v10_back6, argB6_back] at hd
  rw [show (GenP.V39 m outs c) (Proc.devRef .tc main_c_34) = _ from st6_bcH (GenP.V38 m outs c), show (GenP.V39 m outs c) (Proc.devRef .tc main_c_33) = _ from st6_bcL (GenP.V38 m outs c), bround6_back,
    show (GenP.V38 m outs c) (Proc.devRef .tc main_v133) = _ from st6_bround (GenP.V37 m outs c), show (GenP.V37 m outs c) (Proc.devRef .tc main_v132) = _ from hd] at h
  exact h

/-! ## Layer 6: the buffers read at an index -/

theorem WqBuf6_at (o : Fin 5) (k : Fin 32) :
    WqBuf6 m c (ix2 o k) = Cert.Spec.wq (fun o k => X7 m c (ix2 o k)) (ws6 m c) o k := by
  unfold WqBuf6
  refine (clip_read _ _ _).trans ?_
  have hidx : Cert.ReferenceIdeal.Read.idx_main_v123 (Cert.ReferenceIdeal.Read.idx_main_v124 (ix2 o k)) = ix1 o := by
    funext d; match d with | ⟨0, _⟩ => rfl
  have hd : Cert.ReferenceIdeal.Read.val_main_v125 (F := Ideal) (X7 m c) (ix2 o k) = Ideal.div (X7 m c (ix2 o k)) (ws6 m c o) := by
    rw [Cert.ReferenceIdeal.Read.val_main_v125_apply, Cert.ReferenceIdeal.Read.val_main_v124_apply, Cert.ReferenceIdeal.Read.val_main_v123_apply, hidx]; rfl
  show Cert.Spec.clip (Cert.Spec.rnd (Cert.ReferenceIdeal.Read.val_main_v125 (F := Ideal) (X7 m c) (ix2 o k))) = _
  rw [hd]; rfl

theorem BsfBuf6_at (o : Fin 5) : BsfBuf6 m outs c (ix1 o) = Cert.Spec.bsf (ws6 m c) (sK m outs c) o := by
  unfold BsfBuf6
  show Cert.ReferenceIdeal.Read.val_main_v122 (F := Ideal) (X7 m c) (ix1 o) * broadcastInDim S5 ![] bcast_S_S5 (GenP.V3 m outs c (Proc.devRef .tc main_v10)) (ix1 o) = _
  rw [broadcastInDim_scalar_apply, v10_at]; rfl

theorem BqBuf6_at (o : Fin 5) :
    BqBuf6 m outs c (ix1 o) = Cert.Spec.bq (fun o => X8 m c (ix1 o)) (ws6 m c) (sK m outs c) o := by
  unfold BqBuf6
  refine (clip_read _ _ _).trans ?_
  show Cert.Spec.clip (Cert.Spec.rnd (Ideal.div (X8 m c (ix1 o)) (BsfBuf6 m outs c (ix1 o)))) = _
  rw [BsfBuf6_at]; rfl

/-- The Kronecker product with the 8 × 8 identity, read at an entry: the identity's factor times the matrix's entry. -/
theorem kron6_read (E : FVec Ideal S8x8 .f32) (T : FVec Ideal S32x5 .f32) (a' a : Fin 8) (k : Fin 32) (o : Fin 5) :
    shapeCast S256x40 (mulf (F := Ideal) (s := S8x32x8x5) (φ := .f32)
        (broadcastInDim S8x32x8x5 ![0, 1, 2, 3] bcast_S8x1x8x1_S8x32x8x5_0_1_2_3 (broadcastInDim S8x1x8x1 ![0, 2] bcast_S8x8_S8x1x8x1_0_2 E))
        (broadcastInDim S8x32x8x5 ![0, 1, 2, 3] bcast_S1x32x1x5_S8x32x8x5_0_1_2_3 (broadcastInDim S1x32x1x5 ![1, 3] bcast_S32x5_S1x32x1x5_1_3 T)))
        shapeCasts_S8x32x8x5_S256x40 (ix2 (⟨32 * a'.val + k.val, by omega⟩ : Fin 256) (⟨5 * a.val + o.val, by omega⟩ : Fin 40))
      = E (ix2 a' a) * T (ix2 k o) := by
  refine (shapeCast_apply _ _ _ (ix4 a' k a o) (by
    rw [Shape.rowMajor_val_four, Shape.rowMajor_val_two]
    show ((a'.val * 32 + k.val) * 8 + a.val) * 5 + o.val = (32 * a'.val + k.val) * 40 + (5 * a.val + o.val)
    omega)).trans ?_
  refine congrArg₂ (· * ·) ?_ ?_
  · refine (broadcastInDim_apply _ bcast_S8x1x8x1_S8x32x8x5_0_1_2_3 _ _ (ix4 a' (0 : Fin 1) a (0 : Fin 1)) (fun b => match b with
      | ⟨0, _⟩ => by show a'.val = if (8 : ℕ) = 1 then 0 else a'.val; rw [if_neg (by decide)]
      | ⟨1, _⟩ => by show 0 = if (1 : ℕ) = 1 then 0 else k.val; rw [if_pos rfl]
      | ⟨2, _⟩ => by show a.val = if (8 : ℕ) = 1 then 0 else a.val; rw [if_neg (by decide)]
      | ⟨3, _⟩ => by show 0 = if (1 : ℕ) = 1 then 0 else o.val; rw [if_pos rfl])).trans ?_
    exact broadcastInDim_apply _ bcast_S8x8_S8x1x8x1_0_2 _ _ (ix2 a' a) (fun b => match b with
      | ⟨0, _⟩ => by show a'.val = if (8 : ℕ) = 1 then 0 else a'.val; rw [if_neg (by decide)]
      | ⟨1, _⟩ => by show a.val = if (8 : ℕ) = 1 then 0 else a.val; rw [if_neg (by decide)])
  · refine (broadcastInDim_apply _ bcast_S1x32x1x5_S8x32x8x5_0_1_2_3 _ _ (ix4 (0 : Fin 1) k (0 : Fin 1) o) (fun b => match b with
      | ⟨0, _⟩ => by show 0 = if (1 : ℕ) = 1 then 0 else a'.val; rw [if_pos rfl]
      | ⟨1, _⟩ => by show k.val = if (32 : ℕ) = 1 then 0 else k.val; rw [if_neg (by decide)]
      | ⟨2, _⟩ => by show 0 = if (1 : ℕ) = 1 then 0 else a.val; rw [if_pos rfl]
      | ⟨3, _⟩ => by show o.val = if (5 : ℕ) = 1 then 0 else o.val; rw [if_neg (by decide)])).trans ?_
    exact broadcastInDim_apply _ bcast_S32x5_S1x32x1x5_1_3 _ _ (ix2 k o) (fun b => match b with
      | ⟨0, _⟩ => by show k.val = if (32 : ℕ) = 1 then 0 else k.val; rw [if_neg (by decide)]
      | ⟨1, _⟩ => by show o.val = if (5 : ℕ) = 1 then 0 else o.val; rw [if_neg (by decide)])

/-- A vector tiled eight times along a row, read at an entry: the vector's entry. -/
theorem tile6_read (B : FVec Ideal S5 .f32) (a : Fin 8) (o : Fin 5) :
    shapeCast S1x40 (shapeCast S40 (broadcastInDim S8x5 ![0, 1] bcast_S1x5_S8x5_0_1 (shapeCast S1x5 B shapeCasts_S5_S1x5)) shapeCasts_S8x5_S40) shapeCasts_S40_S1x40
        (ix2 (0 : Fin 1) (⟨5 * a.val + o.val, by omega⟩ : Fin 40))
      = B (ix1 o) := by
  refine (shapeCast_apply _ _ _ (ix1 (⟨5 * a.val + o.val, by omega⟩ : Fin 40)) (by
    rw [Shape.rowMajor_val_one, Shape.rowMajor_val_two]
    show 5 * a.val + o.val = 0 * 40 + (5 * a.val + o.val)
    omega)).trans ?_
  refine (shapeCast_apply _ _ _ (ix2 a o) (by
    rw [Shape.rowMajor_val_one, Shape.rowMajor_val_two]
    show a.val * 5 + o.val = 5 * a.val + o.val
    omega)).trans ?_
  refine (broadcastInDim_apply _ bcast_S1x5_S8x5_0_1 _ _ (ix2 (0 : Fin 1) o) (fun b => match b with
      | ⟨0, _⟩ => by show 0 = if (1 : ℕ) = 1 then 0 else a.val; rw [if_pos rfl]
      | ⟨1, _⟩ => by show o.val = if (5 : ℕ) = 1 then 0 else o.val; rw [if_neg (by decide)])).trans ?_
  exact shapeCast_a_1a_apply B shapeCasts_S5_S1x5 (0 : Fin 1) o

/-! ## Layer 6: region 1's windows -/

theorem w6_at (a' a : Fin 8) (k : Fin 32) (o : Fin 5) :
    GenP.V43 m outs c main_v142 (ix2 (⟨32 * a'.val + k.val, by omega⟩ : Fin 256) (⟨5 * a.val + o.val, by omega⟩ : Fin 40))
      = (if a' = a then (1 : EReal) else 0) * Cert.Spec.wq (fun o k => X7 m c (ix2 o k)) (ws6 m c) o k := by
  have hk : @Eq ((⟨S256x40, .f32⟩ : BufTy).Contents (Elt Ideal)) ((GenP.V42 m outs c) (Proc.devRef .tc main_v142)) _ := st6_kron (GenP.V41 m outs c)
  rw [show (GenP.V41 m outs c) (Proc.devRef .tc main_v140) = _ from st6_eye (GenP.V40 m outs c), show (GenP.V41 m outs c) (Proc.devRef .tc main_v141) = _ from st6_T (GenP.V40 m outs c), clip6_back, clip6_buf] at hk
  rw [kron6_back, hk]
  refine (kron6_read _ _ a' a k o).trans ?_
  rw [eye_read, transpose_ix2_apply, WqBuf6_at]

theorem b6_at (a : Fin 8) (o : Fin 5) :
    GenP.V43 m outs c main_v146 (ix2 (0 : Fin 1) (⟨5 * a.val + o.val, by omega⟩ : Fin 40))
      = Cert.Spec.bq (fun o => X8 m c (ix1 o)) (ws6 m c) (GenP.V43 m outs c main_v9 (ix2 (0 : Fin 1) (0 : Fin 1))) o := by
  rw [show (GenP.V43 m outs c) (Proc.devRef .tc main_v146) = _ from st6_bbd (GenP.V42 m outs c), bclip6_back, bclip6_buf]
  exact (tile6_read _ a o).trans (BqBuf6_at m outs c o)

theorem bsf6_at (a : Fin 8) (o : Fin 5) :
    GenP.V43 m outs c main_v150 (ix2 (0 : Fin 1) (⟨5 * a.val + o.val, by omega⟩ : Fin 40))
      = Cert.Spec.bsf (ws6 m c) (GenP.V43 m outs c main_v9 (ix2 (0 : Fin 1) (0 : Fin 1))) o := by
  rw [show (GenP.V43 m outs c) (Proc.devRef .tc main_v150) = _ from st6_bsfbd (GenP.V42 m outs c), bsf6_back, bsf6_buf]
  exact (tile6_read _ a o).trans (BsfBuf6_at m outs c o)

end Cert.KernelIdeal.GlueC

end
-- ==== Proof.KI.Region0Val.lean ====
/-
  Region 0's two results: the minimum and the maximum of the packed input.

  The region walks the packed input [131072, 128] in sixteen blocks of 8192 rows. Two one-entry cells carry the running
  minimum and maximum: the first point starts them at +infinity and -infinity, every point meets (joins) the cell with
  the block's minimum (maximum) — the minimum along each row, then down the column of row minima, which together are
  the infimum over the block —, and the last point copies the two cells into the two one-entry results. By induction
  on the point the minimum cell holds the infimum of the blocks' infima so far; the sixteen blocks are the rows
  8192·t … 8192·t + 8191 of the input, every row lies in exactly one of them, so the infimum of the sixteen infima is
  the infimum of the whole input. The maximum is the same with suprema.
-/
import proofs.«147168_j38843684225834_2_alg».proof.Proof.KI.Region0
import proofs.«147168_j38843684225834_2_alg».proof.Proof.LibExtrema
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat Cfg Window)
open Idealize.ShloMosaic.Tactic

variable {F : FTy → Type} [FloatOps F]

namespace R0

theorem hz00 : (![0, 0] : Fin 2 → Nat) = fun _ => 0 := funext fun a => by fin_cases a <;> rfl

/-! ## The block's minimum and maximum, read at the one index -/

/-- An infimum over the rows of the infima along each row is the infimum over the whole block. -/
theorem inf_rows_eq_iInf (x : S8192x128.Idx → EReal) :
    (Finset.univ : Finset (Fin 8192)).inf (fun r => (Finset.univ : Finset (Fin 128)).inf fun l => x (ix2 r l))
      = ⨅ j : S8192x128.Idx, x j := by
  refine le_antisymm (le_iInf fun j => ?_) (Finset.le_inf fun r _ => Finset.le_inf fun l _ => iInf_le _ _)
  refine ((Finset.inf_le (Finset.mem_univ (j 0))).trans (Finset.inf_le (Finset.mem_univ (j 1)))).trans ?_
  exact le_of_eq (congrArg x (eq_ix2 j).symm)

/-- A supremum over the rows of the suprema along each row is the supremum over the whole block. -/
theorem sup_rows_eq_iSup (x : S8192x128.Idx → EReal) :
    (Finset.univ : Finset (Fin 8192)).sup (fun r => (Finset.univ : Finset (Fin 128)).sup fun l => x (ix2 r l))
      = ⨆ j : S8192x128.Idx, x j := by
  refine le_antisymm (Finset.sup_le fun r _ => Finset.sup_le fun l _ => le_iSup _ _) (iSup_le fun j => ?_)
  refine (le_of_eq (congrArg x (eq_ix2 j))).trans ?_
  exact (Finset.le_sup (f := fun l => x (ix2 (j 0) l)) (Finset.mem_univ (j 1))).trans
    (Finset.le_sup (f := fun r => (Finset.univ : Finset (Fin 128)).sup fun l => x (ix2 r l)) (Finset.mem_univ (j 0)))

/-- The minimum along row `r` of a block, from the accumulator +infinity. -/
theorem rowMin_at (x : FVec Ideal S8192x128 .f32) (hφ : FKind.Formats .f32)
    (hacc : (0x7F800000#32 : BitVec 32) = FKind.minimumf.neutral .f32 hφ) (r : Fin 8192) :
    multiReduction .minimumf [1] S8192 x 0x7F800000#32 reduces_S8192x128_S8192 hφ hacc (ix1 r)
      = (Finset.univ : Finset (Fin 128)).inf fun l => x (ix2 r l) := by
  refine (Cert.LibExtrema.coreReduce_min_single x 0x7F800000#32 reduces_S8192x128_S8192 hφ hacc (ix1 r)).trans ?_
  rw [show FloatOps.ofBits (F := Ideal) .f32 0x7F800000#32 = ⊤ from Cert.LibExtrema.ofBits_posInf, inf_top_eq]
  show (Finset.univ : Finset (Fin 128)).inf (fun l => x (reduces_S8192x128_S8192.lift (ix1 r) l)) = _
  exact Finset.inf_congr rfl fun l _ => congrArg x
    (funext fun a => Fin.ext (by match a with | ⟨0, _⟩ => rfl | ⟨1, _⟩ => rfl))

/-- The maximum along row `r` of a block, from the accumulator -infinity. -/
theorem rowMax_at (x : FVec Ideal S8192x128 .f32) (hφ : FKind.Formats .f32)
    (hacc : (0xFF800000#32 : BitVec 32) = FKind.maximumf.neutral .f32 hφ) (r : Fin 8192) :
    multiReduction .maximumf [1] S8192 x 0xFF800000#32 reduces_S8192x128_S8192 hφ hacc (ix1 r)
      = (Finset.univ : Finset (Fin 128)).sup fun l => x (ix2 r l) := by
  refine (Cert.LibExtrema.coreReduce_max_single x 0xFF800000#32 reduces_S8192x128_S8192 hφ hacc (ix1 r)).trans ?_
  rw [show FloatOps.ofBits (F := Ideal) .f32 0xFF800000#32 = ⊥ from Cert.LibExtrema.ofBits_negInf, sup_bot_eq]
  show (Finset.univ : Finset (Fin 128)).sup (fun l => x (reduces_S8192x128_S8192.lift (ix1 r) l)) = _
  exact Finset.sup_congr rfl fun l _ => congrArg x
    (funext fun a => Fin.ext (by match a with | ⟨0, _⟩ => rfl | ⟨1, _⟩ => rfl))

/-- The minimum down the one column of an [8192,1] vector, from the accumulator +infinity. -/
theorem colMin_at (y : FVec Ideal S8192x1 .f32) (hφ : FKind.Formats .f32)
    (hacc : (0x7F800000#32 : BitVec 32) = FKind.minimumf.neutral .f32 hφ) :
    multiReduction .minimumf [0] S1 y 0x7F800000#32 reduces_S8192x1_S1 hφ hacc (ix1 (0 : Fin 1))
      = (Finset.univ : Finset (Fin 8192)).inf fun r => y (ix2 r (0 : Fin 1)) := by
  refine (Cert.LibExtrema.coreReduce_min_single y 0x7F800000#32 reduces_S8192x1_S1 hφ hacc (ix1 0)).trans ?_
  rw [show FloatOps.ofBits (F := Ideal) .f32 0x7F800000#32 = ⊤ from Cert.LibExtrema.ofBits_posInf, inf_top_eq]
  show (Finset.univ : Finset (Fin 8192)).inf (fun r => y (reduces_S8192x1_S1.lift (ix1 0) r)) = _
  exact Finset.inf_congr rfl fun r _ => congrArg y
    (funext fun a => Fin.ext (by match a with | ⟨0, _⟩ => rfl | ⟨1, _⟩ => rfl))

/-- The maximum down the one column of an [8192,1] vector, from the accumulator -infinity. -/
theorem colMax_at (y : FVec Ideal S8192x1 .f32) (hφ : FKind.Formats .f32)
    (hacc : (0xFF800000#32 : BitVec 32) = FKind.maximumf.neutral .f32 hφ) :
    multiReduction .maximumf [0] S1 y 0xFF800000#32 reduces_S8192x1_S1 hφ hacc (ix1 (0 : Fin 1))
      = (Finset.univ : Finset (Fin 8192)).sup fun r => y (ix2 r (0 : Fin 1)) := by
  refine (Cert.LibExtrema.coreReduce_max_single y 0xFF800000#32 reduces_S8192x1_S1 hφ hacc (ix1 0)).trans ?_
  rw [show FloatOps.ofBits (F := Ideal) .f32 0xFF800000#32 = ⊥ from Cert.LibExtrema.ofBits_negInf, sup_bot_eq]
  show (Finset.univ : Finset (Fin 8192)).sup (fun r => y (reduces_S8192x1_S1.lift (ix1 0) r)) = _
  exact Finset.sup_congr rfl fun r _ => congrArg y
    (funext fun a => Fin.ext (by match a with | ⟨0, _⟩ => rfl | ⟨1, _⟩ => rfl))

/-- An [8192] vector viewed as a column reads row `r` at (r, 0). -/
theorem col_of_vec_at {α : Type} (v : S8192.Idx → α) (r : Fin 8192) :
    shapeCast S8192x1 v shapeCasts_S8192_S8192x1 (ix2 r (0 : Fin 1)) = v (ix1 r) :=
  shapeCast_apply v shapeCasts_S8192_S8192x1 (ix2 r 0) (ix1 r) (by
    rw [Shape.rowMajor_val_two, Shape.rowMajor_val_one]; show r.val = r.val * 1 + 0; omega)

/-- A [1] vector viewed as [1,1] reads its one entry. -/
theorem cell_of_vec_at {α : Type} (v : S1.Idx → α) :
    shapeCast S1x1 v shapeCasts_S1_S1x1 (ix2 (0 : Fin 1) (0 : Fin 1)) = v (ix1 (0 : Fin 1)) :=
  shapeCast_apply v shapeCasts_S1_S1x1 (ix2 0 0) (ix1 0) (by
    rw [Shape.rowMajor_val_two, Shape.rowMajor_val_one]; show 0 = 0 * 1 + 0; omega)

/-- The running-minimum payload at the one index: the cell's value met with the infimum of the block. -/
theorem pay4_at (x0 : Vec Ideal S8192x128 .f32) (v13 : Vec Ideal S1x1 .f32) :
    k0_pay4 (F := Ideal) x0 v13 (ix2 (0 : Fin 1) (0 : Fin 1))
      = min (v13 (ix2 (0 : Fin 1) (0 : Fin 1))) (⨅ j : S8192x128.Idx, x0 j) := by
  unfold k0_pay4 k0_pay3
  dsimp only
  refine (congrFun (shapeCast_self _ shapeCasts_S1x1_S1x1) _).trans ?_
  refine (minimumf_apply _ _ _).trans (congrArg (min (v13 (ix2 (0 : Fin 1) (0 : Fin 1)))) ?_)
  refine (cell_of_vec_at _).trans ?_
  refine (colMin_at _ (.inl rfl) rfl).trans ?_
  refine (Finset.inf_congr rfl fun r _ => ?_).trans (inf_rows_eq_iInf x0)
  refine (col_of_vec_at _ r).trans ?_
  refine (rowMin_at _ (.inl rfl) rfl r).trans ?_
  exact Finset.inf_congr rfl fun l _ => congrFun (shapeCast_self x0 shapeCasts_S8192x128_S8192x128) (ix2 r l)

/-- The running-maximum payload at the one index: the cell's value joined with the supremum of the block. -/
theorem pay5_at (x0 : Vec Ideal S8192x128 .f32) (v18 : Vec Ideal S1x1 .f32) :
    k0_pay5 (F := Ideal) x0 v18 (ix2 (0 : Fin 1) (0 : Fin 1))
      = max (v18 (ix2 (0 : Fin 1) (0 : Fin 1))) (⨆ j : S8192x128.Idx, x0 j) := by
  unfold k0_pay5 k0_pay3
  dsimp only
  refine (congrFun (shapeCast_self _ shapeCasts_S1x1_S1x1) _).trans ?_
  refine (maximumf_apply _ _ _).trans (congrArg (max (v18 (ix2 (0 : Fin 1) (0 : Fin 1)))) ?_)
  refine (cell_of_vec_at _).trans ?_
  refine (colMax_at _ (.inl rfl) rfl).trans ?_
  refine (Finset.sup_congr rfl fun r _ => ?_).trans (sup_rows_eq_iSup x0)
  refine (col_of_vec_at _ r).trans ?_
  refine (rowMax_at _ (.inl rfl) rfl r).trans ?_
  exact Finset.sup_congr rfl fun l _ => congrFun (shapeCast_self x0 shapeCasts_S8192x128_S8192x128) (ix2 r l)

/-- The reset payloads: +infinity for the minimum cell, -infinity for the maximum cell. -/
theorem pay1_at : k0_pay1 (F := Ideal) (ix2 (0 : Fin 1) (0 : Fin 1)) = ⊤ := by
  unfold k0_pay1
  refine (congrFun (shapeCast_self _ shapeCasts_S1x1_S1x1) _).trans ?_
  exact Cert.LibExtrema.ofBits_posInf

theorem pay2_at : k0_pay2 (F := Ideal) (ix2 (0 : Fin 1) (0 : Fin 1)) = ⊥ := by
  unfold k0_pay2
  refine (congrFun (shapeCast_self _ shapeCasts_S1x1_S1x1) _).trans ?_
  exact Cert.LibExtrema.ofBits_negInf

/-! ## What each control case leaves, as payloads -/

/-- The first point resets the minimum cell to the reset payload and then folds the block into it. -/
theorem cellMin_A (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i) (x0 : Vec F S8192x128 .f32) :
    sout0_A_0 c i a1 h1 a2 h2 a3 h3 a4 h4 a5 h5 hc0 hc1 x0 = k0_pay4 x0 (k0_pay1 (F := F)) := by
  unfold sout0_A_0
  rw [View.read_writes_eq_canon _ _ _ (scover0_A_0 c i a1 h1 a2 h2 a3 h3 a4 h4 a5 h5 hc0 hc1 x0)]
  unfold kernelRun0_A
  dsimp only
  sl_unfold_words
  rw [View.canon_cons_unit_zero (S := S1x1) hz00, View.readCov_unit_zero (S := S1x1) _ hz00]
  simp only [View.readAt_eq_ld, h1.read_unread, h4.read_unread, h5.read_unread, View.ld_unit_zero (S := S8192x128) hz00,
    View.ld_unit_zero (S := S1x1) hz00]

/-- The first point resets the maximum cell to the reset payload and then folds the block into it. -/
theorem cellMax_A (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : cond0_0 i) (hc1 : ¬cond0_1 i) (x0 : Vec F S8192x128 .f32) :
    sout0_A_1 c i a1 h1 a2 h2 a3 h3 a4 h4 a5 h5 hc0 hc1 x0 = k0_pay5 x0 (k0_pay2 (F := F)) := by
  unfold sout0_A_1
  rw [View.read_writes_eq_canon _ _ _ (scover0_A_1 c i a1 h1 a2 h2 a3 h3 a4 h4 a5 h5 hc0 hc1 x0)]
  unfold kernelRun0_A
  dsimp only
  sl_unfold_words
  rw [View.canon_cons_unit_zero (S := S1x1) hz00, View.readCov_unit_zero (S := S1x1) _ hz00]
  simp only [View.readAt_eq_ld, h1.read_unread, h4.read_unread, h5.read_unread, View.ld_unit_zero (S := S8192x128) hz00,
    View.ld_unit_zero (S := S1x1) hz00]

/-- A middle point folds the block into the minimum cell. -/
theorem cellMin_B (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i) (x0 : Vec F S8192x128 .f32) (xs0 xs1 : Vec F S1x1 .f32) :
    sout0_B_0 c i a1 h1 a2 h2 a3 h3 a4 h4 a5 h5 hc0 hc1 x0 xs0 xs1 = k0_pay4 x0 xs0 := by
  unfold sout0_B_0
  rw [View.read_writes_eq_canon _ _ _ (scover0_B_0 c i a1 h1 a2 h2 a3 h3 a4 h4 a5 h5 hc0 hc1 x0 xs0 xs1)]
  unfold kernelRun0_B
  dsimp only
  rw [View.canon_unit_zero hz00]
  simp only [View.readAt_eq_ld, h1.read_unread, h4.read_unread, h5.read_unread, View.ld_unit_zero (S := S8192x128) hz00,
    View.ld_unit_zero (S := S1x1) hz00]

/-- A middle point folds the block into the maximum cell. -/
theorem cellMax_B (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : ¬cond0_1 i) (x0 : Vec F S8192x128 .f32) (xs0 xs1 : Vec F S1x1 .f32) :
    sout0_B_1 c i a1 h1 a2 h2 a3 h3 a4 h4 a5 h5 hc0 hc1 x0 xs0 xs1 = k0_pay5 x0 xs1 := by
  unfold sout0_B_1
  rw [View.read_writes_eq_canon _ _ _ (scover0_B_1 c i a1 h1 a2 h2 a3 h3 a4 h4 a5 h5 hc0 hc1 x0 xs0 xs1)]
  unfold kernelRun0_B
  dsimp only
  rw [View.canon_unit_zero hz00]
  simp only [View.readAt_eq_ld, h1.read_unread, h4.read_unread, h5.read_unread, View.ld_unit_zero (S := S8192x128) hz00,
    View.ld_unit_zero (S := S1x1) hz00]

/-- The last point folds the block into the minimum cell. -/
theorem cellMin_C (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 : Vec F S8192x128 .f32) (xs0 xs1 : Vec F S1x1 .f32) :
    sout0_C_0 c i a1 h1 a2 h2 a3 h3 a4 h4 a5 h5 hc0 hc1 x0 xs0 xs1 = k0_pay4 x0 xs0 := by
  unfold sout0_C_0
  rw [View.read_writes_eq_canon _ _ _ (scover0_C_0 c i a1 h1 a2 h2 a3 h3 a4 h4 a5 h5 hc0 hc1 x0 xs0 xs1)]
  unfold kernelRun0_C
  dsimp only
  sl_unfold_words
  rw [View.canon_unit_zero hz00]
  simp only [View.readAt_eq_ld, h1.read_unread, h4.read_unread, h5.read_unread, View.ld_unit_zero (S := S8192x128) hz00,
    View.ld_unit_zero (S := S1x1) hz00]

/-- The last point folds the block into the maximum cell. -/
theorem cellMax_C (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 : Vec F S8192x128 .f32) (xs0 xs1 : Vec F S1x1 .f32) :
    sout0_C_1 c i a1 h1 a2 h2 a3 h3 a4 h4 a5 h5 hc0 hc1 x0 xs0 xs1 = k0_pay5 x0 xs1 := by
  unfold sout0_C_1
  rw [View.read_writes_eq_canon _ _ _ (scover0_C_1 c i a1 h1 a2 h2 a3 h3 a4 h4 a5 h5 hc0 hc1 x0 xs0 xs1)]
  unfold kernelRun0_C
  dsimp only
  sl_unfold_words
  rw [View.canon_unit_zero hz00]
  simp only [View.readAt_eq_ld, h1.read_unread, h4.read_unread, h5.read_unread, View.ld_unit_zero (S := S8192x128) hz00,
    View.ld_unit_zero (S := S1x1) hz00]

/-- The last point copies the minimum cell, after its fold, into the first output. -/
theorem outMin_C (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 : Vec F S8192x128 .f32) (xs0 xs1 : Vec F S1x1 .f32) :
    out0_C_1 c i a1 h1 a2 h2 a3 h3 a4 h4 a5 h5 hc0 hc1 x0 xs0 xs1 = k0_pay4 x0 xs0 := by
  unfold out0_C_1
  rw [View.read_writes_eq_canon _ _ _ (cover0_C_1 c i a1 h1 a2 h2 a3 h3 a4 h4 a5 h5 hc0 hc1 x0 xs0 xs1)]
  unfold kernelRun0_C
  dsimp only
  sl_unfold_words
  rw [View.canon_unit_zero hz00, View.readCov_unit_zero (S := S1x1) _ hz00]
  simp only [View.readAt_eq_ld, h1.read_unread, h4.read_unread, h5.read_unread, View.ld_unit_zero (S := S8192x128) hz00,
    View.ld_unit_zero (S := S1x1) hz00]

/-- The last point copies the maximum cell, after its fold, into the second output. -/
theorem outMax_C (c : Dev nD) (i : grid0.Coords) (a1 : Memref sig .tc .vmem S8192x128 .f32) (h1 : a1.IsWhole) (a2 : Memref sig .tc .vmem S1x1 .f32) (h2 : a2.IsWhole) (a3 : Memref sig .tc .vmem S1x1 .f32) (h3 : a3.IsWhole) (a4 : Memref sig .tc .vmem S1x1 .f32) (h4 : a4.IsWhole) (a5 : Memref sig .tc .vmem S1x1 .f32) (h5 : a5.IsWhole) (hc0 : ¬cond0_0 i) (hc1 : cond0_1 i) (x0 : Vec F S8192x128 .f32) (xs0 xs1 : Vec F S1x1 .f32) :
    out0_C_2 c i a1 h1 a2 h2 a3 h3 a4 h4 a5 h5 hc0 hc1 x0 xs0 xs1 = k0_pay5 x0 xs1 := by
  unfold out0_C_2
  rw [View.read_writes_eq_canon _ _ _ (cover0_C_2 c i a1 h1 a2 h2 a3 h3 a4 h4 a5 h5 hc0 hc1 x0 xs0 xs1)]
  unfold kernelRun0_C
  dsimp only
  sl_unfold_words
  rw [View.canon_unit_zero hz00, View.readCov_unit_zero (S := S1x1) _ hz00]
  simp only [View.readAt_eq_ld, h1.read_unread, h4.read_unread, h5.read_unread, View.ld_unit_zero (S := S8192x128) hz00,
    View.ld_unit_zero (S := S1x1) hz00]

/-! ## The input window's block, read off the packed input -/

/-- Block `t` of the input window holds rows 8192·t … 8192·t + 8191 of the packed input, all 128 columns. -/
theorem iblk0_at (V : (c : Dev nD) → (b : Ref sig .tc) → Buf (Elt F) ((c : Thread nD τ).loc b)) (c : Dev nD)
    (t : Fin cfg0.N) (j : S8192x128.Idx) (i : S131072x128.Idx)
    (h0 : (i 0).val = 8192 * t.val + (j 0).val) (h1 : (i 1).val = (j 1).val) :
    (iblk0 V c 0 t : Vec F S8192x128 .f32) j = V c main_v0 i := by
  have hi : win0_0.index t 0 = t.val ∧ win0_0.index t 1 = 0 :=
    (by decide +kernel : ∀ t : Fin grid0.N, win0_0.index t 0 = t.val ∧ win0_0.index t 1 = 0) t
  unfold iblk0
  rw [View.read_apply]
  show V c main_v0 _ = V c main_v0 i
  congr 1
  funext a
  apply Fin.ext
  match a with
  | ⟨0, _⟩ => show win0_0.index t 0 * 8192 + 1 * (j 0).val = (i 0).val; rw [hi.1, h0]; omega
  | ⟨1, _⟩ => show win0_0.index t 1 * 128 + 1 * (j 1).val = (i 1).val; rw [hi.2, h1]; omega

/-! ## The two cells after each point, and the two results -/

/-- A [1,1] array has one index. -/
theorem idx11_eq (y : S1x1.Idx) : y = ix2 (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega)

section Ideal

variable (V : (c : Dev nD) → (b : Ref sig .tc) → Buf (Elt Ideal) ((c : Thread nD τ).loc b))

/-- The packed input and block `t` of it, as families of extended reals. -/
abbrev xin (c : Dev nD) : S131072x128.Idx → EReal := V c main_v0
abbrev xblk (c : Dev nD) (t : Fin cfg0.N) : S8192x128.Idx → EReal := iblk0 V c 0 t

/-- The infimum of the input's block `t` (+infinity past the grid). -/
def blkMin (c : Dev nD) (t : ℕ) : EReal :=
  if h : t < cfg0.N then ⨅ j : S8192x128.Idx, xblk V c ⟨t, h⟩ j else ⊤

theorem blkMin_val (c : Dev nD) (t : Fin cfg0.N) : blkMin V c t.val = ⨅ j : S8192x128.Idx, xblk V c t j := dif_pos t.isLt

/-- After the first point the minimum cell holds the first block's infimum. -/
theorem cellMin_first (c : Dev nD) (t : Fin cfg0.N) (h0 : t.val = 0) :
    (outsAt0 V c t.val t.isLt).2.2.1 (ix2 (0 : Fin 1) (0 : Fin 1)) = ⨅ j : S8192x128.Idx, xblk V c t j := by
  have h1 : ¬t.val = 15 := by omega
  rw [outsAt0_A V c t h0 h1]
  dsimp only
  refine (congrFun (cellMin_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) (ix2 0 0)).trans ?_
  refine (pay4_at (iblk0 V c 0 t) (k0_pay1 (F := Ideal))).trans ?_
  rw [pay1_at]
  exact top_inf_eq _

/-- After any later point the minimum cell holds what it held met with that point's block's infimum. -/
theorem cellMin_step (c : Dev nD) (t : Fin cfg0.N) (h0 : ¬t.val = 0) :
    (outsAt0 V c t.val t.isLt).2.2.1 (ix2 (0 : Fin 1) (0 : Fin 1))
      = min ((outsAt0 V c (t.val - 1) (Nat.lt_of_le_of_lt (Nat.sub_le _ _) t.isLt)).2.2.1 (ix2 (0 : Fin 1) (0 : Fin 1))) (⨅ j : S8192x128.Idx, xblk V c t j) := by
  by_cases h1 : t.val = 15
  · rw [outsAt0_C V c t h0 h1]
    dsimp only
    exact (congrFun (cellMin_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
      (pay4_at (iblk0 V c 0 t) (outsAt0 V c (t.val - 1) (Nat.lt_of_le_of_lt (Nat.sub_le _ _) t.isLt)).2.2.1)
  · rw [outsAt0_B V c t h0 h1]
    dsimp only
    exact (congrFun (cellMin_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
      (pay4_at (iblk0 V c 0 t) (outsAt0 V c (t.val - 1) (Nat.lt_of_le_of_lt (Nat.sub_le _ _) t.isLt)).2.2.1)

/-- At the last point the first output receives the minimum cell's new contents. -/
theorem outMin_last (c : Dev nD) (t : Fin cfg0.N) (h1 : t.val = 15) :
    (outsAt0 V c t.val t.isLt).1 (ix2 (0 : Fin 1) (0 : Fin 1))
      = min ((outsAt0 V c (t.val - 1) (Nat.lt_of_le_of_lt (Nat.sub_le _ _) t.isLt)).2.2.1 (ix2 (0 : Fin 1) (0 : Fin 1))) (⨅ j : S8192x128.Idx, xblk V c t j) := by
  have h0 : ¬t.val = 0 := by omega
  rw [outsAt0_C V c t h0 h1]
  dsimp only
  exact (congrFun (outMin_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
    (pay4_at (iblk0 V c 0 t) (outsAt0 V c (t.val - 1) (Nat.lt_of_le_of_lt (Nat.sub_le _ _) t.isLt)).2.2.1)

/-- After point `n` the minimum cell holds the infimum of the blocks' infima up to `n`. -/
theorem cellMin_eq (c : Dev nD) : ∀ (n : ℕ) (h : n < cfg0.N),
    (outsAt0 V c n h).2.2.1 (ix2 (0 : Fin 1) (0 : Fin 1)) = (Finset.range (n + 1)).inf (blkMin V c)
  | 0, h => by
    rw [Finset.range_one, Finset.inf_singleton, show blkMin V c 0 = _ from dif_pos h]
    exact cellMin_first V c ⟨0, h⟩ rfl
  | n + 1, h => by
    have ih := cellMin_eq c n (Nat.lt_of_succ_lt h)
    rw [Finset.range_add_one, Finset.inf_insert, ← ih, show blkMin V c (n + 1) = _ from dif_pos h, inf_comm]
    exact cellMin_step V c ⟨n + 1, h⟩ (Nat.succ_ne_zero n)

/-- The first output after the last point: the infimum of all sixteen blocks' infima. Stated at any point whose position is 15. -/
theorem outMin_eq (c : Dev nD) (t : Fin cfg0.N) (h15 : t.val = 15) :
    (outsAt0 V c t.val t.isLt).1 (ix2 (0 : Fin 1) (0 : Fin 1)) = (Finset.range 16).inf (blkMin V c) := by
  have e1 : t.val - 1 + 1 = 15 := by omega
  rw [outMin_last V c t h15, cellMin_eq V c (t.val - 1) (Nat.lt_of_le_of_lt (Nat.sub_le _ _) t.isLt), ← blkMin_val V c t, e1, h15,
    show Finset.range 16 = insert 15 (Finset.range 15) from Finset.range_add_one, Finset.inf_insert, inf_comm]

/-- The infimum of the sixteen blocks' infima is the infimum of the whole packed input. -/
theorem inf_blocks_eq (c : Dev nD) :
    (Finset.range 16).inf (blkMin V c) = ⨅ i : S131072x128.Idx, xin V c i := by
  have hN : cfg0.N = 16 := N_0
  refine le_antisymm (le_iInf fun i => ?_) (Finset.le_inf fun t ht => ?_)
  · have hi0 : (i 0).val < 131072 := (i 0).isLt
    have ht : (i 0).val / 8192 < cfg0.N := by rw [hN]; omega
    refine (Finset.inf_le (Finset.mem_range.2 (by omega : (i 0).val / 8192 < 16))).trans ?_
    rw [show blkMin V c ((i 0).val / 8192) = _ from dif_pos ht]
    refine (iInf_le _ (ix2 (⟨(i 0).val % 8192, Nat.mod_lt _ (by decide)⟩ : Fin 8192) (i 1))).trans (le_of_eq ?_)
    exact iblk0_at V c ⟨(i 0).val / 8192, ht⟩ _ i (by show (i 0).val = 8192 * ((i 0).val / 8192) + (i 0).val % 8192; omega) rfl
  · have ht16 : t < 16 := Finset.mem_range.1 ht
    have ht' : t < cfg0.N := by rw [hN]; exact ht16
    rw [show blkMin V c t = _ from dif_pos ht']
    refine le_iInf fun j => ?_
    have hj0 : (j 0).val < 8192 := (j 0).isLt
    refine (iInf_le _ (ix2 (⟨8192 * t + (j 0).val, by omega⟩ : Fin 131072) (j 1))).trans (le_of_eq ?_)
    exact (iblk0_at V c ⟨t, ht'⟩ j _ rfl rfl).symm

/-- The supremum of the input's block `t` (-infinity past the grid). -/
def blkMax (c : Dev nD) (t : ℕ) : EReal :=
  if h : t < cfg0.N then ⨆ j : S8192x128.Idx, xblk V c ⟨t, h⟩ j else ⊥

theorem blkMax_val (c : Dev nD) (t : Fin cfg0.N) : blkMax V c t.val = ⨆ j : S8192x128.Idx, xblk V c t j := dif_pos t.isLt

/-- After the first point the maximum cell holds the first block's supremum. -/
theorem cellMax_first (c : Dev nD) (t : Fin cfg0.N) (h0 : t.val = 0) :
    (outsAt0 V c t.val t.isLt).2.2.2 (ix2 (0 : Fin 1) (0 : Fin 1)) = ⨆ j : S8192x128.Idx, xblk V c t j := by
  have h1 : ¬t.val = 15 := by omega
  rw [outsAt0_A V c t h0 h1]
  dsimp only
  refine (congrFun (cellMax_A (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk0 V c 0 t)) (ix2 0 0)).trans ?_
  refine (pay5_at (iblk0 V c 0 t) (k0_pay2 (F := Ideal))).trans ?_
  rw [pay2_at]
  exact bot_sup_eq _

/-- After any later point the maximum cell holds what it held joined with that point's block's supremum. -/
theorem cellMax_step (c : Dev nD) (t : Fin cfg0.N) (h0 : ¬t.val = 0) :
    (outsAt0 V c t.val t.isLt).2.2.2 (ix2 (0 : Fin 1) (0 : Fin 1))
      = max ((outsAt0 V c (t.val - 1) (Nat.lt_of_le_of_lt (Nat.sub_le _ _) t.isLt)).2.2.2 (ix2 (0 : Fin 1) (0 : Fin 1))) (⨆ j : S8192x128.Idx, xblk V c t j) := by
  by_cases h1 : t.val = 15
  · rw [outsAt0_C V c t h0 h1]
    dsimp only
    exact (congrFun (cellMax_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
      (pay5_at (iblk0 V c 0 t) (outsAt0 V c (t.val - 1) (Nat.lt_of_le_of_lt (Nat.sub_le _ _) t.isLt)).2.2.2)
  · rw [outsAt0_B V c t h0 h1]
    dsimp only
    exact (congrFun (cellMax_B (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
      (pay5_at (iblk0 V c 0 t) (outsAt0 V c (t.val - 1) (Nat.lt_of_le_of_lt (Nat.sub_le _ _) t.isLt)).2.2.2)

/-- At the last point the second output receives the maximum cell's new contents. -/
theorem outMax_last (c : Dev nD) (t : Fin cfg0.N) (h1 : t.val = 15) :
    (outsAt0 V c t.val t.isLt).2.1 (ix2 (0 : Fin 1) (0 : Fin 1))
      = max ((outsAt0 V c (t.val - 1) (Nat.lt_of_le_of_lt (Nat.sub_le _ _) t.isLt)).2.2.2 (ix2 (0 : Fin 1) (0 : Fin 1))) (⨆ j : S8192x128.Idx, xblk V c t j) := by
  have h0 : ¬t.val = 0 := by omega
  rw [outsAt0_C V c t h0 h1]
  dsimp only
  exact (congrFun (outMax_C (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk0 V c 0 t) (outsAt0 V c (t.val - 1) (Nat.lt_of_le_of_lt (Nat.sub_le _ _) t.isLt)).2.2.1 (outsAt0 V c (t.val - 1) (Nat.lt_of_le_of_lt (Nat.sub_le _ _) t.isLt)).2.2.2) (ix2 0 0)).trans
    (pay5_at (iblk0 V c 0 t) (outsAt0 V c (t.val - 1) (Nat.lt_of_le_of_lt (Nat.sub_le _ _) t.isLt)).2.2.2)

/-- After point `n` the maximum cell holds the supremum of the blocks' suprema up to `n`. -/
theorem cellMax_eq (c : Dev nD) : ∀ (n : ℕ) (h : n < cfg0.N),
    (outsAt0 V c n h).2.2.2 (ix2 (0 : Fin 1) (0 : Fin 1)) = (Finset.range (n + 1)).sup (blkMax V c)
  | 0, h => by
    rw [Finset.range_one, Finset.sup_singleton, show blkMax V c 0 = _ from dif_pos h]
    exact cellMax_first V c ⟨0, h⟩ rfl
  | n + 1, h => by
    have ih := cellMax_eq c n (Nat.lt_of_succ_lt h)
    rw [Finset.range_add_one, Finset.sup_insert, ← ih, show blkMax V c (n + 1) = _ from dif_pos h, sup_comm]
    exact cellMax_step V c ⟨n + 1, h⟩ (Nat.succ_ne_zero n)

/-- The second output after the last point: the supremum of all sixteen blocks' suprema. Stated at any point whose position is 15. -/
theorem outMax_eq (c : Dev nD) (t : Fin cfg0.N) (h15 : t.val = 15) :
    (outsAt0 V c t.val t.isLt).2.1 (ix2 (0 : Fin 1) (0 : Fin 1)) = (Finset.range 16).sup (blkMax V c) := by
  have e1 : t.val - 1 + 1 = 15 := by omega
  rw [outMax_last V c t h15, cellMax_eq V c (t.val - 1) (Nat.lt_of_le_of_lt (Nat.sub_le _ _) t.isLt), ← blkMax_val V c t, e1, h15,
    show Finset.range 16 = insert 15 (Finset.range 15) from Finset.range_add_one, Finset.sup_insert, sup_comm]

/-- The supremum of the sixteen blocks' suprema is the supremum of the whole packed input. -/
theorem sup_blocks_eq (c : Dev nD) :
    (Finset.range 16).sup (blkMax V c) = ⨆ i : S131072x128.Idx, xin V c i := by
  have hN : cfg0.N = 16 := N_0
  refine le_antisymm (Finset.sup_le fun t ht => ?_) (iSup_le fun i => ?_)
  · have ht16 : t < 16 := Finset.mem_range.1 ht
    have ht' : t < cfg0.N := by rw [hN]; exact ht16
    rw [show blkMax V c t = _ from dif_pos ht']
    refine iSup_le fun j => ?_
    have hj0 : (j 0).val < 8192 := (j 0).isLt
    refine (le_of_eq ?_).trans (le_iSup _ (ix2 (⟨8192 * t + (j 0).val, by omega⟩ : Fin 131072) (j 1)))
    exact iblk0_at V c ⟨t, ht'⟩ j _ rfl rfl
  · have hi0 : (i 0).val < 131072 := (i 0).isLt
    have ht : (i 0).val / 8192 < cfg0.N := by rw [hN]; omega
    refine le_trans ?_ (Finset.le_sup (Finset.mem_range.2 (by omega : (i 0).val / 8192 < 16)))
    rw [show blkMax V c ((i 0).val / 8192) = _ from dif_pos ht]
    refine (le_of_eq ?_).trans (le_iSup _ (ix2 (⟨(i 0).val % 8192, Nat.mod_lt _ (by decide)⟩ : Fin 8192) (i 1)))
    exact (iblk0_at V c ⟨(i 0).val / 8192, ht⟩ _ i (by show (i 0).val = 8192 * ((i 0).val / 8192) + (i 0).val % 8192; omega) rfl).symm

end Ideal

end R0

/-! ## The two results -/

section Results

open R0

variable (V : (c : Dev nD) → (b : Ref sig .tc) → Buf (Elt Ideal) ((c : Thread nD τ).loc b))

/-- The region's first result: the minimum of the packed input. -/
theorem gmin_out (c : Dev nD) :
    (dat0 (F := Ideal) V c).arrAt 1 cfg0.N (ix2 (0 : Fin 1) (0 : Fin 1)) = ⨅ i : S131072x128.Idx, xin V c i := by
  have hN : cfg0.N = 16 := N_0
  refine Dat.arrAt_forall_of_cover (dat0 (F := Ideal) V c) 1 (fun _ v => v = ⨅ i : S131072x128.Idx, xin V c i)
    (fun t hf y => ?_) (fun i => ?_) (ix2 0 0)
  · have h15 : t.val = 15 := by have := (flush0_1 t).mp hf; have := t.isLt; omega
    exact (congrArg (outsAt0 V c t.val t.isLt).1 (idx11_eq y)).trans ((outMin_eq V c t h15).trans (inf_blocks_eq V c))
  · refine ⟨t0_15, (flush0_1 t0_15).mpr rfl, ?_⟩
    show i ∈ ((View.whole main_v1_0).slice (win0_1.rect t0_15)).set
    rw [View.set_slice_whole, Rect.mem_set_unit]
    intro a
    have h0 : (i 0 : Nat) < 1 := (i 0).isLt
    have h1 : (i 1 : Nat) < 1 := (i 1).isLt
    match a with
    | ⟨0, _⟩ =>
      show win0_1.index t0_15 0 * win0_1.size 0 ≤ (i 0 : Nat) ∧ (i 0 : Nat) < win0_1.index t0_15 0 * win0_1.size 0 + win0_1.xsize (grid0.coords t0_15) 0
      rw [show win0_1.index t0_15 0 * win0_1.size 0 = 0 from by decide +kernel, show win0_1.xsize (grid0.coords t0_15) 0 = 1 from by decide +kernel]; omega
    | ⟨1, _⟩ =>
      show win0_1.index t0_15 1 * win0_1.size 1 ≤ (i 1 : Nat) ∧ (i 1 : Nat) < win0_1.index t0_15 1 * win0_1.size 1 + win0_1.xsize (grid0.coords t0_15) 1
      rw [show win0_1.index t0_15 1 * win0_1.size 1 = 0 from by decide +kernel, show win0_1.xsize (grid0.coords t0_15) 1 = 1 from by decide +kernel]; omega

/-- The region's second result: the maximum of the packed input. -/
theorem gmax_out (c : Dev nD) :
    (dat0 (F := Ideal) V c).arrAt 2 cfg0.N (ix2 (0 : Fin 1) (0 : Fin 1)) = ⨆ i : S131072x128.Idx, xin V c i := by
  have hN : cfg0.N = 16 := N_0
  refine Dat.arrAt_forall_of_cover (dat0 (F := Ideal) V c) 2 (fun _ v => v = ⨆ i : S131072x128.Idx, xin V c i)
    (fun t hf y => ?_) (fun i => ?_) (ix2 0 0)
  · have h15 : t.val = 15 := by have := (flush0_2 t).mp hf; have := t.isLt; omega
    exact (congrArg (outsAt0 V c t.val t.isLt).2.1 (idx11_eq y)).trans ((outMax_eq V c t h15).trans (sup_blocks_eq V c))
  · refine ⟨t0_15, (flush0_2 t0_15).mpr rfl, ?_⟩
    show i ∈ ((View.whole main_v1_1).slice (win0_2.rect t0_15)).set
    rw [View.set_slice_whole, Rect.mem_set_unit]
    intro a
    have h0 : (i 0 : Nat) < 1 := (i 0).isLt
    have h1 : (i 1 : Nat) < 1 := (i 1).isLt
    match a with
    | ⟨0, _⟩ =>
      show win0_2.index t0_15 0 * win0_2.size 0 ≤ (i 0 : Nat) ∧ (i 0 : Nat) < win0_2.index t0_15 0 * win0_2.size 0 + win0_2.xsize (grid0.coords t0_15) 0
      rw [show win0_2.index t0_15 0 * win0_2.size 0 = 0 from by decide +kernel, show win0_2.xsize (grid0.coords t0_15) 0 = 1 from by decide +kernel]; omega
    | ⟨1, _⟩ =>
      show win0_2.index t0_15 1 * win0_2.size 1 ≤ (i 1 : Nat) ∧ (i 1 : Nat) < win0_2.index t0_15 1 * win0_2.size 1 + win0_2.xsize (grid0.coords t0_15) 1
      rw [show win0_2.index t0_15 1 * win0_2.size 1 = 0 from by decide +kernel, show win0_2.xsize (grid0.coords t0_15) 1 = 1 from by decide +kernel]; omega

end Results

end Cert.KernelIdeal.Hand

end
-- ==== Proof.KI.PackedExt.lean ====
/-
  The packed input has the same entries as the input: the reshape that packs eight consecutive rows of sixteen entries
  into one row of 128 keeps the row-major order, so entry (R, l) of the packed array is entry (8R + l / 16, l mod 16) of
  the input and entry (r, d) of the input is entry (r / 8, 16 · (r mod 8) + d) of the packed array. Hence the two arrays
  have the same infimum and the same supremum over all their entries.
-/
import proofs.«147168_j38843684225834_2_alg».proof.Proof.KI.GlueA

set_option maxRecDepth 65536

noncomputable section

namespace Cert.KernelIdeal.GlueA

open Cert.KernelIdeal Cert.KernelIdeal.Gen Idealize.ShloMosaic.StableHlo Cert.KernelIdeal.GenP Idealize.ShloMosaic Idealize.ShloMosaic.TcCoe Idealize.ShloMosaic.ValueIdx Idealize.SL.Sem

variable (m : (ℓ : Loc nD τ sig) → Buf (Elt Ideal) ℓ) (c : Dev nD)

/-- The packed input, as region 0 finds it. -/
abbrev XP : (⟨S131072x128, .f32⟩ : BufTy).Contents (Elt Ideal) := GenP.V1 m c main_v0

/-- The packed input as a whole array: the input's entries in the same row-major order. -/
theorem v0_buf : XP m c = shapeCast S131072x128 (X0 m c) shapeCasts_S1048576x16_S131072x128 := by
  dsimp only [XP, GenP.V1, GenP.V0, hostOps0]; after_results; rfl

/-- Packed row R holds input rows 8R … 8R + 7, sixteen entries each. -/
theorem xr1_at (R : Fin 131072) (a : Fin 8) (d : Fin 16) :
    XP m c (ix2 R (⟨16 * a.val + d.val, by omega⟩ : Fin 128)) = X0 m c (ix2 (⟨8 * R.val + a.val, by omega⟩ : Fin 1048576) d) := by
  rw [v0_buf]
  exact shapeCast_apply _ _ _ _ (by
    rw [Shape.rowMajor_val_two, Shape.rowMajor_val_two]
    show (8 * R.val + a.val) * 16 + d.val = R.val * 128 + (16 * a.val + d.val)
    omega)

/-- Every packed entry is an input entry. -/
theorem xr1_col (R : Fin 131072) (l : Fin 128) :
    XP m c (ix2 R l) = X0 m c (ix2 (⟨8 * R.val + l.val / 16, by omega⟩ : Fin 1048576) (⟨l.val % 16, by omega⟩ : Fin 16)) := by
  rw [v0_buf]
  exact shapeCast_apply _ _ _ _ (by
    rw [Shape.rowMajor_val_two, Shape.rowMajor_val_two]
    show (8 * R.val + l.val / 16) * 16 + l.val % 16 = R.val * 128 + l.val
    omega)

/-- Every input entry is a packed entry. -/
theorem xr1_row (r : Fin 1048576) (d : Fin 16) :
    XP m c (ix2 (⟨r.val / 8, by omega⟩ : Fin 131072) (⟨16 * (r.val % 8) + d.val, by omega⟩ : Fin 128)) = X0 m c (ix2 r d) := by
  rw [v0_buf]
  exact shapeCast_apply _ _ _ _ (by
    rw [Shape.rowMajor_val_two, Shape.rowMajor_val_two]
    show r.val * 16 + d.val = r.val / 8 * 128 + (16 * (r.val % 8) + d.val)
    omega)

/-- The packed array and the input have the same entries, so the same infimum. -/
theorem iInf_packed :
    (⨅ i : S131072x128.Idx, XP m c i) = ⨅ j : S1048576x16.Idx, X0 m c j := by
  apply le_antisymm
  · refine le_iInf fun j => ?_
    obtain ⟨r, d, rfl⟩ : ∃ (r : Fin 1048576) (d : Fin 16), j = ix2 r d := ⟨j 0, j 1, eq_ix2 j⟩
    rw [← xr1_row m c r d]
    exact iInf_le _ _
  · refine le_iInf fun i => ?_
    obtain ⟨R, l, rfl⟩ : ∃ (R : Fin 131072) (l : Fin 128), i = ix2 R l := ⟨i 0, i 1, eq_ix2 i⟩
    rw [xr1_col m c R l]
    exact iInf_le _ _

/-- … and the same supremum. -/
theorem iSup_packed :
    (⨆ i : S131072x128.Idx, XP m c i) = ⨆ j : S1048576x16.Idx, X0 m c j := by
  apply le_antisymm
  · refine iSup_le fun i => ?_
    obtain ⟨R, l, rfl⟩ : ∃ (R : Fin 131072) (l : Fin 128), i = ix2 R l := ⟨i 0, i 1, eq_ix2 i⟩
    rw [xr1_col m c R l]
    exact le_iSup (fun j : S1048576x16.Idx => X0 m c j) _
  · refine iSup_le fun j => ?_
    obtain ⟨r, d, rfl⟩ : ∃ (r : Fin 1048576) (d : Fin 16), j = ix2 r d := ⟨j 0, j 1, eq_ix2 j⟩
    rw [← xr1_row m c r d]
    exact le_iSup (fun i : S131072x128.Idx => XP m c i) _

end Cert.KernelIdeal.GlueA

end
-- ==== Proof.KI.ScaleEq.lean ====
/-
  The activation scale the kernel program computes is the reference's. Region 0 leaves, in its two one-element output
  arrays, the infimum and the supremum of the packed input; the packed input has the same entries as the input, so
  these are the input's infimum and supremum, which are what the reference's two global reduces compute; the scale is
  the same expression of the two on both sides.
-/
import proofs.«147168_j38843684225834_2_alg».proof.Proof.KI.Run
import proofs.«147168_j38843684225834_2_alg».proof.Proof.KI.GlueA
import proofs.«147168_j38843684225834_2_alg».proof.Proof.RefScales
import proofs.«147168_j38843684225834_2_alg».proof.Proof.KI.Region0Val
import proofs.«147168_j38843684225834_2_alg».proof.Proof.KI.PackedExt

set_option maxRecDepth 65536

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg)

variable (m : (ℓ : Loc nD τ sig) → Buf (Elt Ideal) ℓ) (c : Dev nD)

/-- After region 0 the first output array holds what its write-backs leave. -/
theorem outsA_v1_0 : outsA m 2 main_v1_0 c = (dat0 (VR1 m) c).arrAt 1 cfg0.N := by
  show W2 m c main_v1_0 = _
  unfold W2
  rw [Function.update_of_ne (by decide), Function.update_self]

/-- After region 0 the second output array holds what its write-backs leave. -/
theorem outsA_v1_1 : outsA m 2 main_v1_1 c = (dat0 (VR1 m) c).arrAt 2 cfg0.N := by
  show W2 m c main_v1_1 = _
  unfold W2
  rw [Function.update_self]

/-- The kernel program's activation scale is the reference's. -/
theorem sK_is_s :
    Cert.KernelIdeal.GlueA.sK m (outsA m) c
      = Cert.ReferenceIdeal.Read.val_main_v6 (F := Ideal) (Cert.KernelIdeal.GlueA.X0 m c) (fun a => a.elim0) := by
  refine Cert.KernelIdeal.GlueA.sK_eq m (outsA m) c ?_ ?_
  · rw [outsA_v1_0, gmin_out (VR1 m) c, Cert.RefScales.gmin_eq]
    exact Cert.KernelIdeal.GlueA.iInf_packed m c
  · rw [outsA_v1_1, gmax_out (VR1 m) c, Cert.RefScales.gmax_eq]
    exact Cert.KernelIdeal.GlueA.iSup_packed m c

end Cert.KernelIdeal.Hand

end
-- ==== Proof.lean ====
/-
  The certificate of the packed four-layer quantized network against its reference.

  The kernel's program packs eight consecutive input rows into one row of 128 lanes, finds the global minimum and
  maximum of the input in a first pass over sixteen row blocks (region 0), computes the activation scale and each
  layer's quantized weights, bias and bias scale on the host, repacks the weights block-diagonally so that one
  product serves all eight packed rows, runs the four layers over 128 row blocks (region 1), and unpacks the result.
  At the ideal instance both programs send each input row through the same four quantized layers: the packed,
  block-diagonal products only add zeros, the two passes over the input find the same minimum and maximum, and under
  the precondition (every argument entry a real number) the reference's straight-through round is the round and its
  "times the scale, divided by the scale" is the identity.
  The frames of the two kernel programs follow from each region's record (the body's run per control case, the
  invariant carrying the two scratch cells, the arrays put back at the exit); the reference's frame is its run with
  the result dropped; the ideal pass rewrote nothing.
-/
import proofs.«147168_j38843684225834_2_alg».proof.Defs
import proofs.«147168_j38843684225834_2_alg».proof.Proof.Gen.Kernel
import proofs.«147168_j38843684225834_2_alg».proof.Proof.Gen.KernelIdeal
import proofs.«147168_j38843684225834_2_alg».proof.Proof.Gen.ReferenceIdeal
import proofs.«147168_j38843684225834_2_alg».proof.Proof.Gen.Pre_finite_inputs
import proofs.«147168_j38843684225834_2_alg».proof.Proof.Gen.ReferenceIdeal.Run
import proofs.«147168_j38843684225834_2_alg».proof.Proof.Gen.ReferenceIdeal.Read
import proofs.«147168_j38843684225834_2_alg».proof.Proof.K.Run
import proofs.«147168_j38843684225834_2_alg».proof.Proof.KI.Run
import proofs.«147168_j38843684225834_2_alg».proof.Proof.KI.RunAll
import proofs.«147168_j38843684225834_2_alg».proof.Proof.KI.Final
import proofs.«147168_j38843684225834_2_alg».proof.Proof.KI.GlueD
import proofs.«147168_j38843684225834_2_alg».proof.Proof.KI.GlueC
import proofs.«147168_j38843684225834_2_alg».proof.Proof.KI.ScaleEq
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- At the ideal instance the kernel program's result buffer ends at the final reshape of region 1's output array (the
    value run), the reference's at its operations' composed term (its generated run), and the two are one function of
    the arguments on every core. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.resK m c, ?_, ?_⟩
  · refine (θ_run (Cert.KernelIdeal.defs (F := Ideal)) _ _).mono (fun r h c => ?_) (Cert.KernelIdeal.Hand.run_all (F := Ideal) m ρ)
    have hu := h c
    exact ⟨hu _ (Cert.KernelIdeal.Hand.mem_uc Cert.KernelIdeal.main_v153 (by decide)),
        (hu _ (Cert.KernelIdeal.Hand.mem_uc Cert.KernelIdeal.main_arg0 (by decide))).trans (Cert.KernelIdeal.GenP.V45_main_arg0 m (Cert.KernelIdeal.Hand.outs m) c),
        (hu _ (Cert.KernelIdeal.Hand.mem_uc Cert.KernelIdeal.main_arg1 (by decide))).trans (Cert.KernelIdeal.GenP.V45_main_arg1 m (Cert.KernelIdeal.Hand.outs m) c),
        (hu _ (Cert.KernelIdeal.Hand.mem_uc Cert.KernelIdeal.main_arg2 (by decide))).trans (Cert.KernelIdeal.GenP.V45_main_arg2 m (Cert.KernelIdeal.Hand.outs m) c),
        (hu _ (Cert.KernelIdeal.Hand.mem_uc Cert.KernelIdeal.main_arg3 (by decide))).trans (Cert.KernelIdeal.GenP.V45_main_arg3 m (Cert.KernelIdeal.Hand.outs m) c),
        (hu _ (Cert.KernelIdeal.Hand.mem_uc Cert.KernelIdeal.main_arg4 (by decide))).trans (Cert.KernelIdeal.GenP.V45_main_arg4 m (Cert.KernelIdeal.Hand.outs m) c),
        (hu _ (Cert.KernelIdeal.Hand.mem_uc Cert.KernelIdeal.main_arg5 (by decide))).trans (Cert.KernelIdeal.GenP.V45_main_arg5 m (Cert.KernelIdeal.Hand.outs m) c),
        (hu _ (Cert.KernelIdeal.Hand.mem_uc Cert.KernelIdeal.main_arg6 (by decide))).trans (Cert.KernelIdeal.GenP.V45_main_arg6 m (Cert.KernelIdeal.Hand.outs m) c),
        (hu _ (Cert.KernelIdeal.Hand.mem_uc Cert.KernelIdeal.main_arg7 (by decide))).trans (Cert.KernelIdeal.GenP.V45_main_arg7 m (Cert.KernelIdeal.Hand.outs m) c),
        (hu _ (Cert.KernelIdeal.Hand.mem_uc Cert.KernelIdeal.main_arg8 (by decide))).trans (Cert.KernelIdeal.GenP.V45_main_arg8 m (Cert.KernelIdeal.Hand.outs m) c)⟩
  · refine (θ_run (Cert.ReferenceIdeal.defs (F := Ideal)) _ _).mono (fun r h c => ⟨(h c).1.trans ?_, (h c).2⟩)
      (Cert.ReferenceIdeal.Value.run (F := Ideal) m' ρ')
    rw [Cert.ReferenceIdeal.Read.val_main_v146_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    exact (Cert.KernelIdeal.Hand.result_eq m c (hpre c) (Cert.KernelIdeal.Hand.sK_is_s m c)
      (fun a' a k o => Cert.KernelIdeal.GlueD.w4_at m (Cert.KernelIdeal.Hand.outsA m) c a' a k o)
      (fun a o => Cert.KernelIdeal.GlueD.b4_at m (Cert.KernelIdeal.Hand.outsA m) c a o)
      (fun a o => Cert.KernelIdeal.GlueD.bsf4_at m (Cert.KernelIdeal.Hand.outsA m) c a o)
      (fun a' a k o => Cert.KernelIdeal.GlueC.w6_at m (Cert.KernelIdeal.Hand.outsA m) c a' a k o)
      (fun a o => Cert.KernelIdeal.GlueC.b6_at m (Cert.KernelIdeal.Hand.outsA m) c a o)
      (fun a o => Cert.KernelIdeal.GlueC.bsf6_at m (Cert.KernelIdeal.Hand.outsA m) c a o)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
